-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x64 : Shape := ⟨2, ![1024, 64]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  main_v18

def fn {F : FTy → Type} [FloatOps F] (main_arg0 : FVec F S4x4096x1024 .f32) (main_arg1 : FVec F S1024x64 .f32) (main_arg2 : FVec F S1024x64 .f32) (main_arg3 : FVec F S1024x64 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_v13 main_v16
-- ==== Kernel.lean ====
abbrev S4x4096x1024 : Shape := ⟨3, ![4, 4096, 1024]⟩
abbrev S1024x64 : Shape := ⟨2, ![1024, 64]⟩
abbrev S20 : Shape := ⟨1, ![20]⟩
abbrev S16384x1024 : Shape := ⟨2, ![16384, 1024]⟩
abbrev S16384x64 : Shape := ⟨2, ![16384, 64]⟩
abbrev S2048x1024 : Shape := ⟨2, ![2048, 1024]⟩
abbrev S2048x64 : Shape := ⟨2, ![2048, 64]⟩
abbrev S4x4096x64 : Shape := ⟨3, ![4, 4096, 64]⟩
abbrev S1x1024x64 : Shape := ⟨3, ![1, 1024, 64]⟩
abbrev S1 : Shape := ⟨1, ![1]⟩
abbrev S1x512x64 : Shape := ⟨3, ![1, 512, 64]⟩
abbrev S1024x1 : Shape := ⟨2, ![1024, 1]⟩
abbrev S512x64 : Shape := ⟨2, ![512, 64]⟩
abbrev S64x512 : Shape := ⟨2, ![64, 512]⟩
abbrev S1024x512 : Shape := ⟨2, ![1024, 512]⟩
abbrev S1024 : Shape := ⟨1, ![1024]⟩

abbrev nBuf : Space → Nat
  | .hbm => 12
  | .vmem => 22
  | .smem => 4
  | _ => 0

abbrev bufTy : (tb : Table) → Fin (tcTables nBuf tb) → BufTy
  | .hbm, ⟨0, _⟩ => ⟨S4x4096x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S16384x1024, .f32⟩
  | .hbm, ⟨5, _⟩ => ⟨S16384x64, .bf16⟩
  | .hbm, ⟨6, _⟩ => ⟨S16384x64, .bf16⟩
  | .hbm, ⟨7, _⟩ => ⟨S16384x64, .bf16⟩
  | .hbm, ⟨8, _⟩ => ⟨S4x4096x64, .bf16⟩
  | .hbm, ⟨9, _⟩ => ⟨S4x4096x64, .bf16⟩
  | .hbm, ⟨10, _⟩ => ⟨S4x4096x64, .bf16⟩
  | .hbm, ⟨11, _⟩ => ⟨S4x4096x64, .f32⟩
  | .local _ .vmem, ⟨0, _⟩ => ⟨S2048x1024, .f32⟩
  | .local _ .vmem, ⟨1, _⟩ => ⟨S2048x1024, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S2048x64, .bf16⟩
  | .local _ .vmem, ⟨6, _⟩ => ⟨S2048x64, .bf16⟩
  | .local _ .vmem, ⟨7, _⟩ => ⟨S2048x64, .bf16⟩
  | .local _ .vmem, ⟨8, _⟩ => ⟨S2048x64, .bf16⟩
  | .local _ .vmem, ⟨9, _⟩ => ⟨S2048x64, .bf16⟩
  | .local _ .vmem, ⟨10, _⟩ => ⟨S2048x64, .bf16⟩
  | .local _ .vmem, ⟨11, _⟩ => ⟨S1x1024x64, .bf16⟩
  | .local _ .vmem, ⟨12, _⟩ => ⟨S1x1024x64, .bf16⟩
  | .local _ .vmem, ⟨13, _⟩ => ⟨S1x512x64, .bf16⟩
  | .local _ .vmem, ⟨14, _⟩ => ⟨S1x512x64, .bf16⟩
  | .local _ .vmem, ⟨15, _⟩ => ⟨S1x512x64, .bf16⟩
  | .local _ .vmem, ⟨16, _⟩ => ⟨S1x512x64, .bf16⟩
  | .local _ .vmem, ⟨17, _⟩ => ⟨S1x1024x64, .f32⟩
  | .local _ .vmem, ⟨18, _⟩ => ⟨S1x1024x64, .f32⟩
  | .local _ .vmem, ⟨19, _⟩ => ⟨S1024x1, .f32⟩
  | .local _ .vmem, ⟨20, _⟩ => ⟨S1024x1, .f32⟩
  | .local _ .vmem, ⟨21, _⟩ => ⟨S1024x64, .f32⟩
  | .local _ .smem, ⟨0, _⟩ => ⟨S20, .i32⟩
  | .local _ .smem, ⟨1, _⟩ => ⟨S20, .i32⟩
  | .local _ .smem, ⟨2, _⟩ => ⟨S20, .i32⟩
  | .local _ .smem, ⟨3, _⟩ => ⟨S20, .i32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.smem, 0, rfl⟩
abbrev main_c_0 : Ref sig .tc := ⟨.smem, 1, rfl⟩
abbrev main_c_1 : Ref sig .tc := ⟨.smem, 2, rfl⟩
abbrev main_c_2 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![4, 20], ![false, false]⟩

abbrev pre1 : Pipeline.Prefetch sig := ⟨4, ![main_c.idx, main_c_0.idx, main_c_1.idx, main_c_2.idx], fun | 0 => main_c.names | 1 => main_c_0.names | 2 => main_c_1.names | 3 => main_c_2.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k1_off1 (i : grid1.Coords) : Fin 1 → Nat :=
  let arg1 : BitVec 32 := BitVec.ofNat 32 (i 1).val
  let v0 : Index := Scalar.indexCast arg1
  ![v0.toNat]
def k1_cond4 (v6 : BitVec 32) : BitVec 1 :=
  let c1_i32 : BitVec 32 := 1#32
  let v7 : BitVec 1 := Scalar.cmpi .eq v6 c1_i32
  let v28 : BitVec 32 := Scalar.extui v7
  let c0_i32_13 : BitVec 32 := 0#32
  let v29 : BitVec 1 := Scalar.cmpi .ne v28 c0_i32_13
  v29

def cc1_transform_0 (k1_off1_inb : ∀ i : grid1.Coords, ∀ a, (k1_off1 i) a + S1.size a ≤ S20.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S20) ![v0.toNat] S1.size (k1_off1_inb i)) numel1_S1
  let c0_i32 : BitVec 32 := 0#32
  let c0_i32_0 : BitVec 32 := 0#32
  ![arg0.toNat, v1.toNat, c0_i32.toNat]

def cc1_transform_1 (k1_off1_inb : ∀ i : grid1.Coords, ∀ a, (k1_off1 i) a + S1.size a ≤ S20.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S20) ![v0.toNat] S1.size (k1_off1_inb i)) numel1_S1
  let c0_i32 : BitVec 32 := 0#32
  let c0_i32_0 : BitVec 32 := 0#32
  ![arg0.toNat, v1.toNat, c0_i32.toNat]

def cc1_transform_2 (k1_off1_inb : ∀ i : grid1.Coords, ∀ a, (k1_off1 i) a + S1.size a ≤ S20.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S20) ![v0.toNat] S1.size (k1_off1_inb i)) numel1_S1
  let c0_i32 : BitVec 32 := 0#32
  let c0_i32_0 : BitVec 32 := 0#32
  ![arg0.toNat, v1.toNat, c0_i32.toNat]

def cc1_transform_3 (k1_off1_inb : ∀ i : grid1.Coords, ∀ a, (k1_off1 i) a + S1.size a ≤ S20.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S20) ![v0.toNat] S1.size (k1_off1_inb i)) numel1_S1
  let c0_i32 : BitVec 32 := 0#32
  let c0_i32_0 : BitVec 32 := 0#32
  ![arg0.toNat, v1.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S4x4096x1024_S16384x1024 : S4x4096x1024.ShapeCasts S16384x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S2048x64_S2048x64_0_0 : ∀ a, (![0, 0] : Fin 2 → Nat) a + S2048x64.size a ≤ S2048x64.size a
  h_S2048x64 : 0 < S2048x64.numel
  packedbf16_S2048x64_S2048x64_0_0 : (Rect.unit (s := S2048x64) ![0, 0] S2048x64.size inb_S2048x64_S2048x64_0_0).PackedRows (EltTy.packing .bf16)
  shapeCasts_S16384x64_S4x4096x64 : S16384x64.ShapeCasts S4x4096x64
  numel1_S1 : S1.numel = 1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x64_S1024x64 : S1024x64.ShapeCasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  transposes_S512x64_p1_0_S64x512 : S512x64.Transposes [1, 0] S64x512
  iota_S1024x512_d0_w32 : S1024x512.Iotas .tc 32 [0]
  iota_S1024x512_d1_w32 : S1024x512.Iotas .tc 32 [1]
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x64 : S1024x1.Broadcasts S1024x64
  shapeCasts_S1024x64_S1x1024x64 : S1024x64.ShapeCasts S1x1024x64
  dot_S2048x1024_S1024x64_S2048x64_1_0_0_1_n_n_wf : DotDims.WF S2048x1024 S1024x64 S2048x64 [1] [0] [0] [1] [] []
  dot_S1024x64_S64x512_S1024x512_1_0_0_1_n_n_wf : DotDims.WF S1024x64 S64x512 S1024x512 [1] [0] [0] [1] [] []
  dot_S1024x512_S512x64_S1024x64_1_0_0_1_n_n_wf : DotDims.WF S1024x512 S512x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .f32 = 32 ∨ (Rect.block (s := S16384x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S1024x64.size a
  hwx0_2 : ∀ i : grid0.Coords, EltTy.bits .f32 = 32 ∨ (Rect.block (s := S1024x64) S1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .f32 = 32 ∨ (Rect.block (s := S1024x64) S1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x64.size a ≤ S16384x64.size a
  hwx0_4 : ∀ i : grid0.Coords, EltTy.bits .bf16 = 32 ∨ (Rect.block (s := S16384x64) S2048x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x64.size a ≤ S16384x64.size a
  hwx0_5 : ∀ i : grid0.Coords, EltTy.bits .bf16 = 32 ∨ (Rect.block (s := S16384x64) S2048x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x64.size a ≤ S16384x64.size a
  hwx0_6 : ∀ i : grid0.Coords, EltTy.bits .bf16 = 32 ∨ (Rect.block (s := S16384x64) S2048x64.size (cc0_transform_6 i) (hinb0_6 i)).WholeWords (EltTy.packing .bf16)
  hrank1 : 0 < grid1.rank
  k1_off1_inb : ∀ i : grid1.Coords, ∀ a, (k1_off1 i) a + S1.size a ≤ S20.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 false = 2
  hreads1_2 : ∀ {F : FTy → Type} [FloatOps F] (pf : pre1.Contents (Elt F)) (i i' : grid1.Coords), (∀ a, reads1_2 a = true → i a = i' a) → cc1_transform_2 k1_off1_inb numel1_S1 pf i = cc1_transform_2 k1_off1_inb numel1_S1 pf i'
  hstage1_3 : ∀ j, (stage1_3 j).IsWhole
  nbuf1_3 : grid1.bufCount reads1_3 false = 2
  hreads1_3 : ∀ {F : FTy → Type} [FloatOps F] (pf : pre1.Contents (Elt F)) (i i' : grid1.Coords), (∀ a, reads1_3 a = true → i a = i' a) → cc1_transform_3 k1_off1_inb numel1_S1 pf i = cc1_transform_3 k1_off1_inb numel1_S1 pf i'

variable [Facts₀]

def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S1024x64_S64x512_S1024x512_1_0_0_1_n_n : DotDims S1024x64 S64x512 S1024x512 where
  lhsContracting := [1]
  rhsContracting := [0]
  lhsNonContracting := [0]
  rhsNonContracting := [1]
  lhsBatch := []
  rhsBatch := []
  wf := dot_S1024x64_S64x512_S1024x512_1_0_0_1_n_n_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S2048x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S2048x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_2) S2048x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev spec1_0 : Pipeline.WinSpec sig grid1.rank :=
  Pipeline.WinSpec.ofSpec (Memref.whole main_v2) S1x1024x64.size reads1_0 false false 2 stage1_0 sem1_0 nbuf1_0 hstage1_0

abbrev spec1_1 : Pipeline.WinSpec sig grid1.rank :=
  Pipeline.WinSpec.ofSpec (Memref.whole main_v3) S1x512x64.size reads1_1 false false 2 stage1_1 sem1_1 nbuf1_1 hstage1_1

abbrev spec1_2 : Pipeline.WinSpec sig grid1.rank :=
  Pipeline.WinSpec.ofSpec (Memref.whole main_v4) S1x512x64.size reads1_2 false false 2 stage1_2 sem1_2 nbuf1_2 hstage1_2

abbrev spec1_3 : Pipeline.WinSpec sig grid1.rank :=
  Pipeline.WinSpec.ofSpec (Memref.whole main_v5) S1x1024x64.size reads1_3 true false 2 stage1_3 sem1_3 nbuf1_3 hstage1_3

abbrev spec1 : Fin 4 → Pipeline.WinSpec sig grid1.rank := fun | 0 => spec1_0 | 1 => spec1_1 | 2 => spec1_2 | 3 => spec1_3 | ⟨_ + 4, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | ⟨_ + 4, h⟩ => absurd h (Nat.not_lt.2 (Nat.le_add_left _ _))
abbrev ix1 (pf : pre1.Contents (Elt F)) : (w : Fin 4) → grid1.Coords → Fin (spec1 w).shape.rank → Nat := fun | 0 => cc1_transform_0 k1_off1_inb numel1_S1 pf | 1 => cc1_transform_1 k1_off1_inb numel1_S1 pf | 2 => cc1_transform_2 k1_off1_inb numel1_S1 pf | 3 => cc1_transform_3 k1_off1_inb numel1_S1 pf | ⟨_ + 4, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 pf | 3 => hreads1_3 pf | ⟨_ + 4, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x1024x64.size a ≤ S4x4096x64.size a), EltTy.bits .bf16 = 32 ∨ (Rect.block (s := S4x4096x64) S1x1024x64.size (cc1_transform_0 k1_off1_inb numel1_S1 pf i) h).WholeWords (EltTy.packing .bf16)) ∧
  (∀ i : grid1.Coords, ∃ h : (∀ a, (cc1_transform_1 k1_off1_inb numel1_S1 pf i a + 1) * S1x512x64.size a ≤ S4x4096x64.size a), EltTy.bits .bf16 = 32 ∨ (Rect.block (s := S4x4096x64) S1x512x64.size (cc1_transform_1 k1_off1_inb numel1_S1 pf i) h).WholeWords (EltTy.packing .bf16)) ∧
  (∀ i : grid1.Coords, ∃ h : (∀ a, (cc1_transform_2 k1_off1_inb numel1_S1 pf i a + 1) * S1x512x64.size a ≤ S4x4096x64.size a), EltTy.bits .bf16 = 32 ∨ (Rect.block (s := S4x4096x64) S1x512x64.size (cc1_transform_2 k1_off1_inb numel1_S1 pf i) h).WholeWords (EltTy.packing .bf16)) ∧
  (∀ i : grid1.Coords, ∃ h : (∀ a, (cc1_transform_3 k1_off1_inb numel1_S1 pf i a + 1) * S1x1024x64.size a ≤ S4x4096x64.size a), EltTy.bits .f32 = 32 ∨ (Rect.block (s := S4x4096x64) S1x1024x64.size (cc1_transform_3 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))
abbrev idle1 (pf : pre1.Contents (Elt F)) : Fin 4 → grid1.Coords → Bool := fun | 0 => fun _ => false | 1 => fun _ => false | 2 => fun _ => false | 3 => fun i => !(k1_cond4 (pf.atD 2 (k1_off1 i)) == 1#1) | ⟨_ + 4, h⟩ => absurd h (Nat.not_lt.2 (Nat.le_add_left _ _))

class Facts : Prop extends Facts₀ where
  harr1 : ∀ w, (spec1 w).arr.IsWhole

variable [Facts]
-- ==== ReferenceIdeal.lean ====
abbrev S4x4096x1024 : Shape := ⟨3, ![4, 4096, 1024]⟩
abbrev S1024x64 : Shape := ⟨2, ![1024, 64]⟩
abbrev S4x4096x64 : Shape := ⟨3, ![4, 4096, 64]⟩
abbrev S_ : Shape := ⟨0, ![]⟩
abbrev S4x4096x4096 : Shape := ⟨3, ![4, 4096, 4096]⟩
abbrev S4096x4096 : Shape := ⟨2, ![4096, 4096]⟩
abbrev S4x4096 : Shape := ⟨2, ![4, 4096]⟩
abbrev S4x4096x1 : Shape := ⟨3, ![4, 4096, 1]⟩

abbrev nBuf : Space → Nat
  | .hbm => 45
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S4x4096x64, .f32⟩
  | .hbm, ⟨5, _⟩ => ⟨S4x4096x64, .f32⟩
  | .hbm, ⟨6, _⟩ => ⟨S4x4096x64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .i1⟩
  | .hbm, ⟨15, _⟩ => ⟨S4096x4096, .i1⟩
  | .hbm, ⟨16, _⟩ => ⟨S4096x4096, .i32⟩
  | .hbm, ⟨17, _⟩ => ⟨S_, .i32⟩
  | .hbm, ⟨18, _⟩ => ⟨S4096x4096, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S_, .i1⟩
  | .hbm, ⟨23, _⟩ => ⟨S4096x4096, .i1⟩
  | .hbm, ⟨24, _⟩ => ⟨S4096x4096, .i1⟩
  | .hbm, ⟨25, _⟩ => ⟨S_, .f32⟩
  | .hbm, ⟨26, _⟩ => ⟨S_, .f32⟩
  | .hbm, ⟨27, _⟩ => ⟨S4x4096x4096, .i1⟩
  | .hbm, ⟨28, _⟩ => ⟨S4x4096x4096, .f32⟩
  | .hbm, ⟨29, _⟩ => ⟨S4x4096x4096, .f32⟩
  | .hbm, ⟨30, _⟩ => ⟨S_, .f32⟩
  | .hbm, ⟨31, _⟩ => ⟨S4x4096, .f32⟩
  | .hbm, ⟨32, _⟩ => ⟨S_, .f32⟩
  | .hbm, ⟨33, _⟩ => ⟨S4x4096, .f32⟩
  | .hbm, ⟨34, _⟩ => ⟨S4x4096, .f32⟩
  | .hbm, ⟨35, _⟩ => ⟨S4x4096x1, .f32⟩
  | .hbm, ⟨36, _⟩ => ⟨S4x4096x4096, .f32⟩
  | .hbm, ⟨37, _⟩ => ⟨S4x4096x4096, .f32⟩
  | .hbm, ⟨38, _⟩ => ⟨S4x4096x4096, .f32⟩
  | .hbm, ⟨39, _⟩ => ⟨S_, .f32⟩
  | .hbm, ⟨40, _⟩ => ⟨S4x4096, .f32⟩
  | .hbm, ⟨41, _⟩ => ⟨S4x4096x1, .f32⟩
  | .hbm, ⟨42, _⟩ => ⟨S4x4096x4096, .f32⟩
  | .hbm, ⟨43, _⟩ => ⟨S4x4096x4096, .f32⟩
  | .hbm, ⟨44, _⟩ => ⟨S4x4096x64, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_0 : Ref sig .tc := ⟨.hbm, 22, rfl⟩
abbrev main_call0_v5 : Ref sig .tc := ⟨.hbm, 23, rfl⟩
abbrev main_v9 : Ref sig .tc := ⟨.hbm, 24, rfl⟩
abbrev main_cst_1 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_cst_3 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  bcast_S_S4096x4096 : S_.BroadcastsInDim S4096x4096 (![] : Fin 0 → Fin S4096x4096.rank)
  bcast_S4096x4096_S4x4096x4096_1_2 : S4096x4096.BroadcastsInDim S4x4096x4096 (![1, 2] : Fin 2 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S1024x64_S4x4096x64_2_0_01_1_n_n_wf : DotDims.WF S4x4096x1024 S1024x64 S4x4096x64 [2] [0] [0, 1] [1] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x1024_S1024x64_S4x4096x64_2_0_01_1_n_n : DotDims S4x4096x1024 S1024x64 S4x4096x64 where
  lhsContracting := [2]
  rhsContracting := [0]
  lhsNonContracting := [0, 1]
  rhsNonContracting := [1]
  lhsBatch := []
  rhsBatch := []
  wf := dot_S4x4096x1024_S1024x64_S4x4096x64_2_0_01_1_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.Reg0.lean ====
import proofs.«175909_j62251255988572_2_alg».proof.Proof.Gen.KernelIdeal.Launch
import proofs.«175909_j62251255988572_2_alg».proof.Proof.Gen.KernelIdeal.Skeleton
import proofs.«175909_j62251255988572_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The projection kernel's region

The first kernel of the program computes, row tile by row tile, the three projections
q = x · Wq, k = x · Wk, v = x · Wv of the flattened input x (16384 rows of 1024). Its grid has
8 points; point t handles rows 2048·t … 2048·t + 2047. Each point reads one row tile of x and the
three whole weight matrices, and stores one row tile of each projection.

What the body leaves in an output tile is a closed function of the four input blocks at that
point (one store per output, covering the tile), and an input tile holds its block whether or not
it was transferred at that point (the weights' block index never moves, so they are transferred
once). Everything is stated at a parameter V, the contents of the buffers when the region is
entered.
-/

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Regions

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row tile of x is in its buffer at every point: when it was not transferred at the point,
    its block index has not moved since the previous one, and the body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The first weight matrix likewise: its block is the whole matrix at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The second weight matrix. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The third weight matrix. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev rX0 : Rect S2048x1024 := Rect.unit (s := S2048x1024) ![0, 0] S2048x1024.size inb_S2048x1024_S2048x1024_0_0
abbrev rW0 : Rect S1024x64 := Rect.unit (s := S1024x64) ![0, 0] S1024x64.size inb_S1024x64_S1024x64_0_0
abbrev rO0 : Rect S2048x64 := Rect.unit (s := S2048x64) ![0, 0] S2048x64.size inb_S2048x64_S2048x64_0_0

/-! ## What the body leaves in each output tile -/

/-- The q tile after the body: its one store, of the product of the x tile with the first weight matrix. -/
def out0_4 (x0 : Vec F S2048x1024 .f32) (x1 x2 x3 : Vec F S1024x64 .f32) : Vec F S2048x64 .bf16 :=
  View.canon [⟨rO0, k0_pay2 (View.ld x0 rX0) (View.ld x1 rW0)⟩]

/-- The k tile after the body, from the second weight matrix. -/
def out0_5 (x0 : Vec F S2048x1024 .f32) (x1 x2 x3 : Vec F S1024x64 .f32) : Vec F S2048x64 .bf16 :=
  View.canon [⟨rO0, k0_pay3 (View.ld x0 rX0) (View.ld x2 rW0)⟩]

/-- The v tile after the body, from the third weight matrix. -/
def out0_6 (x0 : Vec F S2048x1024 .f32) (x1 x2 x3 : Vec F S1024x64 .f32) : Vec F S2048x64 .bf16 :=
  View.canon [⟨rO0, k0_pay4 (View.ld x0 rX0) (View.ld x3 rW0)⟩]

/-- One store of the whole tile covers it. -/
theorem cover0_O (p0 : Vec F S2048x64 .bf16) (y : S2048x64.Idx) :
    ∃ pc ∈ ([⟨rO0, p0⟩] : List (View.Piece (Elt F) S2048x64 .bf16)), y ∈ pc.1.set :=
  View.cover_of_tiled [⟨rO0, p0⟩] S2048x64.size (by rfl) y

/-! ## The body's triple -/

set_option maxHeartbeats 4000000 in
/-- The body on whole buffers, the four inputs' at contents x0 … x3 and the three outputs' at anything, runs to the
    continuation holding the inputs' as they were and each output's at its closed form. -/
theorem sound_kernel0 (c : Dev nD) (E : Set ℕ) (i : grid0.Coords)
    (arg1 : Memref sig .tc .vmem S2048x1024 .f32) (harg1 : arg1.IsWhole)
    (arg2 : Memref sig .tc .vmem S1024x64 .f32) (harg2 : arg2.IsWhole)
    (arg3 : Memref sig .tc .vmem S1024x64 .f32) (harg3 : arg3.IsWhole)
    (arg4 : Memref sig .tc .vmem S1024x64 .f32) (harg4 : arg4.IsWhole)
    (arg5 : Memref sig .tc .vmem S2048x64 .bf16) (harg5 : arg5.IsWhole)
    (arg6 : Memref sig .tc .vmem S2048x64 .bf16) (harg6 : arg6.IsWhole)
    (arg7 : Memref sig .tc .vmem S2048x64 .bf16) (harg7 : arg7.IsWhole)
    (x0 : Vec F S2048x1024 .f32) (x1 x2 x3 : Vec F S1024x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)
            ∗ owns (c : Thread nD τ) arg6 fullShare (out0_5 x0 x1 x2 x3)
            ∗ owns (c : Thread nD τ) arg7 fullShare (out0_6 x0 x1 x2 x3)) -∗ K ⟨⟩))
      ⊢ wp frame (wpE (defs₀ (F := F)) Variants.none c none) E
          (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_O _)
  isplitl [H5]
  · iexists _; isplitr
    swap; · iexact H5
    ipureintro
    exact View.read_writes_eq_canon _ _ _ (cover0_O _)
  iexists _; isplitr
  swap; · iexact H6
  ipureintro
  exact View.read_writes_eq_canon _ _ _ (cover0_O _)

/-! ## The region's proof data -/

/-- The proof data of the projection kernel on core c: the arrays as the region finds them; after the body at
    point t each input's buffer at its block and each output's at its closed form of the four input blocks;
    the invariant is the untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]

/-- Each input's buffer holds its block at every point, transferred there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the inputs' buffers hold their blocks, so the body's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Att

end
-- ==== Proof.Reg1Runs.lean ====
import proofs.«175909_j62251255988572_2_alg».proof.Proof.Gen.KernelIdeal.Launch
import proofs.«175909_j62251255988572_2_alg».proof.Proof.Gen.KernelIdeal.Skeleton
import proofs.«175909_j62251255988572_2_alg».proof.Proof.Gen.KernelIdeal.Points
import Idealize.ShloMosaic.Lib.Pipeline.FrameBody
import Idealize.ShloMosaic.Lib.Ring
import Idealize.ShloMosaic.Lib.Tactic

/-! What the per-case runs of the attention kernel's body share: the four prefetched tables as the body is
    handed them, the three scratch buffers it carries between grid points, the word each table load reads at a
    grid point, and the body's four branch conditions as propositions about those words. -/

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The four tables (query-block number, key-tile number, "last tile of its query block", "tile crosses the
    diagonal"), each a whole scalar-memory buffer of 20 words. -/
abbrev tbM1_0 : Memref sig .tc .smem S20 .i32 := Memref.whole main_c
abbrev htbM1_0 : tbM1_0.IsWhole := Memref.isWhole_whole _
abbrev tbM1_1 : Memref sig .tc .smem S20 .i32 := Memref.whole main_c_0
abbrev htbM1_1 : tbM1_1.IsWhole := Memref.isWhole_whole _
abbrev tbM1_2 : Memref sig .tc .smem S20 .i32 := Memref.whole main_c_1
abbrev htbM1_2 : tbM1_2.IsWhole := Memref.isWhole_whole _
abbrev tbM1_3 : Memref sig .tc .smem S20 .i32 := Memref.whole main_c_2
abbrev htbM1_3 : tbM1_3.IsWhole := Memref.isWhole_whole _

/-- A table's buffer on core `c`, and that buffer held read-only (half the full share) at contents `f`. -/
abbrev TbBuf1 (c : Dev nD) (M : Memref sig .tc .smem S20 .i32) : Type := Buf (Elt F) (M.view.loc (c : Thread nD τ))
abbrev tbPt1 (c : Dev nD) (M : Memref sig .tc .smem S20 .i32) (f : TbBuf1 (F := F) c M) : sProp 𝕄 :=
  M.view.loc (c : Thread nD τ) ↦{fullShare.right} f

/-- The word a table holds at the position the grid point's second coordinate names. -/
abbrev wd (c : Dev nD) (M : Memref sig .tc .smem S20 .i32) (f : TbBuf1 (F := F) c M) (i : grid1.Coords) : BitVec 32 :=
  M.view.readAt (Elt F) (Rect.unit (s := S20) (k1_off1 i) S1.size (k1_off1_inb i)).toLoadRect f (Shape.Idx.first (numel1_S1.symm ▸ Nat.one_pos))

/-- The running maximum, the running normaliser and the running weighted sum: whole scratch buffers. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x64 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x64 .f32 := scM1_2.view
/-- One staging buffer of the output window, through which its contents are stated. -/
abbrev VO1_3 : View sig .tc .vmem S1x1024x64 .f32 := (Memref.whole cc1_stg3_0 : Memref sig .tc .vmem S1x1024x64 .f32).view

/-- "This is the first key tile of its query block": the key-tile word is 0. -/
abbrev condF (w : BitVec 32) : Prop := Scalar.cmpi .ne (Scalar.extui (Scalar.cmpi .eq w 0#32)) 0#32 = 1#1
/-- "This tile crosses the diagonal": the mask word is 1. -/
abbrev condM (w : BitVec 32) : Prop := Scalar.cmpi .ne (Scalar.extui (Scalar.cmpi .eq w 1#32)) 0#32 = 1#1
/-- Its complement as the body computes it. -/
abbrev condN (w : BitVec 32) : Prop := Scalar.cmpi .ne (Scalar.extui (Scalar.xori (Scalar.cmpi .eq w 1#32) 1#1)) 0#32 = 1#1
/-- "This is the last key tile of its query block": the last-tile word is 1. -/
abbrev condL (w : BitVec 32) : Prop := k1_cond4 w = 1#1

end Cert.KernelIdeal.Att

end
-- ==== Proof.Reg1RunA.lean ====
import proofs.«175909_j62251255988572_2_alg».proof.Proof.Reg1Runs

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- The first key tile of query block 0: the scratch is reset, the tile crosses the diagonal, more tiles follow.
    The body's run on whole staging memrefs: the three input blocks at their contents, the tables read-only, the scratch at anything, the output's buffer handed back untouched; it ends holding the
    inputs as they were and each buffer it stored into with the stores' pieces written (last first), which the run
    itself finds. -/
noncomputable def kernelRun1_A (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : condF (wd c tbM1_1 xt1 i)) (hcM : condM (wd c tbM1_3 xt3 i)) (hcN : ¬condN (wd c tbM1_3 xt3 i)) (hcL : ¬condL (wd c tbM1_2 xt2 i)) :
    Σ' (LS0 : List (View.Piece (Elt F) S1024x1 .f32)) (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare xi3
            ∗ (∃ d, owns (c : Thread nD τ) arg10 fullShare d) ∗ (∃ d, owns (c : Thread nD τ) arg11 fullShare d) ∗ (∃ d, owns (c : Thread nD τ) arg12 fullShare d)
            ∗ tbPt1 c tbM1_0 xt0 ∗ tbPt1 c tbM1_1 xt1 ∗ tbPt1 c tbM1_2 xt2 ∗ tbPt1 c tbM1_3 xt3
            ∗ (iprop(owns (c : Thread nD τ) arg6 fullShare x0 ∗ owns (c : Thread nD τ) arg7 fullShare x1 ∗ owns (c : Thread nD τ) arg8 fullShare x2 ∗ owns (c : Thread nD τ) arg9 fullShare xi3
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)
                ∗ (∃ f, arg12.view.loc (c : Thread nD τ) ↦[arg12.view.set]{fullShare} arg12.view.writes (Elt F) f LS2)
                ∗ tbPt1 c tbM1_0 xt0 ∗ tbPt1 c tbM1_1 xt1 ∗ tbPt1 c tbM1_2 xt2 ∗ tbPt1 c tbM1_3 xt3) -∗ K ⟨⟩))
          ⊢ wp frame (wpE (defs₀ (F := F)) Variants.none c none) E (cc1__attn_kernel i tbM1_0 htbM1_0 tbM1_1 htbM1_1 tbM1_2 htbM1_2 tbM1_3 htbM1_3 arg6 harg6 arg7 harg7 arg8 harg8 arg9 harg9 arg10 harg10 arg11 harg11 arg12 harg12) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, HT0, HT1, HT2, HT3, Hk⟩
    obtain rfl := harg6.eq_unread hf0; obtain rfl := harg7.eq_unread hf1; obtain rfl := harg8.eq_unread hf2; obtain rfl := harg9.eq_unread hf3
    sl_exec (disch := first | sl_exact hcF | sl_exact hcM | sl_exact hcN | sl_exact hcL)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [HS0]; · iexists _; iexact HS0
    isplitl [HS1]; · iexists _; iexact HS1
    isplitl [HS2]; · iexists _; iexact HS2
    isplitl [HT0]; · iexact HT0
    isplitl [HT1]; · iexact HT1
    isplitl [HT2]; · iexact HT2
    iexact HT3

end Cert.KernelIdeal.Att

end
-- ==== Proof.Reg1RunB.lean ====
import proofs.«175909_j62251255988572_2_alg».proof.Proof.Reg1Runs

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- The last key tile of a query block: it crosses the diagonal, and the quotient is stored into the output block.
    The body's run on whole staging memrefs: the three input blocks at their contents, the tables read-only, the scratch at what the point before left, the output's buffer at anything; it ends holding the
    inputs as they were and each buffer it stored into with the stores' pieces written (last first), which the run
    itself finds. -/
noncomputable def kernelRun1_B (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : condM (wd c tbM1_3 xt3 i)) (hcN : ¬condN (wd c tbM1_3 xt3 i)) (hcL : condL (wd c tbM1_2 xt2 i)) (xs0 : Vec F S1024x1 .f32) (xs1 : Vec F S1024x1 .f32) (xs2 : Vec F S1024x64 .f32) :
    Σ' (L3 : List (View.Piece (Elt F) S1x1024x64 .f32)) (LS0 : List (View.Piece (Elt F) S1024x1 .f32)) (LS1 : List (View.Piece (Elt F) S1024x1 .f32)), { LS2 : List (View.Piece (Elt F) S1024x64 .f32) //
      ∀ (E : Set ℕ) (K : PUnit → sProp 𝕄),
        iprop(owns (c : Thread nD τ) arg6 fullShare x0 ∗ owns (c : Thread nD τ) arg7 fullShare x1 ∗ owns (c : Thread nD τ) arg8 fullShare x2 ∗ (∃ d, owns (c : Thread nD τ) arg9 fullShare d)
            ∗ owns (c : Thread nD τ) arg10 fullShare xs0 ∗ owns (c : Thread nD τ) arg11 fullShare xs1 ∗ owns (c : Thread nD τ) arg12 fullShare xs2
            ∗ tbPt1 c tbM1_0 xt0 ∗ tbPt1 c tbM1_1 xt1 ∗ tbPt1 c tbM1_2 xt2 ∗ tbPt1 c tbM1_3 xt3
            ∗ (iprop(owns (c : Thread nD τ) arg6 fullShare x0 ∗ owns (c : Thread nD τ) arg7 fullShare x1 ∗ owns (c : Thread nD τ) arg8 fullShare x2 ∗ (∃ f, arg9.view.loc (c : Thread nD τ) ↦[arg9.view.set]{fullShare} arg9.view.writes (Elt F) f L3)
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)
                ∗ (∃ f, arg12.view.loc (c : Thread nD τ) ↦[arg12.view.set]{fullShare} arg12.view.writes (Elt F) f LS2)
                ∗ tbPt1 c tbM1_0 xt0 ∗ tbPt1 c tbM1_1 xt1 ∗ tbPt1 c tbM1_2 xt2 ∗ tbPt1 c tbM1_3 xt3) -∗ K ⟨⟩))
          ⊢ wp frame (wpE (defs₀ (F := F)) Variants.none c none) E (cc1__attn_kernel i tbM1_0 htbM1_0 tbM1_1 htbM1_1 tbM1_2 htbM1_2 tbM1_3 htbM1_3 arg6 harg6 arg7 harg7 arg8 harg8 arg9 harg9 arg10 harg10 arg11 harg11 arg12 harg12) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, HT0, HT1, HT2, HT3, Hk⟩
    obtain rfl := harg6.eq_unread hf0; obtain rfl := harg7.eq_unread hf1; obtain rfl := harg8.eq_unread hf2
    obtain rfl := harg10.eq_unread hfs0; obtain rfl := harg11.eq_unread hfs1; obtain rfl := harg12.eq_unread hfs2
    sl_exec (disch := first | sl_exact hcF | sl_exact hcM | sl_exact hcN | sl_exact hcL)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]; · iexists _; iexact H3
    isplitl [HS0]; · iexists _; iexact HS0
    isplitl [HS1]; · iexists _; iexact HS1
    isplitl [HS2]; · iexists _; iexact HS2
    isplitl [HT0]; · iexact HT0
    isplitl [HT1]; · iexact HT1
    isplitl [HT2]; · iexact HT2
    iexact HT3

end Cert.KernelIdeal.Att

end
-- ==== Proof.Reg1RunC.lean ====
import proofs.«175909_j62251255988572_2_alg».proof.Proof.Reg1Runs

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- The first key tile of a later query block: the scratch is reset, the tile lies wholly below the diagonal.
    The body's run on whole staging memrefs: the three input blocks at their contents, the tables read-only, the scratch at anything, the output's buffer handed back untouched; it ends holding the
    inputs as they were and each buffer it stored into with the stores' pieces written (last first), which the run
    itself finds. -/
noncomputable def kernelRun1_C (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : condF (wd c tbM1_1 xt1 i)) (hcM : ¬condM (wd c tbM1_3 xt3 i)) (hcN : condN (wd c tbM1_3 xt3 i)) (hcL : ¬condL (wd c tbM1_2 xt2 i)) :
    Σ' (LS0 : List (View.Piece (Elt F) S1024x1 .f32)) (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare xi3
            ∗ (∃ d, owns (c : Thread nD τ) arg10 fullShare d) ∗ (∃ d, owns (c : Thread nD τ) arg11 fullShare d) ∗ (∃ d, owns (c : Thread nD τ) arg12 fullShare d)
            ∗ tbPt1 c tbM1_0 xt0 ∗ tbPt1 c tbM1_1 xt1 ∗ tbPt1 c tbM1_2 xt2 ∗ tbPt1 c tbM1_3 xt3
            ∗ (iprop(owns (c : Thread nD τ) arg6 fullShare x0 ∗ owns (c : Thread nD τ) arg7 fullShare x1 ∗ owns (c : Thread nD τ) arg8 fullShare x2 ∗ owns (c : Thread nD τ) arg9 fullShare xi3
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)
                ∗ (∃ f, arg12.view.loc (c : Thread nD τ) ↦[arg12.view.set]{fullShare} arg12.view.writes (Elt F) f LS2)
                ∗ tbPt1 c tbM1_0 xt0 ∗ tbPt1 c tbM1_1 xt1 ∗ tbPt1 c tbM1_2 xt2 ∗ tbPt1 c tbM1_3 xt3) -∗ K ⟨⟩))
          ⊢ wp frame (wpE (defs₀ (F := F)) Variants.none c none) E (cc1__attn_kernel i tbM1_0 htbM1_0 tbM1_1 htbM1_1 tbM1_2 htbM1_2 tbM1_3 htbM1_3 arg6 harg6 arg7 harg7 arg8 harg8 arg9 harg9 arg10 harg10 arg11 harg11 arg12 harg12) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, HT0, HT1, HT2, HT3, Hk⟩
    obtain rfl := harg6.eq_unread hf0; obtain rfl := harg7.eq_unread hf1; obtain rfl := harg8.eq_unread hf2; obtain rfl := harg9.eq_unread hf3
    sl_exec (disch := first | sl_exact hcF | sl_exact hcM | sl_exact hcN | sl_exact hcL)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [HS0]; · iexists _; iexact HS0
    isplitl [HS1]; · iexists _; iexact HS1
    isplitl [HS2]; · iexists _; iexact HS2
    isplitl [HT0]; · iexact HT0
    isplitl [HT1]; · iexact HT1
    isplitl [HT2]; · iexact HT2
    iexact HT3

end Cert.KernelIdeal.Att

end
-- ==== Proof.Reg1RunD.lean ====
import proofs.«175909_j62251255988572_2_alg».proof.Proof.Reg1Runs

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- A middle key tile: not the first of its query block, wholly below the diagonal, not the last.
    The body's run on whole staging memrefs: the three input blocks at their contents, the tables read-only, the scratch at what the point before left, the output's buffer handed back untouched; it ends holding the
    inputs as they were and each buffer it stored into with the stores' pieces written (last first), which the run
    itself finds. -/
noncomputable def kernelRun1_D (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : ¬condM (wd c tbM1_3 xt3 i)) (hcN : condN (wd c tbM1_3 xt3 i)) (hcL : ¬condL (wd c tbM1_2 xt2 i)) (xs0 : Vec F S1024x1 .f32) (xs1 : Vec F S1024x1 .f32) (xs2 : Vec F S1024x64 .f32) :
    Σ' (LS0 : List (View.Piece (Elt F) S1024x1 .f32)) (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare xi3
            ∗ owns (c : Thread nD τ) arg10 fullShare xs0 ∗ owns (c : Thread nD τ) arg11 fullShare xs1 ∗ owns (c : Thread nD τ) arg12 fullShare xs2
            ∗ tbPt1 c tbM1_0 xt0 ∗ tbPt1 c tbM1_1 xt1 ∗ tbPt1 c tbM1_2 xt2 ∗ tbPt1 c tbM1_3 xt3
            ∗ (iprop(owns (c : Thread nD τ) arg6 fullShare x0 ∗ owns (c : Thread nD τ) arg7 fullShare x1 ∗ owns (c : Thread nD τ) arg8 fullShare x2 ∗ owns (c : Thread nD τ) arg9 fullShare xi3
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)
                ∗ (∃ f, arg12.view.loc (c : Thread nD τ) ↦[arg12.view.set]{fullShare} arg12.view.writes (Elt F) f LS2)
                ∗ tbPt1 c tbM1_0 xt0 ∗ tbPt1 c tbM1_1 xt1 ∗ tbPt1 c tbM1_2 xt2 ∗ tbPt1 c tbM1_3 xt3) -∗ K ⟨⟩))
          ⊢ wp frame (wpE (defs₀ (F := F)) Variants.none c none) E (cc1__attn_kernel i tbM1_0 htbM1_0 tbM1_1 htbM1_1 tbM1_2 htbM1_2 tbM1_3 htbM1_3 arg6 harg6 arg7 harg7 arg8 harg8 arg9 harg9 arg10 harg10 arg11 harg11 arg12 harg12) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, HT0, HT1, HT2, HT3, Hk⟩
    obtain rfl := harg6.eq_unread hf0; obtain rfl := harg7.eq_unread hf1; obtain rfl := harg8.eq_unread hf2; obtain rfl := harg9.eq_unread hf3
    obtain rfl := harg10.eq_unread hfs0; obtain rfl := harg11.eq_unread hfs1; obtain rfl := harg12.eq_unread hfs2
    sl_exec (disch := first | sl_exact hcF | sl_exact hcM | sl_exact hcN | sl_exact hcL)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [HS0]; · iexists _; iexact HS0
    isplitl [HS1]; · iexists _; iexact HS1
    isplitl [HS2]; · iexists _; iexact HS2
    isplitl [HT0]; · iexact HT0
    isplitl [HT1]; · iexact HT1
    isplitl [HT2]; · iexact HT2
    iexact HT3

end Cert.KernelIdeal.Att

end
-- ==== Proof.Reg1RunE.lean ====
import proofs.«175909_j62251255988572_2_alg».proof.Proof.Reg1Runs

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- The first of the two diagonal tiles of a query block: masked, not the last.
    The body's run on whole staging memrefs: the three input blocks at their contents, the tables read-only, the scratch at what the point before left, the output's buffer handed back untouched; it ends holding the
    inputs as they were and each buffer it stored into with the stores' pieces written (last first), which the run
    itself finds. -/
noncomputable def kernelRun1_E (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : condM (wd c tbM1_3 xt3 i)) (hcN : ¬condN (wd c tbM1_3 xt3 i)) (hcL : ¬condL (wd c tbM1_2 xt2 i)) (xs0 : Vec F S1024x1 .f32) (xs1 : Vec F S1024x1 .f32) (xs2 : Vec F S1024x64 .f32) :
    Σ' (LS0 : List (View.Piece (Elt F) S1024x1 .f32)) (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare xi3
            ∗ owns (c : Thread nD τ) arg10 fullShare xs0 ∗ owns (c : Thread nD τ) arg11 fullShare xs1 ∗ owns (c : Thread nD τ) arg12 fullShare xs2
            ∗ tbPt1 c tbM1_0 xt0 ∗ tbPt1 c tbM1_1 xt1 ∗ tbPt1 c tbM1_2 xt2 ∗ tbPt1 c tbM1_3 xt3
            ∗ (iprop(owns (c : Thread nD τ) arg6 fullShare x0 ∗ owns (c : Thread nD τ) arg7 fullShare x1 ∗ owns (c : Thread nD τ) arg8 fullShare x2 ∗ owns (c : Thread nD τ) arg9 fullShare xi3
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)
                ∗ (∃ f, arg12.view.loc (c : Thread nD τ) ↦[arg12.view.set]{fullShare} arg12.view.writes (Elt F) f LS2)
                ∗ tbPt1 c tbM1_0 xt0 ∗ tbPt1 c tbM1_1 xt1 ∗ tbPt1 c tbM1_2 xt2 ∗ tbPt1 c tbM1_3 xt3) -∗ K ⟨⟩))
          ⊢ wp frame (wpE (defs₀ (F := F)) Variants.none c none) E (cc1__attn_kernel i tbM1_0 htbM1_0 tbM1_1 htbM1_1 tbM1_2 htbM1_2 tbM1_3 htbM1_3 arg6 harg6 arg7 harg7 arg8 harg8 arg9 harg9 arg10 harg10 arg11 harg11 arg12 harg12) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, HT0, HT1, HT2, HT3, Hk⟩
    obtain rfl := harg6.eq_unread hf0; obtain rfl := harg7.eq_unread hf1; obtain rfl := harg8.eq_unread hf2; obtain rfl := harg9.eq_unread hf3
    obtain rfl := harg10.eq_unread hfs0; obtain rfl := harg11.eq_unread hfs1; obtain rfl := harg12.eq_unread hfs2
    sl_exec (disch := first | sl_exact hcF | sl_exact hcM | sl_exact hcN | sl_exact hcL)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [HS0]; · iexists _; iexact HS0
    isplitl [HS1]; · iexists _; iexact HS1
    isplitl [HS2]; · iexists _; iexact HS2
    isplitl [HT0]; · iexact HT0
    isplitl [HT1]; · iexact HT1
    isplitl [HT2]; · iexact HT2
    iexact HT3

end Cert.KernelIdeal.Att

end
-- ==== Proof.Reg1Outs.lean ====
import proofs.«175909_j62251255988572_2_alg».proof.Proof.Reg1RunA
import proofs.«175909_j62251255988572_2_alg».proof.Proof.Reg1RunB
import proofs.«175909_j62251255988572_2_alg».proof.Proof.Reg1RunC
import proofs.«175909_j62251255988572_2_alg».proof.Proof.Reg1RunD
import proofs.«175909_j62251255988572_2_alg».proof.Proof.Reg1RunE

/-! What each control case of the attention body leaves in the three scratch buffers (and, at a last tile, in the
    output block): the pieces its run found, read back. Every case stores each scratch buffer whole at least once,
    so its pieces cover the buffer and the read-back does not depend on what the buffer held before. -/

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- Case A's stores into the running maximum include one of the whole buffer, so they cover it. -/
theorem scover1_A_0 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : condF (wd c tbM1_1 xt1 i)) (hcM : condM (wd c tbM1_3 xt3 i)) (hcN : ¬condN (wd c tbM1_3 xt3 i)) (hcL : ¬condL (wd c tbM1_2 xt2 i)) (y : S1024x1.Idx) :
    ∃ pc ∈ (kernelRun1_A c i arg6 harg6 arg7 harg7 arg8 harg8 arg9 harg9 arg10 harg10 arg11 harg11 arg12 harg12 x0 x1 x2 xt0 xt1 xt2 xt3 hcF hcM hcN hcL).1, y ∈ pc.1.set :=
  View.cover_of_wholeMem (kernelRun1_A c i arg6 harg6 arg7 harg7 arg8 harg8 arg9 harg9 arg10 harg10 arg11 harg11 arg12 harg12 x0 x1 x2 xt0 xt1 xt2 xt3 hcF hcM hcN hcL).1 (by sl_whole_mem) y

/-- What case A leaves in the running maximum. -/
def sout1_A_0 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : condF (wd c tbM1_1 xt1 i)) (hcM : condM (wd c tbM1_3 xt3 i)) (hcN : ¬condN (wd c tbM1_3 xt3 i)) (hcL : ¬condL (wd c tbM1_2 xt2 i)) : Vec F S1024x1 .f32 :=
  VS1_0.read (Elt F) (VS1_0.writes (Elt F) VS1_0.junk (kernelRun1_A c i arg6 harg6 arg7 harg7 arg8 harg8 arg9 harg9 arg10 harg10 arg11 harg11 arg12 harg12 x0 x1 x2 xt0 xt1 xt2 xt3 hcF hcM hcN hcL).1)

/-- Case A's stores into the running normaliser include one of the whole buffer, so they cover it. -/
theorem scover1_A_1 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : condF (wd c tbM1_1 xt1 i)) (hcM : condM (wd c tbM1_3 xt3 i)) (hcN : ¬condN (wd c tbM1_3 xt3 i)) (hcL : ¬condL (wd c tbM1_2 xt2 i)) (y : S1024x1.Idx) :
    ∃ pc ∈ (kernelRun1_A c i arg6 harg6 arg7 harg7 arg8 harg8 arg9 harg9 arg10 harg10 arg11 harg11 arg12 harg12 x0 x1 x2 xt0 xt1 xt2 xt3 hcF hcM hcN hcL).2.1, y ∈ pc.1.set :=
  View.cover_of_wholeMem (kernelRun1_A c i arg6 harg6 arg7 harg7 arg8 harg8 arg9 harg9 arg10 harg10 arg11 harg11 arg12 harg12 x0 x1 x2 xt0 xt1 xt2 xt3 hcF hcM hcN hcL).2.1 (by sl_whole_mem) y

/-- What case A leaves in the running normaliser. -/
def sout1_A_1 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : condF (wd c tbM1_1 xt1 i)) (hcM : condM (wd c tbM1_3 xt3 i)) (hcN : ¬condN (wd c tbM1_3 xt3 i)) (hcL : ¬condL (wd c tbM1_2 xt2 i)) : Vec F S1024x1 .f32 :=
  VS1_1.read (Elt F) (VS1_1.writes (Elt F) VS1_1.junk (kernelRun1_A c i arg6 harg6 arg7 harg7 arg8 harg8 arg9 harg9 arg10 harg10 arg11 harg11 arg12 harg12 x0 x1 x2 xt0 xt1 xt2 xt3 hcF hcM hcN hcL).2.1)

/-- Case A's stores into the running weighted sum include one of the whole buffer, so they cover it. -/
theorem scover1_A_2 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : condF (wd c tbM1_1 xt1 i)) (hcM : condM (wd c tbM1_3 xt3 i)) (hcN : ¬condN (wd c tbM1_3 xt3 i)) (hcL : ¬condL (wd c tbM1_2 xt2 i)) (y : S1024x64.Idx) :
    ∃ pc ∈ (kernelRun1_A c i arg6 harg6 arg7 harg7 arg8 harg8 arg9 harg9 arg10 harg10 arg11 harg11 arg12 harg12 x0 x1 x2 xt0 xt1 xt2 xt3 hcF hcM hcN hcL).2.2.1, y ∈ pc.1.set :=
  View.cover_of_wholeMem (kernelRun1_A c i arg6 harg6 arg7 harg7 arg8 harg8 arg9 harg9 arg10 harg10 arg11 harg11 arg12 harg12 x0 x1 x2 xt0 xt1 xt2 xt3 hcF hcM hcN hcL).2.2.1 (by sl_whole_mem) y

/-- What case A leaves in the running weighted sum. -/
def sout1_A_2 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : condF (wd c tbM1_1 xt1 i)) (hcM : condM (wd c tbM1_3 xt3 i)) (hcN : ¬condN (wd c tbM1_3 xt3 i)) (hcL : ¬condL (wd c tbM1_2 xt2 i)) : Vec F S1024x64 .f32 :=
  VS1_2.read (Elt F) (VS1_2.writes (Elt F) VS1_2.junk (kernelRun1_A c i arg6 harg6 arg7 harg7 arg8 harg8 arg9 harg9 arg10 harg10 arg11 harg11 arg12 harg12 x0 x1 x2 xt0 xt1 xt2 xt3 hcF hcM hcN hcL).2.2.1)

/-- Case B's stores into the running maximum include one of the whole buffer, so they cover it. -/
theorem scover1_B_0 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : condM (wd c tbM1_3 xt3 i)) (hcN : ¬condN (wd c tbM1_3 xt3 i)) (hcL : condL (wd c tbM1_2 xt2 i)) (xs0 : Vec F S1024x1 .f32) (xs1 : Vec F S1024x1 .f32) (xs2 : Vec F S1024x64 .f32) (y : S1024x1.Idx) :
    ∃ pc ∈ (kernelRun1_B c i arg6 harg6 arg7 harg7 arg8 harg8 arg9 harg9 arg10 harg10 arg11 harg11 arg12 harg12 x0 x1 x2 xt0 xt1 xt2 xt3 hcF hcM hcN hcL xs0 xs1 xs2).2.1, y ∈ pc.1.set :=
  View.cover_of_wholeMem (kernelRun1_B c i arg6 harg6 arg7 harg7 arg8 harg8 arg9 harg9 arg10 harg10 arg11 harg11 arg12 harg12 x0 x1 x2 xt0 xt1 xt2 xt3 hcF hcM hcN hcL xs0 xs1 xs2).2.1 (by sl_whole_mem) y

/-- What case B leaves in the running maximum. -/
def sout1_B_0 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : condM (wd c tbM1_3 xt3 i)) (hcN : ¬condN (wd c tbM1_3 xt3 i)) (hcL : condL (wd c tbM1_2 xt2 i)) (xs0 : Vec F S1024x1 .f32) (xs1 : Vec F S1024x1 .f32) (xs2 : Vec F S1024x64 .f32) : Vec F S1024x1 .f32 :=
  VS1_0.read (Elt F) (VS1_0.writes (Elt F) VS1_0.junk (kernelRun1_B c i arg6 harg6 arg7 harg7 arg8 harg8 arg9 harg9 arg10 harg10 arg11 harg11 arg12 harg12 x0 x1 x2 xt0 xt1 xt2 xt3 hcF hcM hcN hcL xs0 xs1 xs2).2.1)

/-- Case B's stores into the running normaliser include one of the whole buffer, so they cover it. -/
theorem scover1_B_1 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : condM (wd c tbM1_3 xt3 i)) (hcN : ¬condN (wd c tbM1_3 xt3 i)) (hcL : condL (wd c tbM1_2 xt2 i)) (xs0 : Vec F S1024x1 .f32) (xs1 : Vec F S1024x1 .f32) (xs2 : Vec F S1024x64 .f32) (y : S1024x1.Idx) :
    ∃ pc ∈ (kernelRun1_B c i arg6 harg6 arg7 harg7 arg8 harg8 arg9 harg9 arg10 harg10 arg11 harg11 arg12 harg12 x0 x1 x2 xt0 xt1 xt2 xt3 hcF hcM hcN hcL xs0 xs1 xs2).2.2.1, y ∈ pc.1.set :=
  View.cover_of_wholeMem (kernelRun1_B c i arg6 harg6 arg7 harg7 arg8 harg8 arg9 harg9 arg10 harg10 arg11 harg11 arg12 harg12 x0 x1 x2 xt0 xt1 xt2 xt3 hcF hcM hcN hcL xs0 xs1 xs2).2.2.1 (by sl_whole_mem) y

/-- What case B leaves in the running normaliser. -/
def sout1_B_1 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : condM (wd c tbM1_3 xt3 i)) (hcN : ¬condN (wd c tbM1_3 xt3 i)) (hcL : condL (wd c tbM1_2 xt2 i)) (xs0 : Vec F S1024x1 .f32) (xs1 : Vec F S1024x1 .f32) (xs2 : Vec F S1024x64 .f32) : Vec F S1024x1 .f32 :=
  VS1_1.read (Elt F) (VS1_1.writes (Elt F) VS1_1.junk (kernelRun1_B c i arg6 harg6 arg7 harg7 arg8 harg8 arg9 harg9 arg10 harg10 arg11 harg11 arg12 harg12 x0 x1 x2 xt0 xt1 xt2 xt3 hcF hcM hcN hcL xs0 xs1 xs2).2.2.1)

/-- Case B's stores into the running weighted sum include one of the whole buffer, so they cover it. -/
theorem scover1_B_2 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : condM (wd c tbM1_3 xt3 i)) (hcN : ¬condN (wd c tbM1_3 xt3 i)) (hcL : condL (wd c tbM1_2 xt2 i)) (xs0 : Vec F S1024x1 .f32) (xs1 : Vec F S1024x1 .f32) (xs2 : Vec F S1024x64 .f32) (y : S1024x64.Idx) :
    ∃ pc ∈ (kernelRun1_B c i arg6 harg6 arg7 harg7 arg8 harg8 arg9 harg9 arg10 harg10 arg11 harg11 arg12 harg12 x0 x1 x2 xt0 xt1 xt2 xt3 hcF hcM hcN hcL xs0 xs1 xs2).2.2.2.1, y ∈ pc.1.set :=
  View.cover_of_wholeMem (kernelRun1_B c i arg6 harg6 arg7 harg7 arg8 harg8 arg9 harg9 arg10 harg10 arg11 harg11 arg12 harg12 x0 x1 x2 xt0 xt1 xt2 xt3 hcF hcM hcN hcL xs0 xs1 xs2).2.2.2.1 (by sl_whole_mem) y

/-- What case B leaves in the running weighted sum. -/
def sout1_B_2 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : condM (wd c tbM1_3 xt3 i)) (hcN : ¬condN (wd c tbM1_3 xt3 i)) (hcL : condL (wd c tbM1_2 xt2 i)) (xs0 : Vec F S1024x1 .f32) (xs1 : Vec F S1024x1 .f32) (xs2 : Vec F S1024x64 .f32) : Vec F S1024x64 .f32 :=
  VS1_2.read (Elt F) (VS1_2.writes (Elt F) VS1_2.junk (kernelRun1_B c i arg6 harg6 arg7 harg7 arg8 harg8 arg9 harg9 arg10 harg10 arg11 harg11 arg12 harg12 x0 x1 x2 xt0 xt1 xt2 xt3 hcF hcM hcN hcL xs0 xs1 xs2).2.2.2.1)

/-- Case B's stores into the output block include one of the whole buffer, so they cover it. -/
theorem cover1_B_3 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : condM (wd c tbM1_3 xt3 i)) (hcN : ¬condN (wd c tbM1_3 xt3 i)) (hcL : condL (wd c tbM1_2 xt2 i)) (xs0 : Vec F S1024x1 .f32) (xs1 : Vec F S1024x1 .f32) (xs2 : Vec F S1024x64 .f32) (y : S1x1024x64.Idx) :
    ∃ pc ∈ (kernelRun1_B c i arg6 harg6 arg7 harg7 arg8 harg8 arg9 harg9 arg10 harg10 arg11 harg11 arg12 harg12 x0 x1 x2 xt0 xt1 xt2 xt3 hcF hcM hcN hcL xs0 xs1 xs2).1, y ∈ pc.1.set :=
  View.cover_of_wholeMem (kernelRun1_B c i arg6 harg6 arg7 harg7 arg8 harg8 arg9 harg9 arg10 harg10 arg11 harg11 arg12 harg12 x0 x1 x2 xt0 xt1 xt2 xt3 hcF hcM hcN hcL xs0 xs1 xs2).1 (by sl_whole_mem) y

/-- What case B leaves in the output block. -/
def out1_B_3 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : condM (wd c tbM1_3 xt3 i)) (hcN : ¬condN (wd c tbM1_3 xt3 i)) (hcL : condL (wd c tbM1_2 xt2 i)) (xs0 : Vec F S1024x1 .f32) (xs1 : Vec F S1024x1 .f32) (xs2 : Vec F S1024x64 .f32) : Vec F S1x1024x64 .f32 :=
  VO1_3.read (Elt F) (VO1_3.writes (Elt F) VO1_3.junk (kernelRun1_B c i arg6 harg6 arg7 harg7 arg8 harg8 arg9 harg9 arg10 harg10 arg11 harg11 arg12 harg12 x0 x1 x2 xt0 xt1 xt2 xt3 hcF hcM hcN hcL xs0 xs1 xs2).1)

/-- Case C's stores into the running maximum include one of the whole buffer, so they cover it. -/
theorem scover1_C_0 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : condF (wd c tbM1_1 xt1 i)) (hcM : ¬condM (wd c tbM1_3 xt3 i)) (hcN : condN (wd c tbM1_3 xt3 i)) (hcL : ¬condL (wd c tbM1_2 xt2 i)) (y : S1024x1.Idx) :
    ∃ pc ∈ (kernelRun1_C c i arg6 harg6 arg7 harg7 arg8 harg8 arg9 harg9 arg10 harg10 arg11 harg11 arg12 harg12 x0 x1 x2 xt0 xt1 xt2 xt3 hcF hcM hcN hcL).1, y ∈ pc.1.set :=
  View.cover_of_wholeMem (kernelRun1_C c i arg6 harg6 arg7 harg7 arg8 harg8 arg9 harg9 arg10 harg10 arg11 harg11 arg12 harg12 x0 x1 x2 xt0 xt1 xt2 xt3 hcF hcM hcN hcL).1 (by sl_whole_mem) y

/-- What case C leaves in the running maximum. -/
def sout1_C_0 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : condF (wd c tbM1_1 xt1 i)) (hcM : ¬condM (wd c tbM1_3 xt3 i)) (hcN : condN (wd c tbM1_3 xt3 i)) (hcL : ¬condL (wd c tbM1_2 xt2 i)) : Vec F S1024x1 .f32 :=
  VS1_0.read (Elt F) (VS1_0.writes (Elt F) VS1_0.junk (kernelRun1_C c i arg6 harg6 arg7 harg7 arg8 harg8 arg9 harg9 arg10 harg10 arg11 harg11 arg12 harg12 x0 x1 x2 xt0 xt1 xt2 xt3 hcF hcM hcN hcL).1)

/-- Case C's stores into the running normaliser include one of the whole buffer, so they cover it. -/
theorem scover1_C_1 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : condF (wd c tbM1_1 xt1 i)) (hcM : ¬condM (wd c tbM1_3 xt3 i)) (hcN : condN (wd c tbM1_3 xt3 i)) (hcL : ¬condL (wd c tbM1_2 xt2 i)) (y : S1024x1.Idx) :
    ∃ pc ∈ (kernelRun1_C c i arg6 harg6 arg7 harg7 arg8 harg8 arg9 harg9 arg10 harg10 arg11 harg11 arg12 harg12 x0 x1 x2 xt0 xt1 xt2 xt3 hcF hcM hcN hcL).2.1, y ∈ pc.1.set :=
  View.cover_of_wholeMem (kernelRun1_C c i arg6 harg6 arg7 harg7 arg8 harg8 arg9 harg9 arg10 harg10 arg11 harg11 arg12 harg12 x0 x1 x2 xt0 xt1 xt2 xt3 hcF hcM hcN hcL).2.1 (by sl_whole_mem) y

/-- What case C leaves in the running normaliser. -/
def sout1_C_1 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : condF (wd c tbM1_1 xt1 i)) (hcM : ¬condM (wd c tbM1_3 xt3 i)) (hcN : condN (wd c tbM1_3 xt3 i)) (hcL : ¬condL (wd c tbM1_2 xt2 i)) : Vec F S1024x1 .f32 :=
  VS1_1.read (Elt F) (VS1_1.writes (Elt F) VS1_1.junk (kernelRun1_C c i arg6 harg6 arg7 harg7 arg8 harg8 arg9 harg9 arg10 harg10 arg11 harg11 arg12 harg12 x0 x1 x2 xt0 xt1 xt2 xt3 hcF hcM hcN hcL).2.1)

/-- Case C's stores into the running weighted sum include one of the whole buffer, so they cover it. -/
theorem scover1_C_2 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : condF (wd c tbM1_1 xt1 i)) (hcM : ¬condM (wd c tbM1_3 xt3 i)) (hcN : condN (wd c tbM1_3 xt3 i)) (hcL : ¬condL (wd c tbM1_2 xt2 i)) (y : S1024x64.Idx) :
    ∃ pc ∈ (kernelRun1_C c i arg6 harg6 arg7 harg7 arg8 harg8 arg9 harg9 arg10 harg10 arg11 harg11 arg12 harg12 x0 x1 x2 xt0 xt1 xt2 xt3 hcF hcM hcN hcL).2.2.1, y ∈ pc.1.set :=
  View.cover_of_wholeMem (kernelRun1_C c i arg6 harg6 arg7 harg7 arg8 harg8 arg9 harg9 arg10 harg10 arg11 harg11 arg12 harg12 x0 x1 x2 xt0 xt1 xt2 xt3 hcF hcM hcN hcL).2.2.1 (by sl_whole_mem) y

/-- What case C leaves in the running weighted sum. -/
def sout1_C_2 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : condF (wd c tbM1_1 xt1 i)) (hcM : ¬condM (wd c tbM1_3 xt3 i)) (hcN : condN (wd c tbM1_3 xt3 i)) (hcL : ¬condL (wd c tbM1_2 xt2 i)) : Vec F S1024x64 .f32 :=
  VS1_2.read (Elt F) (VS1_2.writes (Elt F) VS1_2.junk (kernelRun1_C c i arg6 harg6 arg7 harg7 arg8 harg8 arg9 harg9 arg10 harg10 arg11 harg11 arg12 harg12 x0 x1 x2 xt0 xt1 xt2 xt3 hcF hcM hcN hcL).2.2.1)

/-- Case D's stores into the running maximum include one of the whole buffer, so they cover it. -/
theorem scover1_D_0 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : ¬condM (wd c tbM1_3 xt3 i)) (hcN : condN (wd c tbM1_3 xt3 i)) (hcL : ¬condL (wd c tbM1_2 xt2 i)) (xs0 : Vec F S1024x1 .f32) (xs1 : Vec F S1024x1 .f32) (xs2 : Vec F S1024x64 .f32) (y : S1024x1.Idx) :
    ∃ pc ∈ (kernelRun1_D c i arg6 harg6 arg7 harg7 arg8 harg8 arg9 harg9 arg10 harg10 arg11 harg11 arg12 harg12 x0 x1 x2 xt0 xt1 xt2 xt3 hcF hcM hcN hcL xs0 xs1 xs2).1, y ∈ pc.1.set :=
  View.cover_of_wholeMem (kernelRun1_D c i arg6 harg6 arg7 harg7 arg8 harg8 arg9 harg9 arg10 harg10 arg11 harg11 arg12 harg12 x0 x1 x2 xt0 xt1 xt2 xt3 hcF hcM hcN hcL xs0 xs1 xs2).1 (by sl_whole_mem) y

/-- What case D leaves in the running maximum. -/
def sout1_D_0 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : ¬condM (wd c tbM1_3 xt3 i)) (hcN : condN (wd c tbM1_3 xt3 i)) (hcL : ¬condL (wd c tbM1_2 xt2 i)) (xs0 : Vec F S1024x1 .f32) (xs1 : Vec F S1024x1 .f32) (xs2 : Vec F S1024x64 .f32) : Vec F S1024x1 .f32 :=
  VS1_0.read (Elt F) (VS1_0.writes (Elt F) VS1_0.junk (kernelRun1_D c i arg6 harg6 arg7 harg7 arg8 harg8 arg9 harg9 arg10 harg10 arg11 harg11 arg12 harg12 x0 x1 x2 xt0 xt1 xt2 xt3 hcF hcM hcN hcL xs0 xs1 xs2).1)

/-- Case D's stores into the running normaliser include one of the whole buffer, so they cover it. -/
theorem scover1_D_1 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : ¬condM (wd c tbM1_3 xt3 i)) (hcN : condN (wd c tbM1_3 xt3 i)) (hcL : ¬condL (wd c tbM1_2 xt2 i)) (xs0 : Vec F S1024x1 .f32) (xs1 : Vec F S1024x1 .f32) (xs2 : Vec F S1024x64 .f32) (y : S1024x1.Idx) :
    ∃ pc ∈ (kernelRun1_D c i arg6 harg6 arg7 harg7 arg8 harg8 arg9 harg9 arg10 harg10 arg11 harg11 arg12 harg12 x0 x1 x2 xt0 xt1 xt2 xt3 hcF hcM hcN hcL xs0 xs1 xs2).2.1, y ∈ pc.1.set :=
  View.cover_of_wholeMem (kernelRun1_D c i arg6 harg6 arg7 harg7 arg8 harg8 arg9 harg9 arg10 harg10 arg11 harg11 arg12 harg12 x0 x1 x2 xt0 xt1 xt2 xt3 hcF hcM hcN hcL xs0 xs1 xs2).2.1 (by sl_whole_mem) y

/-- What case D leaves in the running normaliser. -/
def sout1_D_1 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : ¬condM (wd c tbM1_3 xt3 i)) (hcN : condN (wd c tbM1_3 xt3 i)) (hcL : ¬condL (wd c tbM1_2 xt2 i)) (xs0 : Vec F S1024x1 .f32) (xs1 : Vec F S1024x1 .f32) (xs2 : Vec F S1024x64 .f32) : Vec F S1024x1 .f32 :=
  VS1_1.read (Elt F) (VS1_1.writes (Elt F) VS1_1.junk (kernelRun1_D c i arg6 harg6 arg7 harg7 arg8 harg8 arg9 harg9 arg10 harg10 arg11 harg11 arg12 harg12 x0 x1 x2 xt0 xt1 xt2 xt3 hcF hcM hcN hcL xs0 xs1 xs2).2.1)

/-- Case D's stores into the running weighted sum include one of the whole buffer, so they cover it. -/
theorem scover1_D_2 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : ¬condM (wd c tbM1_3 xt3 i)) (hcN : condN (wd c tbM1_3 xt3 i)) (hcL : ¬condL (wd c tbM1_2 xt2 i)) (xs0 : Vec F S1024x1 .f32) (xs1 : Vec F S1024x1 .f32) (xs2 : Vec F S1024x64 .f32) (y : S1024x64.Idx) :
    ∃ pc ∈ (kernelRun1_D c i arg6 harg6 arg7 harg7 arg8 harg8 arg9 harg9 arg10 harg10 arg11 harg11 arg12 harg12 x0 x1 x2 xt0 xt1 xt2 xt3 hcF hcM hcN hcL xs0 xs1 xs2).2.2.1, y ∈ pc.1.set :=
  View.cover_of_wholeMem (kernelRun1_D c i arg6 harg6 arg7 harg7 arg8 harg8 arg9 harg9 arg10 harg10 arg11 harg11 arg12 harg12 x0 x1 x2 xt0 xt1 xt2 xt3 hcF hcM hcN hcL xs0 xs1 xs2).2.2.1 (by sl_whole_mem) y

/-- What case D leaves in the running weighted sum. -/
def sout1_D_2 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : ¬condM (wd c tbM1_3 xt3 i)) (hcN : condN (wd c tbM1_3 xt3 i)) (hcL : ¬condL (wd c tbM1_2 xt2 i)) (xs0 : Vec F S1024x1 .f32) (xs1 : Vec F S1024x1 .f32) (xs2 : Vec F S1024x64 .f32) : Vec F S1024x64 .f32 :=
  VS1_2.read (Elt F) (VS1_2.writes (Elt F) VS1_2.junk (kernelRun1_D c i arg6 harg6 arg7 harg7 arg8 harg8 arg9 harg9 arg10 harg10 arg11 harg11 arg12 harg12 x0 x1 x2 xt0 xt1 xt2 xt3 hcF hcM hcN hcL xs0 xs1 xs2).2.2.1)

/-- Case E's stores into the running maximum include one of the whole buffer, so they cover it. -/
theorem scover1_E_0 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : condM (wd c tbM1_3 xt3 i)) (hcN : ¬condN (wd c tbM1_3 xt3 i)) (hcL : ¬condL (wd c tbM1_2 xt2 i)) (xs0 : Vec F S1024x1 .f32) (xs1 : Vec F S1024x1 .f32) (xs2 : Vec F S1024x64 .f32) (y : S1024x1.Idx) :
    ∃ pc ∈ (kernelRun1_E c i arg6 harg6 arg7 harg7 arg8 harg8 arg9 harg9 arg10 harg10 arg11 harg11 arg12 harg12 x0 x1 x2 xt0 xt1 xt2 xt3 hcF hcM hcN hcL xs0 xs1 xs2).1, y ∈ pc.1.set :=
  View.cover_of_wholeMem (kernelRun1_E c i arg6 harg6 arg7 harg7 arg8 harg8 arg9 harg9 arg10 harg10 arg11 harg11 arg12 harg12 x0 x1 x2 xt0 xt1 xt2 xt3 hcF hcM hcN hcL xs0 xs1 xs2).1 (by sl_whole_mem) y

/-- What case E leaves in the running maximum. -/
def sout1_E_0 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : condM (wd c tbM1_3 xt3 i)) (hcN : ¬condN (wd c tbM1_3 xt3 i)) (hcL : ¬condL (wd c tbM1_2 xt2 i)) (xs0 : Vec F S1024x1 .f32) (xs1 : Vec F S1024x1 .f32) (xs2 : Vec F S1024x64 .f32) : Vec F S1024x1 .f32 :=
  VS1_0.read (Elt F) (VS1_0.writes (Elt F) VS1_0.junk (kernelRun1_E c i arg6 harg6 arg7 harg7 arg8 harg8 arg9 harg9 arg10 harg10 arg11 harg11 arg12 harg12 x0 x1 x2 xt0 xt1 xt2 xt3 hcF hcM hcN hcL xs0 xs1 xs2).1)

/-- Case E's stores into the running normaliser include one of the whole buffer, so they cover it. -/
theorem scover1_E_1 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : condM (wd c tbM1_3 xt3 i)) (hcN : ¬condN (wd c tbM1_3 xt3 i)) (hcL : ¬condL (wd c tbM1_2 xt2 i)) (xs0 : Vec F S1024x1 .f32) (xs1 : Vec F S1024x1 .f32) (xs2 : Vec F S1024x64 .f32) (y : S1024x1.Idx) :
    ∃ pc ∈ (kernelRun1_E c i arg6 harg6 arg7 harg7 arg8 harg8 arg9 harg9 arg10 harg10 arg11 harg11 arg12 harg12 x0 x1 x2 xt0 xt1 xt2 xt3 hcF hcM hcN hcL xs0 xs1 xs2).2.1, y ∈ pc.1.set :=
  View.cover_of_wholeMem (kernelRun1_E c i arg6 harg6 arg7 harg7 arg8 harg8 arg9 harg9 arg10 harg10 arg11 harg11 arg12 harg12 x0 x1 x2 xt0 xt1 xt2 xt3 hcF hcM hcN hcL xs0 xs1 xs2).2.1 (by sl_whole_mem) y

/-- What case E leaves in the running normaliser. -/
def sout1_E_1 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : condM (wd c tbM1_3 xt3 i)) (hcN : ¬condN (wd c tbM1_3 xt3 i)) (hcL : ¬condL (wd c tbM1_2 xt2 i)) (xs0 : Vec F S1024x1 .f32) (xs1 : Vec F S1024x1 .f32) (xs2 : Vec F S1024x64 .f32) : Vec F S1024x1 .f32 :=
  VS1_1.read (Elt F) (VS1_1.writes (Elt F) VS1_1.junk (kernelRun1_E c i arg6 harg6 arg7 harg7 arg8 harg8 arg9 harg9 arg10 harg10 arg11 harg11 arg12 harg12 x0 x1 x2 xt0 xt1 xt2 xt3 hcF hcM hcN hcL xs0 xs1 xs2).2.1)

/-- Case E's stores into the running weighted sum include one of the whole buffer, so they cover it. -/
theorem scover1_E_2 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : condM (wd c tbM1_3 xt3 i)) (hcN : ¬condN (wd c tbM1_3 xt3 i)) (hcL : ¬condL (wd c tbM1_2 xt2 i)) (xs0 : Vec F S1024x1 .f32) (xs1 : Vec F S1024x1 .f32) (xs2 : Vec F S1024x64 .f32) (y : S1024x64.Idx) :
    ∃ pc ∈ (kernelRun1_E c i arg6 harg6 arg7 harg7 arg8 harg8 arg9 harg9 arg10 harg10 arg11 harg11 arg12 harg12 x0 x1 x2 xt0 xt1 xt2 xt3 hcF hcM hcN hcL xs0 xs1 xs2).2.2.1, y ∈ pc.1.set :=
  View.cover_of_wholeMem (kernelRun1_E c i arg6 harg6 arg7 harg7 arg8 harg8 arg9 harg9 arg10 harg10 arg11 harg11 arg12 harg12 x0 x1 x2 xt0 xt1 xt2 xt3 hcF hcM hcN hcL xs0 xs1 xs2).2.2.1 (by sl_whole_mem) y

/-- What case E leaves in the running weighted sum. -/
def sout1_E_2 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : condM (wd c tbM1_3 xt3 i)) (hcN : ¬condN (wd c tbM1_3 xt3 i)) (hcL : ¬condL (wd c tbM1_2 xt2 i)) (xs0 : Vec F S1024x1 .f32) (xs1 : Vec F S1024x1 .f32) (xs2 : Vec F S1024x64 .f32) : Vec F S1024x64 .f32 :=
  VS1_2.read (Elt F) (VS1_2.writes (Elt F) VS1_2.junk (kernelRun1_E c i arg6 harg6 arg7 harg7 arg8 harg8 arg9 harg9 arg10 harg10 arg11 harg11 arg12 harg12 x0 x1 x2 xt0 xt1 xt2 xt3 hcF hcM hcN hcL xs0 xs1 xs2).2.2.1)

end Cert.KernelIdeal.Att

end
-- ==== Proof.Reg1Tables.lean ====
import proofs.«175909_j62251255988572_2_alg».proof.Proof.Reg1Runs

/-! The four prefetched tables' contents, which @main writes as constants before the first region: for each of
    the 20 causally valid (query block, key tile) pairs, the query-block number, the key-tile number, whether the
    tile is the last of its query block, and whether it crosses the diagonal. The pipeline's side condition of them
    (every table-indexed block lies inside its array) is decided once; so are the facts the body obligation needs of
    the words at each grid point. -/

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The tables' contents: table `j` holds the `j`-th literal list. -/
def litTbl : pre1.Contents (Elt F) := fun j => match j with
  | ⟨0, _⟩ => fun i => lit0 (S20.rowMajor i)
  | ⟨1, _⟩ => fun i => lit1 (S20.rowMajor i)
  | ⟨2, _⟩ => fun i => lit2 (S20.rowMajor i)
  | ⟨3, _⟩ => fun i => lit3 (S20.rowMajor i)

/-- Every block the tables name lies inside its array. -/
theorem ok_lit_ideal : ok1 (F := Ideal) litTbl := by decide +kernel

/-- The side condition speaks of the tables' integer words only, so it holds at any float instance. -/
theorem ok_lit : ok1 (F := F) litTbl := ok_lit_ideal

/-- The tables as admissible contents, and the pipeline at them. -/
abbrev adm1 : (pcfg1 (F := F)).Adm := ⟨litTbl, ok_lit⟩
abbrev cfgM : Pipeline.Cfg sig Λ₀ := cfg1 (F := F) adm1

theorem N_M : (cfgM (F := F)).N = 80 := N_1

/-- The three words the body branches on at grid point `t`: key-tile number, last-tile flag, mask flag. -/
abbrev wF (c : Dev nD) (t : Fin (cfgM (F := F)).N) : BitVec 32 := wd (F := F) c tbM1_1 (litTbl 1) (grid1.coords t)
abbrev wL (c : Dev nD) (t : Fin (cfgM (F := F)).N) : BitVec 32 := wd (F := F) c tbM1_2 (litTbl 2) (grid1.coords t)
abbrev wM (c : Dev nD) (t : Fin (cfgM (F := F)).N) : BitVec 32 := wd (F := F) c tbM1_3 (litTbl 3) (grid1.coords t)

/-- What holds of those words at every grid point, decided over the 80 points: the two forms of the mask test are
    complementary; a last tile is never a first tile and always crosses the diagonal; the grid's first point is a
    first tile; and the output window is idle, and not written back, exactly off the last tiles. -/
def WordFacts (c : Dev nD) (t : Fin (cfgM (F := F)).N) : Prop :=
  (condN (wM (F := F) c t) ↔ ¬condM (wM (F := F) c t))
  ∧ (condL (wL (F := F) c t) → ¬condF (wF (F := F) c t) ∧ condM (wM (F := F) c t))
  ∧ (t.val = 0 → condF (wF (F := F) c t))
  ∧ (¬condL (wL (F := F) c t) → (cfgM (F := F)).idle 3 (grid1.coords t) = true ∧ ((cfgM (F := F)).win 3).flush t = false)
  ∧ (condL (wL (F := F) c t) → (cfgM (F := F)).idle 3 (grid1.coords t) = false)

instance (c : Dev nD) (t : Fin (cfgM (F := F)).N) : Decidable (WordFacts (F := F) c t) := by
  unfold WordFacts; infer_instance

theorem wordFacts_ideal : ∀ (c : Dev nD) (t : Fin (cfgM (F := Ideal)).N), WordFacts (F := Ideal) c t := by decide +kernel

/-- The facts speak of integer words and of the schedule only, so they hold at any float instance. -/
theorem wordFacts (c : Dev nD) (t : Fin (cfgM (F := F)).N) : WordFacts (F := F) c t := wordFacts_ideal c t

end Cert.KernelIdeal.Att

end
-- ==== Proof.Reg1.lean ====
import proofs.«175909_j62251255988572_2_alg».proof.Proof.Reg1Outs
import proofs.«175909_j62251255988572_2_alg».proof.Proof.Reg1Tables

/-! The attention kernel's region, at the buffers' contents `V` when the region is entered: the input blocks at a
    grid point; the trajectory — what the three scratch buffers (running maximum, normaliser, weighted sum) and the
    output block hold after each grid point, by recursion on the point, each step the control case the tables select
    there; the invariant that carries the scratch from point to point beside the tables; the proof data; and the body
    obligation, by cases. -/

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin (cfgM (F := F)).W) (t : Fin (cfgM (F := F)).N) :
    (((cfgM (F := F)).win w).xblock ((cfgM (F := F)).grid.coords t)).Idx → Elt F ((cfgM (F := F)).win w).elt :=
  (((cfgM (F := F)).win w).blk t).view.read (Elt F) (V c (Pipeline.arrRef spec1 w))

/-- Input window 0's current staging buffer holds its block at every point, fetched there or not. -/
theorem before1_0_of {c : Dev nD} (dat : Dat τ (Elt F) Unit ℕ (UR sig nD τ) ℕ (cfgM (F := F)) c) (hA : dat.A 0 = V c (Pipeline.arrRef spec1 0))
    (hafter : ∀ t, dat.after 0 t = iblk1 V c 0 t) (t : Fin (cfgM (F := F)).N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ (cfgM (F := F)) c) (hA : dat.A 1 = V c (Pipeline.arrRef spec1 1))
    (hafter : ∀ t, dat.after 1 t = iblk1 V c 1 t) (t : Fin (cfgM (F := F)).N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ (cfgM (F := F)) c) (hA : dat.A 2 = V c (Pipeline.arrRef spec1 2))
    (hafter : ∀ t, dat.after 2 t = iblk1 V c 2 t) (t : Fin (cfgM (F := F)).N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, as the pipeline passes it to the body. -/
abbrev ms1_0 (t : Fin (cfgM (F := F)).N) : Memref sig .tc .vmem S1x1024x64 .bf16 := spec1_0.stage ((cfgM (F := F)).slots t 0)
abbrev hs1_0 (t : Fin (cfgM (F := F)).N) : (ms1_0 (F := F) t).IsWhole := hstage1_0 (((cfgM (F := F)).slots t 0).cast nbuf1_0)
abbrev ms1_1 (t : Fin (cfgM (F := F)).N) : Memref sig .tc .vmem S1x512x64 .bf16 := spec1_1.stage ((cfgM (F := F)).slots t 1)
abbrev hs1_1 (t : Fin (cfgM (F := F)).N) : (ms1_1 (F := F) t).IsWhole := hstage1_1 (((cfgM (F := F)).slots t 1).cast nbuf1_1)
abbrev ms1_2 (t : Fin (cfgM (F := F)).N) : Memref sig .tc .vmem S1x512x64 .bf16 := spec1_2.stage ((cfgM (F := F)).slots t 2)
abbrev hs1_2 (t : Fin (cfgM (F := F)).N) : (ms1_2 (F := F) t).IsWhole := hstage1_2 (((cfgM (F := F)).slots t 2).cast nbuf1_2)
abbrev ms1_3 (t : Fin (cfgM (F := F)).N) : Memref sig .tc .vmem S1x1024x64 .f32 := spec1_3.stage ((cfgM (F := F)).slots t 3)
abbrev hs1_3 (t : Fin (cfgM (F := F)).N) : (ms1_3 (F := F) t).IsWhole := hstage1_3 (((cfgM (F := F)).slots t 3).cast nbuf1_3)

/-- The body at point `t`, on what the pipeline calls it with. -/
abbrev bodyAt1 (t : Fin (cfgM (F := F)).N) : Prog (TpuEff nD τ sig (Elt F) Λ₀ .tc) PUnit :=
  cc1__attn_kernel (grid1.coords t) tbM1_0 htbM1_0 tbM1_1 htbM1_1 tbM1_2 htbM1_2 tbM1_3 htbM1_3 (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _)

/-! ## The trajectory -/

/-- Running maximum, running normaliser, running weighted sum. -/
abbrev S3 : Type := Vec F S1024x1 .f32 × Vec F S1024x1 .f32 × Vec F S1024x64 .f32

/-- Contents nothing reads: the output block off the last tiles, and the state at combinations of the three tests
    that no grid point meets. -/
def junkO : Vec F S1x1024x64 .f32 := VO1_3.read (Elt F) VO1_3.junk
def dflt3 : S3 (F := F) := (VS1_0.read (Elt F) VS1_0.junk, VS1_1.read (Elt F) VS1_1.junk, VS1_2.read (Elt F) VS1_2.junk)
def dflt4 : Vec F S1x1024x64 .f32 × S3 (F := F) := (junkO, dflt3)

/-- One grid point: the output block and the scratch after the body at `t`, from the scratch `p` the point before
    left — the control case the three table words select, run on the point's input blocks. -/
def stepAt (c : Dev nD) (t : Fin (cfgM (F := F)).N) (p : S3 (F := F)) : Vec F S1x1024x64 .f32 × S3 (F := F) :=
  if hF : condF (wF (F := F) c t) then
    if hM : condM (wM (F := F) c t) then
      if hL : condL (wL (F := F) c t) then dflt4
      else (junkO, (sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => ((wordFacts c t).1.mp h) hM) hL), (sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => ((wordFacts c t).1.mp h) hM) hL), (sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => ((wordFacts c t).1.mp h) hM) hL))
    else
      if hL : condL (wL (F := F) c t) then dflt4
      else (junkO, (sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM ((wordFacts c t).1.mpr hM) hL), (sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM ((wordFacts c t).1.mpr hM) hL), (sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM ((wordFacts c t).1.mpr hM) hL))
  else
    if hM : condM (wM (F := F) c t) then
      if hL : condL (wL (F := F) c t) then ((out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => ((wordFacts c t).1.mp h) hM) hL p.1 p.2.1 p.2.2), (sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => ((wordFacts c t).1.mp h) hM) hL p.1 p.2.1 p.2.2), (sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => ((wordFacts c t).1.mp h) hM) hL p.1 p.2.1 p.2.2), (sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => ((wordFacts c t).1.mp h) hM) hL p.1 p.2.1 p.2.2))
      else (junkO, (sout1_E_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => ((wordFacts c t).1.mp h) hM) hL p.1 p.2.1 p.2.2), (sout1_E_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => ((wordFacts c t).1.mp h) hM) hL p.1 p.2.1 p.2.2), (sout1_E_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => ((wordFacts c t).1.mp h) hM) hL p.1 p.2.1 p.2.2))
    else
      if hL : condL (wL (F := F) c t) then dflt4
      else (junkO, (sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM ((wordFacts c t).1.mpr hM) hL p.1 p.2.1 p.2.2), (sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM ((wordFacts c t).1.mpr hM) hL p.1 p.2.1 p.2.2), (sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM ((wordFacts c t).1.mpr hM) hL p.1 p.2.1 p.2.2))

theorem stepAt_A (c : Dev nD) (t : Fin (cfgM (F := F)).N) (p : S3 (F := F)) (hF : condF (wF (F := F) c t)) (hM : condM (wM (F := F) c t)) (hL : ¬condL (wL (F := F) c t)) :
    stepAt V c t p = (junkO, (sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => ((wordFacts c t).1.mp h) hM) hL), (sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => ((wordFacts c t).1.mp h) hM) hL), (sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => ((wordFacts c t).1.mp h) hM) hL)) :=
  (dif_pos hF).trans ((dif_pos hM).trans ((dif_neg hL).trans rfl))

theorem stepAt_B (c : Dev nD) (t : Fin (cfgM (F := F)).N) (p : S3 (F := F)) (hF : ¬condF (wF (F := F) c t)) (hM : condM (wM (F := F) c t)) (hL : condL (wL (F := F) c t)) :
    stepAt V c t p = ((out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => ((wordFacts c t).1.mp h) hM) hL p.1 p.2.1 p.2.2), (sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => ((wordFacts c t).1.mp h) hM) hL p.1 p.2.1 p.2.2), (sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => ((wordFacts c t).1.mp h) hM) hL p.1 p.2.1 p.2.2), (sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => ((wordFacts c t).1.mp h) hM) hL p.1 p.2.1 p.2.2)) :=
  (dif_neg hF).trans ((dif_pos hM).trans ((dif_pos hL).trans rfl))

theorem stepAt_C (c : Dev nD) (t : Fin (cfgM (F := F)).N) (p : S3 (F := F)) (hF : condF (wF (F := F) c t)) (hM : ¬condM (wM (F := F) c t)) (hL : ¬condL (wL (F := F) c t)) :
    stepAt V c t p = (junkO, (sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM ((wordFacts c t).1.mpr hM) hL), (sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM ((wordFacts c t).1.mpr hM) hL), (sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM ((wordFacts c t).1.mpr hM) hL)) :=
  (dif_pos hF).trans ((dif_neg hM).trans ((dif_neg hL).trans rfl))

theorem stepAt_D (c : Dev nD) (t : Fin (cfgM (F := F)).N) (p : S3 (F := F)) (hF : ¬condF (wF (F := F) c t)) (hM : ¬condM (wM (F := F) c t)) (hL : ¬condL (wL (F := F) c t)) :
    stepAt V c t p = (junkO, (sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM ((wordFacts c t).1.mpr hM) hL p.1 p.2.1 p.2.2), (sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM ((wordFacts c t).1.mpr hM) hL p.1 p.2.1 p.2.2), (sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM ((wordFacts c t).1.mpr hM) hL p.1 p.2.1 p.2.2)) :=
  (dif_neg hF).trans ((dif_neg hM).trans ((dif_neg hL).trans rfl))

theorem stepAt_E (c : Dev nD) (t : Fin (cfgM (F := F)).N) (p : S3 (F := F)) (hF : ¬condF (wF (F := F) c t)) (hM : condM (wM (F := F) c t)) (hL : ¬condL (wL (F := F) c t)) :
    stepAt V c t p = (junkO, (sout1_E_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => ((wordFacts c t).1.mp h) hM) hL p.1 p.2.1 p.2.2), (sout1_E_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => ((wordFacts c t).1.mp h) hM) hL p.1 p.2.1 p.2.2), (sout1_E_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => ((wordFacts c t).1.mp h) hM) hL p.1 p.2.1 p.2.2)) :=
  (dif_neg hF).trans ((dif_pos hM).trans ((dif_neg hL).trans rfl))

/-- THE TRAJECTORY: the output block and the scratch after the body at position `n`. -/
def outsAt1 (c : Dev nD) : (n : ℕ) → n < (cfgM (F := F)).N → Vec F S1x1024x64 .f32 × S3 (F := F)
  | 0, hn => stepAt V c ⟨0, hn⟩ dflt3
  | n + 1, hn => stepAt V c ⟨n + 1, hn⟩ (outsAt1 c n (Nat.lt_of_succ_lt hn)).2

theorem outsAt1_pos (c : Dev nD) (t : Fin (cfgM (F := F)).N) (ht : t.val ≠ 0) :
    outsAt1 V c t.val t.isLt = stepAt V c t (outsAt1 V c (t.val - 1) (Nat.lt_of_le_of_lt (Nat.sub_le _ _) t.isLt)).2 := by
  obtain ⟨n, hn⟩ := t
  cases n with
  | zero => exact absurd rfl ht
  | succ n => rfl

theorem outsAt1_zero (c : Dev nD) (t : Fin (cfgM (F := F)).N) (ht : t.val = 0) :
    outsAt1 V c t.val t.isLt = stepAt V c t dflt3 := by
  obtain ⟨n, hn⟩ := t
  cases n with
  | zero => rfl
  | succ n => exact absurd ht (Nat.succ_ne_zero n)

/-! ## The invariant -/

/-- The class invariant with the three scratch buffers as memrefs owned at some contents: beside them the first
    region's eleven staging buffers, which this region leaves alone, and the generator register. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-- The invariant before position `n`: before the first point the class's; afterwards the same with each scratch
    buffer at what the point before left in it. -/
def PhiS (c : Dev nD) : (n : ℕ) → n ≤ (cfgM (F := F)).N → sProp 𝕄
  | 0, _ => Pipeline.ΦA spec1 c
  | n + 1, hn => iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r))

theorem PhiS_zero (c : Dev nD) (n : ℕ) (h : n ≤ (cfgM (F := F)).N) (hz : n = 0) : PhiS V c n h = Pipeline.ΦA spec1 c := by
  subst hz; rfl

theorem PhiS_succ (c : Dev nD) (n : ℕ) (hn : n < (cfgM (F := F)).N) :
    PhiS V c (n + 1) hn = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) := rfl

theorem PhiS_pos (c : Dev nD) (n : ℕ) (h : n ≤ (cfgM (F := F)).N) (hz : n ≠ 0) :
    PhiS V c n h = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl

/-- The tables' halves the region hands the body, table by table. -/
theorem PhiT1_eq (c : Dev nD) : (Pipeline.ΦT pre1 (litTbl (F := F)) c : sProp 𝕄) = iprop(tbPt1 c tbM1_0 (litTbl 0) ∗ tbPt1 c tbM1_1 (litTbl 1) ∗ tbPt1 c tbM1_2 (litTbl 2) ∗ tbPt1 c tbM1_3 (litTbl 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The proof data -/

/-- The proof data of the attention pipeline on core `c`: the arrays as the region finds them; after the body at
    point `t` each input's buffer at its block and the output's at the trajectory's block; the invariant the scratch
    at the trajectory's state beside the tables' halves; nothing owed; full shares. -/
def dat1 (c : Dev nD) : Dat τ (Elt F) Unit ℕ (UR sig nD τ) ℕ (cfgM (F := F)) c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := iprop(PhiS V c t.val (Nat.le_of_lt_succ t.isLt) ∗ Pipeline.ΦT pre1 (litTbl (F := F)) c)
  q _ := fullShare
  owed _ := 0

theorem A_eq1 (c : Dev nD) (w : Fin (cfgM (F := F)).W) : (dat1 V c).A w = V c (Pipeline.arrRef spec1 w) := by
  dsimp only [dat1]

theorem Phi_castSucc (c : Dev nD) (t : Fin (cfgM (F := F)).N) :
    (dat1 V c).Φ t.castSucc = iprop(PhiS V c t.val (Nat.le_of_lt t.isLt) ∗ Pipeline.ΦT pre1 (litTbl (F := F)) c) := by
  dsimp only [dat1]; simp only [Fin.coe_castSucc]

theorem after1_0 (c : Dev nD) (t : Fin (cfgM (F := F)).N) : (dat1 V c).after 0 t = iblk1 V c 0 t := by dsimp only [dat1]; rfl
theorem after1_1 (c : Dev nD) (t : Fin (cfgM (F := F)).N) : (dat1 V c).after 1 t = iblk1 V c 1 t := by dsimp only [dat1]; rfl
theorem after1_2 (c : Dev nD) (t : Fin (cfgM (F := F)).N) : (dat1 V c).after 2 t = iblk1 V c 2 t := by dsimp only [dat1]; rfl
theorem after1_3 (c : Dev nD) (t : Fin (cfgM (F := F)).N) : (dat1 V c).after 3 t = (outsAt1 V c t.val t.isLt).1 := by dsimp only [dat1]; rfl

theorem before1_0 (c : Dev nD) (t : Fin (cfgM (F := F)).N) (d) : (dat1 V c).before 0 t d = iblk1 V c 0 t :=
  before1_0_of V (dat1 V c) (A_eq1 V c 0) (after1_0 V c) t d
theorem before1_1 (c : Dev nD) (t : Fin (cfgM (F := F)).N) (d) : (dat1 V c).before 1 t d = iblk1 V c 1 t :=
  before1_1_of V (dat1 V c) (A_eq1 V c 1) (after1_1 V c) t d
theorem before1_2 (c : Dev nD) (t : Fin (cfgM (F := F)).N) (d) : (dat1 V c).before 2 t d = iblk1 V c 2 t :=
  before1_2_of V (dat1 V c) (A_eq1 V c 2) (after1_2 V c) t d

/-- The input windows are never idle. -/
theorem liveAt1_0 (t : Fin (cfgM (F := F)).N) : (cfgM (F := F)).idle 0 (grid1.coords t) = false := rfl
theorem liveAt1_1 (t : Fin (cfgM (F := F)).N) : (cfgM (F := F)).idle 1 (grid1.coords t) = false := rfl
theorem liveAt1_2 (t : Fin (cfgM (F := F)).N) : (cfgM (F := F)).idle 2 (grid1.coords t) = false := rfl

end Cert.KernelIdeal.Att

end
-- ==== Proof.Reg1Body.lean ====
import proofs.«175909_j62251255988572_2_alg».proof.Proof.Reg1

/-! The body obligation of the attention pipeline, at every grid point: the three table words select the control
    case; the inputs' staging buffers hold their blocks; the invariant hands the body the scratch at what the point
    before left (at anything where the case resets it) and takes it back at this point's state; off the last tiles
    the output's buffer goes back untouched, at a last tile it holds the quotient. -/

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre1 (c : Dev nD) (t : Fin (cfgM (F := F)).N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin (cfgM (F := F)).N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- The invariant at a point's start and end, with the tables' halves one by one. -/
theorem Phi_pre (c : Dev nD) (t : Fin (cfgM (F := F)).N) :
    (dat1 V c).Φ t.castSucc = iprop(PhiS V c t.val (Nat.le_of_lt t.isLt) ∗ (tbPt1 c tbM1_0 (litTbl 0) ∗ tbPt1 c tbM1_1 (litTbl 1) ∗ tbPt1 c tbM1_2 (litTbl 2) ∗ tbPt1 c tbM1_3 (litTbl 3))) := by
  rw [Phi_castSucc, PhiT1_eq]
theorem Phi_post (c : Dev nD) (t : Fin (cfgM (F := F)).N) :
    (dat1 V c).Φ t.succ = iprop(PhiS V c (t.val + 1) t.isLt ∗ (tbPt1 c tbM1_0 (litTbl 0) ∗ tbPt1 c tbM1_1 (litTbl 1) ∗ tbPt1 c tbM1_2 (litTbl 2) ∗ tbPt1 c tbM1_3 (litTbl 3))) := by
  rw [show (dat1 V c).Φ t.succ = iprop(PhiS V c (t.val + 1) t.isLt ∗ Pipeline.ΦT pre1 (litTbl (F := F)) c) from rfl, PhiT1_eq]

set_option maxHeartbeats 8000000 in
theorem sound_body1 (c : Dev nD) (t : Fin (cfgM (F := F)).N) :
    bodyPre1 V c t ⊢ wp frame (wpE (defs₀ (F := F)) Variants.none c none) Set.univ (bodyAt1 (F := F) t) (fun _ => bodyPost1 V c t) := by
  unfold bodyPre1 bodyPost1 bodyAt1
  simp only [before1_0, before1_1, before1_2]
  rw [show (dat1 V c).owesAt () t.succ = (dat1 V c).owesAt () t.castSucc from rfl]
  rw [Phi_post V c t, PhiS_succ]
  rw [show (dat1 V c).leavesExact 0 t = owns (c : Thread nD τ) (ms1_0 t) fullShare ((dat1 V c).after 0 t) from by
    unfold Dat.leavesExact; rw [liveAt1_0 t]; rfl, after1_0]
  rw [show (dat1 V c).leavesExact 1 t = owns (c : Thread nD τ) (ms1_1 t) fullShare ((dat1 V c).after 1 t) from by
    unfold Dat.leavesExact; rw [liveAt1_1 t]; rfl, after1_1]
  rw [show (dat1 V c).leavesExact 2 t = owns (c : Thread nD τ) (ms1_2 t) fullShare ((dat1 V c).after 2 t) from by
    unfold Dat.leavesExact; rw [liveAt1_2 t]; rfl, after1_2]
  obtain ⟨hcompl, hlast, hzero, hidle, hlive⟩ := wordFacts (F := F) c t
  by_cases hF : condF (wF (F := F) c t)
  · by_cases hM : condM (wM (F := F) c t)
    · by_cases hL : condL (wL (F := F) c t)
      · exact absurd hF (hlast hL).1
      · rw [Dat.leavesExact_idle (dat1 V c) 3 t (hidle hL).1 (hidle hL).2]
        by_cases hz : t.val = 0
        · rw [outsAt1_zero V c t hz, stepAt_A V c t _ hF hM hL]
          (try dsimp only)
          unfold sout1_A_0 sout1_A_1 sout1_A_2; (try dsimp only)
          rw [Phi_pre V c t, PhiS_zero V c _ _ hz, PhiA1_eq]
          iintro ⟨⟨⟨⟨HA0, HA1, HA2, HA3, HA4, HA5, HA6, HA7, HA8, HA9, HA10, HS0, HS1, HS2⟩, Hg⟩, ⟨HT0, HT1, HT2, HT3⟩⟩, Ho, ⟨%d0, H0⟩, ⟨%d1, H1⟩, ⟨%d2, H2⟩, ⟨%d3, H3⟩⟩
          iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => (hcompl.mp h) hM) hL).2.2.2 _ Set.univ _)
          isplitl [H0]; · iexact H0
          isplitl [H1]; · iexact H1
          isplitl [H2]; · iexact H2
          isplitl [H3]; · iexact H3
          isplitl [HS0]; · iexact HS0
          isplitl [HS1]; · iexact HS1
          isplitl [HS2]; · iexact HS2
          isplitl [HT0]; · iexact HT0
          isplitl [HT1]; · iexact HT1
          isplitl [HT2]; · iexact HT2
          isplitl [HT3]; · iexact HT3
          iintro ⟨H0, H1, H2, H3, ⟨%es0, HS0⟩, ⟨%es1, HS1⟩, ⟨%es2, HS2⟩, HT0, HT1, HT2, HT3⟩
          isplitl [HA0 HA1 HA2 HA3 HA4 HA5 HA6 HA7 HA8 HA9 HA10 HS0 HS1 HS2 Hg HT0 HT1 HT2 HT3]
          · isplitl [HA0 HA1 HA2 HA3 HA4 HA5 HA6 HA7 HA8 HA9 HA10 HS0 HS1 HS2 Hg]
            · isplitl [HA0 HA1 HA2 HA3 HA4 HA5 HA6 HA7 HA8 HA9 HA10 HS0 HS1 HS2]
              · isplitl [HA0]; · iexact HA0
                isplitl [HA1]; · iexact HA1
                isplitl [HA2]; · iexact HA2
                isplitl [HA3]; · iexact HA3
                isplitl [HA4]; · iexact HA4
                isplitl [HA5]; · iexact HA5
                isplitl [HA6]; · iexact HA6
                isplitl [HA7]; · iexact HA7
                isplitl [HA8]; · iexact HA8
                isplitl [HA9]; · iexact HA9
                isplitl [HA10]; · iexact HA10
                isplitl [HS0]
                · unfold owns; iexists _; isplitr
                  swap; · iexact HS0
                  ipureintro; exact View.read_writes_of_cover _ _ _ _ _ (scover1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => (hcompl.mp h) hM) hL)
                isplitl [HS1]
                · unfold owns; iexists _; isplitr
                  swap; · iexact HS1
                  ipureintro; exact View.read_writes_of_cover _ _ _ _ _ (scover1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => (hcompl.mp h) hM) hL)
                unfold owns; iexists _; isplitr
                swap; · iexact HS2
                ipureintro; exact View.read_writes_of_cover _ _ _ _ _ (scover1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => (hcompl.mp h) hM) hL)
              iexact Hg
            isplitl [HT0]; · iexact HT0
            isplitl [HT1]; · iexact HT1
            isplitl [HT2]; · iexact HT2
            iexact HT3
          isplitl [Ho]; · iexact Ho
          isplitl [H0]; · iexact H0
          isplitl [H1]; · iexact H1
          isplitl [H2]; · iexact H2
          iexists _; iexact H3
        · rw [outsAt1_pos V c t hz, stepAt_A V c t _ hF hM hL]
          (try dsimp only)
          unfold sout1_A_0 sout1_A_1 sout1_A_2; (try dsimp only)
          rw [Phi_pre V c t, PhiS_pos V c _ _ hz]
          iintro ⟨⟨⟨⟨HA0, HA1, HA2, HA3, HA4, HA5, HA6, HA7, HA8, HA9, HA10, HS0, HS1, HS2⟩, Hg⟩, ⟨HT0, HT1, HT2, HT3⟩⟩, Ho, ⟨%d0, H0⟩, ⟨%d1, H1⟩, ⟨%d2, H2⟩, ⟨%d3, H3⟩⟩
          iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => (hcompl.mp h) hM) hL).2.2.2 _ Set.univ _)
          isplitl [H0]; · iexact H0
          isplitl [H1]; · iexact H1
          isplitl [H2]; · iexact H2
          isplitl [H3]; · iexact H3
          isplitl [HS0]; · iexists _; iexact HS0
          isplitl [HS1]; · iexists _; iexact HS1
          isplitl [HS2]; · iexists _; iexact HS2
          isplitl [HT0]; · iexact HT0
          isplitl [HT1]; · iexact HT1
          isplitl [HT2]; · iexact HT2
          isplitl [HT3]; · iexact HT3
          iintro ⟨H0, H1, H2, H3, ⟨%es0, HS0⟩, ⟨%es1, HS1⟩, ⟨%es2, HS2⟩, HT0, HT1, HT2, HT3⟩
          isplitl [HA0 HA1 HA2 HA3 HA4 HA5 HA6 HA7 HA8 HA9 HA10 HS0 HS1 HS2 Hg HT0 HT1 HT2 HT3]
          · isplitl [HA0 HA1 HA2 HA3 HA4 HA5 HA6 HA7 HA8 HA9 HA10 HS0 HS1 HS2 Hg]
            · isplitl [HA0 HA1 HA2 HA3 HA4 HA5 HA6 HA7 HA8 HA9 HA10 HS0 HS1 HS2]
              · isplitl [HA0]; · iexact HA0
                isplitl [HA1]; · iexact HA1
                isplitl [HA2]; · iexact HA2
                isplitl [HA3]; · iexact HA3
                isplitl [HA4]; · iexact HA4
                isplitl [HA5]; · iexact HA5
                isplitl [HA6]; · iexact HA6
                isplitl [HA7]; · iexact HA7
                isplitl [HA8]; · iexact HA8
                isplitl [HA9]; · iexact HA9
                isplitl [HA10]; · iexact HA10
                isplitl [HS0]
                · unfold owns; iexists _; isplitr
                  swap; · iexact HS0
                  ipureintro; exact View.read_writes_of_cover _ _ _ _ _ (scover1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => (hcompl.mp h) hM) hL)
                isplitl [HS1]
                · unfold owns; iexists _; isplitr
                  swap; · iexact HS1
                  ipureintro; exact View.read_writes_of_cover _ _ _ _ _ (scover1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => (hcompl.mp h) hM) hL)
                unfold owns; iexists _; isplitr
                swap; · iexact HS2
                ipureintro; exact View.read_writes_of_cover _ _ _ _ _ (scover1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => (hcompl.mp h) hM) hL)
              iexact Hg
            isplitl [HT0]; · iexact HT0
            isplitl [HT1]; · iexact HT1
            isplitl [HT2]; · iexact HT2
            iexact HT3
          isplitl [Ho]; · iexact Ho
          isplitl [H0]; · iexact H0
          isplitl [H1]; · iexact H1
          isplitl [H2]; · iexact H2
          iexists _; iexact H3
    · by_cases hL : condL (wL (F := F) c t)
      · exact absurd hF (hlast hL).1
      · rw [Dat.leavesExact_idle (dat1 V c) 3 t (hidle hL).1 (hidle hL).2]
        by_cases hz : t.val = 0
        · rw [outsAt1_zero V c t hz, stepAt_C V c t _ hF hM hL]
          (try dsimp only)
          unfold sout1_C_0 sout1_C_1 sout1_C_2; (try dsimp only)
          rw [Phi_pre V c t, PhiS_zero V c _ _ hz, PhiA1_eq]
          iintro ⟨⟨⟨⟨HA0, HA1, HA2, HA3, HA4, HA5, HA6, HA7, HA8, HA9, HA10, HS0, HS1, HS2⟩, Hg⟩, ⟨HT0, HT1, HT2, HT3⟩⟩, Ho, ⟨%d0, H0⟩, ⟨%d1, H1⟩, ⟨%d2, H2⟩, ⟨%d3, H3⟩⟩
          iapply ((kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (hcompl.mpr hM) hL).2.2.2 _ Set.univ _)
          isplitl [H0]; · iexact H0
          isplitl [H1]; · iexact H1
          isplitl [H2]; · iexact H2
          isplitl [H3]; · iexact H3
          isplitl [HS0]; · iexact HS0
          isplitl [HS1]; · iexact HS1
          isplitl [HS2]; · iexact HS2
          isplitl [HT0]; · iexact HT0
          isplitl [HT1]; · iexact HT1
          isplitl [HT2]; · iexact HT2
          isplitl [HT3]; · iexact HT3
          iintro ⟨H0, H1, H2, H3, ⟨%es0, HS0⟩, ⟨%es1, HS1⟩, ⟨%es2, HS2⟩, HT0, HT1, HT2, HT3⟩
          isplitl [HA0 HA1 HA2 HA3 HA4 HA5 HA6 HA7 HA8 HA9 HA10 HS0 HS1 HS2 Hg HT0 HT1 HT2 HT3]
          · isplitl [HA0 HA1 HA2 HA3 HA4 HA5 HA6 HA7 HA8 HA9 HA10 HS0 HS1 HS2 Hg]
            · isplitl [HA0 HA1 HA2 HA3 HA4 HA5 HA6 HA7 HA8 HA9 HA10 HS0 HS1 HS2]
              · isplitl [HA0]; · iexact HA0
                isplitl [HA1]; · iexact HA1
                isplitl [HA2]; · iexact HA2
                isplitl [HA3]; · iexact HA3
                isplitl [HA4]; · iexact HA4
                isplitl [HA5]; · iexact HA5
                isplitl [HA6]; · iexact HA6
                isplitl [HA7]; · iexact HA7
                isplitl [HA8]; · iexact HA8
                isplitl [HA9]; · iexact HA9
                isplitl [HA10]; · iexact HA10
                isplitl [HS0]
                · unfold owns; iexists _; isplitr
                  swap; · iexact HS0
                  ipureintro; exact View.read_writes_of_cover _ _ _ _ _ (scover1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (hcompl.mpr hM) hL)
                isplitl [HS1]
                · unfold owns; iexists _; isplitr
                  swap; · iexact HS1
                  ipureintro; exact View.read_writes_of_cover _ _ _ _ _ (scover1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (hcompl.mpr hM) hL)
                unfold owns; iexists _; isplitr
                swap; · iexact HS2
                ipureintro; exact View.read_writes_of_cover _ _ _ _ _ (scover1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (hcompl.mpr hM) hL)
              iexact Hg
            isplitl [HT0]; · iexact HT0
            isplitl [HT1]; · iexact HT1
            isplitl [HT2]; · iexact HT2
            iexact HT3
          isplitl [Ho]; · iexact Ho
          isplitl [H0]; · iexact H0
          isplitl [H1]; · iexact H1
          isplitl [H2]; · iexact H2
          iexists _; iexact H3
        · rw [outsAt1_pos V c t hz, stepAt_C V c t _ hF hM hL]
          (try dsimp only)
          unfold sout1_C_0 sout1_C_1 sout1_C_2; (try dsimp only)
          rw [Phi_pre V c t, PhiS_pos V c _ _ hz]
          iintro ⟨⟨⟨⟨HA0, HA1, HA2, HA3, HA4, HA5, HA6, HA7, HA8, HA9, HA10, HS0, HS1, HS2⟩, Hg⟩, ⟨HT0, HT1, HT2, HT3⟩⟩, Ho, ⟨%d0, H0⟩, ⟨%d1, H1⟩, ⟨%d2, H2⟩, ⟨%d3, H3⟩⟩
          iapply ((kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (hcompl.mpr hM) hL).2.2.2 _ Set.univ _)
          isplitl [H0]; · iexact H0
          isplitl [H1]; · iexact H1
          isplitl [H2]; · iexact H2
          isplitl [H3]; · iexact H3
          isplitl [HS0]; · iexists _; iexact HS0
          isplitl [HS1]; · iexists _; iexact HS1
          isplitl [HS2]; · iexists _; iexact HS2
          isplitl [HT0]; · iexact HT0
          isplitl [HT1]; · iexact HT1
          isplitl [HT2]; · iexact HT2
          isplitl [HT3]; · iexact HT3
          iintro ⟨H0, H1, H2, H3, ⟨%es0, HS0⟩, ⟨%es1, HS1⟩, ⟨%es2, HS2⟩, HT0, HT1, HT2, HT3⟩
          isplitl [HA0 HA1 HA2 HA3 HA4 HA5 HA6 HA7 HA8 HA9 HA10 HS0 HS1 HS2 Hg HT0 HT1 HT2 HT3]
          · isplitl [HA0 HA1 HA2 HA3 HA4 HA5 HA6 HA7 HA8 HA9 HA10 HS0 HS1 HS2 Hg]
            · isplitl [HA0 HA1 HA2 HA3 HA4 HA5 HA6 HA7 HA8 HA9 HA10 HS0 HS1 HS2]
              · isplitl [HA0]; · iexact HA0
                isplitl [HA1]; · iexact HA1
                isplitl [HA2]; · iexact HA2
                isplitl [HA3]; · iexact HA3
                isplitl [HA4]; · iexact HA4
                isplitl [HA5]; · iexact HA5
                isplitl [HA6]; · iexact HA6
                isplitl [HA7]; · iexact HA7
                isplitl [HA8]; · iexact HA8
                isplitl [HA9]; · iexact HA9
                isplitl [HA10]; · iexact HA10
                isplitl [HS0]
                · unfold owns; iexists _; isplitr
                  swap; · iexact HS0
                  ipureintro; exact View.read_writes_of_cover _ _ _ _ _ (scover1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (hcompl.mpr hM) hL)
                isplitl [HS1]
                · unfold owns; iexists _; isplitr
                  swap; · iexact HS1
                  ipureintro; exact View.read_writes_of_cover _ _ _ _ _ (scover1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (hcompl.mpr hM) hL)
                unfold owns; iexists _; isplitr
                swap; · iexact HS2
                ipureintro; exact View.read_writes_of_cover _ _ _ _ _ (scover1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (hcompl.mpr hM) hL)
              iexact Hg
            isplitl [HT0]; · iexact HT0
            isplitl [HT1]; · iexact HT1
            isplitl [HT2]; · iexact HT2
            iexact HT3
          isplitl [Ho]; · iexact Ho
          isplitl [H0]; · iexact H0
          isplitl [H1]; · iexact H1
          isplitl [H2]; · iexact H2
          iexists _; iexact H3
  · by_cases hM : condM (wM (F := F) c t)
    · by_cases hL : condL (wL (F := F) c t)
      · rw [show (dat1 V c).leavesExact 3 t = owns (c : Thread nD τ) (ms1_3 t) fullShare ((dat1 V c).after 3 t) from by
          unfold Dat.leavesExact; rw [hlive hL]; rfl, after1_3]
        have hz : t.val ≠ 0 := fun h => hF (hzero h)
        rw [outsAt1_pos V c t hz, stepAt_B V c t _ hF hM hL]
        (try dsimp only)
        unfold out1_B_3 sout1_B_0 sout1_B_1 sout1_B_2; (try dsimp only)
        rw [Phi_pre V c t, PhiS_pos V c _ _ hz]
        iintro ⟨⟨⟨⟨HA0, HA1, HA2, HA3, HA4, HA5, HA6, HA7, HA8, HA9, HA10, HS0, HS1, HS2⟩, Hg⟩, ⟨HT0, HT1, HT2, HT3⟩⟩, Ho, ⟨%d0, H0⟩, ⟨%d1, H1⟩, ⟨%d2, H2⟩, ⟨%d3, H3⟩⟩
        iapply ((kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => (hcompl.mp h) hM) hL (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        isplitl [HT0]; · iexact HT0
        isplitl [HT1]; · iexact HT1
        isplitl [HT2]; · iexact HT2
        isplitl [HT3]; · iexact HT3
        iintro ⟨H0, H1, H2, ⟨%e3, H3⟩, ⟨%es0, HS0⟩, ⟨%es1, HS1⟩, ⟨%es2, HS2⟩, HT0, HT1, HT2, HT3⟩
        isplitl [HA0 HA1 HA2 HA3 HA4 HA5 HA6 HA7 HA8 HA9 HA10 HS0 HS1 HS2 Hg HT0 HT1 HT2 HT3]
        · isplitl [HA0 HA1 HA2 HA3 HA4 HA5 HA6 HA7 HA8 HA9 HA10 HS0 HS1 HS2 Hg]
          · isplitl [HA0 HA1 HA2 HA3 HA4 HA5 HA6 HA7 HA8 HA9 HA10 HS0 HS1 HS2]
            · isplitl [HA0]; · iexact HA0
              isplitl [HA1]; · iexact HA1
              isplitl [HA2]; · iexact HA2
              isplitl [HA3]; · iexact HA3
              isplitl [HA4]; · iexact HA4
              isplitl [HA5]; · iexact HA5
              isplitl [HA6]; · iexact HA6
              isplitl [HA7]; · iexact HA7
              isplitl [HA8]; · iexact HA8
              isplitl [HA9]; · iexact HA9
              isplitl [HA10]; · iexact HA10
              isplitl [HS0]
              · unfold owns; iexists _; isplitr
                swap; · iexact HS0
                ipureintro; exact View.read_writes_of_cover _ _ _ _ _ (scover1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => (hcompl.mp h) hM) hL (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
              isplitl [HS1]
              · unfold owns; iexists _; isplitr
                swap; · iexact HS1
                ipureintro; exact View.read_writes_of_cover _ _ _ _ _ (scover1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => (hcompl.mp h) hM) hL (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
              unfold owns; iexists _; isplitr
              swap; · iexact HS2
              ipureintro; exact View.read_writes_of_cover _ _ _ _ _ (scover1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => (hcompl.mp h) hM) hL (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
            iexact Hg
          isplitl [HT0]; · iexact HT0
          isplitl [HT1]; · iexact HT1
          isplitl [HT2]; · iexact HT2
          iexact HT3
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => (hcompl.mp h) hM) hL (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
      · rw [Dat.leavesExact_idle (dat1 V c) 3 t (hidle hL).1 (hidle hL).2]
        have hz : t.val ≠ 0 := fun h => hF (hzero h)
        rw [outsAt1_pos V c t hz, stepAt_E V c t _ hF hM hL]
        (try dsimp only)
        unfold sout1_E_0 sout1_E_1 sout1_E_2; (try dsimp only)
        rw [Phi_pre V c t, PhiS_pos V c _ _ hz]
        iintro ⟨⟨⟨⟨HA0, HA1, HA2, HA3, HA4, HA5, HA6, HA7, HA8, HA9, HA10, HS0, HS1, HS2⟩, Hg⟩, ⟨HT0, HT1, HT2, HT3⟩⟩, Ho, ⟨%d0, H0⟩, ⟨%d1, H1⟩, ⟨%d2, H2⟩, ⟨%d3, H3⟩⟩
        iapply ((kernelRun1_E c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => (hcompl.mp h) hM) hL (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        isplitl [HT0]; · iexact HT0
        isplitl [HT1]; · iexact HT1
        isplitl [HT2]; · iexact HT2
        isplitl [HT3]; · iexact HT3
        iintro ⟨H0, H1, H2, H3, ⟨%es0, HS0⟩, ⟨%es1, HS1⟩, ⟨%es2, HS2⟩, HT0, HT1, HT2, HT3⟩
        isplitl [HA0 HA1 HA2 HA3 HA4 HA5 HA6 HA7 HA8 HA9 HA10 HS0 HS1 HS2 Hg HT0 HT1 HT2 HT3]
        · isplitl [HA0 HA1 HA2 HA3 HA4 HA5 HA6 HA7 HA8 HA9 HA10 HS0 HS1 HS2 Hg]
          · isplitl [HA0 HA1 HA2 HA3 HA4 HA5 HA6 HA7 HA8 HA9 HA10 HS0 HS1 HS2]
            · isplitl [HA0]; · iexact HA0
              isplitl [HA1]; · iexact HA1
              isplitl [HA2]; · iexact HA2
              isplitl [HA3]; · iexact HA3
              isplitl [HA4]; · iexact HA4
              isplitl [HA5]; · iexact HA5
              isplitl [HA6]; · iexact HA6
              isplitl [HA7]; · iexact HA7
              isplitl [HA8]; · iexact HA8
              isplitl [HA9]; · iexact HA9
              isplitl [HA10]; · iexact HA10
              isplitl [HS0]
              · unfold owns; iexists _; isplitr
                swap; · iexact HS0
                ipureintro; exact View.read_writes_of_cover _ _ _ _ _ (scover1_E_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => (hcompl.mp h) hM) hL (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
              isplitl [HS1]
              · unfold owns; iexists _; isplitr
                swap; · iexact HS1
                ipureintro; exact View.read_writes_of_cover _ _ _ _ _ (scover1_E_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => (hcompl.mp h) hM) hL (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
              unfold owns; iexists _; isplitr
              swap; · iexact HS2
              ipureintro; exact View.read_writes_of_cover _ _ _ _ _ (scover1_E_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => (hcompl.mp h) hM) hL (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
            iexact Hg
          isplitl [HT0]; · iexact HT0
          isplitl [HT1]; · iexact HT1
          isplitl [HT2]; · iexact HT2
          iexact HT3
        isplitl [Ho]; · iexact Ho
        isplitl [H0]; · iexact H0
        isplitl [H1]; · iexact H1
        isplitl [H2]; · iexact H2
        iexists _; iexact H3
    · by_cases hL : condL (wL (F := F) c t)
      · exact absurd (hlast hL).2 hM
      · rw [Dat.leavesExact_idle (dat1 V c) 3 t (hidle hL).1 (hidle hL).2]
        have hz : t.val ≠ 0 := fun h => hF (hzero h)
        rw [outsAt1_pos V c t hz, stepAt_D V c t _ hF hM hL]
        (try dsimp only)
        unfold sout1_D_0 sout1_D_1 sout1_D_2; (try dsimp only)
        rw [Phi_pre V c t, PhiS_pos V c _ _ hz]
        iintro ⟨⟨⟨⟨HA0, HA1, HA2, HA3, HA4, HA5, HA6, HA7, HA8, HA9, HA10, HS0, HS1, HS2⟩, Hg⟩, ⟨HT0, HT1, HT2, HT3⟩⟩, Ho, ⟨%d0, H0⟩, ⟨%d1, H1⟩, ⟨%d2, H2⟩, ⟨%d3, H3⟩⟩
        iapply ((kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (hcompl.mpr hM) hL (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        isplitl [HT0]; · iexact HT0
        isplitl [HT1]; · iexact HT1
        isplitl [HT2]; · iexact HT2
        isplitl [HT3]; · iexact HT3
        iintro ⟨H0, H1, H2, H3, ⟨%es0, HS0⟩, ⟨%es1, HS1⟩, ⟨%es2, HS2⟩, HT0, HT1, HT2, HT3⟩
        isplitl [HA0 HA1 HA2 HA3 HA4 HA5 HA6 HA7 HA8 HA9 HA10 HS0 HS1 HS2 Hg HT0 HT1 HT2 HT3]
        · isplitl [HA0 HA1 HA2 HA3 HA4 HA5 HA6 HA7 HA8 HA9 HA10 HS0 HS1 HS2 Hg]
          · isplitl [HA0 HA1 HA2 HA3 HA4 HA5 HA6 HA7 HA8 HA9 HA10 HS0 HS1 HS2]
            · isplitl [HA0]; · iexact HA0
              isplitl [HA1]; · iexact HA1
              isplitl [HA2]; · iexact HA2
              isplitl [HA3]; · iexact HA3
              isplitl [HA4]; · iexact HA4
              isplitl [HA5]; · iexact HA5
              isplitl [HA6]; · iexact HA6
              isplitl [HA7]; · iexact HA7
              isplitl [HA8]; · iexact HA8
              isplitl [HA9]; · iexact HA9
              isplitl [HA10]; · iexact HA10
              isplitl [HS0]
              · unfold owns; iexists _; isplitr
                swap; · iexact HS0
                ipureintro; exact View.read_writes_of_cover _ _ _ _ _ (scover1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (hcompl.mpr hM) hL (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
              isplitl [HS1]
              · unfold owns; iexists _; isplitr
                swap; · iexact HS1
                ipureintro; exact View.read_writes_of_cover _ _ _ _ _ (scover1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (hcompl.mpr hM) hL (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
              unfold owns; iexists _; isplitr
              swap; · iexact HS2
              ipureintro; exact View.read_writes_of_cover _ _ _ _ _ (scover1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (hcompl.mpr hM) hL (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
            iexact Hg
          isplitl [HT0]; · iexact HT0
          isplitl [HT1]; · iexact HT1
          isplitl [HT2]; · iexact HT2
          iexact HT3
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : iprop(Pipeline.ΦA spec1 c ∗ Pipeline.ΦT pre1 (litTbl (F := F)) c) ⊢ (dat1 V c).Φ 0 := by
  rw [show (dat1 V c).Φ 0 = iprop(PhiS V c 0 (Nat.zero_le _) ∗ Pipeline.ΦT pre1 (litTbl (F := F)) c) from rfl, PhiS_zero V c 0 _ rfl]
  try exact Idealize.SL.BI.Entails.refl _

/-- After the last point the invariant gives the class's back: the scratch's named contents are forgotten. -/
theorem hout1 (c : Dev nD) : (dat1 V c).Φ (Fin.last (cfgM (F := F)).N) ⊢ iprop(Pipeline.ΦA spec1 c ∗ Pipeline.ΦT pre1 (litTbl (F := F)) c) := by
  rw [show (dat1 V c).Φ (Fin.last (cfgM (F := F)).N) = iprop(PhiS V c (Fin.last (cfgM (F := F)).N).val (Nat.le_of_lt_succ (Fin.last _).isLt) ∗ Pipeline.ΦT pre1 (litTbl (F := F)) c) from rfl,
    PhiS_pos V c _ _ (by rw [Fin.val_last]; have : (cfgM (F := F)).N = 80 := N_M; omega), PhiA1_eq]
  iintro ⟨⟨⟨HA0, HA1, HA2, HA3, HA4, HA5, HA6, HA7, HA8, HA9, HA10, HS0, HS1, HS2⟩, Hg⟩, HT⟩
  isplitl [HA0 HA1 HA2 HA3 HA4 HA5 HA6 HA7 HA8 HA9 HA10 HS0 HS1 HS2 Hg]
  · isplitl [HA0 HA1 HA2 HA3 HA4 HA5 HA6 HA7 HA8 HA9 HA10 HS0 HS1 HS2]
    · isplitl [HA0]; · iexact HA0
      isplitl [HA1]; · iexact HA1
      isplitl [HA2]; · iexact HA2
      isplitl [HA3]; · iexact HA3
      isplitl [HA4]; · iexact HA4
      isplitl [HA5]; · iexact HA5
      isplitl [HA6]; · iexact HA6
      isplitl [HA7]; · iexact HA7
      isplitl [HA8]; · iexact HA8
      isplitl [HA9]; · iexact HA9
      isplitl [HA10]; · iexact HA10
      isplitl [HS0]; · iexists _; iexact HS0
      isplitl [HS1]; · iexists _; iexact HS1
      iexists _; iexact HS2
    iexact Hg
  iexact HT

end Cert.KernelIdeal.Att

end
-- ==== Proof.Run.lean ====
import proofs.«175909_j62251255988572_2_alg».proof.Proof.Reg0
import proofs.«175909_j62251255988572_2_alg».proof.Proof.Reg1Body
import proofs.«175909_j62251255988572_2_alg».proof.Proof.Gen.KernelIdeal.Regions

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-!
# The run of the whole program

The program is four stretches in a row: five host operations (the four index tables written as
constants, the input flattened to 16384 rows), the projection kernel, three host reshapes (each
projection back to batch × position × head), the attention kernel. The contents of every buffer
at each boundary are written as a fold from the launch memory: a host stretch rewrites the buffers
it writes, a kernel leaves in each of its arrays what its write-backs leave and every other buffer
as it was. Each kernel is entered from "every unscoped buffer at the boundary's contents" and left
at the next boundary's; the attention kernel reads its four index tables, which still hold the
constants the first stretch wrote.
-/

local notation "𝕄" => MT nD τ sig Unit (Elt F) ℕ (UR sig nD τ) ℕ

variable (m : (ℓ : Loc nD τ sig) → Buf (Elt F) ℓ) (ρ : Dev nD → PrngReg)

/-! ## The buffer contents at each boundary -/

/-- The buffers at launch. -/
abbrev W0 : Dev nD → Valuation τ sig (Elt F) := fun c b => (s₀ m ρ).mem ((c : Dev nD), b)
/-- After the first host stretch: what the projection kernel is entered from. -/
abbrev W1 : Dev nD → Valuation τ sig (Elt F) := fun c => StableHlo.after (hostOps0 (F := F)) (W0 m ρ c)
abbrev V1 : (c : Dev nD) → (b : Ref sig .tc) → Buf (Elt F) ((c : Thread nD τ).loc b) := fun c b => W1 m ρ c b
/-- After the projection kernel: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the three reshapes: what the attention kernel is entered from. -/
abbrev W3 : Dev nD → Valuation τ sig (Elt F) := fun c => StableHlo.after (hostOps1 (F := F)) (W2 m ρ c)
abbrev V3 : (c : Dev nD) → (b : Ref sig .tc) → Buf (Elt F) ((c : Thread nD τ).loc b) := fun c b => W3 m ρ c b
/-- After the attention kernel. -/
def W4 (c : Dev nD) : Valuation τ sig (Elt F) :=
  Pipeline.withArrays spec1 c (W3 m ρ c) fun w => (dat1 (V3 m ρ) c).arrAt w (cfg1 (F := F) adm1).N
theorem W4_arr (c : Dev nD) (w : Fin (cfg1 (F := F) adm1).W) :
    W4 m ρ c (Proc.devRef .tc (Pipeline.arrRef spec1 w)) = (dat1 (V3 m ρ) c).arrAt w (cfg1 (F := F) adm1).N := by
  unfold W4; exact Pipeline.withArrays_arr spec1 (launch1 (F := F)).win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin (cfg1 (F := F) adm1).W) : (dat1 (V3 m ρ) c).arrAt w (cfg1 (F := F) adm1).N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- A buffer the first host stretch does not write holds its launch contents after it. -/
theorem W1_of (c : Dev nD) (r : Ref sig .tc) (h : r ∉ hostOps0_W) : W1 m ρ c (Proc.devRef .tc r) = W0 m ρ c (Proc.devRef .tc r) :=
  StableHlo.after_of_writes_sub (hostOps0 (F := F)) _ hostOps0_writes h
/-- A buffer the reshapes do not write holds after them what the projection kernel left. -/
theorem W3_of (c : Dev nD) (r : Ref sig .tc) (h : r ∉ hostOps1_W) : W3 m ρ c (Proc.devRef .tc r) = W2 m ρ c (Proc.devRef .tc r) :=
  StableHlo.after_of_writes_sub (hostOps1 (F := F)) _ hostOps1_writes h

/-! ## The arguments end as launched

No host operation writes an argument; the projection kernel reads the three weight matrices through
input windows and never sees the unflattened input; the attention kernel sees none of the four. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := W1_of m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := W1_of m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := W1_of m ρ c main_arg3 (by decide)
    _ = m ((c : Thread nD τ).loc main_arg3) := rfl

/-- The result buffer ends at what the attention kernel's write-backs leave in its output array. -/
theorem W4_main_v5 (c : Dev nD) : W4 m ρ c (Proc.devRef .tc main_v5) = (dat1 (V3 m ρ) c).arrAt 3 (cfg1 (F := F) adm1).N :=
  W4_arr m ρ c 3

/-! ## What each kernel finds in its input arrays -/

/-- The projection kernel's first array is the input flattened; the other three are the weight matrices as launched. -/
theorem V1_main_v0 (c : Dev nD) : V1 m ρ c main_v0
    = fun i => shapeCast S16384x1024 (m ((c : Thread nD τ).loc main_arg0)) shapeCasts_S4x4096x1024_S16384x1024 i := by
  show StableHlo.after (hostOps0 (F := F)) (W0 m ρ c) (Proc.devRef .tc main_v0) = _
  after_results
  rfl
theorem V1_main_arg1 (c : Dev nD) : V1 m ρ c main_arg1 = m ((c : Thread nD τ).loc main_arg1) := W1_of m ρ c main_arg1 (by decide)
theorem V1_main_arg2 (c : Dev nD) : V1 m ρ c main_arg2 = m ((c : Thread nD τ).loc main_arg2) := W1_of m ρ c main_arg2 (by decide)
theorem V1_main_arg3 (c : Dev nD) : V1 m ρ c main_arg3 = m ((c : Thread nD τ).loc main_arg3) := W1_of m ρ c main_arg3 (by decide)

/-- The attention kernel's three input arrays are the projection kernel's three outputs, reshaped. -/
theorem V3_main_v2 (c : Dev nD) : V3 m ρ c main_v2
    = fun i => shapeCast S4x4096x64 ((dat0 (V1 m ρ) c).arrAt 4 cfg0.N) shapeCasts_S16384x64_S4x4096x64 i := by
  show StableHlo.after (hostOps1 (F := F)) (W2 m ρ c) (Proc.devRef .tc main_v2) = _
  after_results
  rw [show W2 m ρ c (Proc.devRef .tc main_v1_0) = _ from W2_arr m ρ c 4]
  rfl
theorem V3_main_v3 (c : Dev nD) : V3 m ρ c main_v3
    = fun i => shapeCast S4x4096x64 ((dat0 (V1 m ρ) c).arrAt 5 cfg0.N) shapeCasts_S16384x64_S4x4096x64 i := by
  show StableHlo.after (hostOps1 (F := F)) (W2 m ρ c) (Proc.devRef .tc main_v3) = _
  after_results
  rw [show W2 m ρ c (Proc.devRef .tc main_v1_1) = _ from W2_arr m ρ c 5]
  rfl
theorem V3_main_v4 (c : Dev nD) : V3 m ρ c main_v4
    = fun i => shapeCast S4x4096x64 ((dat0 (V1 m ρ) c).arrAt 6 cfg0.N) shapeCasts_S16384x64_S4x4096x64 i := by
  show StableHlo.after (hostOps1 (F := F)) (W2 m ρ c) (Proc.devRef .tc main_v4) = _
  after_results
  rw [show W2 m ρ c (Proc.devRef .tc main_v1_2) = _ from W2_arr m ρ c 6]
  rfl

/-! ## The index tables when the attention kernel is entered

Each table was written as a constant by the first host stretch; nothing since writes it (it is no
array of the projection kernel, and the reshapes write other buffers). -/

theorem W3_main_c (c : Dev nD) : W3 m ρ c (Proc.devRef .tc main_c) = fun i => lit0 (S20.rowMajor i) := by
  rw [W3_of m ρ c main_c (by decide), W2_of_ne m ρ c main_c (by decide)]
  show StableHlo.after (hostOps0 (F := F)) (W0 m ρ c) (Proc.devRef .tc main_c) = _
  after_results
  rfl
theorem W3_main_c_0 (c : Dev nD) : W3 m ρ c (Proc.devRef .tc main_c_0) = fun i => lit1 (S20.rowMajor i) := by
  rw [W3_of m ρ c main_c_0 (by decide), W2_of_ne m ρ c main_c_0 (by decide)]
  show StableHlo.after (hostOps0 (F := F)) (W0 m ρ c) (Proc.devRef .tc main_c_0) = _
  after_results
  rfl
theorem W3_main_c_1 (c : Dev nD) : W3 m ρ c (Proc.devRef .tc main_c_1) = fun i => lit2 (S20.rowMajor i) := by
  rw [W3_of m ρ c main_c_1 (by decide), W2_of_ne m ρ c main_c_1 (by decide)]
  show StableHlo.after (hostOps0 (F := F)) (W0 m ρ c) (Proc.devRef .tc main_c_1) = _
  after_results
  rfl
theorem W3_main_c_2 (c : Dev nD) : W3 m ρ c (Proc.devRef .tc main_c_2) = fun i => lit3 (S20.rowMajor i) := by
  rw [W3_of m ρ c main_c_2 (by decide), W2_of_ne m ρ c main_c_2 (by decide)]
  show StableHlo.after (hostOps0 (F := F)) (W0 m ρ c) (Proc.devRef .tc main_c_2) = _
  after_results
  rfl

/-- The four tables hold the literal contents when the attention kernel is entered. -/
theorem V3_tbl (c : Dev nD) : ∀ k, V3 m ρ c (pre1.ref k) = litTbl (F := F) k
  | 0 => W3_main_c m ρ c
  | 1 => W3_main_c_0 m ρ c
  | 2 => W3_main_c_1 m ρ c
  | 3 => W3_main_c_2 m ρ c
  | ⟨_ + 4, h⟩ => absurd h (Nat.not_lt.2 (Nat.le_add_left _ _))

/-! ## The proof data family and the thread state -/

/-- The tables' admissible contents per kernel: the projection kernel has no table, the attention kernel's four hold the literals. -/
def adm : (p : Fin 2) → (pcfgs (F := F) p).Adm
  | ⟨0, _⟩ => (cfg0.toPCfg_adm : (cfg0.toPCfg (Val := Elt F)).Adm)
  | ⟨1, _⟩ => adm1
/-- Each kernel's proof data at the contents it is entered from. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers between two stretches: the generator register at some state, nothing owed. -/
abbrev R (c : Dev nD) : sProp 𝕄 := iprop((∃ r, prngReg c r) ∗ ∃ W, owes (c : Thread nD τ) (0 : CellTallies nD τ sig Unit) W)
/-- A host stretch as a segment over the unscoped buffers from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state: the attention kernel's arrays at what it leaves, the buffers that bypass it as it was
    entered, the four tables at the half share the kernel's body gives back, the generator register. -/
abbrev Tₙ (c : Dev nD) : sProp 𝕄 :=
  iprop((pdats m ρ 1 c).arrays ((pdats m ρ 1 c).arrAt · (cfg1 (F := F) adm1).N)
    ∗ Pipeline.unscopedRestP (Ix := Unit) (Name := ℕ) (U := UR sig nD τ) (Lvl := ℕ) pre1 spec1 c (V3 m ρ c)
    ∗ Pipeline.ΦT (U := UR sig nD τ) pre1 (litTbl (F := F)) c ∗ ∃ r, prngReg c r)

/-! ## The kernels as segments -/

set_option backward.isDefEq.respectTransparency.types false in
/-- The projection kernel over the thread state: entered from every unscoped buffer at W1, left at W2. -/
def reg0 : Pipeline.RegionSeg (pcfgs (F := F)) adm (pdats m ρ) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) (launch0 (F := F)).win (launch0 (F := F)).arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      (launch0 (F := F)).win (launch0 (F := F)).arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel over the thread state: entered from every unscoped buffer at W3. Its arrays and its four
    tables are split out of the unscoped buffers; the tables, found at the literal contents, go into the kernel's
    invariant (one half of each is all the body needs; the other half is let go) and come back at that half; the
    arrays come back at what the write-backs leave, and everything else bypasses the kernel. -/
def reg1 : Pipeline.RegionSeg (pcfgs (F := F)) adm (pdats m ρ) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop((∃ r, prngReg c r) ∗ Pipeline.ΦT (U := UR sig nD τ) pre1 (litTbl (F := F)) c)
  Z c := Pipeline.unscopedRestP (Ix := Unit) (Name := ℕ) (U := UR sig nD τ) (Lvl := ℕ) pre1 spec1 c (V3 m ρ c)
  hentry c := by
    rw [Pipeline.ownSems0_none]
    have hsplit : (StableHlo.held (c : Thread nD τ) (Pipeline.ucRefs τ sig) (W3 m ρ c) : sProp 𝕄)
        ⊢ iprop((pdats m ρ 1 c).arrays ((pdats m ρ 1 c).arrAt · 0)
          ∗ Pipeline.prefHeld pre1 c (fun _ => fullShare) (fun k => V3 m ρ c (pre1.ref k))
          ∗ Pipeline.unscopedRestP pre1 spec1 c (V3 m ρ c)) := by
      have h := Pipeline.arrays_of_unscopedBufs (p := 1) (pcfgs (F := F)) adm (pdats m ρ) (launch1 (F := F)).win (launch1 (F := F)).arr_whole c
        ((pdats m ρ 1 c).share_full fun _ => rfl) (V3 m ρ c) fun _ => rfl
      rw [Pipeline.unscopedBufs_held, Pipeline.unscopedRest_split (launch1 (F := F)).pre c (V3 m ρ c)] at h
      exact h
    rw [show (fun k => V3 m ρ c (pre1.ref k)) = litTbl (F := F) from funext (V3_tbl m ρ c)] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    have hsh : (Pipeline.prefHeld pre1 c (fun _ => fullShare) (litTbl (F := F)) : sProp 𝕄)
        ⊢ iprop(Pipeline.prefHeld pre1 c (fun _ => fullShare.left) (litTbl (F := F)) ∗ Pipeline.prefHeld pre1 c (fun _ => fullShare.right) (litTbl (F := F))) :=
      (Pipeline.prefHeld_share pre1 c (PosShare.mem_left_op_right fullShare) (litTbl (F := F))).1
    change iprop((∃ r, prngReg c r) ∗ Pipeline.prefHeld pre1 c (fun _ => fullShare) (litTbl (F := F)) ∗ Pipeline.scopedRest spec1 c) ⊢ _
    unfold Pipeline.ΦA
    iintro ⟨Hp, Ht, Hr⟩
    ihave Ht2 := hsh $$ Ht
    icases Ht2 with ⟨-, Htr⟩
    isplitl [Hr Hp]
    · isplitl [Hr]; · iexact Hr
      iexact Hp
    iexact Htr
  hout c := by
    rw [Pipeline.ownSems0_none]
    refine BIBase.Entails.trans (hout1 (V3 m ρ) c) ?_
    unfold Pipeline.ΦA
    iintro ⟨⟨Hr, Hp⟩, Ht⟩
    isplitl [Hp Ht]
    · isplitl [Hp]; · iexact Hp
      iexact Ht
    isplitr; · iempintro
    iexact Hr
  hexit c := by
    iintro ⟨Ha, HO, ⟨Hp, Ht⟩, Hrest⟩
    imodintro
    isplitl [Ha Hrest Ht Hp]
    · isplitl [Ha]; · iexact Ha
      isplitl [Hrest]; · iexact Hrest
      isplitl [Ht]; · iexact Ht
      iexact Hp
    unfold Pipeline.Dat.owesAt Pipeline.owesWithin
    icases HO with ⟨%W, -, HO⟩; iexists W; iexact HO

/-! ## The program as segments, and the launch -/

/-- The program's four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program is the run of the segments. -/
theorem main_run (c : Dev nD) : main (F := F) c = Pipeline.Seg.run (segs m ρ) := (main_chain c).trans (by chain_rfl)

/-- Reading the last thread state: the attention kernel's arrays at what it leaves and every buffer that bypasses it
    (the tables among them) as it was entered say what every unscoped buffer holds, namely the last boundary's contents. -/
theorem read_W4 (c : Dev nD) (s : MemSt nD τ sig (Elt F))
    (h1 : ∀ w, s.mem ((c : Thread nD τ).loc (Pipeline.arrRef spec1 w)) = (dat1 (V3 m ρ) c).arrAt w (cfg1 (F := F) adm1).N)
    (h2 : ∀ b ∈ Pipeline.restRefs sig spec1, s.mem ((c : Thread nD τ).loc b) = V3 m ρ c b) :
    ∀ b ∈ Pipeline.ucRefs τ sig, s.mem ((c : Thread nD τ).1, b) = W4 m ρ c b := by
  intro b hb
  obtain ⟨hb1, hb2⟩ := Finset.mem_filter.mp hb
  obtain ⟨r, -, rfl⟩ := Finset.mem_map.mp hb1
  by_cases h : ∃ w, Pipeline.arrRef spec1 w = r
  · obtain ⟨w, rfl⟩ := h
    exact (h1 w).trans (W4_arr m ρ c w).symm
  · have hne : ∀ w, Pipeline.arrRef spec1 w ≠ r := fun w e => h ⟨w, e⟩
    refine Eq.trans ?_ (W4_of_ne m ρ c r hne).symm
    exact h2 r (Pipeline.mem_restRefs_of r (by simpa using hb2) hne)

set_option backward.isDefEq.respectTransparency.types false in
/-- THE RUN: from any memory with zero counters every weakly fair execution of the program terminates, nothing
    faulting, and every final memory holds in every unscoped buffer the last boundary's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = W4 m ρ c b) :=
  Pipeline.θ_run_regions_kit (pcfgs (F := F)) adm (pdats m ρ) () (cellOf_inj adm) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) (cellOf_inj adm)) (Pipeline.launchToks (Pipeline.pin (pcfgs (F := F)) adm) (cellOf_inj adm)))
    (hu₀ := by
      iintro Hu; imodintro
      isplitl [Hu]
      · iapply (show (ownU (initOf (Pipeline.cells (Pipeline.pin (pcfgs (F := F)) adm) (cellOf_inj adm)) (Pipeline.launchToks (Pipeline.pin (pcfgs (F := F)) adm) (cellOf_inj adm))) : sProp 𝕄)
            ⊢ BI.own (emb₁ (initOf (Pipeline.cells (Pipeline.pin (pcfgs (F := F)) adm) (cellOf_inj adm)) (Pipeline.launchToks (Pipeline.pin (pcfgs (F := F)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Ha, Hrest, Ht, -⟩, HSI⟩
      ihave H1 := (Pipeline.arrays_read (p := 1) (pcfgs (F := F)) adm (pdats m ρ) (launch1 (F := F)).arr_whole c
        ((pdats m ρ 1 c).share_full fun _ => rfl) ((pdats m ρ 1 c).arrAt · (cfg1 (F := F) adm1).N) s') $$ [Ha HSI]
      · isplitl [Ha] <;> iassumption
      icases H1 with ⟨%h1, HSI⟩
      unfold Pipeline.unscopedRestP
      ihave H2 := (pointsTo_read_all (Pipeline.restRefsP sig pre1 spec1) (fun b => (c : Thread nD τ).loc b) (V3 m ρ c) s') $$ [Hrest HSI]
      · isplitl [Hrest] <;> iassumption
      icases H2 with ⟨%h2, HSI⟩
      ihave H3 := (show iprop(Pipeline.ΦT (U := UR sig nD τ) pre1 (litTbl (F := F)) c ∗ SI s')
          ⊢ (iprop(⌜∀ k ∈ (Finset.univ : Finset (Fin pre1.K)), s'.mem.mem ((c : Thread nD τ).loc (pre1.ref k)) = litTbl (F := F) k⌝ ∗ SI s') : sProp 𝕄)
        from pointsTo_read_all Finset.univ (fun k => (c : Thread nD τ).loc (pre1.ref k)) (litTbl (F := F)) s' fullShare.right) $$ [Ht HSI]
      · isplitl [Ht] <;> iassumption
      icases H3 with ⟨%h3, HSI⟩
      imodintro
      isplitr
      · ipureintro
        exact read_W4 m ρ c s'.mem h1
          (Pipeline.rest_of_restP pre1 spec1 (litTbl (F := F)) c (V3 m ρ c) s'.mem (V3_tbl m ρ c) (fun k => h3 k (Finset.mem_univ k)) h2)
      · iexact HSI)
    (hQ := fun s h => h)

/-- THE FRAME: the program runs and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

/-- THE RESULT: the program runs, its result buffer ends at what the attention kernel's write-backs leave in its
    output array, and its four argument arrays end as launched. -/
theorem run_result : θ_run defs (onTc (τ := τ) (main (F := F))) ⟨m, fun _ => 0, ρ⟩ (fun r => ∀ c : Dev nD,
      r.2.mem ((c.tc : Thread nD τ).loc main_v5) = (dat1 (V3 m ρ) c).arrAt 3 (cfg1 (F := F) adm1).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v5 (by decide))).trans (W4_main_v5 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.KernelIdeal.Att

end
-- ==== Proof.Reg0K.lean ====
import proofs.«175909_j62251255988572_2_alg».proof.Proof.Gen.Kernel.Launch
import proofs.«175909_j62251255988572_2_alg».proof.Proof.Gen.Kernel.Skeleton
import proofs.«175909_j62251255988572_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The projection kernel's region

The first kernel of the program computes, row tile by row tile, the three projections
q = x · Wq, k = x · Wk, v = x · Wv of the flattened input x (16384 rows of 1024). Its grid has
8 points; point t handles rows 2048·t … 2048·t + 2047. Each point reads one row tile of x and the
three whole weight matrices, and stores one row tile of each projection.

What the body leaves in an output tile is a closed function of the four input blocks at that
point (one store per output, covering the tile), and an input tile holds its block whether or not
it was transferred at that point (the weights' block index never moves, so they are transferred
once). Everything is stated at a parameter V, the contents of the buffers when the region is
entered.
-/

set_option maxRecDepth 16384

noncomputable section

namespace Cert.Kernel.Att

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row tile of x is in its buffer at every point: when it was not transferred at the point,
    its block index has not moved since the previous one, and the body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The first weight matrix likewise: its block is the whole matrix at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The second weight matrix. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The third weight matrix. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev rX0 : Rect S2048x1024 := Rect.unit (s := S2048x1024) ![0, 0] S2048x1024.size inb_S2048x1024_S2048x1024_0_0
abbrev rW0 : Rect S1024x64 := Rect.unit (s := S1024x64) ![0, 0] S1024x64.size inb_S1024x64_S1024x64_0_0
abbrev rO0 : Rect S2048x64 := Rect.unit (s := S2048x64) ![0, 0] S2048x64.size inb_S2048x64_S2048x64_0_0

/-! ## What the body leaves in each output tile -/

/-- The q tile after the body: its one store, of the product of the x tile with the first weight matrix. -/
def out0_4 (x0 : Vec F S2048x1024 .f32) (x1 x2 x3 : Vec F S1024x64 .f32) : Vec F S2048x64 .bf16 :=
  View.canon [⟨rO0, k0_pay2 (View.ld x0 rX0) (View.ld x1 rW0)⟩]

/-- The k tile after the body, from the second weight matrix. -/
def out0_5 (x0 : Vec F S2048x1024 .f32) (x1 x2 x3 : Vec F S1024x64 .f32) : Vec F S2048x64 .bf16 :=
  View.canon [⟨rO0, k0_pay3 (View.ld x0 rX0) (View.ld x2 rW0)⟩]

/-- The v tile after the body, from the third weight matrix. -/
def out0_6 (x0 : Vec F S2048x1024 .f32) (x1 x2 x3 : Vec F S1024x64 .f32) : Vec F S2048x64 .bf16 :=
  View.canon [⟨rO0, k0_pay4 (View.ld x0 rX0) (View.ld x3 rW0)⟩]

/-- One store of the whole tile covers it. -/
theorem cover0_O (p0 : Vec F S2048x64 .bf16) (y : S2048x64.Idx) :
    ∃ pc ∈ ([⟨rO0, p0⟩] : List (View.Piece (Elt F) S2048x64 .bf16)), y ∈ pc.1.set :=
  View.cover_of_tiled [⟨rO0, p0⟩] S2048x64.size (by rfl) y

/-! ## The body's triple -/

set_option maxHeartbeats 4000000 in
/-- The body on whole buffers, the four inputs' at contents x0 … x3 and the three outputs' at anything, runs to the
    continuation holding the inputs' as they were and each output's at its closed form. -/
theorem sound_kernel0 (c : Dev nD) (E : Set ℕ) (i : grid0.Coords)
    (arg1 : Memref sig .tc .vmem S2048x1024 .f32) (harg1 : arg1.IsWhole)
    (arg2 : Memref sig .tc .vmem S1024x64 .f32) (harg2 : arg2.IsWhole)
    (arg3 : Memref sig .tc .vmem S1024x64 .f32) (harg3 : arg3.IsWhole)
    (arg4 : Memref sig .tc .vmem S1024x64 .f32) (harg4 : arg4.IsWhole)
    (arg5 : Memref sig .tc .vmem S2048x64 .bf16) (harg5 : arg5.IsWhole)
    (arg6 : Memref sig .tc .vmem S2048x64 .bf16) (harg6 : arg6.IsWhole)
    (arg7 : Memref sig .tc .vmem S2048x64 .bf16) (harg7 : arg7.IsWhole)
    (x0 : Vec F S2048x1024 .f32) (x1 x2 x3 : Vec F S1024x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)
            ∗ owns (c : Thread nD τ) arg6 fullShare (out0_5 x0 x1 x2 x3)
            ∗ owns (c : Thread nD τ) arg7 fullShare (out0_6 x0 x1 x2 x3)) -∗ K ⟨⟩))
      ⊢ wp frame (wpE (defs₀ (F := F)) Variants.none c none) E
          (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_O _)
  isplitl [H5]
  · iexists _; isplitr
    swap; · iexact H5
    ipureintro
    exact View.read_writes_eq_canon _ _ _ (cover0_O _)
  iexists _; isplitr
  swap; · iexact H6
  ipureintro
  exact View.read_writes_eq_canon _ _ _ (cover0_O _)

/-! ## The region's proof data -/

/-- The proof data of the projection kernel on core c: the arrays as the region finds them; after the body at
    point t each input's buffer at its block and each output's at its closed form of the four input blocks;
    the invariant is the untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]

/-- Each input's buffer holds its block at every point, transferred there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the inputs' buffers hold their blocks, so the body's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Att

end
-- ==== Proof.Reg1RunsK.lean ====
import proofs.«175909_j62251255988572_2_alg».proof.Proof.Gen.Kernel.Launch
import proofs.«175909_j62251255988572_2_alg».proof.Proof.Gen.Kernel.Skeleton
import proofs.«175909_j62251255988572_2_alg».proof.Proof.Gen.Kernel.Points
import Idealize.ShloMosaic.Lib.Pipeline.FrameBody
import Idealize.ShloMosaic.Lib.Ring
import Idealize.ShloMosaic.Lib.Tactic

/-! What the per-case runs of the attention kernel's body share: the four prefetched tables as the body is
    handed them, the three scratch buffers it carries between grid points, the word each table load reads at a
    grid point, and the body's four branch conditions as propositions about those words. -/

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The four tables (query-block number, key-tile number, "last tile of its query block", "tile crosses the
    diagonal"), each a whole scalar-memory buffer of 20 words. -/
abbrev tbM1_0 : Memref sig .tc .smem S20 .i32 := Memref.whole main_c
abbrev htbM1_0 : tbM1_0.IsWhole := Memref.isWhole_whole _
abbrev tbM1_1 : Memref sig .tc .smem S20 .i32 := Memref.whole main_c_0
abbrev htbM1_1 : tbM1_1.IsWhole := Memref.isWhole_whole _
abbrev tbM1_2 : Memref sig .tc .smem S20 .i32 := Memref.whole main_c_1
abbrev htbM1_2 : tbM1_2.IsWhole := Memref.isWhole_whole _
abbrev tbM1_3 : Memref sig .tc .smem S20 .i32 := Memref.whole main_c_2
abbrev htbM1_3 : tbM1_3.IsWhole := Memref.isWhole_whole _

/-- A table's buffer on core `c`, and that buffer held read-only (half the full share) at contents `f`. -/
abbrev TbBuf1 (c : Dev nD) (M : Memref sig .tc .smem S20 .i32) : Type := Buf (Elt F) (M.view.loc (c : Thread nD τ))
abbrev tbPt1 (c : Dev nD) (M : Memref sig .tc .smem S20 .i32) (f : TbBuf1 (F := F) c M) : sProp 𝕄 :=
  M.view.loc (c : Thread nD τ) ↦{fullShare.right} f

/-- The word a table holds at the position the grid point's second coordinate names. -/
abbrev wd (c : Dev nD) (M : Memref sig .tc .smem S20 .i32) (f : TbBuf1 (F := F) c M) (i : grid1.Coords) : BitVec 32 :=
  M.view.readAt (Elt F) (Rect.unit (s := S20) (k1_off1 i) S1.size (k1_off1_inb i)).toLoadRect f (Shape.Idx.first (numel1_S1.symm ▸ Nat.one_pos))

/-- The running maximum, the running normaliser and the running weighted sum: whole scratch buffers. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x64 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x64 .f32 := scM1_2.view
/-- One staging buffer of the output window, through which its contents are stated. -/
abbrev VO1_3 : View sig .tc .vmem S1x1024x64 .f32 := (Memref.whole cc1_stg3_0 : Memref sig .tc .vmem S1x1024x64 .f32).view

/-- "This is the first key tile of its query block": the key-tile word is 0. -/
abbrev condF (w : BitVec 32) : Prop := Scalar.cmpi .ne (Scalar.extui (Scalar.cmpi .eq w 0#32)) 0#32 = 1#1
/-- "This tile crosses the diagonal": the mask word is 1. -/
abbrev condM (w : BitVec 32) : Prop := Scalar.cmpi .ne (Scalar.extui (Scalar.cmpi .eq w 1#32)) 0#32 = 1#1
/-- Its complement as the body computes it. -/
abbrev condN (w : BitVec 32) : Prop := Scalar.cmpi .ne (Scalar.extui (Scalar.xori (Scalar.cmpi .eq w 1#32) 1#1)) 0#32 = 1#1
/-- "This is the last key tile of its query block": the last-tile word is 1. -/
abbrev condL (w : BitVec 32) : Prop := k1_cond4 w = 1#1

end Cert.Kernel.Att

end
-- ==== Proof.Reg1RunAK.lean ====
import proofs.«175909_j62251255988572_2_alg».proof.Proof.Reg1RunsK

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The first key tile of query block 0: the scratch is reset, the tile crosses the diagonal, more tiles follow.
    The body's run on whole staging memrefs: the three input blocks at their contents, the tables read-only, the scratch at anything, the output's buffer handed back untouched; it ends holding the
    inputs as they were and each buffer it stored into with the stores' pieces written (last first), which the run
    itself finds. -/
noncomputable def kernelRun1_A (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : condF (wd c tbM1_1 xt1 i)) (hcM : condM (wd c tbM1_3 xt3 i)) (hcN : ¬condN (wd c tbM1_3 xt3 i)) (hcL : ¬condL (wd c tbM1_2 xt2 i)) :
    Σ' (LS0 : List (View.Piece (Elt F) S1024x1 .f32)) (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare xi3
            ∗ (∃ d, owns (c : Thread nD τ) arg10 fullShare d) ∗ (∃ d, owns (c : Thread nD τ) arg11 fullShare d) ∗ (∃ d, owns (c : Thread nD τ) arg12 fullShare d)
            ∗ tbPt1 c tbM1_0 xt0 ∗ tbPt1 c tbM1_1 xt1 ∗ tbPt1 c tbM1_2 xt2 ∗ tbPt1 c tbM1_3 xt3
            ∗ (iprop(owns (c : Thread nD τ) arg6 fullShare x0 ∗ owns (c : Thread nD τ) arg7 fullShare x1 ∗ owns (c : Thread nD τ) arg8 fullShare x2 ∗ owns (c : Thread nD τ) arg9 fullShare xi3
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)
                ∗ (∃ f, arg12.view.loc (c : Thread nD τ) ↦[arg12.view.set]{fullShare} arg12.view.writes (Elt F) f LS2)
                ∗ tbPt1 c tbM1_0 xt0 ∗ tbPt1 c tbM1_1 xt1 ∗ tbPt1 c tbM1_2 xt2 ∗ tbPt1 c tbM1_3 xt3) -∗ K ⟨⟩))
          ⊢ wp frame (wpE (defs₀ (F := F)) Variants.none c none) E (cc1__attn_kernel i tbM1_0 htbM1_0 tbM1_1 htbM1_1 tbM1_2 htbM1_2 tbM1_3 htbM1_3 arg6 harg6 arg7 harg7 arg8 harg8 arg9 harg9 arg10 harg10 arg11 harg11 arg12 harg12) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, HT0, HT1, HT2, HT3, Hk⟩
    obtain rfl := harg6.eq_unread hf0; obtain rfl := harg7.eq_unread hf1; obtain rfl := harg8.eq_unread hf2; obtain rfl := harg9.eq_unread hf3
    sl_exec (disch := first | sl_exact hcF | sl_exact hcM | sl_exact hcN | sl_exact hcL)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [HS0]; · iexists _; iexact HS0
    isplitl [HS1]; · iexists _; iexact HS1
    isplitl [HS2]; · iexists _; iexact HS2
    isplitl [HT0]; · iexact HT0
    isplitl [HT1]; · iexact HT1
    isplitl [HT2]; · iexact HT2
    iexact HT3

end Cert.Kernel.Att

end
-- ==== Proof.Reg1RunBK.lean ====
import proofs.«175909_j62251255988572_2_alg».proof.Proof.Reg1RunsK

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The last key tile of a query block: it crosses the diagonal, and the quotient is stored into the output block.
    The body's run on whole staging memrefs: the three input blocks at their contents, the tables read-only, the scratch at what the point before left, the output's buffer at anything; it ends holding the
    inputs as they were and each buffer it stored into with the stores' pieces written (last first), which the run
    itself finds. -/
noncomputable def kernelRun1_B (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : condM (wd c tbM1_3 xt3 i)) (hcN : ¬condN (wd c tbM1_3 xt3 i)) (hcL : condL (wd c tbM1_2 xt2 i)) (xs0 : Vec F S1024x1 .f32) (xs1 : Vec F S1024x1 .f32) (xs2 : Vec F S1024x64 .f32) :
    Σ' (L3 : List (View.Piece (Elt F) S1x1024x64 .f32)) (LS0 : List (View.Piece (Elt F) S1024x1 .f32)) (LS1 : List (View.Piece (Elt F) S1024x1 .f32)), { LS2 : List (View.Piece (Elt F) S1024x64 .f32) //
      ∀ (E : Set ℕ) (K : PUnit → sProp 𝕄),
        iprop(owns (c : Thread nD τ) arg6 fullShare x0 ∗ owns (c : Thread nD τ) arg7 fullShare x1 ∗ owns (c : Thread nD τ) arg8 fullShare x2 ∗ (∃ d, owns (c : Thread nD τ) arg9 fullShare d)
            ∗ owns (c : Thread nD τ) arg10 fullShare xs0 ∗ owns (c : Thread nD τ) arg11 fullShare xs1 ∗ owns (c : Thread nD τ) arg12 fullShare xs2
            ∗ tbPt1 c tbM1_0 xt0 ∗ tbPt1 c tbM1_1 xt1 ∗ tbPt1 c tbM1_2 xt2 ∗ tbPt1 c tbM1_3 xt3
            ∗ (iprop(owns (c : Thread nD τ) arg6 fullShare x0 ∗ owns (c : Thread nD τ) arg7 fullShare x1 ∗ owns (c : Thread nD τ) arg8 fullShare x2 ∗ (∃ f, arg9.view.loc (c : Thread nD τ) ↦[arg9.view.set]{fullShare} arg9.view.writes (Elt F) f L3)
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)
                ∗ (∃ f, arg12.view.loc (c : Thread nD τ) ↦[arg12.view.set]{fullShare} arg12.view.writes (Elt F) f LS2)
                ∗ tbPt1 c tbM1_0 xt0 ∗ tbPt1 c tbM1_1 xt1 ∗ tbPt1 c tbM1_2 xt2 ∗ tbPt1 c tbM1_3 xt3) -∗ K ⟨⟩))
          ⊢ wp frame (wpE (defs₀ (F := F)) Variants.none c none) E (cc1__attn_kernel i tbM1_0 htbM1_0 tbM1_1 htbM1_1 tbM1_2 htbM1_2 tbM1_3 htbM1_3 arg6 harg6 arg7 harg7 arg8 harg8 arg9 harg9 arg10 harg10 arg11 harg11 arg12 harg12) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, HT0, HT1, HT2, HT3, Hk⟩
    obtain rfl := harg6.eq_unread hf0; obtain rfl := harg7.eq_unread hf1; obtain rfl := harg8.eq_unread hf2
    obtain rfl := harg10.eq_unread hfs0; obtain rfl := harg11.eq_unread hfs1; obtain rfl := harg12.eq_unread hfs2
    sl_exec (disch := first | sl_exact hcF | sl_exact hcM | sl_exact hcN | sl_exact hcL)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]; · iexists _; iexact H3
    isplitl [HS0]; · iexists _; iexact HS0
    isplitl [HS1]; · iexists _; iexact HS1
    isplitl [HS2]; · iexists _; iexact HS2
    isplitl [HT0]; · iexact HT0
    isplitl [HT1]; · iexact HT1
    isplitl [HT2]; · iexact HT2
    iexact HT3

end Cert.Kernel.Att

end
-- ==== Proof.Reg1RunCK.lean ====
import proofs.«175909_j62251255988572_2_alg».proof.Proof.Reg1RunsK

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The first key tile of a later query block: the scratch is reset, the tile lies wholly below the diagonal.
    The body's run on whole staging memrefs: the three input blocks at their contents, the tables read-only, the scratch at anything, the output's buffer handed back untouched; it ends holding the
    inputs as they were and each buffer it stored into with the stores' pieces written (last first), which the run
    itself finds. -/
noncomputable def kernelRun1_C (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : condF (wd c tbM1_1 xt1 i)) (hcM : ¬condM (wd c tbM1_3 xt3 i)) (hcN : condN (wd c tbM1_3 xt3 i)) (hcL : ¬condL (wd c tbM1_2 xt2 i)) :
    Σ' (LS0 : List (View.Piece (Elt F) S1024x1 .f32)) (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare xi3
            ∗ (∃ d, owns (c : Thread nD τ) arg10 fullShare d) ∗ (∃ d, owns (c : Thread nD τ) arg11 fullShare d) ∗ (∃ d, owns (c : Thread nD τ) arg12 fullShare d)
            ∗ tbPt1 c tbM1_0 xt0 ∗ tbPt1 c tbM1_1 xt1 ∗ tbPt1 c tbM1_2 xt2 ∗ tbPt1 c tbM1_3 xt3
            ∗ (iprop(owns (c : Thread nD τ) arg6 fullShare x0 ∗ owns (c : Thread nD τ) arg7 fullShare x1 ∗ owns (c : Thread nD τ) arg8 fullShare x2 ∗ owns (c : Thread nD τ) arg9 fullShare xi3
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)
                ∗ (∃ f, arg12.view.loc (c : Thread nD τ) ↦[arg12.view.set]{fullShare} arg12.view.writes (Elt F) f LS2)
                ∗ tbPt1 c tbM1_0 xt0 ∗ tbPt1 c tbM1_1 xt1 ∗ tbPt1 c tbM1_2 xt2 ∗ tbPt1 c tbM1_3 xt3) -∗ K ⟨⟩))
          ⊢ wp frame (wpE (defs₀ (F := F)) Variants.none c none) E (cc1__attn_kernel i tbM1_0 htbM1_0 tbM1_1 htbM1_1 tbM1_2 htbM1_2 tbM1_3 htbM1_3 arg6 harg6 arg7 harg7 arg8 harg8 arg9 harg9 arg10 harg10 arg11 harg11 arg12 harg12) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, HT0, HT1, HT2, HT3, Hk⟩
    obtain rfl := harg6.eq_unread hf0; obtain rfl := harg7.eq_unread hf1; obtain rfl := harg8.eq_unread hf2; obtain rfl := harg9.eq_unread hf3
    sl_exec (disch := first | sl_exact hcF | sl_exact hcM | sl_exact hcN | sl_exact hcL)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [HS0]; · iexists _; iexact HS0
    isplitl [HS1]; · iexists _; iexact HS1
    isplitl [HS2]; · iexists _; iexact HS2
    isplitl [HT0]; · iexact HT0
    isplitl [HT1]; · iexact HT1
    isplitl [HT2]; · iexact HT2
    iexact HT3

end Cert.Kernel.Att

end
-- ==== Proof.Reg1RunDK.lean ====
import proofs.«175909_j62251255988572_2_alg».proof.Proof.Reg1RunsK

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- A middle key tile: not the first of its query block, wholly below the diagonal, not the last.
    The body's run on whole staging memrefs: the three input blocks at their contents, the tables read-only, the scratch at what the point before left, the output's buffer handed back untouched; it ends holding the
    inputs as they were and each buffer it stored into with the stores' pieces written (last first), which the run
    itself finds. -/
noncomputable def kernelRun1_D (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : ¬condM (wd c tbM1_3 xt3 i)) (hcN : condN (wd c tbM1_3 xt3 i)) (hcL : ¬condL (wd c tbM1_2 xt2 i)) (xs0 : Vec F S1024x1 .f32) (xs1 : Vec F S1024x1 .f32) (xs2 : Vec F S1024x64 .f32) :
    Σ' (LS0 : List (View.Piece (Elt F) S1024x1 .f32)) (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare xi3
            ∗ owns (c : Thread nD τ) arg10 fullShare xs0 ∗ owns (c : Thread nD τ) arg11 fullShare xs1 ∗ owns (c : Thread nD τ) arg12 fullShare xs2
            ∗ tbPt1 c tbM1_0 xt0 ∗ tbPt1 c tbM1_1 xt1 ∗ tbPt1 c tbM1_2 xt2 ∗ tbPt1 c tbM1_3 xt3
            ∗ (iprop(owns (c : Thread nD τ) arg6 fullShare x0 ∗ owns (c : Thread nD τ) arg7 fullShare x1 ∗ owns (c : Thread nD τ) arg8 fullShare x2 ∗ owns (c : Thread nD τ) arg9 fullShare xi3
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)
                ∗ (∃ f, arg12.view.loc (c : Thread nD τ) ↦[arg12.view.set]{fullShare} arg12.view.writes (Elt F) f LS2)
                ∗ tbPt1 c tbM1_0 xt0 ∗ tbPt1 c tbM1_1 xt1 ∗ tbPt1 c tbM1_2 xt2 ∗ tbPt1 c tbM1_3 xt3) -∗ K ⟨⟩))
          ⊢ wp frame (wpE (defs₀ (F := F)) Variants.none c none) E (cc1__attn_kernel i tbM1_0 htbM1_0 tbM1_1 htbM1_1 tbM1_2 htbM1_2 tbM1_3 htbM1_3 arg6 harg6 arg7 harg7 arg8 harg8 arg9 harg9 arg10 harg10 arg11 harg11 arg12 harg12) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, HT0, HT1, HT2, HT3, Hk⟩
    obtain rfl := harg6.eq_unread hf0; obtain rfl := harg7.eq_unread hf1; obtain rfl := harg8.eq_unread hf2; obtain rfl := harg9.eq_unread hf3
    obtain rfl := harg10.eq_unread hfs0; obtain rfl := harg11.eq_unread hfs1; obtain rfl := harg12.eq_unread hfs2
    sl_exec (disch := first | sl_exact hcF | sl_exact hcM | sl_exact hcN | sl_exact hcL)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [HS0]; · iexists _; iexact HS0
    isplitl [HS1]; · iexists _; iexact HS1
    isplitl [HS2]; · iexists _; iexact HS2
    isplitl [HT0]; · iexact HT0
    isplitl [HT1]; · iexact HT1
    isplitl [HT2]; · iexact HT2
    iexact HT3

end Cert.Kernel.Att

end
-- ==== Proof.Reg1RunEK.lean ====
import proofs.«175909_j62251255988572_2_alg».proof.Proof.Reg1RunsK

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The first of the two diagonal tiles of a query block: masked, not the last.
    The body's run on whole staging memrefs: the three input blocks at their contents, the tables read-only, the scratch at what the point before left, the output's buffer handed back untouched; it ends holding the
    inputs as they were and each buffer it stored into with the stores' pieces written (last first), which the run
    itself finds. -/
noncomputable def kernelRun1_E (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : condM (wd c tbM1_3 xt3 i)) (hcN : ¬condN (wd c tbM1_3 xt3 i)) (hcL : ¬condL (wd c tbM1_2 xt2 i)) (xs0 : Vec F S1024x1 .f32) (xs1 : Vec F S1024x1 .f32) (xs2 : Vec F S1024x64 .f32) :
    Σ' (LS0 : List (View.Piece (Elt F) S1024x1 .f32)) (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare xi3
            ∗ owns (c : Thread nD τ) arg10 fullShare xs0 ∗ owns (c : Thread nD τ) arg11 fullShare xs1 ∗ owns (c : Thread nD τ) arg12 fullShare xs2
            ∗ tbPt1 c tbM1_0 xt0 ∗ tbPt1 c tbM1_1 xt1 ∗ tbPt1 c tbM1_2 xt2 ∗ tbPt1 c tbM1_3 xt3
            ∗ (iprop(owns (c : Thread nD τ) arg6 fullShare x0 ∗ owns (c : Thread nD τ) arg7 fullShare x1 ∗ owns (c : Thread nD τ) arg8 fullShare x2 ∗ owns (c : Thread nD τ) arg9 fullShare xi3
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)
                ∗ (∃ f, arg12.view.loc (c : Thread nD τ) ↦[arg12.view.set]{fullShare} arg12.view.writes (Elt F) f LS2)
                ∗ tbPt1 c tbM1_0 xt0 ∗ tbPt1 c tbM1_1 xt1 ∗ tbPt1 c tbM1_2 xt2 ∗ tbPt1 c tbM1_3 xt3) -∗ K ⟨⟩))
          ⊢ wp frame (wpE (defs₀ (F := F)) Variants.none c none) E (cc1__attn_kernel i tbM1_0 htbM1_0 tbM1_1 htbM1_1 tbM1_2 htbM1_2 tbM1_3 htbM1_3 arg6 harg6 arg7 harg7 arg8 harg8 arg9 harg9 arg10 harg10 arg11 harg11 arg12 harg12) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, HT0, HT1, HT2, HT3, Hk⟩
    obtain rfl := harg6.eq_unread hf0; obtain rfl := harg7.eq_unread hf1; obtain rfl := harg8.eq_unread hf2; obtain rfl := harg9.eq_unread hf3
    obtain rfl := harg10.eq_unread hfs0; obtain rfl := harg11.eq_unread hfs1; obtain rfl := harg12.eq_unread hfs2
    sl_exec (disch := first | sl_exact hcF | sl_exact hcM | sl_exact hcN | sl_exact hcL)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [HS0]; · iexists _; iexact HS0
    isplitl [HS1]; · iexists _; iexact HS1
    isplitl [HS2]; · iexists _; iexact HS2
    isplitl [HT0]; · iexact HT0
    isplitl [HT1]; · iexact HT1
    isplitl [HT2]; · iexact HT2
    iexact HT3

end Cert.Kernel.Att

end
-- ==== Proof.Reg1OutsK.lean ====
import proofs.«175909_j62251255988572_2_alg».proof.Proof.Reg1RunAK
import proofs.«175909_j62251255988572_2_alg».proof.Proof.Reg1RunBK
import proofs.«175909_j62251255988572_2_alg».proof.Proof.Reg1RunCK
import proofs.«175909_j62251255988572_2_alg».proof.Proof.Reg1RunDK
import proofs.«175909_j62251255988572_2_alg».proof.Proof.Reg1RunEK

/-! What each control case of the attention body leaves in the three scratch buffers (and, at a last tile, in the
    output block): the pieces its run found, read back. Every case stores each scratch buffer whole at least once,
    so its pieces cover the buffer and the read-back does not depend on what the buffer held before. -/

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Case A's stores into the running maximum include one of the whole buffer, so they cover it. -/
theorem scover1_A_0 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : condF (wd c tbM1_1 xt1 i)) (hcM : condM (wd c tbM1_3 xt3 i)) (hcN : ¬condN (wd c tbM1_3 xt3 i)) (hcL : ¬condL (wd c tbM1_2 xt2 i)) (y : S1024x1.Idx) :
    ∃ pc ∈ (kernelRun1_A c i arg6 harg6 arg7 harg7 arg8 harg8 arg9 harg9 arg10 harg10 arg11 harg11 arg12 harg12 x0 x1 x2 xt0 xt1 xt2 xt3 hcF hcM hcN hcL).1, y ∈ pc.1.set :=
  View.cover_of_wholeMem (kernelRun1_A c i arg6 harg6 arg7 harg7 arg8 harg8 arg9 harg9 arg10 harg10 arg11 harg11 arg12 harg12 x0 x1 x2 xt0 xt1 xt2 xt3 hcF hcM hcN hcL).1 (by sl_whole_mem) y

/-- What case A leaves in the running maximum. -/
def sout1_A_0 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : condF (wd c tbM1_1 xt1 i)) (hcM : condM (wd c tbM1_3 xt3 i)) (hcN : ¬condN (wd c tbM1_3 xt3 i)) (hcL : ¬condL (wd c tbM1_2 xt2 i)) : Vec F S1024x1 .f32 :=
  VS1_0.read (Elt F) (VS1_0.writes (Elt F) VS1_0.junk (kernelRun1_A c i arg6 harg6 arg7 harg7 arg8 harg8 arg9 harg9 arg10 harg10 arg11 harg11 arg12 harg12 x0 x1 x2 xt0 xt1 xt2 xt3 hcF hcM hcN hcL).1)

/-- Case A's stores into the running normaliser include one of the whole buffer, so they cover it. -/
theorem scover1_A_1 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : condF (wd c tbM1_1 xt1 i)) (hcM : condM (wd c tbM1_3 xt3 i)) (hcN : ¬condN (wd c tbM1_3 xt3 i)) (hcL : ¬condL (wd c tbM1_2 xt2 i)) (y : S1024x1.Idx) :
    ∃ pc ∈ (kernelRun1_A c i arg6 harg6 arg7 harg7 arg8 harg8 arg9 harg9 arg10 harg10 arg11 harg11 arg12 harg12 x0 x1 x2 xt0 xt1 xt2 xt3 hcF hcM hcN hcL).2.1, y ∈ pc.1.set :=
  View.cover_of_wholeMem (kernelRun1_A c i arg6 harg6 arg7 harg7 arg8 harg8 arg9 harg9 arg10 harg10 arg11 harg11 arg12 harg12 x0 x1 x2 xt0 xt1 xt2 xt3 hcF hcM hcN hcL).2.1 (by sl_whole_mem) y

/-- What case A leaves in the running normaliser. -/
def sout1_A_1 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : condF (wd c tbM1_1 xt1 i)) (hcM : condM (wd c tbM1_3 xt3 i)) (hcN : ¬condN (wd c tbM1_3 xt3 i)) (hcL : ¬condL (wd c tbM1_2 xt2 i)) : Vec F S1024x1 .f32 :=
  VS1_1.read (Elt F) (VS1_1.writes (Elt F) VS1_1.junk (kernelRun1_A c i arg6 harg6 arg7 harg7 arg8 harg8 arg9 harg9 arg10 harg10 arg11 harg11 arg12 harg12 x0 x1 x2 xt0 xt1 xt2 xt3 hcF hcM hcN hcL).2.1)

/-- Case A's stores into the running weighted sum include one of the whole buffer, so they cover it. -/
theorem scover1_A_2 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : condF (wd c tbM1_1 xt1 i)) (hcM : condM (wd c tbM1_3 xt3 i)) (hcN : ¬condN (wd c tbM1_3 xt3 i)) (hcL : ¬condL (wd c tbM1_2 xt2 i)) (y : S1024x64.Idx) :
    ∃ pc ∈ (kernelRun1_A c i arg6 harg6 arg7 harg7 arg8 harg8 arg9 harg9 arg10 harg10 arg11 harg11 arg12 harg12 x0 x1 x2 xt0 xt1 xt2 xt3 hcF hcM hcN hcL).2.2.1, y ∈ pc.1.set :=
  View.cover_of_wholeMem (kernelRun1_A c i arg6 harg6 arg7 harg7 arg8 harg8 arg9 harg9 arg10 harg10 arg11 harg11 arg12 harg12 x0 x1 x2 xt0 xt1 xt2 xt3 hcF hcM hcN hcL).2.2.1 (by sl_whole_mem) y

/-- What case A leaves in the running weighted sum. -/
def sout1_A_2 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : condF (wd c tbM1_1 xt1 i)) (hcM : condM (wd c tbM1_3 xt3 i)) (hcN : ¬condN (wd c tbM1_3 xt3 i)) (hcL : ¬condL (wd c tbM1_2 xt2 i)) : Vec F S1024x64 .f32 :=
  VS1_2.read (Elt F) (VS1_2.writes (Elt F) VS1_2.junk (kernelRun1_A c i arg6 harg6 arg7 harg7 arg8 harg8 arg9 harg9 arg10 harg10 arg11 harg11 arg12 harg12 x0 x1 x2 xt0 xt1 xt2 xt3 hcF hcM hcN hcL).2.2.1)

/-- Case B's stores into the running maximum include one of the whole buffer, so they cover it. -/
theorem scover1_B_0 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : condM (wd c tbM1_3 xt3 i)) (hcN : ¬condN (wd c tbM1_3 xt3 i)) (hcL : condL (wd c tbM1_2 xt2 i)) (xs0 : Vec F S1024x1 .f32) (xs1 : Vec F S1024x1 .f32) (xs2 : Vec F S1024x64 .f32) (y : S1024x1.Idx) :
    ∃ pc ∈ (kernelRun1_B c i arg6 harg6 arg7 harg7 arg8 harg8 arg9 harg9 arg10 harg10 arg11 harg11 arg12 harg12 x0 x1 x2 xt0 xt1 xt2 xt3 hcF hcM hcN hcL xs0 xs1 xs2).2.1, y ∈ pc.1.set :=
  View.cover_of_wholeMem (kernelRun1_B c i arg6 harg6 arg7 harg7 arg8 harg8 arg9 harg9 arg10 harg10 arg11 harg11 arg12 harg12 x0 x1 x2 xt0 xt1 xt2 xt3 hcF hcM hcN hcL xs0 xs1 xs2).2.1 (by sl_whole_mem) y

/-- What case B leaves in the running maximum. -/
def sout1_B_0 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : condM (wd c tbM1_3 xt3 i)) (hcN : ¬condN (wd c tbM1_3 xt3 i)) (hcL : condL (wd c tbM1_2 xt2 i)) (xs0 : Vec F S1024x1 .f32) (xs1 : Vec F S1024x1 .f32) (xs2 : Vec F S1024x64 .f32) : Vec F S1024x1 .f32 :=
  VS1_0.read (Elt F) (VS1_0.writes (Elt F) VS1_0.junk (kernelRun1_B c i arg6 harg6 arg7 harg7 arg8 harg8 arg9 harg9 arg10 harg10 arg11 harg11 arg12 harg12 x0 x1 x2 xt0 xt1 xt2 xt3 hcF hcM hcN hcL xs0 xs1 xs2).2.1)

/-- Case B's stores into the running normaliser include one of the whole buffer, so they cover it. -/
theorem scover1_B_1 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : condM (wd c tbM1_3 xt3 i)) (hcN : ¬condN (wd c tbM1_3 xt3 i)) (hcL : condL (wd c tbM1_2 xt2 i)) (xs0 : Vec F S1024x1 .f32) (xs1 : Vec F S1024x1 .f32) (xs2 : Vec F S1024x64 .f32) (y : S1024x1.Idx) :
    ∃ pc ∈ (kernelRun1_B c i arg6 harg6 arg7 harg7 arg8 harg8 arg9 harg9 arg10 harg10 arg11 harg11 arg12 harg12 x0 x1 x2 xt0 xt1 xt2 xt3 hcF hcM hcN hcL xs0 xs1 xs2).2.2.1, y ∈ pc.1.set :=
  View.cover_of_wholeMem (kernelRun1_B c i arg6 harg6 arg7 harg7 arg8 harg8 arg9 harg9 arg10 harg10 arg11 harg11 arg12 harg12 x0 x1 x2 xt0 xt1 xt2 xt3 hcF hcM hcN hcL xs0 xs1 xs2).2.2.1 (by sl_whole_mem) y

/-- What case B leaves in the running normaliser. -/
def sout1_B_1 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : condM (wd c tbM1_3 xt3 i)) (hcN : ¬condN (wd c tbM1_3 xt3 i)) (hcL : condL (wd c tbM1_2 xt2 i)) (xs0 : Vec F S1024x1 .f32) (xs1 : Vec F S1024x1 .f32) (xs2 : Vec F S1024x64 .f32) : Vec F S1024x1 .f32 :=
  VS1_1.read (Elt F) (VS1_1.writes (Elt F) VS1_1.junk (kernelRun1_B c i arg6 harg6 arg7 harg7 arg8 harg8 arg9 harg9 arg10 harg10 arg11 harg11 arg12 harg12 x0 x1 x2 xt0 xt1 xt2 xt3 hcF hcM hcN hcL xs0 xs1 xs2).2.2.1)

/-- Case B's stores into the running weighted sum include one of the whole buffer, so they cover it. -/
theorem scover1_B_2 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : condM (wd c tbM1_3 xt3 i)) (hcN : ¬condN (wd c tbM1_3 xt3 i)) (hcL : condL (wd c tbM1_2 xt2 i)) (xs0 : Vec F S1024x1 .f32) (xs1 : Vec F S1024x1 .f32) (xs2 : Vec F S1024x64 .f32) (y : S1024x64.Idx) :
    ∃ pc ∈ (kernelRun1_B c i arg6 harg6 arg7 harg7 arg8 harg8 arg9 harg9 arg10 harg10 arg11 harg11 arg12 harg12 x0 x1 x2 xt0 xt1 xt2 xt3 hcF hcM hcN hcL xs0 xs1 xs2).2.2.2.1, y ∈ pc.1.set :=
  View.cover_of_wholeMem (kernelRun1_B c i arg6 harg6 arg7 harg7 arg8 harg8 arg9 harg9 arg10 harg10 arg11 harg11 arg12 harg12 x0 x1 x2 xt0 xt1 xt2 xt3 hcF hcM hcN hcL xs0 xs1 xs2).2.2.2.1 (by sl_whole_mem) y

/-- What case B leaves in the running weighted sum. -/
def sout1_B_2 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : condM (wd c tbM1_3 xt3 i)) (hcN : ¬condN (wd c tbM1_3 xt3 i)) (hcL : condL (wd c tbM1_2 xt2 i)) (xs0 : Vec F S1024x1 .f32) (xs1 : Vec F S1024x1 .f32) (xs2 : Vec F S1024x64 .f32) : Vec F S1024x64 .f32 :=
  VS1_2.read (Elt F) (VS1_2.writes (Elt F) VS1_2.junk (kernelRun1_B c i arg6 harg6 arg7 harg7 arg8 harg8 arg9 harg9 arg10 harg10 arg11 harg11 arg12 harg12 x0 x1 x2 xt0 xt1 xt2 xt3 hcF hcM hcN hcL xs0 xs1 xs2).2.2.2.1)

/-- Case B's stores into the output block include one of the whole buffer, so they cover it. -/
theorem cover1_B_3 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : condM (wd c tbM1_3 xt3 i)) (hcN : ¬condN (wd c tbM1_3 xt3 i)) (hcL : condL (wd c tbM1_2 xt2 i)) (xs0 : Vec F S1024x1 .f32) (xs1 : Vec F S1024x1 .f32) (xs2 : Vec F S1024x64 .f32) (y : S1x1024x64.Idx) :
    ∃ pc ∈ (kernelRun1_B c i arg6 harg6 arg7 harg7 arg8 harg8 arg9 harg9 arg10 harg10 arg11 harg11 arg12 harg12 x0 x1 x2 xt0 xt1 xt2 xt3 hcF hcM hcN hcL xs0 xs1 xs2).1, y ∈ pc.1.set :=
  View.cover_of_wholeMem (kernelRun1_B c i arg6 harg6 arg7 harg7 arg8 harg8 arg9 harg9 arg10 harg10 arg11 harg11 arg12 harg12 x0 x1 x2 xt0 xt1 xt2 xt3 hcF hcM hcN hcL xs0 xs1 xs2).1 (by sl_whole_mem) y

/-- What case B leaves in the output block. -/
def out1_B_3 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : condM (wd c tbM1_3 xt3 i)) (hcN : ¬condN (wd c tbM1_3 xt3 i)) (hcL : condL (wd c tbM1_2 xt2 i)) (xs0 : Vec F S1024x1 .f32) (xs1 : Vec F S1024x1 .f32) (xs2 : Vec F S1024x64 .f32) : Vec F S1x1024x64 .f32 :=
  VO1_3.read (Elt F) (VO1_3.writes (Elt F) VO1_3.junk (kernelRun1_B c i arg6 harg6 arg7 harg7 arg8 harg8 arg9 harg9 arg10 harg10 arg11 harg11 arg12 harg12 x0 x1 x2 xt0 xt1 xt2 xt3 hcF hcM hcN hcL xs0 xs1 xs2).1)

/-- Case C's stores into the running maximum include one of the whole buffer, so they cover it. -/
theorem scover1_C_0 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : condF (wd c tbM1_1 xt1 i)) (hcM : ¬condM (wd c tbM1_3 xt3 i)) (hcN : condN (wd c tbM1_3 xt3 i)) (hcL : ¬condL (wd c tbM1_2 xt2 i)) (y : S1024x1.Idx) :
    ∃ pc ∈ (kernelRun1_C c i arg6 harg6 arg7 harg7 arg8 harg8 arg9 harg9 arg10 harg10 arg11 harg11 arg12 harg12 x0 x1 x2 xt0 xt1 xt2 xt3 hcF hcM hcN hcL).1, y ∈ pc.1.set :=
  View.cover_of_wholeMem (kernelRun1_C c i arg6 harg6 arg7 harg7 arg8 harg8 arg9 harg9 arg10 harg10 arg11 harg11 arg12 harg12 x0 x1 x2 xt0 xt1 xt2 xt3 hcF hcM hcN hcL).1 (by sl_whole_mem) y

/-- What case C leaves in the running maximum. -/
def sout1_C_0 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : condF (wd c tbM1_1 xt1 i)) (hcM : ¬condM (wd c tbM1_3 xt3 i)) (hcN : condN (wd c tbM1_3 xt3 i)) (hcL : ¬condL (wd c tbM1_2 xt2 i)) : Vec F S1024x1 .f32 :=
  VS1_0.read (Elt F) (VS1_0.writes (Elt F) VS1_0.junk (kernelRun1_C c i arg6 harg6 arg7 harg7 arg8 harg8 arg9 harg9 arg10 harg10 arg11 harg11 arg12 harg12 x0 x1 x2 xt0 xt1 xt2 xt3 hcF hcM hcN hcL).1)

/-- Case C's stores into the running normaliser include one of the whole buffer, so they cover it. -/
theorem scover1_C_1 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : condF (wd c tbM1_1 xt1 i)) (hcM : ¬condM (wd c tbM1_3 xt3 i)) (hcN : condN (wd c tbM1_3 xt3 i)) (hcL : ¬condL (wd c tbM1_2 xt2 i)) (y : S1024x1.Idx) :
    ∃ pc ∈ (kernelRun1_C c i arg6 harg6 arg7 harg7 arg8 harg8 arg9 harg9 arg10 harg10 arg11 harg11 arg12 harg12 x0 x1 x2 xt0 xt1 xt2 xt3 hcF hcM hcN hcL).2.1, y ∈ pc.1.set :=
  View.cover_of_wholeMem (kernelRun1_C c i arg6 harg6 arg7 harg7 arg8 harg8 arg9 harg9 arg10 harg10 arg11 harg11 arg12 harg12 x0 x1 x2 xt0 xt1 xt2 xt3 hcF hcM hcN hcL).2.1 (by sl_whole_mem) y

/-- What case C leaves in the running normaliser. -/
def sout1_C_1 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : condF (wd c tbM1_1 xt1 i)) (hcM : ¬condM (wd c tbM1_3 xt3 i)) (hcN : condN (wd c tbM1_3 xt3 i)) (hcL : ¬condL (wd c tbM1_2 xt2 i)) : Vec F S1024x1 .f32 :=
  VS1_1.read (Elt F) (VS1_1.writes (Elt F) VS1_1.junk (kernelRun1_C c i arg6 harg6 arg7 harg7 arg8 harg8 arg9 harg9 arg10 harg10 arg11 harg11 arg12 harg12 x0 x1 x2 xt0 xt1 xt2 xt3 hcF hcM hcN hcL).2.1)

/-- Case C's stores into the running weighted sum include one of the whole buffer, so they cover it. -/
theorem scover1_C_2 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : condF (wd c tbM1_1 xt1 i)) (hcM : ¬condM (wd c tbM1_3 xt3 i)) (hcN : condN (wd c tbM1_3 xt3 i)) (hcL : ¬condL (wd c tbM1_2 xt2 i)) (y : S1024x64.Idx) :
    ∃ pc ∈ (kernelRun1_C c i arg6 harg6 arg7 harg7 arg8 harg8 arg9 harg9 arg10 harg10 arg11 harg11 arg12 harg12 x0 x1 x2 xt0 xt1 xt2 xt3 hcF hcM hcN hcL).2.2.1, y ∈ pc.1.set :=
  View.cover_of_wholeMem (kernelRun1_C c i arg6 harg6 arg7 harg7 arg8 harg8 arg9 harg9 arg10 harg10 arg11 harg11 arg12 harg12 x0 x1 x2 xt0 xt1 xt2 xt3 hcF hcM hcN hcL).2.2.1 (by sl_whole_mem) y

/-- What case C leaves in the running weighted sum. -/
def sout1_C_2 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : condF (wd c tbM1_1 xt1 i)) (hcM : ¬condM (wd c tbM1_3 xt3 i)) (hcN : condN (wd c tbM1_3 xt3 i)) (hcL : ¬condL (wd c tbM1_2 xt2 i)) : Vec F S1024x64 .f32 :=
  VS1_2.read (Elt F) (VS1_2.writes (Elt F) VS1_2.junk (kernelRun1_C c i arg6 harg6 arg7 harg7 arg8 harg8 arg9 harg9 arg10 harg10 arg11 harg11 arg12 harg12 x0 x1 x2 xt0 xt1 xt2 xt3 hcF hcM hcN hcL).2.2.1)

/-- Case D's stores into the running maximum include one of the whole buffer, so they cover it. -/
theorem scover1_D_0 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : ¬condM (wd c tbM1_3 xt3 i)) (hcN : condN (wd c tbM1_3 xt3 i)) (hcL : ¬condL (wd c tbM1_2 xt2 i)) (xs0 : Vec F S1024x1 .f32) (xs1 : Vec F S1024x1 .f32) (xs2 : Vec F S1024x64 .f32) (y : S1024x1.Idx) :
    ∃ pc ∈ (kernelRun1_D c i arg6 harg6 arg7 harg7 arg8 harg8 arg9 harg9 arg10 harg10 arg11 harg11 arg12 harg12 x0 x1 x2 xt0 xt1 xt2 xt3 hcF hcM hcN hcL xs0 xs1 xs2).1, y ∈ pc.1.set :=
  View.cover_of_wholeMem (kernelRun1_D c i arg6 harg6 arg7 harg7 arg8 harg8 arg9 harg9 arg10 harg10 arg11 harg11 arg12 harg12 x0 x1 x2 xt0 xt1 xt2 xt3 hcF hcM hcN hcL xs0 xs1 xs2).1 (by sl_whole_mem) y

/-- What case D leaves in the running maximum. -/
def sout1_D_0 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : ¬condM (wd c tbM1_3 xt3 i)) (hcN : condN (wd c tbM1_3 xt3 i)) (hcL : ¬condL (wd c tbM1_2 xt2 i)) (xs0 : Vec F S1024x1 .f32) (xs1 : Vec F S1024x1 .f32) (xs2 : Vec F S1024x64 .f32) : Vec F S1024x1 .f32 :=
  VS1_0.read (Elt F) (VS1_0.writes (Elt F) VS1_0.junk (kernelRun1_D c i arg6 harg6 arg7 harg7 arg8 harg8 arg9 harg9 arg10 harg10 arg11 harg11 arg12 harg12 x0 x1 x2 xt0 xt1 xt2 xt3 hcF hcM hcN hcL xs0 xs1 xs2).1)

/-- Case D's stores into the running normaliser include one of the whole buffer, so they cover it. -/
theorem scover1_D_1 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : ¬condM (wd c tbM1_3 xt3 i)) (hcN : condN (wd c tbM1_3 xt3 i)) (hcL : ¬condL (wd c tbM1_2 xt2 i)) (xs0 : Vec F S1024x1 .f32) (xs1 : Vec F S1024x1 .f32) (xs2 : Vec F S1024x64 .f32) (y : S1024x1.Idx) :
    ∃ pc ∈ (kernelRun1_D c i arg6 harg6 arg7 harg7 arg8 harg8 arg9 harg9 arg10 harg10 arg11 harg11 arg12 harg12 x0 x1 x2 xt0 xt1 xt2 xt3 hcF hcM hcN hcL xs0 xs1 xs2).2.1, y ∈ pc.1.set :=
  View.cover_of_wholeMem (kernelRun1_D c i arg6 harg6 arg7 harg7 arg8 harg8 arg9 harg9 arg10 harg10 arg11 harg11 arg12 harg12 x0 x1 x2 xt0 xt1 xt2 xt3 hcF hcM hcN hcL xs0 xs1 xs2).2.1 (by sl_whole_mem) y

/-- What case D leaves in the running normaliser. -/
def sout1_D_1 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : ¬condM (wd c tbM1_3 xt3 i)) (hcN : condN (wd c tbM1_3 xt3 i)) (hcL : ¬condL (wd c tbM1_2 xt2 i)) (xs0 : Vec F S1024x1 .f32) (xs1 : Vec F S1024x1 .f32) (xs2 : Vec F S1024x64 .f32) : Vec F S1024x1 .f32 :=
  VS1_1.read (Elt F) (VS1_1.writes (Elt F) VS1_1.junk (kernelRun1_D c i arg6 harg6 arg7 harg7 arg8 harg8 arg9 harg9 arg10 harg10 arg11 harg11 arg12 harg12 x0 x1 x2 xt0 xt1 xt2 xt3 hcF hcM hcN hcL xs0 xs1 xs2).2.1)

/-- Case D's stores into the running weighted sum include one of the whole buffer, so they cover it. -/
theorem scover1_D_2 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : ¬condM (wd c tbM1_3 xt3 i)) (hcN : condN (wd c tbM1_3 xt3 i)) (hcL : ¬condL (wd c tbM1_2 xt2 i)) (xs0 : Vec F S1024x1 .f32) (xs1 : Vec F S1024x1 .f32) (xs2 : Vec F S1024x64 .f32) (y : S1024x64.Idx) :
    ∃ pc ∈ (kernelRun1_D c i arg6 harg6 arg7 harg7 arg8 harg8 arg9 harg9 arg10 harg10 arg11 harg11 arg12 harg12 x0 x1 x2 xt0 xt1 xt2 xt3 hcF hcM hcN hcL xs0 xs1 xs2).2.2.1, y ∈ pc.1.set :=
  View.cover_of_wholeMem (kernelRun1_D c i arg6 harg6 arg7 harg7 arg8 harg8 arg9 harg9 arg10 harg10 arg11 harg11 arg12 harg12 x0 x1 x2 xt0 xt1 xt2 xt3 hcF hcM hcN hcL xs0 xs1 xs2).2.2.1 (by sl_whole_mem) y

/-- What case D leaves in the running weighted sum. -/
def sout1_D_2 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : ¬condM (wd c tbM1_3 xt3 i)) (hcN : condN (wd c tbM1_3 xt3 i)) (hcL : ¬condL (wd c tbM1_2 xt2 i)) (xs0 : Vec F S1024x1 .f32) (xs1 : Vec F S1024x1 .f32) (xs2 : Vec F S1024x64 .f32) : Vec F S1024x64 .f32 :=
  VS1_2.read (Elt F) (VS1_2.writes (Elt F) VS1_2.junk (kernelRun1_D c i arg6 harg6 arg7 harg7 arg8 harg8 arg9 harg9 arg10 harg10 arg11 harg11 arg12 harg12 x0 x1 x2 xt0 xt1 xt2 xt3 hcF hcM hcN hcL xs0 xs1 xs2).2.2.1)

/-- Case E's stores into the running maximum include one of the whole buffer, so they cover it. -/
theorem scover1_E_0 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : condM (wd c tbM1_3 xt3 i)) (hcN : ¬condN (wd c tbM1_3 xt3 i)) (hcL : ¬condL (wd c tbM1_2 xt2 i)) (xs0 : Vec F S1024x1 .f32) (xs1 : Vec F S1024x1 .f32) (xs2 : Vec F S1024x64 .f32) (y : S1024x1.Idx) :
    ∃ pc ∈ (kernelRun1_E c i arg6 harg6 arg7 harg7 arg8 harg8 arg9 harg9 arg10 harg10 arg11 harg11 arg12 harg12 x0 x1 x2 xt0 xt1 xt2 xt3 hcF hcM hcN hcL xs0 xs1 xs2).1, y ∈ pc.1.set :=
  View.cover_of_wholeMem (kernelRun1_E c i arg6 harg6 arg7 harg7 arg8 harg8 arg9 harg9 arg10 harg10 arg11 harg11 arg12 harg12 x0 x1 x2 xt0 xt1 xt2 xt3 hcF hcM hcN hcL xs0 xs1 xs2).1 (by sl_whole_mem) y

/-- What case E leaves in the running maximum. -/
def sout1_E_0 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : condM (wd c tbM1_3 xt3 i)) (hcN : ¬condN (wd c tbM1_3 xt3 i)) (hcL : ¬condL (wd c tbM1_2 xt2 i)) (xs0 : Vec F S1024x1 .f32) (xs1 : Vec F S1024x1 .f32) (xs2 : Vec F S1024x64 .f32) : Vec F S1024x1 .f32 :=
  VS1_0.read (Elt F) (VS1_0.writes (Elt F) VS1_0.junk (kernelRun1_E c i arg6 harg6 arg7 harg7 arg8 harg8 arg9 harg9 arg10 harg10 arg11 harg11 arg12 harg12 x0 x1 x2 xt0 xt1 xt2 xt3 hcF hcM hcN hcL xs0 xs1 xs2).1)

/-- Case E's stores into the running normaliser include one of the whole buffer, so they cover it. -/
theorem scover1_E_1 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : condM (wd c tbM1_3 xt3 i)) (hcN : ¬condN (wd c tbM1_3 xt3 i)) (hcL : ¬condL (wd c tbM1_2 xt2 i)) (xs0 : Vec F S1024x1 .f32) (xs1 : Vec F S1024x1 .f32) (xs2 : Vec F S1024x64 .f32) (y : S1024x1.Idx) :
    ∃ pc ∈ (kernelRun1_E c i arg6 harg6 arg7 harg7 arg8 harg8 arg9 harg9 arg10 harg10 arg11 harg11 arg12 harg12 x0 x1 x2 xt0 xt1 xt2 xt3 hcF hcM hcN hcL xs0 xs1 xs2).2.1, y ∈ pc.1.set :=
  View.cover_of_wholeMem (kernelRun1_E c i arg6 harg6 arg7 harg7 arg8 harg8 arg9 harg9 arg10 harg10 arg11 harg11 arg12 harg12 x0 x1 x2 xt0 xt1 xt2 xt3 hcF hcM hcN hcL xs0 xs1 xs2).2.1 (by sl_whole_mem) y

/-- What case E leaves in the running normaliser. -/
def sout1_E_1 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : condM (wd c tbM1_3 xt3 i)) (hcN : ¬condN (wd c tbM1_3 xt3 i)) (hcL : ¬condL (wd c tbM1_2 xt2 i)) (xs0 : Vec F S1024x1 .f32) (xs1 : Vec F S1024x1 .f32) (xs2 : Vec F S1024x64 .f32) : Vec F S1024x1 .f32 :=
  VS1_1.read (Elt F) (VS1_1.writes (Elt F) VS1_1.junk (kernelRun1_E c i arg6 harg6 arg7 harg7 arg8 harg8 arg9 harg9 arg10 harg10 arg11 harg11 arg12 harg12 x0 x1 x2 xt0 xt1 xt2 xt3 hcF hcM hcN hcL xs0 xs1 xs2).2.1)

/-- Case E's stores into the running weighted sum include one of the whole buffer, so they cover it. -/
theorem scover1_E_2 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : condM (wd c tbM1_3 xt3 i)) (hcN : ¬condN (wd c tbM1_3 xt3 i)) (hcL : ¬condL (wd c tbM1_2 xt2 i)) (xs0 : Vec F S1024x1 .f32) (xs1 : Vec F S1024x1 .f32) (xs2 : Vec F S1024x64 .f32) (y : S1024x64.Idx) :
    ∃ pc ∈ (kernelRun1_E c i arg6 harg6 arg7 harg7 arg8 harg8 arg9 harg9 arg10 harg10 arg11 harg11 arg12 harg12 x0 x1 x2 xt0 xt1 xt2 xt3 hcF hcM hcN hcL xs0 xs1 xs2).2.2.1, y ∈ pc.1.set :=
  View.cover_of_wholeMem (kernelRun1_E c i arg6 harg6 arg7 harg7 arg8 harg8 arg9 harg9 arg10 harg10 arg11 harg11 arg12 harg12 x0 x1 x2 xt0 xt1 xt2 xt3 hcF hcM hcN hcL xs0 xs1 xs2).2.2.1 (by sl_whole_mem) y

/-- What case E leaves in the running weighted sum. -/
def sout1_E_2 (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : condM (wd c tbM1_3 xt3 i)) (hcN : ¬condN (wd c tbM1_3 xt3 i)) (hcL : ¬condL (wd c tbM1_2 xt2 i)) (xs0 : Vec F S1024x1 .f32) (xs1 : Vec F S1024x1 .f32) (xs2 : Vec F S1024x64 .f32) : Vec F S1024x64 .f32 :=
  VS1_2.read (Elt F) (VS1_2.writes (Elt F) VS1_2.junk (kernelRun1_E c i arg6 harg6 arg7 harg7 arg8 harg8 arg9 harg9 arg10 harg10 arg11 harg11 arg12 harg12 x0 x1 x2 xt0 xt1 xt2 xt3 hcF hcM hcN hcL xs0 xs1 xs2).2.2.1)

end Cert.Kernel.Att

end
-- ==== Proof.Reg1TablesK.lean ====
import proofs.«175909_j62251255988572_2_alg».proof.Proof.Reg1RunsK
import Idealize.ShloMosaic.PureOps.Ideal

/-! The four prefetched tables' contents, which @main writes as constants before the first region: for each of
    the 20 causally valid (query block, key tile) pairs, the query-block number, the key-tile number, whether the
    tile is the last of its query block, and whether it crosses the diagonal. The pipeline's side condition of them
    (every table-indexed block lies inside its array) is decided once; so are the facts the body obligation needs of
    the words at each grid point. -/

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The tables' contents: table `j` holds the `j`-th literal list. -/
def litTbl : pre1.Contents (Elt F) := fun j => match j with
  | ⟨0, _⟩ => fun i => lit0 (S20.rowMajor i)
  | ⟨1, _⟩ => fun i => lit1 (S20.rowMajor i)
  | ⟨2, _⟩ => fun i => lit2 (S20.rowMajor i)
  | ⟨3, _⟩ => fun i => lit3 (S20.rowMajor i)

/-- Every block the tables name lies inside its array. -/
theorem ok_lit_ideal : ok1 (F := Ideal) litTbl := by decide +kernel

/-- The side condition speaks of the tables' integer words only, so it holds at any float instance. -/
theorem ok_lit : ok1 (F := F) litTbl := ok_lit_ideal

/-- The tables as admissible contents, and the pipeline at them. -/
abbrev adm1 : (pcfg1 (F := F)).Adm := ⟨litTbl, ok_lit⟩
abbrev cfgM : Pipeline.Cfg sig Λ₀ := cfg1 (F := F) adm1

theorem N_M : (cfgM (F := F)).N = 80 := N_1

/-- The three words the body branches on at grid point `t`: key-tile number, last-tile flag, mask flag. -/
abbrev wF (c : Dev nD) (t : Fin (cfgM (F := F)).N) : BitVec 32 := wd (F := F) c tbM1_1 (litTbl 1) (grid1.coords t)
abbrev wL (c : Dev nD) (t : Fin (cfgM (F := F)).N) : BitVec 32 := wd (F := F) c tbM1_2 (litTbl 2) (grid1.coords t)
abbrev wM (c : Dev nD) (t : Fin (cfgM (F := F)).N) : BitVec 32 := wd (F := F) c tbM1_3 (litTbl 3) (grid1.coords t)

/-- What holds of those words at every grid point, decided over the 80 points: the two forms of the mask test are
    complementary; a last tile is never a first tile and always crosses the diagonal; the grid's first point is a
    first tile; and the output window is idle, and not written back, exactly off the last tiles. -/
def WordFacts (c : Dev nD) (t : Fin (cfgM (F := F)).N) : Prop :=
  (condN (wM (F := F) c t) ↔ ¬condM (wM (F := F) c t))
  ∧ (condL (wL (F := F) c t) → ¬condF (wF (F := F) c t) ∧ condM (wM (F := F) c t))
  ∧ (t.val = 0 → condF (wF (F := F) c t))
  ∧ (¬condL (wL (F := F) c t) → (cfgM (F := F)).idle 3 (grid1.coords t) = true ∧ ((cfgM (F := F)).win 3).flush t = false)
  ∧ (condL (wL (F := F) c t) → (cfgM (F := F)).idle 3 (grid1.coords t) = false)

instance (c : Dev nD) (t : Fin (cfgM (F := F)).N) : Decidable (WordFacts (F := F) c t) := by
  unfold WordFacts; infer_instance

theorem wordFacts_ideal : ∀ (c : Dev nD) (t : Fin (cfgM (F := Ideal)).N), WordFacts (F := Ideal) c t := by decide +kernel

/-- The facts speak of integer words and of the schedule only, so they hold at any float instance. -/
theorem wordFacts (c : Dev nD) (t : Fin (cfgM (F := F)).N) : WordFacts (F := F) c t := wordFacts_ideal c t

end Cert.Kernel.Att

end
-- ==== Proof.Reg1K.lean ====
import proofs.«175909_j62251255988572_2_alg».proof.Proof.Reg1OutsK
import proofs.«175909_j62251255988572_2_alg».proof.Proof.Reg1TablesK

/-! The attention kernel's region, at the buffers' contents `V` when the region is entered: the input blocks at a
    grid point; the trajectory — what the three scratch buffers (running maximum, normaliser, weighted sum) and the
    output block hold after each grid point, by recursion on the point, each step the control case the tables select
    there; the invariant that carries the scratch from point to point beside the tables; the proof data; and the body
    obligation, by cases. -/

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin (cfgM (F := F)).W) (t : Fin (cfgM (F := F)).N) :
    (((cfgM (F := F)).win w).xblock ((cfgM (F := F)).grid.coords t)).Idx → Elt F ((cfgM (F := F)).win w).elt :=
  (((cfgM (F := F)).win w).blk t).view.read (Elt F) (V c (Pipeline.arrRef spec1 w))

/-- Input window 0's current staging buffer holds its block at every point, fetched there or not. -/
theorem before1_0_of {c : Dev nD} (dat : Dat τ (Elt F) Unit ℕ (UR sig nD τ) ℕ (cfgM (F := F)) c) (hA : dat.A 0 = V c (Pipeline.arrRef spec1 0))
    (hafter : ∀ t, dat.after 0 t = iblk1 V c 0 t) (t : Fin (cfgM (F := F)).N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ (cfgM (F := F)) c) (hA : dat.A 1 = V c (Pipeline.arrRef spec1 1))
    (hafter : ∀ t, dat.after 1 t = iblk1 V c 1 t) (t : Fin (cfgM (F := F)).N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ (cfgM (F := F)) c) (hA : dat.A 2 = V c (Pipeline.arrRef spec1 2))
    (hafter : ∀ t, dat.after 2 t = iblk1 V c 2 t) (t : Fin (cfgM (F := F)).N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, as the pipeline passes it to the body. -/
abbrev ms1_0 (t : Fin (cfgM (F := F)).N) : Memref sig .tc .vmem S1x1024x64 .bf16 := spec1_0.stage ((cfgM (F := F)).slots t 0)
abbrev hs1_0 (t : Fin (cfgM (F := F)).N) : (ms1_0 (F := F) t).IsWhole := hstage1_0 (((cfgM (F := F)).slots t 0).cast nbuf1_0)
abbrev ms1_1 (t : Fin (cfgM (F := F)).N) : Memref sig .tc .vmem S1x512x64 .bf16 := spec1_1.stage ((cfgM (F := F)).slots t 1)
abbrev hs1_1 (t : Fin (cfgM (F := F)).N) : (ms1_1 (F := F) t).IsWhole := hstage1_1 (((cfgM (F := F)).slots t 1).cast nbuf1_1)
abbrev ms1_2 (t : Fin (cfgM (F := F)).N) : Memref sig .tc .vmem S1x512x64 .bf16 := spec1_2.stage ((cfgM (F := F)).slots t 2)
abbrev hs1_2 (t : Fin (cfgM (F := F)).N) : (ms1_2 (F := F) t).IsWhole := hstage1_2 (((cfgM (F := F)).slots t 2).cast nbuf1_2)
abbrev ms1_3 (t : Fin (cfgM (F := F)).N) : Memref sig .tc .vmem S1x1024x64 .f32 := spec1_3.stage ((cfgM (F := F)).slots t 3)
abbrev hs1_3 (t : Fin (cfgM (F := F)).N) : (ms1_3 (F := F) t).IsWhole := hstage1_3 (((cfgM (F := F)).slots t 3).cast nbuf1_3)

/-- The body at point `t`, on what the pipeline calls it with. -/
abbrev bodyAt1 (t : Fin (cfgM (F := F)).N) : Prog (TpuEff nD τ sig (Elt F) Λ₀ .tc) PUnit :=
  cc1__attn_kernel (grid1.coords t) tbM1_0 htbM1_0 tbM1_1 htbM1_1 tbM1_2 htbM1_2 tbM1_3 htbM1_3 (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _)

/-! ## The trajectory -/

/-- Running maximum, running normaliser, running weighted sum. -/
abbrev S3 : Type := Vec F S1024x1 .f32 × Vec F S1024x1 .f32 × Vec F S1024x64 .f32

/-- Contents nothing reads: the output block off the last tiles, and the state at combinations of the three tests
    that no grid point meets. -/
def junkO : Vec F S1x1024x64 .f32 := VO1_3.read (Elt F) VO1_3.junk
def dflt3 : S3 (F := F) := (VS1_0.read (Elt F) VS1_0.junk, VS1_1.read (Elt F) VS1_1.junk, VS1_2.read (Elt F) VS1_2.junk)
def dflt4 : Vec F S1x1024x64 .f32 × S3 (F := F) := (junkO, dflt3)

/-- One grid point: the output block and the scratch after the body at `t`, from the scratch `p` the point before
    left — the control case the three table words select, run on the point's input blocks. -/
def stepAt (c : Dev nD) (t : Fin (cfgM (F := F)).N) (p : S3 (F := F)) : Vec F S1x1024x64 .f32 × S3 (F := F) :=
  if hF : condF (wF (F := F) c t) then
    if hM : condM (wM (F := F) c t) then
      if hL : condL (wL (F := F) c t) then dflt4
      else (junkO, (sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => ((wordFacts c t).1.mp h) hM) hL), (sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => ((wordFacts c t).1.mp h) hM) hL), (sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => ((wordFacts c t).1.mp h) hM) hL))
    else
      if hL : condL (wL (F := F) c t) then dflt4
      else (junkO, (sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM ((wordFacts c t).1.mpr hM) hL), (sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM ((wordFacts c t).1.mpr hM) hL), (sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM ((wordFacts c t).1.mpr hM) hL))
  else
    if hM : condM (wM (F := F) c t) then
      if hL : condL (wL (F := F) c t) then ((out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => ((wordFacts c t).1.mp h) hM) hL p.1 p.2.1 p.2.2), (sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => ((wordFacts c t).1.mp h) hM) hL p.1 p.2.1 p.2.2), (sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => ((wordFacts c t).1.mp h) hM) hL p.1 p.2.1 p.2.2), (sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => ((wordFacts c t).1.mp h) hM) hL p.1 p.2.1 p.2.2))
      else (junkO, (sout1_E_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => ((wordFacts c t).1.mp h) hM) hL p.1 p.2.1 p.2.2), (sout1_E_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => ((wordFacts c t).1.mp h) hM) hL p.1 p.2.1 p.2.2), (sout1_E_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => ((wordFacts c t).1.mp h) hM) hL p.1 p.2.1 p.2.2))
    else
      if hL : condL (wL (F := F) c t) then dflt4
      else (junkO, (sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM ((wordFacts c t).1.mpr hM) hL p.1 p.2.1 p.2.2), (sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM ((wordFacts c t).1.mpr hM) hL p.1 p.2.1 p.2.2), (sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM ((wordFacts c t).1.mpr hM) hL p.1 p.2.1 p.2.2))

theorem stepAt_A (c : Dev nD) (t : Fin (cfgM (F := F)).N) (p : S3 (F := F)) (hF : condF (wF (F := F) c t)) (hM : condM (wM (F := F) c t)) (hL : ¬condL (wL (F := F) c t)) :
    stepAt V c t p = (junkO, (sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => ((wordFacts c t).1.mp h) hM) hL), (sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => ((wordFacts c t).1.mp h) hM) hL), (sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => ((wordFacts c t).1.mp h) hM) hL)) :=
  (dif_pos hF).trans ((dif_pos hM).trans ((dif_neg hL).trans rfl))

theorem stepAt_B (c : Dev nD) (t : Fin (cfgM (F := F)).N) (p : S3 (F := F)) (hF : ¬condF (wF (F := F) c t)) (hM : condM (wM (F := F) c t)) (hL : condL (wL (F := F) c t)) :
    stepAt V c t p = ((out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => ((wordFacts c t).1.mp h) hM) hL p.1 p.2.1 p.2.2), (sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => ((wordFacts c t).1.mp h) hM) hL p.1 p.2.1 p.2.2), (sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => ((wordFacts c t).1.mp h) hM) hL p.1 p.2.1 p.2.2), (sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => ((wordFacts c t).1.mp h) hM) hL p.1 p.2.1 p.2.2)) :=
  (dif_neg hF).trans ((dif_pos hM).trans ((dif_pos hL).trans rfl))

theorem stepAt_C (c : Dev nD) (t : Fin (cfgM (F := F)).N) (p : S3 (F := F)) (hF : condF (wF (F := F) c t)) (hM : ¬condM (wM (F := F) c t)) (hL : ¬condL (wL (F := F) c t)) :
    stepAt V c t p = (junkO, (sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM ((wordFacts c t).1.mpr hM) hL), (sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM ((wordFacts c t).1.mpr hM) hL), (sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM ((wordFacts c t).1.mpr hM) hL)) :=
  (dif_pos hF).trans ((dif_neg hM).trans ((dif_neg hL).trans rfl))

theorem stepAt_D (c : Dev nD) (t : Fin (cfgM (F := F)).N) (p : S3 (F := F)) (hF : ¬condF (wF (F := F) c t)) (hM : ¬condM (wM (F := F) c t)) (hL : ¬condL (wL (F := F) c t)) :
    stepAt V c t p = (junkO, (sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM ((wordFacts c t).1.mpr hM) hL p.1 p.2.1 p.2.2), (sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM ((wordFacts c t).1.mpr hM) hL p.1 p.2.1 p.2.2), (sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM ((wordFacts c t).1.mpr hM) hL p.1 p.2.1 p.2.2)) :=
  (dif_neg hF).trans ((dif_neg hM).trans ((dif_neg hL).trans rfl))

theorem stepAt_E (c : Dev nD) (t : Fin (cfgM (F := F)).N) (p : S3 (F := F)) (hF : ¬condF (wF (F := F) c t)) (hM : condM (wM (F := F) c t)) (hL : ¬condL (wL (F := F) c t)) :
    stepAt V c t p = (junkO, (sout1_E_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => ((wordFacts c t).1.mp h) hM) hL p.1 p.2.1 p.2.2), (sout1_E_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => ((wordFacts c t).1.mp h) hM) hL p.1 p.2.1 p.2.2), (sout1_E_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => ((wordFacts c t).1.mp h) hM) hL p.1 p.2.1 p.2.2)) :=
  (dif_neg hF).trans ((dif_pos hM).trans ((dif_neg hL).trans rfl))

/-- THE TRAJECTORY: the output block and the scratch after the body at position `n`. -/
def outsAt1 (c : Dev nD) : (n : ℕ) → n < (cfgM (F := F)).N → Vec F S1x1024x64 .f32 × S3 (F := F)
  | 0, hn => stepAt V c ⟨0, hn⟩ dflt3
  | n + 1, hn => stepAt V c ⟨n + 1, hn⟩ (outsAt1 c n (Nat.lt_of_succ_lt hn)).2

theorem outsAt1_pos (c : Dev nD) (t : Fin (cfgM (F := F)).N) (ht : t.val ≠ 0) :
    outsAt1 V c t.val t.isLt = stepAt V c t (outsAt1 V c (t.val - 1) (Nat.lt_of_le_of_lt (Nat.sub_le _ _) t.isLt)).2 := by
  obtain ⟨n, hn⟩ := t
  cases n with
  | zero => exact absurd rfl ht
  | succ n => rfl

theorem outsAt1_zero (c : Dev nD) (t : Fin (cfgM (F := F)).N) (ht : t.val = 0) :
    outsAt1 V c t.val t.isLt = stepAt V c t dflt3 := by
  obtain ⟨n, hn⟩ := t
  cases n with
  | zero => rfl
  | succ n => exact absurd ht (Nat.succ_ne_zero n)

/-! ## The invariant -/

/-- The class invariant with the three scratch buffers as memrefs owned at some contents: beside them the first
    region's eleven staging buffers, which this region leaves alone, and the generator register. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-- The invariant before position `n`: before the first point the class's; afterwards the same with each scratch
    buffer at what the point before left in it. -/
def PhiS (c : Dev nD) : (n : ℕ) → n ≤ (cfgM (F := F)).N → sProp 𝕄
  | 0, _ => Pipeline.ΦA spec1 c
  | n + 1, hn => iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r))

theorem PhiS_zero (c : Dev nD) (n : ℕ) (h : n ≤ (cfgM (F := F)).N) (hz : n = 0) : PhiS V c n h = Pipeline.ΦA spec1 c := by
  subst hz; rfl

theorem PhiS_succ (c : Dev nD) (n : ℕ) (hn : n < (cfgM (F := F)).N) :
    PhiS V c (n + 1) hn = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) := rfl

theorem PhiS_pos (c : Dev nD) (n : ℕ) (h : n ≤ (cfgM (F := F)).N) (hz : n ≠ 0) :
    PhiS V c n h = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl

/-- The tables' halves the region hands the body, table by table. -/
theorem PhiT1_eq (c : Dev nD) : (Pipeline.ΦT pre1 (litTbl (F := F)) c : sProp 𝕄) = iprop(tbPt1 c tbM1_0 (litTbl 0) ∗ tbPt1 c tbM1_1 (litTbl 1) ∗ tbPt1 c tbM1_2 (litTbl 2) ∗ tbPt1 c tbM1_3 (litTbl 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The proof data -/

/-- The proof data of the attention pipeline on core `c`: the arrays as the region finds them; after the body at
    point `t` each input's buffer at its block and the output's at the trajectory's block; the invariant the scratch
    at the trajectory's state beside the tables' halves; nothing owed; full shares. -/
def dat1 (c : Dev nD) : Dat τ (Elt F) Unit ℕ (UR sig nD τ) ℕ (cfgM (F := F)) c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := iprop(PhiS V c t.val (Nat.le_of_lt_succ t.isLt) ∗ Pipeline.ΦT pre1 (litTbl (F := F)) c)
  q _ := fullShare
  owed _ := 0

theorem A_eq1 (c : Dev nD) (w : Fin (cfgM (F := F)).W) : (dat1 V c).A w = V c (Pipeline.arrRef spec1 w) := by
  dsimp only [dat1]

theorem Phi_castSucc (c : Dev nD) (t : Fin (cfgM (F := F)).N) :
    (dat1 V c).Φ t.castSucc = iprop(PhiS V c t.val (Nat.le_of_lt t.isLt) ∗ Pipeline.ΦT pre1 (litTbl (F := F)) c) := by
  dsimp only [dat1]; simp only [Fin.coe_castSucc]

theorem after1_0 (c : Dev nD) (t : Fin (cfgM (F := F)).N) : (dat1 V c).after 0 t = iblk1 V c 0 t := by dsimp only [dat1]; rfl
theorem after1_1 (c : Dev nD) (t : Fin (cfgM (F := F)).N) : (dat1 V c).after 1 t = iblk1 V c 1 t := by dsimp only [dat1]; rfl
theorem after1_2 (c : Dev nD) (t : Fin (cfgM (F := F)).N) : (dat1 V c).after 2 t = iblk1 V c 2 t := by dsimp only [dat1]; rfl
theorem after1_3 (c : Dev nD) (t : Fin (cfgM (F := F)).N) : (dat1 V c).after 3 t = (outsAt1 V c t.val t.isLt).1 := by dsimp only [dat1]; rfl

theorem before1_0 (c : Dev nD) (t : Fin (cfgM (F := F)).N) (d) : (dat1 V c).before 0 t d = iblk1 V c 0 t :=
  before1_0_of V (dat1 V c) (A_eq1 V c 0) (after1_0 V c) t d
theorem before1_1 (c : Dev nD) (t : Fin (cfgM (F := F)).N) (d) : (dat1 V c).before 1 t d = iblk1 V c 1 t :=
  before1_1_of V (dat1 V c) (A_eq1 V c 1) (after1_1 V c) t d
theorem before1_2 (c : Dev nD) (t : Fin (cfgM (F := F)).N) (d) : (dat1 V c).before 2 t d = iblk1 V c 2 t :=
  before1_2_of V (dat1 V c) (A_eq1 V c 2) (after1_2 V c) t d

/-- The input windows are never idle. -/
theorem liveAt1_0 (t : Fin (cfgM (F := F)).N) : (cfgM (F := F)).idle 0 (grid1.coords t) = false := rfl
theorem liveAt1_1 (t : Fin (cfgM (F := F)).N) : (cfgM (F := F)).idle 1 (grid1.coords t) = false := rfl
theorem liveAt1_2 (t : Fin (cfgM (F := F)).N) : (cfgM (F := F)).idle 2 (grid1.coords t) = false := rfl

end Cert.Kernel.Att

end
-- ==== Proof.Reg1BodyK.lean ====
import proofs.«175909_j62251255988572_2_alg».proof.Proof.Reg1K

/-! The body obligation of the attention pipeline, at every grid point: the three table words select the control
    case; the inputs' staging buffers hold their blocks; the invariant hands the body the scratch at what the point
    before left (at anything where the case resets it) and takes it back at this point's state; off the last tiles
    the output's buffer goes back untouched, at a last tile it holds the quotient. -/

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre1 (c : Dev nD) (t : Fin (cfgM (F := F)).N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin (cfgM (F := F)).N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- The invariant at a point's start and end, with the tables' halves one by one. -/
theorem Phi_pre (c : Dev nD) (t : Fin (cfgM (F := F)).N) :
    (dat1 V c).Φ t.castSucc = iprop(PhiS V c t.val (Nat.le_of_lt t.isLt) ∗ (tbPt1 c tbM1_0 (litTbl 0) ∗ tbPt1 c tbM1_1 (litTbl 1) ∗ tbPt1 c tbM1_2 (litTbl 2) ∗ tbPt1 c tbM1_3 (litTbl 3))) := by
  rw [Phi_castSucc, PhiT1_eq]
theorem Phi_post (c : Dev nD) (t : Fin (cfgM (F := F)).N) :
    (dat1 V c).Φ t.succ = iprop(PhiS V c (t.val + 1) t.isLt ∗ (tbPt1 c tbM1_0 (litTbl 0) ∗ tbPt1 c tbM1_1 (litTbl 1) ∗ tbPt1 c tbM1_2 (litTbl 2) ∗ tbPt1 c tbM1_3 (litTbl 3))) := by
  rw [show (dat1 V c).Φ t.succ = iprop(PhiS V c (t.val + 1) t.isLt ∗ Pipeline.ΦT pre1 (litTbl (F := F)) c) from rfl, PhiT1_eq]

set_option maxHeartbeats 8000000 in
theorem sound_body1 (c : Dev nD) (t : Fin (cfgM (F := F)).N) :
    bodyPre1 V c t ⊢ wp frame (wpE (defs₀ (F := F)) Variants.none c none) Set.univ (bodyAt1 (F := F) t) (fun _ => bodyPost1 V c t) := by
  unfold bodyPre1 bodyPost1 bodyAt1
  simp only [before1_0, before1_1, before1_2]
  rw [show (dat1 V c).owesAt () t.succ = (dat1 V c).owesAt () t.castSucc from rfl]
  rw [Phi_post V c t, PhiS_succ]
  rw [show (dat1 V c).leavesExact 0 t = owns (c : Thread nD τ) (ms1_0 t) fullShare ((dat1 V c).after 0 t) from by
    unfold Dat.leavesExact; rw [liveAt1_0 t]; rfl, after1_0]
  rw [show (dat1 V c).leavesExact 1 t = owns (c : Thread nD τ) (ms1_1 t) fullShare ((dat1 V c).after 1 t) from by
    unfold Dat.leavesExact; rw [liveAt1_1 t]; rfl, after1_1]
  rw [show (dat1 V c).leavesExact 2 t = owns (c : Thread nD τ) (ms1_2 t) fullShare ((dat1 V c).after 2 t) from by
    unfold Dat.leavesExact; rw [liveAt1_2 t]; rfl, after1_2]
  obtain ⟨hcompl, hlast, hzero, hidle, hlive⟩ := wordFacts (F := F) c t
  by_cases hF : condF (wF (F := F) c t)
  · by_cases hM : condM (wM (F := F) c t)
    · by_cases hL : condL (wL (F := F) c t)
      · exact absurd hF (hlast hL).1
      · rw [Dat.leavesExact_idle (dat1 V c) 3 t (hidle hL).1 (hidle hL).2]
        by_cases hz : t.val = 0
        · rw [outsAt1_zero V c t hz, stepAt_A V c t _ hF hM hL]
          (try dsimp only)
          unfold sout1_A_0 sout1_A_1 sout1_A_2; (try dsimp only)
          rw [Phi_pre V c t, PhiS_zero V c _ _ hz, PhiA1_eq]
          iintro ⟨⟨⟨⟨HA0, HA1, HA2, HA3, HA4, HA5, HA6, HA7, HA8, HA9, HA10, HS0, HS1, HS2⟩, Hg⟩, ⟨HT0, HT1, HT2, HT3⟩⟩, Ho, ⟨%d0, H0⟩, ⟨%d1, H1⟩, ⟨%d2, H2⟩, ⟨%d3, H3⟩⟩
          iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => (hcompl.mp h) hM) hL).2.2.2 _ Set.univ _)
          isplitl [H0]; · iexact H0
          isplitl [H1]; · iexact H1
          isplitl [H2]; · iexact H2
          isplitl [H3]; · iexact H3
          isplitl [HS0]; · iexact HS0
          isplitl [HS1]; · iexact HS1
          isplitl [HS2]; · iexact HS2
          isplitl [HT0]; · iexact HT0
          isplitl [HT1]; · iexact HT1
          isplitl [HT2]; · iexact HT2
          isplitl [HT3]; · iexact HT3
          iintro ⟨H0, H1, H2, H3, ⟨%es0, HS0⟩, ⟨%es1, HS1⟩, ⟨%es2, HS2⟩, HT0, HT1, HT2, HT3⟩
          isplitl [HA0 HA1 HA2 HA3 HA4 HA5 HA6 HA7 HA8 HA9 HA10 HS0 HS1 HS2 Hg HT0 HT1 HT2 HT3]
          · isplitl [HA0 HA1 HA2 HA3 HA4 HA5 HA6 HA7 HA8 HA9 HA10 HS0 HS1 HS2 Hg]
            · isplitl [HA0 HA1 HA2 HA3 HA4 HA5 HA6 HA7 HA8 HA9 HA10 HS0 HS1 HS2]
              · isplitl [HA0]; · iexact HA0
                isplitl [HA1]; · iexact HA1
                isplitl [HA2]; · iexact HA2
                isplitl [HA3]; · iexact HA3
                isplitl [HA4]; · iexact HA4
                isplitl [HA5]; · iexact HA5
                isplitl [HA6]; · iexact HA6
                isplitl [HA7]; · iexact HA7
                isplitl [HA8]; · iexact HA8
                isplitl [HA9]; · iexact HA9
                isplitl [HA10]; · iexact HA10
                isplitl [HS0]
                · unfold owns; iexists _; isplitr
                  swap; · iexact HS0
                  ipureintro; exact View.read_writes_of_cover _ _ _ _ _ (scover1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => (hcompl.mp h) hM) hL)
                isplitl [HS1]
                · unfold owns; iexists _; isplitr
                  swap; · iexact HS1
                  ipureintro; exact View.read_writes_of_cover _ _ _ _ _ (scover1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => (hcompl.mp h) hM) hL)
                unfold owns; iexists _; isplitr
                swap; · iexact HS2
                ipureintro; exact View.read_writes_of_cover _ _ _ _ _ (scover1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => (hcompl.mp h) hM) hL)
              iexact Hg
            isplitl [HT0]; · iexact HT0
            isplitl [HT1]; · iexact HT1
            isplitl [HT2]; · iexact HT2
            iexact HT3
          isplitl [Ho]; · iexact Ho
          isplitl [H0]; · iexact H0
          isplitl [H1]; · iexact H1
          isplitl [H2]; · iexact H2
          iexists _; iexact H3
        · rw [outsAt1_pos V c t hz, stepAt_A V c t _ hF hM hL]
          (try dsimp only)
          unfold sout1_A_0 sout1_A_1 sout1_A_2; (try dsimp only)
          rw [Phi_pre V c t, PhiS_pos V c _ _ hz]
          iintro ⟨⟨⟨⟨HA0, HA1, HA2, HA3, HA4, HA5, HA6, HA7, HA8, HA9, HA10, HS0, HS1, HS2⟩, Hg⟩, ⟨HT0, HT1, HT2, HT3⟩⟩, Ho, ⟨%d0, H0⟩, ⟨%d1, H1⟩, ⟨%d2, H2⟩, ⟨%d3, H3⟩⟩
          iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => (hcompl.mp h) hM) hL).2.2.2 _ Set.univ _)
          isplitl [H0]; · iexact H0
          isplitl [H1]; · iexact H1
          isplitl [H2]; · iexact H2
          isplitl [H3]; · iexact H3
          isplitl [HS0]; · iexists _; iexact HS0
          isplitl [HS1]; · iexists _; iexact HS1
          isplitl [HS2]; · iexists _; iexact HS2
          isplitl [HT0]; · iexact HT0
          isplitl [HT1]; · iexact HT1
          isplitl [HT2]; · iexact HT2
          isplitl [HT3]; · iexact HT3
          iintro ⟨H0, H1, H2, H3, ⟨%es0, HS0⟩, ⟨%es1, HS1⟩, ⟨%es2, HS2⟩, HT0, HT1, HT2, HT3⟩
          isplitl [HA0 HA1 HA2 HA3 HA4 HA5 HA6 HA7 HA8 HA9 HA10 HS0 HS1 HS2 Hg HT0 HT1 HT2 HT3]
          · isplitl [HA0 HA1 HA2 HA3 HA4 HA5 HA6 HA7 HA8 HA9 HA10 HS0 HS1 HS2 Hg]
            · isplitl [HA0 HA1 HA2 HA3 HA4 HA5 HA6 HA7 HA8 HA9 HA10 HS0 HS1 HS2]
              · isplitl [HA0]; · iexact HA0
                isplitl [HA1]; · iexact HA1
                isplitl [HA2]; · iexact HA2
                isplitl [HA3]; · iexact HA3
                isplitl [HA4]; · iexact HA4
                isplitl [HA5]; · iexact HA5
                isplitl [HA6]; · iexact HA6
                isplitl [HA7]; · iexact HA7
                isplitl [HA8]; · iexact HA8
                isplitl [HA9]; · iexact HA9
                isplitl [HA10]; · iexact HA10
                isplitl [HS0]
                · unfold owns; iexists _; isplitr
                  swap; · iexact HS0
                  ipureintro; exact View.read_writes_of_cover _ _ _ _ _ (scover1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => (hcompl.mp h) hM) hL)
                isplitl [HS1]
                · unfold owns; iexists _; isplitr
                  swap; · iexact HS1
                  ipureintro; exact View.read_writes_of_cover _ _ _ _ _ (scover1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => (hcompl.mp h) hM) hL)
                unfold owns; iexists _; isplitr
                swap; · iexact HS2
                ipureintro; exact View.read_writes_of_cover _ _ _ _ _ (scover1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => (hcompl.mp h) hM) hL)
              iexact Hg
            isplitl [HT0]; · iexact HT0
            isplitl [HT1]; · iexact HT1
            isplitl [HT2]; · iexact HT2
            iexact HT3
          isplitl [Ho]; · iexact Ho
          isplitl [H0]; · iexact H0
          isplitl [H1]; · iexact H1
          isplitl [H2]; · iexact H2
          iexists _; iexact H3
    · by_cases hL : condL (wL (F := F) c t)
      · exact absurd hF (hlast hL).1
      · rw [Dat.leavesExact_idle (dat1 V c) 3 t (hidle hL).1 (hidle hL).2]
        by_cases hz : t.val = 0
        · rw [outsAt1_zero V c t hz, stepAt_C V c t _ hF hM hL]
          (try dsimp only)
          unfold sout1_C_0 sout1_C_1 sout1_C_2; (try dsimp only)
          rw [Phi_pre V c t, PhiS_zero V c _ _ hz, PhiA1_eq]
          iintro ⟨⟨⟨⟨HA0, HA1, HA2, HA3, HA4, HA5, HA6, HA7, HA8, HA9, HA10, HS0, HS1, HS2⟩, Hg⟩, ⟨HT0, HT1, HT2, HT3⟩⟩, Ho, ⟨%d0, H0⟩, ⟨%d1, H1⟩, ⟨%d2, H2⟩, ⟨%d3, H3⟩⟩
          iapply ((kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (hcompl.mpr hM) hL).2.2.2 _ Set.univ _)
          isplitl [H0]; · iexact H0
          isplitl [H1]; · iexact H1
          isplitl [H2]; · iexact H2
          isplitl [H3]; · iexact H3
          isplitl [HS0]; · iexact HS0
          isplitl [HS1]; · iexact HS1
          isplitl [HS2]; · iexact HS2
          isplitl [HT0]; · iexact HT0
          isplitl [HT1]; · iexact HT1
          isplitl [HT2]; · iexact HT2
          isplitl [HT3]; · iexact HT3
          iintro ⟨H0, H1, H2, H3, ⟨%es0, HS0⟩, ⟨%es1, HS1⟩, ⟨%es2, HS2⟩, HT0, HT1, HT2, HT3⟩
          isplitl [HA0 HA1 HA2 HA3 HA4 HA5 HA6 HA7 HA8 HA9 HA10 HS0 HS1 HS2 Hg HT0 HT1 HT2 HT3]
          · isplitl [HA0 HA1 HA2 HA3 HA4 HA5 HA6 HA7 HA8 HA9 HA10 HS0 HS1 HS2 Hg]
            · isplitl [HA0 HA1 HA2 HA3 HA4 HA5 HA6 HA7 HA8 HA9 HA10 HS0 HS1 HS2]
              · isplitl [HA0]; · iexact HA0
                isplitl [HA1]; · iexact HA1
                isplitl [HA2]; · iexact HA2
                isplitl [HA3]; · iexact HA3
                isplitl [HA4]; · iexact HA4
                isplitl [HA5]; · iexact HA5
                isplitl [HA6]; · iexact HA6
                isplitl [HA7]; · iexact HA7
                isplitl [HA8]; · iexact HA8
                isplitl [HA9]; · iexact HA9
                isplitl [HA10]; · iexact HA10
                isplitl [HS0]
                · unfold owns; iexists _; isplitr
                  swap; · iexact HS0
                  ipureintro; exact View.read_writes_of_cover _ _ _ _ _ (scover1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (hcompl.mpr hM) hL)
                isplitl [HS1]
                · unfold owns; iexists _; isplitr
                  swap; · iexact HS1
                  ipureintro; exact View.read_writes_of_cover _ _ _ _ _ (scover1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (hcompl.mpr hM) hL)
                unfold owns; iexists _; isplitr
                swap; · iexact HS2
                ipureintro; exact View.read_writes_of_cover _ _ _ _ _ (scover1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (hcompl.mpr hM) hL)
              iexact Hg
            isplitl [HT0]; · iexact HT0
            isplitl [HT1]; · iexact HT1
            isplitl [HT2]; · iexact HT2
            iexact HT3
          isplitl [Ho]; · iexact Ho
          isplitl [H0]; · iexact H0
          isplitl [H1]; · iexact H1
          isplitl [H2]; · iexact H2
          iexists _; iexact H3
        · rw [outsAt1_pos V c t hz, stepAt_C V c t _ hF hM hL]
          (try dsimp only)
          unfold sout1_C_0 sout1_C_1 sout1_C_2; (try dsimp only)
          rw [Phi_pre V c t, PhiS_pos V c _ _ hz]
          iintro ⟨⟨⟨⟨HA0, HA1, HA2, HA3, HA4, HA5, HA6, HA7, HA8, HA9, HA10, HS0, HS1, HS2⟩, Hg⟩, ⟨HT0, HT1, HT2, HT3⟩⟩, Ho, ⟨%d0, H0⟩, ⟨%d1, H1⟩, ⟨%d2, H2⟩, ⟨%d3, H3⟩⟩
          iapply ((kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (hcompl.mpr hM) hL).2.2.2 _ Set.univ _)
          isplitl [H0]; · iexact H0
          isplitl [H1]; · iexact H1
          isplitl [H2]; · iexact H2
          isplitl [H3]; · iexact H3
          isplitl [HS0]; · iexists _; iexact HS0
          isplitl [HS1]; · iexists _; iexact HS1
          isplitl [HS2]; · iexists _; iexact HS2
          isplitl [HT0]; · iexact HT0
          isplitl [HT1]; · iexact HT1
          isplitl [HT2]; · iexact HT2
          isplitl [HT3]; · iexact HT3
          iintro ⟨H0, H1, H2, H3, ⟨%es0, HS0⟩, ⟨%es1, HS1⟩, ⟨%es2, HS2⟩, HT0, HT1, HT2, HT3⟩
          isplitl [HA0 HA1 HA2 HA3 HA4 HA5 HA6 HA7 HA8 HA9 HA10 HS0 HS1 HS2 Hg HT0 HT1 HT2 HT3]
          · isplitl [HA0 HA1 HA2 HA3 HA4 HA5 HA6 HA7 HA8 HA9 HA10 HS0 HS1 HS2 Hg]
            · isplitl [HA0 HA1 HA2 HA3 HA4 HA5 HA6 HA7 HA8 HA9 HA10 HS0 HS1 HS2]
              · isplitl [HA0]; · iexact HA0
                isplitl [HA1]; · iexact HA1
                isplitl [HA2]; · iexact HA2
                isplitl [HA3]; · iexact HA3
                isplitl [HA4]; · iexact HA4
                isplitl [HA5]; · iexact HA5
                isplitl [HA6]; · iexact HA6
                isplitl [HA7]; · iexact HA7
                isplitl [HA8]; · iexact HA8
                isplitl [HA9]; · iexact HA9
                isplitl [HA10]; · iexact HA10
                isplitl [HS0]
                · unfold owns; iexists _; isplitr
                  swap; · iexact HS0
                  ipureintro; exact View.read_writes_of_cover _ _ _ _ _ (scover1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (hcompl.mpr hM) hL)
                isplitl [HS1]
                · unfold owns; iexists _; isplitr
                  swap; · iexact HS1
                  ipureintro; exact View.read_writes_of_cover _ _ _ _ _ (scover1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (hcompl.mpr hM) hL)
                unfold owns; iexists _; isplitr
                swap; · iexact HS2
                ipureintro; exact View.read_writes_of_cover _ _ _ _ _ (scover1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (hcompl.mpr hM) hL)
              iexact Hg
            isplitl [HT0]; · iexact HT0
            isplitl [HT1]; · iexact HT1
            isplitl [HT2]; · iexact HT2
            iexact HT3
          isplitl [Ho]; · iexact Ho
          isplitl [H0]; · iexact H0
          isplitl [H1]; · iexact H1
          isplitl [H2]; · iexact H2
          iexists _; iexact H3
  · by_cases hM : condM (wM (F := F) c t)
    · by_cases hL : condL (wL (F := F) c t)
      · rw [show (dat1 V c).leavesExact 3 t = owns (c : Thread nD τ) (ms1_3 t) fullShare ((dat1 V c).after 3 t) from by
          unfold Dat.leavesExact; rw [hlive hL]; rfl, after1_3]
        have hz : t.val ≠ 0 := fun h => hF (hzero h)
        rw [outsAt1_pos V c t hz, stepAt_B V c t _ hF hM hL]
        (try dsimp only)
        unfold out1_B_3 sout1_B_0 sout1_B_1 sout1_B_2; (try dsimp only)
        rw [Phi_pre V c t, PhiS_pos V c _ _ hz]
        iintro ⟨⟨⟨⟨HA0, HA1, HA2, HA3, HA4, HA5, HA6, HA7, HA8, HA9, HA10, HS0, HS1, HS2⟩, Hg⟩, ⟨HT0, HT1, HT2, HT3⟩⟩, Ho, ⟨%d0, H0⟩, ⟨%d1, H1⟩, ⟨%d2, H2⟩, ⟨%d3, H3⟩⟩
        iapply ((kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => (hcompl.mp h) hM) hL (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        isplitl [HT0]; · iexact HT0
        isplitl [HT1]; · iexact HT1
        isplitl [HT2]; · iexact HT2
        isplitl [HT3]; · iexact HT3
        iintro ⟨H0, H1, H2, ⟨%e3, H3⟩, ⟨%es0, HS0⟩, ⟨%es1, HS1⟩, ⟨%es2, HS2⟩, HT0, HT1, HT2, HT3⟩
        isplitl [HA0 HA1 HA2 HA3 HA4 HA5 HA6 HA7 HA8 HA9 HA10 HS0 HS1 HS2 Hg HT0 HT1 HT2 HT3]
        · isplitl [HA0 HA1 HA2 HA3 HA4 HA5 HA6 HA7 HA8 HA9 HA10 HS0 HS1 HS2 Hg]
          · isplitl [HA0 HA1 HA2 HA3 HA4 HA5 HA6 HA7 HA8 HA9 HA10 HS0 HS1 HS2]
            · isplitl [HA0]; · iexact HA0
              isplitl [HA1]; · iexact HA1
              isplitl [HA2]; · iexact HA2
              isplitl [HA3]; · iexact HA3
              isplitl [HA4]; · iexact HA4
              isplitl [HA5]; · iexact HA5
              isplitl [HA6]; · iexact HA6
              isplitl [HA7]; · iexact HA7
              isplitl [HA8]; · iexact HA8
              isplitl [HA9]; · iexact HA9
              isplitl [HA10]; · iexact HA10
              isplitl [HS0]
              · unfold owns; iexists _; isplitr
                swap; · iexact HS0
                ipureintro; exact View.read_writes_of_cover _ _ _ _ _ (scover1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => (hcompl.mp h) hM) hL (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
              isplitl [HS1]
              · unfold owns; iexists _; isplitr
                swap; · iexact HS1
                ipureintro; exact View.read_writes_of_cover _ _ _ _ _ (scover1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => (hcompl.mp h) hM) hL (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
              unfold owns; iexists _; isplitr
              swap; · iexact HS2
              ipureintro; exact View.read_writes_of_cover _ _ _ _ _ (scover1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => (hcompl.mp h) hM) hL (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
            iexact Hg
          isplitl [HT0]; · iexact HT0
          isplitl [HT1]; · iexact HT1
          isplitl [HT2]; · iexact HT2
          iexact HT3
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => (hcompl.mp h) hM) hL (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
      · rw [Dat.leavesExact_idle (dat1 V c) 3 t (hidle hL).1 (hidle hL).2]
        have hz : t.val ≠ 0 := fun h => hF (hzero h)
        rw [outsAt1_pos V c t hz, stepAt_E V c t _ hF hM hL]
        (try dsimp only)
        unfold sout1_E_0 sout1_E_1 sout1_E_2; (try dsimp only)
        rw [Phi_pre V c t, PhiS_pos V c _ _ hz]
        iintro ⟨⟨⟨⟨HA0, HA1, HA2, HA3, HA4, HA5, HA6, HA7, HA8, HA9, HA10, HS0, HS1, HS2⟩, Hg⟩, ⟨HT0, HT1, HT2, HT3⟩⟩, Ho, ⟨%d0, H0⟩, ⟨%d1, H1⟩, ⟨%d2, H2⟩, ⟨%d3, H3⟩⟩
        iapply ((kernelRun1_E c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => (hcompl.mp h) hM) hL (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        isplitl [HT0]; · iexact HT0
        isplitl [HT1]; · iexact HT1
        isplitl [HT2]; · iexact HT2
        isplitl [HT3]; · iexact HT3
        iintro ⟨H0, H1, H2, H3, ⟨%es0, HS0⟩, ⟨%es1, HS1⟩, ⟨%es2, HS2⟩, HT0, HT1, HT2, HT3⟩
        isplitl [HA0 HA1 HA2 HA3 HA4 HA5 HA6 HA7 HA8 HA9 HA10 HS0 HS1 HS2 Hg HT0 HT1 HT2 HT3]
        · isplitl [HA0 HA1 HA2 HA3 HA4 HA5 HA6 HA7 HA8 HA9 HA10 HS0 HS1 HS2 Hg]
          · isplitl [HA0 HA1 HA2 HA3 HA4 HA5 HA6 HA7 HA8 HA9 HA10 HS0 HS1 HS2]
            · isplitl [HA0]; · iexact HA0
              isplitl [HA1]; · iexact HA1
              isplitl [HA2]; · iexact HA2
              isplitl [HA3]; · iexact HA3
              isplitl [HA4]; · iexact HA4
              isplitl [HA5]; · iexact HA5
              isplitl [HA6]; · iexact HA6
              isplitl [HA7]; · iexact HA7
              isplitl [HA8]; · iexact HA8
              isplitl [HA9]; · iexact HA9
              isplitl [HA10]; · iexact HA10
              isplitl [HS0]
              · unfold owns; iexists _; isplitr
                swap; · iexact HS0
                ipureintro; exact View.read_writes_of_cover _ _ _ _ _ (scover1_E_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => (hcompl.mp h) hM) hL (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
              isplitl [HS1]
              · unfold owns; iexists _; isplitr
                swap; · iexact HS1
                ipureintro; exact View.read_writes_of_cover _ _ _ _ _ (scover1_E_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => (hcompl.mp h) hM) hL (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
              unfold owns; iexists _; isplitr
              swap; · iexact HS2
              ipureintro; exact View.read_writes_of_cover _ _ _ _ _ (scover1_E_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (fun h => (hcompl.mp h) hM) hL (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
            iexact Hg
          isplitl [HT0]; · iexact HT0
          isplitl [HT1]; · iexact HT1
          isplitl [HT2]; · iexact HT2
          iexact HT3
        isplitl [Ho]; · iexact Ho
        isplitl [H0]; · iexact H0
        isplitl [H1]; · iexact H1
        isplitl [H2]; · iexact H2
        iexists _; iexact H3
    · by_cases hL : condL (wL (F := F) c t)
      · exact absurd (hlast hL).2 hM
      · rw [Dat.leavesExact_idle (dat1 V c) 3 t (hidle hL).1 (hidle hL).2]
        have hz : t.val ≠ 0 := fun h => hF (hzero h)
        rw [outsAt1_pos V c t hz, stepAt_D V c t _ hF hM hL]
        (try dsimp only)
        unfold sout1_D_0 sout1_D_1 sout1_D_2; (try dsimp only)
        rw [Phi_pre V c t, PhiS_pos V c _ _ hz]
        iintro ⟨⟨⟨⟨HA0, HA1, HA2, HA3, HA4, HA5, HA6, HA7, HA8, HA9, HA10, HS0, HS1, HS2⟩, Hg⟩, ⟨HT0, HT1, HT2, HT3⟩⟩, Ho, ⟨%d0, H0⟩, ⟨%d1, H1⟩, ⟨%d2, H2⟩, ⟨%d3, H3⟩⟩
        iapply ((kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (hcompl.mpr hM) hL (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        isplitl [HT0]; · iexact HT0
        isplitl [HT1]; · iexact HT1
        isplitl [HT2]; · iexact HT2
        isplitl [HT3]; · iexact HT3
        iintro ⟨H0, H1, H2, H3, ⟨%es0, HS0⟩, ⟨%es1, HS1⟩, ⟨%es2, HS2⟩, HT0, HT1, HT2, HT3⟩
        isplitl [HA0 HA1 HA2 HA3 HA4 HA5 HA6 HA7 HA8 HA9 HA10 HS0 HS1 HS2 Hg HT0 HT1 HT2 HT3]
        · isplitl [HA0 HA1 HA2 HA3 HA4 HA5 HA6 HA7 HA8 HA9 HA10 HS0 HS1 HS2 Hg]
          · isplitl [HA0 HA1 HA2 HA3 HA4 HA5 HA6 HA7 HA8 HA9 HA10 HS0 HS1 HS2]
            · isplitl [HA0]; · iexact HA0
              isplitl [HA1]; · iexact HA1
              isplitl [HA2]; · iexact HA2
              isplitl [HA3]; · iexact HA3
              isplitl [HA4]; · iexact HA4
              isplitl [HA5]; · iexact HA5
              isplitl [HA6]; · iexact HA6
              isplitl [HA7]; · iexact HA7
              isplitl [HA8]; · iexact HA8
              isplitl [HA9]; · iexact HA9
              isplitl [HA10]; · iexact HA10
              isplitl [HS0]
              · unfold owns; iexists _; isplitr
                swap; · iexact HS0
                ipureintro; exact View.read_writes_of_cover _ _ _ _ _ (scover1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (hcompl.mpr hM) hL (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
              isplitl [HS1]
              · unfold owns; iexists _; isplitr
                swap; · iexact HS1
                ipureintro; exact View.read_writes_of_cover _ _ _ _ _ (scover1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (hcompl.mpr hM) hL (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
              unfold owns; iexists _; isplitr
              swap; · iexact HS2
              ipureintro; exact View.read_writes_of_cover _ _ _ _ _ (scover1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (litTbl 0) (litTbl 1) (litTbl 2) (litTbl 3) hF hM (hcompl.mpr hM) hL (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
            iexact Hg
          isplitl [HT0]; · iexact HT0
          isplitl [HT1]; · iexact HT1
          isplitl [HT2]; · iexact HT2
          iexact HT3
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : iprop(Pipeline.ΦA spec1 c ∗ Pipeline.ΦT pre1 (litTbl (F := F)) c) ⊢ (dat1 V c).Φ 0 := by
  rw [show (dat1 V c).Φ 0 = iprop(PhiS V c 0 (Nat.zero_le _) ∗ Pipeline.ΦT pre1 (litTbl (F := F)) c) from rfl, PhiS_zero V c 0 _ rfl]
  try exact Idealize.SL.BI.Entails.refl _

/-- After the last point the invariant gives the class's back: the scratch's named contents are forgotten. -/
theorem hout1 (c : Dev nD) : (dat1 V c).Φ (Fin.last (cfgM (F := F)).N) ⊢ iprop(Pipeline.ΦA spec1 c ∗ Pipeline.ΦT pre1 (litTbl (F := F)) c) := by
  rw [show (dat1 V c).Φ (Fin.last (cfgM (F := F)).N) = iprop(PhiS V c (Fin.last (cfgM (F := F)).N).val (Nat.le_of_lt_succ (Fin.last _).isLt) ∗ Pipeline.ΦT pre1 (litTbl (F := F)) c) from rfl,
    PhiS_pos V c _ _ (by rw [Fin.val_last]; have : (cfgM (F := F)).N = 80 := N_M; omega), PhiA1_eq]
  iintro ⟨⟨⟨HA0, HA1, HA2, HA3, HA4, HA5, HA6, HA7, HA8, HA9, HA10, HS0, HS1, HS2⟩, Hg⟩, HT⟩
  isplitl [HA0 HA1 HA2 HA3 HA4 HA5 HA6 HA7 HA8 HA9 HA10 HS0 HS1 HS2 Hg]
  · isplitl [HA0 HA1 HA2 HA3 HA4 HA5 HA6 HA7 HA8 HA9 HA10 HS0 HS1 HS2]
    · isplitl [HA0]; · iexact HA0
      isplitl [HA1]; · iexact HA1
      isplitl [HA2]; · iexact HA2
      isplitl [HA3]; · iexact HA3
      isplitl [HA4]; · iexact HA4
      isplitl [HA5]; · iexact HA5
      isplitl [HA6]; · iexact HA6
      isplitl [HA7]; · iexact HA7
      isplitl [HA8]; · iexact HA8
      isplitl [HA9]; · iexact HA9
      isplitl [HA10]; · iexact HA10
      isplitl [HS0]; · iexists _; iexact HS0
      isplitl [HS1]; · iexists _; iexact HS1
      iexists _; iexact HS2
    iexact Hg
  iexact HT

end Cert.Kernel.Att

end
-- ==== Proof.RunK.lean ====
import proofs.«175909_j62251255988572_2_alg».proof.Proof.Reg0K
import proofs.«175909_j62251255988572_2_alg».proof.Proof.Reg1BodyK
import proofs.«175909_j62251255988572_2_alg».proof.Proof.Gen.Kernel.Regions

set_option maxRecDepth 16384

noncomputable section

namespace Cert.Kernel.Att

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-!
# The run of the whole program

The program is four stretches in a row: five host operations (the four index tables written as
constants, the input flattened to 16384 rows), the projection kernel, three host reshapes (each
projection back to batch × position × head), the attention kernel. The contents of every buffer
at each boundary are written as a fold from the launch memory: a host stretch rewrites the buffers
it writes, a kernel leaves in each of its arrays what its write-backs leave and every other buffer
as it was. Each kernel is entered from "every unscoped buffer at the boundary's contents" and left
at the next boundary's; the attention kernel reads its four index tables, which still hold the
constants the first stretch wrote.
-/

local notation "𝕄" => MT nD τ sig Unit (Elt F) ℕ (UR sig nD τ) ℕ

variable (m : (ℓ : Loc nD τ sig) → Buf (Elt F) ℓ) (ρ : Dev nD → PrngReg)

/-! ## The buffer contents at each boundary -/

/-- The buffers at launch. -/
abbrev W0 : Dev nD → Valuation τ sig (Elt F) := fun c b => (s₀ m ρ).mem ((c : Dev nD), b)
/-- After the first host stretch: what the projection kernel is entered from. -/
abbrev W1 : Dev nD → Valuation τ sig (Elt F) := fun c => StableHlo.after (hostOps0 (F := F)) (W0 m ρ c)
abbrev V1 : (c : Dev nD) → (b : Ref sig .tc) → Buf (Elt F) ((c : Thread nD τ).loc b) := fun c b => W1 m ρ c b
/-- After the projection kernel: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the three reshapes: what the attention kernel is entered from. -/
abbrev W3 : Dev nD → Valuation τ sig (Elt F) := fun c => StableHlo.after (hostOps1 (F := F)) (W2 m ρ c)
abbrev V3 : (c : Dev nD) → (b : Ref sig .tc) → Buf (Elt F) ((c : Thread nD τ).loc b) := fun c b => W3 m ρ c b
/-- After the attention kernel. -/
def W4 (c : Dev nD) : Valuation τ sig (Elt F) :=
  Pipeline.withArrays spec1 c (W3 m ρ c) fun w => (dat1 (V3 m ρ) c).arrAt w (cfg1 (F := F) adm1).N
theorem W4_arr (c : Dev nD) (w : Fin (cfg1 (F := F) adm1).W) :
    W4 m ρ c (Proc.devRef .tc (Pipeline.arrRef spec1 w)) = (dat1 (V3 m ρ) c).arrAt w (cfg1 (F := F) adm1).N := by
  unfold W4; exact Pipeline.withArrays_arr spec1 (launch1 (F := F)).win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin (cfg1 (F := F) adm1).W) : (dat1 (V3 m ρ) c).arrAt w (cfg1 (F := F) adm1).N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- A buffer the first host stretch does not write holds its launch contents after it. -/
theorem W1_of (c : Dev nD) (r : Ref sig .tc) (h : r ∉ hostOps0_W) : W1 m ρ c (Proc.devRef .tc r) = W0 m ρ c (Proc.devRef .tc r) :=
  StableHlo.after_of_writes_sub (hostOps0 (F := F)) _ hostOps0_writes h
/-- A buffer the reshapes do not write holds after them what the projection kernel left. -/
theorem W3_of (c : Dev nD) (r : Ref sig .tc) (h : r ∉ hostOps1_W) : W3 m ρ c (Proc.devRef .tc r) = W2 m ρ c (Proc.devRef .tc r) :=
  StableHlo.after_of_writes_sub (hostOps1 (F := F)) _ hostOps1_writes h

/-! ## The arguments end as launched

No host operation writes an argument; the projection kernel reads the three weight matrices through
input windows and never sees the unflattened input; the attention kernel sees none of the four. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := W1_of m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := W1_of m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := W1_of m ρ c main_arg3 (by decide)
    _ = m ((c : Thread nD τ).loc main_arg3) := rfl

/-- The result buffer ends at what the attention kernel's write-backs leave in its output array. -/
theorem W4_main_v5 (c : Dev nD) : W4 m ρ c (Proc.devRef .tc main_v5) = (dat1 (V3 m ρ) c).arrAt 3 (cfg1 (F := F) adm1).N :=
  W4_arr m ρ c 3

/-! ## What each kernel finds in its input arrays -/

/-- The projection kernel's first array is the input flattened; the other three are the weight matrices as launched. -/
theorem V1_main_v0 (c : Dev nD) : V1 m ρ c main_v0
    = fun i => shapeCast S16384x1024 (m ((c : Thread nD τ).loc main_arg0)) shapeCasts_S4x4096x1024_S16384x1024 i := by
  show StableHlo.after (hostOps0 (F := F)) (W0 m ρ c) (Proc.devRef .tc main_v0) = _
  after_results
  rfl
theorem V1_main_arg1 (c : Dev nD) : V1 m ρ c main_arg1 = m ((c : Thread nD τ).loc main_arg1) := W1_of m ρ c main_arg1 (by decide)
theorem V1_main_arg2 (c : Dev nD) : V1 m ρ c main_arg2 = m ((c : Thread nD τ).loc main_arg2) := W1_of m ρ c main_arg2 (by decide)
theorem V1_main_arg3 (c : Dev nD) : V1 m ρ c main_arg3 = m ((c : Thread nD τ).loc main_arg3) := W1_of m ρ c main_arg3 (by decide)

/-- The attention kernel's three input arrays are the projection kernel's three outputs, reshaped. -/
theorem V3_main_v2 (c : Dev nD) : V3 m ρ c main_v2
    = fun i => shapeCast S4x4096x64 ((dat0 (V1 m ρ) c).arrAt 4 cfg0.N) shapeCasts_S16384x64_S4x4096x64 i := by
  show StableHlo.after (hostOps1 (F := F)) (W2 m ρ c) (Proc.devRef .tc main_v2) = _
  after_results
  rw [show W2 m ρ c (Proc.devRef .tc main_v1_0) = _ from W2_arr m ρ c 4]
  rfl
theorem V3_main_v3 (c : Dev nD) : V3 m ρ c main_v3
    = fun i => shapeCast S4x4096x64 ((dat0 (V1 m ρ) c).arrAt 5 cfg0.N) shapeCasts_S16384x64_S4x4096x64 i := by
  show StableHlo.after (hostOps1 (F := F)) (W2 m ρ c) (Proc.devRef .tc main_v3) = _
  after_results
  rw [show W2 m ρ c (Proc.devRef .tc main_v1_1) = _ from W2_arr m ρ c 5]
  rfl
theorem V3_main_v4 (c : Dev nD) : V3 m ρ c main_v4
    = fun i => shapeCast S4x4096x64 ((dat0 (V1 m ρ) c).arrAt 6 cfg0.N) shapeCasts_S16384x64_S4x4096x64 i := by
  show StableHlo.after (hostOps1 (F := F)) (W2 m ρ c) (Proc.devRef .tc main_v4) = _
  after_results
  rw [show W2 m ρ c (Proc.devRef .tc main_v1_2) = _ from W2_arr m ρ c 6]
  rfl

/-! ## The index tables when the attention kernel is entered

Each table was written as a constant by the first host stretch; nothing since writes it (it is no
array of the projection kernel, and the reshapes write other buffers). -/

theorem W3_main_c (c : Dev nD) : W3 m ρ c (Proc.devRef .tc main_c) = fun i => lit0 (S20.rowMajor i) := by
  rw [W3_of m ρ c main_c (by decide), W2_of_ne m ρ c main_c (by decide)]
  show StableHlo.after (hostOps0 (F := F)) (W0 m ρ c) (Proc.devRef .tc main_c) = _
  after_results
  rfl
theorem W3_main_c_0 (c : Dev nD) : W3 m ρ c (Proc.devRef .tc main_c_0) = fun i => lit1 (S20.rowMajor i) := by
  rw [W3_of m ρ c main_c_0 (by decide), W2_of_ne m ρ c main_c_0 (by decide)]
  show StableHlo.after (hostOps0 (F := F)) (W0 m ρ c) (Proc.devRef .tc main_c_0) = _
  after_results
  rfl
theorem W3_main_c_1 (c : Dev nD) : W3 m ρ c (Proc.devRef .tc main_c_1) = fun i => lit2 (S20.rowMajor i) := by
  rw [W3_of m ρ c main_c_1 (by decide), W2_of_ne m ρ c main_c_1 (by decide)]
  show StableHlo.after (hostOps0 (F := F)) (W0 m ρ c) (Proc.devRef .tc main_c_1) = _
  after_results
  rfl
theorem W3_main_c_2 (c : Dev nD) : W3 m ρ c (Proc.devRef .tc main_c_2) = fun i => lit3 (S20.rowMajor i) := by
  rw [W3_of m ρ c main_c_2 (by decide), W2_of_ne m ρ c main_c_2 (by decide)]
  show StableHlo.after (hostOps0 (F := F)) (W0 m ρ c) (Proc.devRef .tc main_c_2) = _
  after_results
  rfl

/-- The four tables hold the literal contents when the attention kernel is entered. -/
theorem V3_tbl (c : Dev nD) : ∀ k, V3 m ρ c (pre1.ref k) = litTbl (F := F) k
  | 0 => W3_main_c m ρ c
  | 1 => W3_main_c_0 m ρ c
  | 2 => W3_main_c_1 m ρ c
  | 3 => W3_main_c_2 m ρ c
  | ⟨_ + 4, h⟩ => absurd h (Nat.not_lt.2 (Nat.le_add_left _ _))

/-! ## The proof data family and the thread state -/

/-- The tables' admissible contents per kernel: the projection kernel has no table, the attention kernel's four hold the literals. -/
def adm : (p : Fin 2) → (pcfgs (F := F) p).Adm
  | ⟨0, _⟩ => (cfg0.toPCfg_adm : (cfg0.toPCfg (Val := Elt F)).Adm)
  | ⟨1, _⟩ => adm1
/-- Each kernel's proof data at the contents it is entered from. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers between two stretches: the generator register at some state, nothing owed. -/
abbrev R (c : Dev nD) : sProp 𝕄 := iprop((∃ r, prngReg c r) ∗ ∃ W, owes (c : Thread nD τ) (0 : CellTallies nD τ sig Unit) W)
/-- A host stretch as a segment over the unscoped buffers from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state: the attention kernel's arrays at what it leaves, the buffers that bypass it as it was
    entered, the four tables at the half share the kernel's body gives back, the generator register. -/
abbrev Tₙ (c : Dev nD) : sProp 𝕄 :=
  iprop((pdats m ρ 1 c).arrays ((pdats m ρ 1 c).arrAt · (cfg1 (F := F) adm1).N)
    ∗ Pipeline.unscopedRestP (Ix := Unit) (Name := ℕ) (U := UR sig nD τ) (Lvl := ℕ) pre1 spec1 c (V3 m ρ c)
    ∗ Pipeline.ΦT (U := UR sig nD τ) pre1 (litTbl (F := F)) c ∗ ∃ r, prngReg c r)

/-! ## The kernels as segments -/

set_option backward.isDefEq.respectTransparency.types false in
/-- The projection kernel over the thread state: entered from every unscoped buffer at W1, left at W2. -/
def reg0 : Pipeline.RegionSeg (pcfgs (F := F)) adm (pdats m ρ) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) (launch0 (F := F)).win (launch0 (F := F)).arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      (launch0 (F := F)).win (launch0 (F := F)).arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel over the thread state: entered from every unscoped buffer at W3. Its arrays and its four
    tables are split out of the unscoped buffers; the tables, found at the literal contents, go into the kernel's
    invariant (one half of each is all the body needs; the other half is let go) and come back at that half; the
    arrays come back at what the write-backs leave, and everything else bypasses the kernel. -/
def reg1 : Pipeline.RegionSeg (pcfgs (F := F)) adm (pdats m ρ) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop((∃ r, prngReg c r) ∗ Pipeline.ΦT (U := UR sig nD τ) pre1 (litTbl (F := F)) c)
  Z c := Pipeline.unscopedRestP (Ix := Unit) (Name := ℕ) (U := UR sig nD τ) (Lvl := ℕ) pre1 spec1 c (V3 m ρ c)
  hentry c := by
    rw [Pipeline.ownSems0_none]
    have hsplit : (StableHlo.held (c : Thread nD τ) (Pipeline.ucRefs τ sig) (W3 m ρ c) : sProp 𝕄)
        ⊢ iprop((pdats m ρ 1 c).arrays ((pdats m ρ 1 c).arrAt · 0)
          ∗ Pipeline.prefHeld pre1 c (fun _ => fullShare) (fun k => V3 m ρ c (pre1.ref k))
          ∗ Pipeline.unscopedRestP pre1 spec1 c (V3 m ρ c)) := by
      have h := Pipeline.arrays_of_unscopedBufs (p := 1) (pcfgs (F := F)) adm (pdats m ρ) (launch1 (F := F)).win (launch1 (F := F)).arr_whole c
        ((pdats m ρ 1 c).share_full fun _ => rfl) (V3 m ρ c) fun _ => rfl
      rw [Pipeline.unscopedBufs_held, Pipeline.unscopedRest_split (launch1 (F := F)).pre c (V3 m ρ c)] at h
      exact h
    rw [show (fun k => V3 m ρ c (pre1.ref k)) = litTbl (F := F) from funext (V3_tbl m ρ c)] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    have hsh : (Pipeline.prefHeld pre1 c (fun _ => fullShare) (litTbl (F := F)) : sProp 𝕄)
        ⊢ iprop(Pipeline.prefHeld pre1 c (fun _ => fullShare.left) (litTbl (F := F)) ∗ Pipeline.prefHeld pre1 c (fun _ => fullShare.right) (litTbl (F := F))) :=
      (Pipeline.prefHeld_share pre1 c (PosShare.mem_left_op_right fullShare) (litTbl (F := F))).1
    change iprop((∃ r, prngReg c r) ∗ Pipeline.prefHeld pre1 c (fun _ => fullShare) (litTbl (F := F)) ∗ Pipeline.scopedRest spec1 c) ⊢ _
    unfold Pipeline.ΦA
    iintro ⟨Hp, Ht, Hr⟩
    ihave Ht2 := hsh $$ Ht
    icases Ht2 with ⟨-, Htr⟩
    isplitl [Hr Hp]
    · isplitl [Hr]; · iexact Hr
      iexact Hp
    iexact Htr
  hout c := by
    rw [Pipeline.ownSems0_none]
    refine BIBase.Entails.trans (hout1 (V3 m ρ) c) ?_
    unfold Pipeline.ΦA
    iintro ⟨⟨Hr, Hp⟩, Ht⟩
    isplitl [Hp Ht]
    · isplitl [Hp]; · iexact Hp
      iexact Ht
    isplitr; · iempintro
    iexact Hr
  hexit c := by
    iintro ⟨Ha, HO, ⟨Hp, Ht⟩, Hrest⟩
    imodintro
    isplitl [Ha Hrest Ht Hp]
    · isplitl [Ha]; · iexact Ha
      isplitl [Hrest]; · iexact Hrest
      isplitl [Ht]; · iexact Ht
      iexact Hp
    unfold Pipeline.Dat.owesAt Pipeline.owesWithin
    icases HO with ⟨%W, -, HO⟩; iexists W; iexact HO

/-! ## The program as segments, and the launch -/

/-- The program's four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program is the run of the segments. -/
theorem main_run (c : Dev nD) : main (F := F) c = Pipeline.Seg.run (segs m ρ) := (main_chain c).trans (by chain_rfl)

/-- Reading the last thread state: the attention kernel's arrays at what it leaves and every buffer that bypasses it
    (the tables among them) as it was entered say what every unscoped buffer holds, namely the last boundary's contents. -/
theorem read_W4 (c : Dev nD) (s : MemSt nD τ sig (Elt F))
    (h1 : ∀ w, s.mem ((c : Thread nD τ).loc (Pipeline.arrRef spec1 w)) = (dat1 (V3 m ρ) c).arrAt w (cfg1 (F := F) adm1).N)
    (h2 : ∀ b ∈ Pipeline.restRefs sig spec1, s.mem ((c : Thread nD τ).loc b) = V3 m ρ c b) :
    ∀ b ∈ Pipeline.ucRefs τ sig, s.mem ((c : Thread nD τ).1, b) = W4 m ρ c b := by
  intro b hb
  obtain ⟨hb1, hb2⟩ := Finset.mem_filter.mp hb
  obtain ⟨r, -, rfl⟩ := Finset.mem_map.mp hb1
  by_cases h : ∃ w, Pipeline.arrRef spec1 w = r
  · obtain ⟨w, rfl⟩ := h
    exact (h1 w).trans (W4_arr m ρ c w).symm
  · have hne : ∀ w, Pipeline.arrRef spec1 w ≠ r := fun w e => h ⟨w, e⟩
    refine Eq.trans ?_ (W4_of_ne m ρ c r hne).symm
    exact h2 r (Pipeline.mem_restRefs_of r (by simpa using hb2) hne)

set_option backward.isDefEq.respectTransparency.types false in
/-- THE RUN: from any memory with zero counters every weakly fair execution of the program terminates, nothing
    faulting, and every final memory holds in every unscoped buffer the last boundary's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = W4 m ρ c b) :=
  Pipeline.θ_run_regions_kit (pcfgs (F := F)) adm (pdats m ρ) () (cellOf_inj adm) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) (cellOf_inj adm)) (Pipeline.launchToks (Pipeline.pin (pcfgs (F := F)) adm) (cellOf_inj adm)))
    (hu₀ := by
      iintro Hu; imodintro
      isplitl [Hu]
      · iapply (show (ownU (initOf (Pipeline.cells (Pipeline.pin (pcfgs (F := F)) adm) (cellOf_inj adm)) (Pipeline.launchToks (Pipeline.pin (pcfgs (F := F)) adm) (cellOf_inj adm))) : sProp 𝕄)
            ⊢ BI.own (emb₁ (initOf (Pipeline.cells (Pipeline.pin (pcfgs (F := F)) adm) (cellOf_inj adm)) (Pipeline.launchToks (Pipeline.pin (pcfgs (F := F)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Ha, Hrest, Ht, -⟩, HSI⟩
      ihave H1 := (Pipeline.arrays_read (p := 1) (pcfgs (F := F)) adm (pdats m ρ) (launch1 (F := F)).arr_whole c
        ((pdats m ρ 1 c).share_full fun _ => rfl) ((pdats m ρ 1 c).arrAt · (cfg1 (F := F) adm1).N) s') $$ [Ha HSI]
      · isplitl [Ha] <;> iassumption
      icases H1 with ⟨%h1, HSI⟩
      unfold Pipeline.unscopedRestP
      ihave H2 := (pointsTo_read_all (Pipeline.restRefsP sig pre1 spec1) (fun b => (c : Thread nD τ).loc b) (V3 m ρ c) s') $$ [Hrest HSI]
      · isplitl [Hrest] <;> iassumption
      icases H2 with ⟨%h2, HSI⟩
      ihave H3 := (show iprop(Pipeline.ΦT (U := UR sig nD τ) pre1 (litTbl (F := F)) c ∗ SI s')
          ⊢ (iprop(⌜∀ k ∈ (Finset.univ : Finset (Fin pre1.K)), s'.mem.mem ((c : Thread nD τ).loc (pre1.ref k)) = litTbl (F := F) k⌝ ∗ SI s') : sProp 𝕄)
        from pointsTo_read_all Finset.univ (fun k => (c : Thread nD τ).loc (pre1.ref k)) (litTbl (F := F)) s' fullShare.right) $$ [Ht HSI]
      · isplitl [Ht] <;> iassumption
      icases H3 with ⟨%h3, HSI⟩
      imodintro
      isplitr
      · ipureintro
        exact read_W4 m ρ c s'.mem h1
          (Pipeline.rest_of_restP pre1 spec1 (litTbl (F := F)) c (V3 m ρ c) s'.mem (V3_tbl m ρ c) (fun k => h3 k (Finset.mem_univ k)) h2)
      · iexact HSI)
    (hQ := fun s h => h)

/-- THE FRAME: the program runs and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

/-- THE RESULT: the program runs, its result buffer ends at what the attention kernel's write-backs leave in its
    output array, and its four argument arrays end as launched. -/
theorem run_result : θ_run defs (onTc (τ := τ) (main (F := F))) ⟨m, fun _ => 0, ρ⟩ (fun r => ∀ c : Dev nD,
      r.2.mem ((c.tc : Thread nD τ).loc main_v5) = (dat1 (V3 m ρ) c).arrAt 3 (cfg1 (F := F) adm1).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v5 (by decide))).trans (W4_main_v5 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.Kernel.Att

end
-- ==== Proof.Reg1Pieces.lean ====
import proofs.«175909_j62251255988572_2_alg».proof.Proof.Reg1Outs
import Idealize.ShloMosaic.Lib.Pipeline.Value

/-!
# What each control case of the attention body leaves, as the body's own arithmetic

Each case stores every scratch buffer whole, last, so what it leaves there is that store's payload; the
payload's operands are the three input blocks, the two table words of the grid point (the key-tile number and
the query-block number, which place the causal mask), and either what the scratch held or, at a first tile,
the reset values (−∞ for the running maximum, 0 for the normaliser and the weighted sum). At a last tile the
output block is the quotient of the updated weighted sum by the updated normaliser.
-/

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

/-- The origin of a rank-2 and of a rank-3 shape. -/
theorem origin2 : (![0, 0] : Fin 2 → Nat) = fun _ => 0 := funext fun a => by fin_cases a <;> rfl
theorem origin3 : (![0, 0, 0] : Fin 3 → Nat) = fun _ => 0 := funext fun a => by fin_cases a <;> rfl

/-! ## A first tile that crosses the diagonal: reset, then the masked update -/
/-- The running maximum: the masked update of the reset value. -/
theorem sout1_A_0_eq (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : condF (wd c tbM1_1 xt1 i)) (hcM : condM (wd c tbM1_3 xt3 i)) (hcN : ¬condN (wd c tbM1_3 xt3 i)) (hcL : ¬condL (wd c tbM1_2 xt2 i)) :
    sout1_A_0 c i arg6 harg6 arg7 harg7 arg8 harg8 arg9 harg9 arg10 harg10 arg11 harg11 arg12 harg12 x0 x1 x2 xt0 xt1 xt2 xt3 hcF hcM hcN hcL = k1_pay19 (wd c tbM1_1 xt1 i) (wd c tbM1_0 xt0 i) (k1_pay5 x0 x1) k1_pay1 := by
  unfold sout1_A_0
  rw [View.read_writes_eq_canon _ _ _ (scover1_A_0 c i arg6 harg6 arg7 harg7 arg8 harg8 arg9 harg9 arg10 harg10 arg11 harg11 arg12 harg12 x0 x1 x2 xt0 xt1 xt2 xt3 hcF hcM hcN hcL)]
  unfold kernelRun1_A
  dsimp only
  sl_unfold_words
  rw [View.canon_cons_unit_zero (S := S1024x1) origin2]
  simp only [View.readAt_eq_ld, harg6.read_unread, harg7.read_unread, harg8.read_unread, harg10.read_unread, harg11.read_unread, harg12.read_unread,
    View.ld_unit_zero (S := S1x1024x64) origin3, View.ld_unit_zero (S := S1x512x64) origin3, View.ld_unit_zero (S := S1024x1) origin2, View.ld_unit_zero (S := S1024x64) origin2,
    View.readCov_unit_zero (S := S1024x1) arg10.view origin2, View.readCov_unit_zero (S := S1024x1) arg11.view origin2, View.readCov_unit_zero (S := S1024x64) arg12.view origin2]
  rfl

/-- The running normaliser: the masked update of the reset values. -/
theorem sout1_A_1_eq (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : condF (wd c tbM1_1 xt1 i)) (hcM : condM (wd c tbM1_3 xt3 i)) (hcN : ¬condN (wd c tbM1_3 xt3 i)) (hcL : ¬condL (wd c tbM1_2 xt2 i)) :
    sout1_A_1 c i arg6 harg6 arg7 harg7 arg8 harg8 arg9 harg9 arg10 harg10 arg11 harg11 arg12 harg12 x0 x1 x2 xt0 xt1 xt2 xt3 hcF hcM hcN hcL = k1_pay17 (wd c tbM1_1 xt1 i) (wd c tbM1_0 xt0 i) (k1_pay5 x0 x1) k1_pay1 k1_pay2 := by
  unfold sout1_A_1
  rw [View.read_writes_eq_canon _ _ _ (scover1_A_1 c i arg6 harg6 arg7 harg7 arg8 harg8 arg9 harg9 arg10 harg10 arg11 harg11 arg12 harg12 x0 x1 x2 xt0 xt1 xt2 xt3 hcF hcM hcN hcL)]
  unfold kernelRun1_A
  dsimp only
  sl_unfold_words
  rw [View.canon_cons_unit_zero (S := S1024x1) origin2]
  simp only [View.readAt_eq_ld, harg6.read_unread, harg7.read_unread, harg8.read_unread, harg10.read_unread, harg11.read_unread, harg12.read_unread,
    View.ld_unit_zero (S := S1x1024x64) origin3, View.ld_unit_zero (S := S1x512x64) origin3, View.ld_unit_zero (S := S1024x1) origin2, View.ld_unit_zero (S := S1024x64) origin2,
    View.readCov_unit_zero (S := S1024x1) arg10.view origin2, View.readCov_unit_zero (S := S1024x1) arg11.view origin2, View.readCov_unit_zero (S := S1024x64) arg12.view origin2]
  rfl

/-- The running weighted sum: the masked update of the reset values. -/
theorem sout1_A_2_eq (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : condF (wd c tbM1_1 xt1 i)) (hcM : condM (wd c tbM1_3 xt3 i)) (hcN : ¬condN (wd c tbM1_3 xt3 i)) (hcL : ¬condL (wd c tbM1_2 xt2 i)) :
    sout1_A_2 c i arg6 harg6 arg7 harg7 arg8 harg8 arg9 harg9 arg10 harg10 arg11 harg11 arg12 harg12 x0 x1 x2 xt0 xt1 xt2 xt3 hcF hcM hcN hcL = k1_pay18 (wd c tbM1_1 xt1 i) (wd c tbM1_0 xt0 i) (k1_pay4 x2) (k1_pay5 x0 x1) k1_pay1 k1_pay3 := by
  unfold sout1_A_2
  rw [View.read_writes_eq_canon _ _ _ (scover1_A_2 c i arg6 harg6 arg7 harg7 arg8 harg8 arg9 harg9 arg10 harg10 arg11 harg11 arg12 harg12 x0 x1 x2 xt0 xt1 xt2 xt3 hcF hcM hcN hcL)]
  unfold kernelRun1_A
  dsimp only
  sl_unfold_words
  rw [View.canon_cons_unit_zero (S := S1024x64) origin2]
  simp only [View.readAt_eq_ld, harg6.read_unread, harg7.read_unread, harg8.read_unread, harg10.read_unread, harg11.read_unread, harg12.read_unread,
    View.ld_unit_zero (S := S1x1024x64) origin3, View.ld_unit_zero (S := S1x512x64) origin3, View.ld_unit_zero (S := S1024x1) origin2, View.ld_unit_zero (S := S1024x64) origin2,
    View.readCov_unit_zero (S := S1024x1) arg10.view origin2, View.readCov_unit_zero (S := S1024x1) arg11.view origin2, View.readCov_unit_zero (S := S1024x64) arg12.view origin2]
  rfl

/-! ## A last tile (it crosses the diagonal): the masked update of what was carried, then the quotient -/
/-- The running maximum: the masked update of what was carried. -/
theorem sout1_B_0_eq (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : condM (wd c tbM1_3 xt3 i)) (hcN : ¬condN (wd c tbM1_3 xt3 i)) (hcL : condL (wd c tbM1_2 xt2 i)) (xs0 : Vec F S1024x1 .f32) (xs1 : Vec F S1024x1 .f32) (xs2 : Vec F S1024x64 .f32) :
    sout1_B_0 c i arg6 harg6 arg7 harg7 arg8 harg8 arg9 harg9 arg10 harg10 arg11 harg11 arg12 harg12 x0 x1 x2 xt0 xt1 xt2 xt3 hcF hcM hcN hcL xs0 xs1 xs2 = k1_pay19 (wd c tbM1_1 xt1 i) (wd c tbM1_0 xt0 i) (k1_pay5 x0 x1) xs0 := by
  unfold sout1_B_0
  rw [View.read_writes_eq_canon _ _ _ (scover1_B_0 c i arg6 harg6 arg7 harg7 arg8 harg8 arg9 harg9 arg10 harg10 arg11 harg11 arg12 harg12 x0 x1 x2 xt0 xt1 xt2 xt3 hcF hcM hcN hcL xs0 xs1 xs2)]
  unfold kernelRun1_B
  dsimp only
  sl_unfold_words
  rw [View.canon_cons_unit_zero (S := S1024x1) origin2]
  simp only [View.readAt_eq_ld, harg6.read_unread, harg7.read_unread, harg8.read_unread, harg10.read_unread, harg11.read_unread, harg12.read_unread,
    View.ld_unit_zero (S := S1x1024x64) origin3, View.ld_unit_zero (S := S1x512x64) origin3, View.ld_unit_zero (S := S1024x1) origin2, View.ld_unit_zero (S := S1024x64) origin2,
    View.readCov_unit_zero (S := S1024x1) arg10.view origin2, View.readCov_unit_zero (S := S1024x1) arg11.view origin2, View.readCov_unit_zero (S := S1024x64) arg12.view origin2]
  rfl

/-- The running normaliser: the masked update of what was carried. -/
theorem sout1_B_1_eq (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : condM (wd c tbM1_3 xt3 i)) (hcN : ¬condN (wd c tbM1_3 xt3 i)) (hcL : condL (wd c tbM1_2 xt2 i)) (xs0 : Vec F S1024x1 .f32) (xs1 : Vec F S1024x1 .f32) (xs2 : Vec F S1024x64 .f32) :
    sout1_B_1 c i arg6 harg6 arg7 harg7 arg8 harg8 arg9 harg9 arg10 harg10 arg11 harg11 arg12 harg12 x0 x1 x2 xt0 xt1 xt2 xt3 hcF hcM hcN hcL xs0 xs1 xs2 = k1_pay17 (wd c tbM1_1 xt1 i) (wd c tbM1_0 xt0 i) (k1_pay5 x0 x1) xs0 xs1 := by
  unfold sout1_B_1
  rw [View.read_writes_eq_canon _ _ _ (scover1_B_1 c i arg6 harg6 arg7 harg7 arg8 harg8 arg9 harg9 arg10 harg10 arg11 harg11 arg12 harg12 x0 x1 x2 xt0 xt1 xt2 xt3 hcF hcM hcN hcL xs0 xs1 xs2)]
  unfold kernelRun1_B
  dsimp only
  sl_unfold_words
  rw [View.canon_cons_unit_zero (S := S1024x1) origin2]
  simp only [View.readAt_eq_ld, harg6.read_unread, harg7.read_unread, harg8.read_unread, harg10.read_unread, harg11.read_unread, harg12.read_unread,
    View.ld_unit_zero (S := S1x1024x64) origin3, View.ld_unit_zero (S := S1x512x64) origin3, View.ld_unit_zero (S := S1024x1) origin2, View.ld_unit_zero (S := S1024x64) origin2,
    View.readCov_unit_zero (S := S1024x1) arg10.view origin2, View.readCov_unit_zero (S := S1024x1) arg11.view origin2, View.readCov_unit_zero (S := S1024x64) arg12.view origin2]
  rfl

/-- The running weighted sum: the masked update of what was carried. -/
theorem sout1_B_2_eq (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : condM (wd c tbM1_3 xt3 i)) (hcN : ¬condN (wd c tbM1_3 xt3 i)) (hcL : condL (wd c tbM1_2 xt2 i)) (xs0 : Vec F S1024x1 .f32) (xs1 : Vec F S1024x1 .f32) (xs2 : Vec F S1024x64 .f32) :
    sout1_B_2 c i arg6 harg6 arg7 harg7 arg8 harg8 arg9 harg9 arg10 harg10 arg11 harg11 arg12 harg12 x0 x1 x2 xt0 xt1 xt2 xt3 hcF hcM hcN hcL xs0 xs1 xs2 = k1_pay18 (wd c tbM1_1 xt1 i) (wd c tbM1_0 xt0 i) (k1_pay4 x2) (k1_pay5 x0 x1) xs0 xs2 := by
  unfold sout1_B_2
  rw [View.read_writes_eq_canon _ _ _ (scover1_B_2 c i arg6 harg6 arg7 harg7 arg8 harg8 arg9 harg9 arg10 harg10 arg11 harg11 arg12 harg12 x0 x1 x2 xt0 xt1 xt2 xt3 hcF hcM hcN hcL xs0 xs1 xs2)]
  unfold kernelRun1_B
  dsimp only
  sl_unfold_words
  rw [View.canon_cons_unit_zero (S := S1024x64) origin2]
  simp only [View.readAt_eq_ld, harg6.read_unread, harg7.read_unread, harg8.read_unread, harg10.read_unread, harg11.read_unread, harg12.read_unread,
    View.ld_unit_zero (S := S1x1024x64) origin3, View.ld_unit_zero (S := S1x512x64) origin3, View.ld_unit_zero (S := S1024x1) origin2, View.ld_unit_zero (S := S1024x64) origin2,
    View.readCov_unit_zero (S := S1024x1) arg10.view origin2, View.readCov_unit_zero (S := S1024x1) arg11.view origin2, View.readCov_unit_zero (S := S1024x64) arg12.view origin2]
  rfl

/-- The output block: the updated weighted sum divided by the updated normaliser. -/
theorem out1_B_3_eq (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : condM (wd c tbM1_3 xt3 i)) (hcN : ¬condN (wd c tbM1_3 xt3 i)) (hcL : condL (wd c tbM1_2 xt2 i)) (xs0 : Vec F S1024x1 .f32) (xs1 : Vec F S1024x1 .f32) (xs2 : Vec F S1024x64 .f32) :
    out1_B_3 c i arg6 harg6 arg7 harg7 arg8 harg8 arg9 harg9 arg10 harg10 arg11 harg11 arg12 harg12 x0 x1 x2 xt0 xt1 xt2 xt3 hcF hcM hcN hcL xs0 xs1 xs2 = k1_pay12 (k1_pay18 (wd c tbM1_1 xt1 i) (wd c tbM1_0 xt0 i) (k1_pay4 x2) (k1_pay5 x0 x1) xs0 xs2) (k1_pay17 (wd c tbM1_1 xt1 i) (wd c tbM1_0 xt0 i) (k1_pay5 x0 x1) xs0 xs1) := by
  unfold out1_B_3
  rw [View.read_writes_eq_canon _ _ _ (cover1_B_3 c i arg6 harg6 arg7 harg7 arg8 harg8 arg9 harg9 arg10 harg10 arg11 harg11 arg12 harg12 x0 x1 x2 xt0 xt1 xt2 xt3 hcF hcM hcN hcL xs0 xs1 xs2)]
  unfold kernelRun1_B
  dsimp only
  sl_unfold_words
  rw [View.canon_cons_unit_zero (S := S1x1024x64) origin3]
  simp only [View.readAt_eq_ld, harg6.read_unread, harg7.read_unread, harg8.read_unread, harg10.read_unread, harg11.read_unread, harg12.read_unread,
    View.ld_unit_zero (S := S1x1024x64) origin3, View.ld_unit_zero (S := S1x512x64) origin3, View.ld_unit_zero (S := S1024x1) origin2, View.ld_unit_zero (S := S1024x64) origin2,
    View.readCov_unit_zero (S := S1024x1) arg10.view origin2, View.readCov_unit_zero (S := S1024x1) arg11.view origin2, View.readCov_unit_zero (S := S1024x64) arg12.view origin2]
  rfl

/-! ## A first tile wholly below the diagonal: reset, then the plain update -/
/-- The running maximum: the plain update of the reset value. -/
theorem sout1_C_0_eq (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : condF (wd c tbM1_1 xt1 i)) (hcM : ¬condM (wd c tbM1_3 xt3 i)) (hcN : condN (wd c tbM1_3 xt3 i)) (hcL : ¬condL (wd c tbM1_2 xt2 i)) :
    sout1_C_0 c i arg6 harg6 arg7 harg7 arg8 harg8 arg9 harg9 arg10 harg10 arg11 harg11 arg12 harg12 x0 x1 x2 xt0 xt1 xt2 xt3 hcF hcM hcN hcL = k1_pay11 x0 x1 k1_pay1 := by
  unfold sout1_C_0
  rw [View.read_writes_eq_canon _ _ _ (scover1_C_0 c i arg6 harg6 arg7 harg7 arg8 harg8 arg9 harg9 arg10 harg10 arg11 harg11 arg12 harg12 x0 x1 x2 xt0 xt1 xt2 xt3 hcF hcM hcN hcL)]
  unfold kernelRun1_C
  dsimp only
  sl_unfold_words
  rw [View.canon_cons_unit_zero (S := S1024x1) origin2]
  simp only [View.readAt_eq_ld, harg6.read_unread, harg7.read_unread, harg8.read_unread, harg10.read_unread, harg11.read_unread, harg12.read_unread,
    View.ld_unit_zero (S := S1x1024x64) origin3, View.ld_unit_zero (S := S1x512x64) origin3, View.ld_unit_zero (S := S1024x1) origin2, View.ld_unit_zero (S := S1024x64) origin2,
    View.readCov_unit_zero (S := S1024x1) arg10.view origin2, View.readCov_unit_zero (S := S1024x1) arg11.view origin2, View.readCov_unit_zero (S := S1024x64) arg12.view origin2]

/-- The running normaliser: the plain update of the reset values. -/
theorem sout1_C_1_eq (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : condF (wd c tbM1_1 xt1 i)) (hcM : ¬condM (wd c tbM1_3 xt3 i)) (hcN : condN (wd c tbM1_3 xt3 i)) (hcL : ¬condL (wd c tbM1_2 xt2 i)) :
    sout1_C_1 c i arg6 harg6 arg7 harg7 arg8 harg8 arg9 harg9 arg10 harg10 arg11 harg11 arg12 harg12 x0 x1 x2 xt0 xt1 xt2 xt3 hcF hcM hcN hcL = k1_pay9 x0 x1 k1_pay1 k1_pay2 := by
  unfold sout1_C_1
  rw [View.read_writes_eq_canon _ _ _ (scover1_C_1 c i arg6 harg6 arg7 harg7 arg8 harg8 arg9 harg9 arg10 harg10 arg11 harg11 arg12 harg12 x0 x1 x2 xt0 xt1 xt2 xt3 hcF hcM hcN hcL)]
  unfold kernelRun1_C
  dsimp only
  sl_unfold_words
  rw [View.canon_cons_unit_zero (S := S1024x1) origin2]
  simp only [View.readAt_eq_ld, harg6.read_unread, harg7.read_unread, harg8.read_unread, harg10.read_unread, harg11.read_unread, harg12.read_unread,
    View.ld_unit_zero (S := S1x1024x64) origin3, View.ld_unit_zero (S := S1x512x64) origin3, View.ld_unit_zero (S := S1024x1) origin2, View.ld_unit_zero (S := S1024x64) origin2,
    View.readCov_unit_zero (S := S1024x1) arg10.view origin2, View.readCov_unit_zero (S := S1024x1) arg11.view origin2, View.readCov_unit_zero (S := S1024x64) arg12.view origin2]

/-- The running weighted sum: the plain update of the reset values. -/
theorem sout1_C_2_eq (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : condF (wd c tbM1_1 xt1 i)) (hcM : ¬condM (wd c tbM1_3 xt3 i)) (hcN : condN (wd c tbM1_3 xt3 i)) (hcL : ¬condL (wd c tbM1_2 xt2 i)) :
    sout1_C_2 c i arg6 harg6 arg7 harg7 arg8 harg8 arg9 harg9 arg10 harg10 arg11 harg11 arg12 harg12 x0 x1 x2 xt0 xt1 xt2 xt3 hcF hcM hcN hcL = k1_pay10 x0 x1 x2 k1_pay1 k1_pay3 := by
  unfold sout1_C_2
  rw [View.read_writes_eq_canon _ _ _ (scover1_C_2 c i arg6 harg6 arg7 harg7 arg8 harg8 arg9 harg9 arg10 harg10 arg11 harg11 arg12 harg12 x0 x1 x2 xt0 xt1 xt2 xt3 hcF hcM hcN hcL)]
  unfold kernelRun1_C
  dsimp only
  sl_unfold_words
  rw [View.canon_cons_unit_zero (S := S1024x64) origin2]
  simp only [View.readAt_eq_ld, harg6.read_unread, harg7.read_unread, harg8.read_unread, harg10.read_unread, harg11.read_unread, harg12.read_unread,
    View.ld_unit_zero (S := S1x1024x64) origin3, View.ld_unit_zero (S := S1x512x64) origin3, View.ld_unit_zero (S := S1024x1) origin2, View.ld_unit_zero (S := S1024x64) origin2,
    View.readCov_unit_zero (S := S1024x1) arg10.view origin2, View.readCov_unit_zero (S := S1024x1) arg11.view origin2, View.readCov_unit_zero (S := S1024x64) arg12.view origin2]

/-! ## A middle tile wholly below the diagonal: the plain update of what was carried -/
/-- The running maximum. -/
theorem sout1_D_0_eq (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : ¬condM (wd c tbM1_3 xt3 i)) (hcN : condN (wd c tbM1_3 xt3 i)) (hcL : ¬condL (wd c tbM1_2 xt2 i)) (xs0 : Vec F S1024x1 .f32) (xs1 : Vec F S1024x1 .f32) (xs2 : Vec F S1024x64 .f32) :
    sout1_D_0 c i arg6 harg6 arg7 harg7 arg8 harg8 arg9 harg9 arg10 harg10 arg11 harg11 arg12 harg12 x0 x1 x2 xt0 xt1 xt2 xt3 hcF hcM hcN hcL xs0 xs1 xs2 = k1_pay11 x0 x1 xs0 := by
  unfold sout1_D_0
  rw [View.read_writes_eq_canon _ _ _ (scover1_D_0 c i arg6 harg6 arg7 harg7 arg8 harg8 arg9 harg9 arg10 harg10 arg11 harg11 arg12 harg12 x0 x1 x2 xt0 xt1 xt2 xt3 hcF hcM hcN hcL xs0 xs1 xs2)]
  unfold kernelRun1_D
  dsimp only
  sl_unfold_words
  rw [View.canon_cons_unit_zero (S := S1024x1) origin2]
  simp only [View.readAt_eq_ld, harg6.read_unread, harg7.read_unread, harg8.read_unread, harg10.read_unread, harg11.read_unread, harg12.read_unread,
    View.ld_unit_zero (S := S1x1024x64) origin3, View.ld_unit_zero (S := S1x512x64) origin3, View.ld_unit_zero (S := S1024x1) origin2, View.ld_unit_zero (S := S1024x64) origin2,
    View.readCov_unit_zero (S := S1024x1) arg10.view origin2, View.readCov_unit_zero (S := S1024x1) arg11.view origin2, View.readCov_unit_zero (S := S1024x64) arg12.view origin2]

/-- The running normaliser. -/
theorem sout1_D_1_eq (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : ¬condM (wd c tbM1_3 xt3 i)) (hcN : condN (wd c tbM1_3 xt3 i)) (hcL : ¬condL (wd c tbM1_2 xt2 i)) (xs0 : Vec F S1024x1 .f32) (xs1 : Vec F S1024x1 .f32) (xs2 : Vec F S1024x64 .f32) :
    sout1_D_1 c i arg6 harg6 arg7 harg7 arg8 harg8 arg9 harg9 arg10 harg10 arg11 harg11 arg12 harg12 x0 x1 x2 xt0 xt1 xt2 xt3 hcF hcM hcN hcL xs0 xs1 xs2 = k1_pay9 x0 x1 xs0 xs1 := by
  unfold sout1_D_1
  rw [View.read_writes_eq_canon _ _ _ (scover1_D_1 c i arg6 harg6 arg7 harg7 arg8 harg8 arg9 harg9 arg10 harg10 arg11 harg11 arg12 harg12 x0 x1 x2 xt0 xt1 xt2 xt3 hcF hcM hcN hcL xs0 xs1 xs2)]
  unfold kernelRun1_D
  dsimp only
  sl_unfold_words
  rw [View.canon_cons_unit_zero (S := S1024x1) origin2]
  simp only [View.readAt_eq_ld, harg6.read_unread, harg7.read_unread, harg8.read_unread, harg10.read_unread, harg11.read_unread, harg12.read_unread,
    View.ld_unit_zero (S := S1x1024x64) origin3, View.ld_unit_zero (S := S1x512x64) origin3, View.ld_unit_zero (S := S1024x1) origin2, View.ld_unit_zero (S := S1024x64) origin2,
    View.readCov_unit_zero (S := S1024x1) arg10.view origin2, View.readCov_unit_zero (S := S1024x1) arg11.view origin2, View.readCov_unit_zero (S := S1024x64) arg12.view origin2]

/-- The running weighted sum. -/
theorem sout1_D_2_eq (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : ¬condM (wd c tbM1_3 xt3 i)) (hcN : condN (wd c tbM1_3 xt3 i)) (hcL : ¬condL (wd c tbM1_2 xt2 i)) (xs0 : Vec F S1024x1 .f32) (xs1 : Vec F S1024x1 .f32) (xs2 : Vec F S1024x64 .f32) :
    sout1_D_2 c i arg6 harg6 arg7 harg7 arg8 harg8 arg9 harg9 arg10 harg10 arg11 harg11 arg12 harg12 x0 x1 x2 xt0 xt1 xt2 xt3 hcF hcM hcN hcL xs0 xs1 xs2 = k1_pay10 x0 x1 x2 xs0 xs2 := by
  unfold sout1_D_2
  rw [View.read_writes_eq_canon _ _ _ (scover1_D_2 c i arg6 harg6 arg7 harg7 arg8 harg8 arg9 harg9 arg10 harg10 arg11 harg11 arg12 harg12 x0 x1 x2 xt0 xt1 xt2 xt3 hcF hcM hcN hcL xs0 xs1 xs2)]
  unfold kernelRun1_D
  dsimp only
  sl_unfold_words
  rw [View.canon_cons_unit_zero (S := S1024x64) origin2]
  simp only [View.readAt_eq_ld, harg6.read_unread, harg7.read_unread, harg8.read_unread, harg10.read_unread, harg11.read_unread, harg12.read_unread,
    View.ld_unit_zero (S := S1x1024x64) origin3, View.ld_unit_zero (S := S1x512x64) origin3, View.ld_unit_zero (S := S1024x1) origin2, View.ld_unit_zero (S := S1024x64) origin2,
    View.readCov_unit_zero (S := S1024x1) arg10.view origin2, View.readCov_unit_zero (S := S1024x1) arg11.view origin2, View.readCov_unit_zero (S := S1024x64) arg12.view origin2]

/-! ## A middle tile that crosses the diagonal: the masked update of what was carried -/
/-- The running maximum. -/
theorem sout1_E_0_eq (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : condM (wd c tbM1_3 xt3 i)) (hcN : ¬condN (wd c tbM1_3 xt3 i)) (hcL : ¬condL (wd c tbM1_2 xt2 i)) (xs0 : Vec F S1024x1 .f32) (xs1 : Vec F S1024x1 .f32) (xs2 : Vec F S1024x64 .f32) :
    sout1_E_0 c i arg6 harg6 arg7 harg7 arg8 harg8 arg9 harg9 arg10 harg10 arg11 harg11 arg12 harg12 x0 x1 x2 xt0 xt1 xt2 xt3 hcF hcM hcN hcL xs0 xs1 xs2 = k1_pay19 (wd c tbM1_1 xt1 i) (wd c tbM1_0 xt0 i) (k1_pay5 x0 x1) xs0 := by
  unfold sout1_E_0
  rw [View.read_writes_eq_canon _ _ _ (scover1_E_0 c i arg6 harg6 arg7 harg7 arg8 harg8 arg9 harg9 arg10 harg10 arg11 harg11 arg12 harg12 x0 x1 x2 xt0 xt1 xt2 xt3 hcF hcM hcN hcL xs0 xs1 xs2)]
  unfold kernelRun1_E
  dsimp only
  sl_unfold_words
  rw [View.canon_cons_unit_zero (S := S1024x1) origin2]
  simp only [View.readAt_eq_ld, harg6.read_unread, harg7.read_unread, harg8.read_unread, harg10.read_unread, harg11.read_unread, harg12.read_unread,
    View.ld_unit_zero (S := S1x1024x64) origin3, View.ld_unit_zero (S := S1x512x64) origin3, View.ld_unit_zero (S := S1024x1) origin2, View.ld_unit_zero (S := S1024x64) origin2,
    View.readCov_unit_zero (S := S1024x1) arg10.view origin2, View.readCov_unit_zero (S := S1024x1) arg11.view origin2, View.readCov_unit_zero (S := S1024x64) arg12.view origin2]
  rfl

/-- The running normaliser. -/
theorem sout1_E_1_eq (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : condM (wd c tbM1_3 xt3 i)) (hcN : ¬condN (wd c tbM1_3 xt3 i)) (hcL : ¬condL (wd c tbM1_2 xt2 i)) (xs0 : Vec F S1024x1 .f32) (xs1 : Vec F S1024x1 .f32) (xs2 : Vec F S1024x64 .f32) :
    sout1_E_1 c i arg6 harg6 arg7 harg7 arg8 harg8 arg9 harg9 arg10 harg10 arg11 harg11 arg12 harg12 x0 x1 x2 xt0 xt1 xt2 xt3 hcF hcM hcN hcL xs0 xs1 xs2 = k1_pay17 (wd c tbM1_1 xt1 i) (wd c tbM1_0 xt0 i) (k1_pay5 x0 x1) xs0 xs1 := by
  unfold sout1_E_1
  rw [View.read_writes_eq_canon _ _ _ (scover1_E_1 c i arg6 harg6 arg7 harg7 arg8 harg8 arg9 harg9 arg10 harg10 arg11 harg11 arg12 harg12 x0 x1 x2 xt0 xt1 xt2 xt3 hcF hcM hcN hcL xs0 xs1 xs2)]
  unfold kernelRun1_E
  dsimp only
  sl_unfold_words
  rw [View.canon_cons_unit_zero (S := S1024x1) origin2]
  simp only [View.readAt_eq_ld, harg6.read_unread, harg7.read_unread, harg8.read_unread, harg10.read_unread, harg11.read_unread, harg12.read_unread,
    View.ld_unit_zero (S := S1x1024x64) origin3, View.ld_unit_zero (S := S1x512x64) origin3, View.ld_unit_zero (S := S1024x1) origin2, View.ld_unit_zero (S := S1024x64) origin2,
    View.readCov_unit_zero (S := S1024x1) arg10.view origin2, View.readCov_unit_zero (S := S1024x1) arg11.view origin2, View.readCov_unit_zero (S := S1024x64) arg12.view origin2]
  rfl

/-- The running weighted sum. -/
theorem sout1_E_2_eq (c : Dev nD) (i : grid1.Coords) (arg6 : Memref sig .tc .vmem S1x1024x64 .bf16) (harg6 : arg6.IsWhole) (arg7 : Memref sig .tc .vmem S1x512x64 .bf16) (harg7 : arg7.IsWhole) (arg8 : Memref sig .tc .vmem S1x512x64 .bf16) (harg8 : arg8.IsWhole) (arg9 : Memref sig .tc .vmem S1x1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x64 .f32) (harg12 : arg12.IsWhole)
    (x0 : Vec F S1x1024x64 .bf16) (x1 : Vec F S1x512x64 .bf16) (x2 : Vec F S1x512x64 .bf16) (xt0 : TbBuf1 (F := F) c tbM1_0) (xt1 : TbBuf1 (F := F) c tbM1_1) (xt2 : TbBuf1 (F := F) c tbM1_2) (xt3 : TbBuf1 (F := F) c tbM1_3)
    (hcF : ¬condF (wd c tbM1_1 xt1 i)) (hcM : condM (wd c tbM1_3 xt3 i)) (hcN : ¬condN (wd c tbM1_3 xt3 i)) (hcL : ¬condL (wd c tbM1_2 xt2 i)) (xs0 : Vec F S1024x1 .f32) (xs1 : Vec F S1024x1 .f32) (xs2 : Vec F S1024x64 .f32) :
    sout1_E_2 c i arg6 harg6 arg7 harg7 arg8 harg8 arg9 harg9 arg10 harg10 arg11 harg11 arg12 harg12 x0 x1 x2 xt0 xt1 xt2 xt3 hcF hcM hcN hcL xs0 xs1 xs2 = k1_pay18 (wd c tbM1_1 xt1 i) (wd c tbM1_0 xt0 i) (k1_pay4 x2) (k1_pay5 x0 x1) xs0 xs2 := by
  unfold sout1_E_2
  rw [View.read_writes_eq_canon _ _ _ (scover1_E_2 c i arg6 harg6 arg7 harg7 arg8 harg8 arg9 harg9 arg10 harg10 arg11 harg11 arg12 harg12 x0 x1 x2 xt0 xt1 xt2 xt3 hcF hcM hcN hcL xs0 xs1 xs2)]
  unfold kernelRun1_E
  dsimp only
  sl_unfold_words
  rw [View.canon_cons_unit_zero (S := S1024x64) origin2]
  simp only [View.readAt_eq_ld, harg6.read_unread, harg7.read_unread, harg8.read_unread, harg10.read_unread, harg11.read_unread, harg12.read_unread,
    View.ld_unit_zero (S := S1x1024x64) origin3, View.ld_unit_zero (S := S1x512x64) origin3, View.ld_unit_zero (S := S1024x1) origin2, View.ld_unit_zero (S := S1024x64) origin2,
    View.readCov_unit_zero (S := S1024x1) arg10.view origin2, View.readCov_unit_zero (S := S1024x1) arg11.view origin2, View.readCov_unit_zero (S := S1024x64) arg12.view origin2]
  rfl

end Cert.KernelIdeal.Att

end
-- ==== Proof.LibOnlineSoftmax.lean ====
import Idealize.ShloMosaic.PureOps.Ideal

/-!
# Streaming ("online") softmax equals plain softmax, on the extended reals

One query row of an attention computation has scores `s k c` (tile `k`, column `c`) and values
`v k c h` (head coordinate `h`). Its softmax-weighted sum is
`∑ k c, (exp (s k c - M) / L) * v k c h` with `M` the maximum of all scores and
`L = ∑ k c, exp (s k c - M)`.

The streaming form never sees all scores at once: it keeps a state `(m, l, acc)` — the running
maximum, the running normaliser and the running weighted sum — starts from `(⊥, 0, 0)`, and folds
in one tile at a time:
`m' = max m (max of the tile)`, `a = exp (m - m')`,
`l' = a * l + ∑ c, exp (s c - m')`, `acc' h = a * acc h + ∑ c, exp (s c - m') * v c h`;
the result is `acc h / l`.

Everything is an extended real (`EReal`) with the exact operations `Ideal.exp` and `Ideal.div`.
A masked column has score `⊥`, where `exp ⊥ = 0`. Under the hypotheses that no score is `⊤`, every
value is a real number, and the first tile has at least one real score, the two results agree
(`run_div_eq_softmax`).

The proof: after the tiles `k ≤ n` the state is
`(M, ∑ exp (s - M), ∑ exp (s - M) * v)` with `M` the maximum so far, a real number (`run_inv`).
A step rescales by `exp (M - M')`, and `exp (M - M') * exp (x - M) = exp (x - M')` for real `x`,
`0 = 0` for `x = ⊥` (`E_shift`). Every quantity is the coercion of a real number, so the algebra is
done in `ℝ` and the coercion is pushed through the finite sums (`coe_sum`). The last step is
`(∑ e * v) / L = ∑ (e / L) * v` for a real `L ≠ 0`.

The last section drops masked columns from a maximum, a normaliser and a weighted sum.
-/

noncomputable section

namespace Cert.LibOnlineSoftmax

open Idealize.ShloMosaic
open scoped BigOperators

variable {C : Type*} {H : Type*} [Fintype C]

/-- Coercion of a finite real sum. -/
theorem coe_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The real number `exp (x - M)` for a score `x` that is real or `⊥` (where it is `0`). -/
def E (x : EReal) (M : ℝ) : ℝ := (Ideal.exp (x - (M : EReal))).toReal

/-- A masked score contributes `0`. -/
theorem E_bot (M : ℝ) : E ⊥ M = 0 := by
  rw [E, EReal.bot_sub, Ideal.exp_bot, EReal.toReal_zero]

/-- A real score `r` contributes `exp (r - M)`. -/
theorem E_coe (r M : ℝ) : E (r : EReal) M = Real.exp (r - M) := by
  rw [E, ← EReal.coe_sub, Ideal.exp_coe, EReal.toReal_coe]

/-- For a score that is not `⊤`, `exp (x - M)` against a real `M` is a real number. -/
theorem exp_sub_coe {x : EReal} (hx : x ≠ ⊤) (M : ℝ) :
    Ideal.exp (x - (M : EReal)) = ((E x M : ℝ) : EReal) := by
  induction x using EReal.rec with
  | bot => rw [E_bot, EReal.bot_sub, Ideal.exp_bot, EReal.coe_zero]
  | coe r => rw [E_coe, ← EReal.coe_sub, Ideal.exp_coe]
  | top => exact absurd rfl hx

/-- Every term is non-negative. -/
theorem E_nonneg (x : EReal) (M : ℝ) : 0 ≤ E x M := by
  induction x using EReal.rec with
  | bot => rw [E_bot]
  | coe r => rw [E_coe]; exact (Real.exp_pos _).le
  | top => rw [E, EReal.top_sub_coe, Ideal.exp_top, EReal.toReal_top]

/-- A real score's term is positive. -/
theorem E_pos {x : EReal} (hx : x ≠ ⊤) (hx' : x ≠ ⊥) (M : ℝ) : 0 < E x M := by
  induction x using EReal.rec with
  | bot => exact absurd rfl hx'
  | coe r => rw [E_coe]; exact Real.exp_pos _
  | top => exact absurd rfl hx

/-- Changing the reference maximum from `M` to `M'` rescales a term by `exp (M - M')`: for a real
    score `exp (M - M') * exp (x - M) = exp (x - M')`, and for a masked one `0 = 0`. -/
theorem E_shift {x : EReal} (hx : x ≠ ⊤) (M M' : ℝ) : Real.exp (M - M') * E x M = E x M' := by
  induction x using EReal.rec with
  | bot => rw [E_bot, E_bot, mul_zero]
  | coe r => rw [E_coe, E_coe, ← Real.exp_add]; congr 1; ring
  | top => exact absurd rfl hx

/-! ### The streaming state -/

/-- The state of the streaming softmax of one query row: the running maximum `m`, the running
    normaliser `l`, and the running weighted sum `acc` (one entry per head coordinate). -/
structure St (H : Type*) where
  m : EReal
  l : EReal
  acc : H → EReal

/-- The state before any tile: maximum `⊥`, normaliser `0`, weighted sum `0`. -/
def St.init : St H := ⟨⊥, 0, fun _ => 0⟩

/-- Fold one tile, with scores `s` and values `v`, into the state: the new maximum is
    `m' = max m (max of s)`, the old normaliser and weighted sum are rescaled by `exp (m - m')`, and
    the tile's terms `exp (s c - m')` and `exp (s c - m') * v c h` are added. -/
def St.step (s : C → EReal) (v : C → H → EReal) (st : St H) : St H where
  m := max st.m (Finset.univ.fold max ⊥ s)
  l := Ideal.exp (st.m - max st.m (Finset.univ.fold max ⊥ s)) * st.l
        + ∑ c, Ideal.exp (s c - max st.m (Finset.univ.fold max ⊥ s))
  acc := fun h => Ideal.exp (st.m - max st.m (Finset.univ.fold max ⊥ s)) * st.acc h
        + ∑ c, Ideal.exp (s c - max st.m (Finset.univ.fold max ⊥ s)) * v c h

theorem St.step_m (s : C → EReal) (v : C → H → EReal) (st : St H) :
    (St.step s v st).m = max st.m (Finset.univ.fold max ⊥ s) := rfl

theorem St.step_l (s : C → EReal) (v : C → H → EReal) (st : St H) :
    (St.step s v st).l
      = Ideal.exp (st.m - max st.m (Finset.univ.fold max ⊥ s)) * st.l
        + ∑ c, Ideal.exp (s c - max st.m (Finset.univ.fold max ⊥ s)) := rfl

theorem St.step_acc (s : C → EReal) (v : C → H → EReal) (st : St H) (h : H) :
    (St.step s v st).acc h
      = Ideal.exp (st.m - max st.m (Finset.univ.fold max ⊥ s)) * st.acc h
        + ∑ c, Ideal.exp (s c - max st.m (Finset.univ.fold max ⊥ s)) * v c h := rfl

/-- The state after the tiles `k < n`, folded in in order from `St.init`. -/
def St.run (s : ℕ → C → EReal) (v : ℕ → C → H → EReal) : ℕ → St H
  | 0 => St.init
  | n + 1 => St.step (s n) (v n) (St.run s v n)

theorem St.run_zero (s : ℕ → C → EReal) (v : ℕ → C → H → EReal) :
    St.run s v 0 = St.init := rfl

theorem St.run_succ (s : ℕ → C → EReal) (v : ℕ → C → H → EReal) (n : ℕ) :
    St.run s v (n + 1) = St.step (s n) (v n) (St.run s v n) := rfl

/-- The maximum of the scores of the tiles `k < n`, as the nested fold of `max` from `⊥`. -/
def runMax (s : ℕ → C → EReal) (n : ℕ) : EReal :=
  (Finset.range n).fold max ⊥ (fun k => Finset.univ.fold max ⊥ (s k))

/-- No tiles: the maximum is `⊥`. -/
theorem runMax_zero (s : ℕ → C → EReal) : runMax s 0 = ⊥ := by
  rw [runMax, Finset.range_zero, Finset.fold_empty]

/-- One more tile: the maximum so far against that tile's maximum. -/
theorem runMax_succ (s : ℕ → C → EReal) (n : ℕ) :
    runMax s (n + 1) = max (runMax s n) (Finset.univ.fold max ⊥ (s n)) := by
  rw [runMax, Finset.range_add_one, Finset.fold_insert Finset.notMem_range_self, max_comm, runMax]

/-- The running maximum after the tiles `k < n` is the maximum of all their scores. -/
theorem run_m (s : ℕ → C → EReal) (v : ℕ → C → H → EReal) (n : ℕ) :
    (St.run s v n).m = runMax s n := by
  induction n with
  | zero => rw [runMax_zero]; rfl
  | succ n ih =>
    show max (St.run s v n).m (Finset.univ.fold max ⊥ (s n)) = _
    rw [ih, runMax_succ]

/-- No score is `⊤`, so the maximum is not. -/
theorem runMax_ne_top (s : ℕ → C → EReal) (n : ℕ) (hs : ∀ k < n, ∀ c, s k c ≠ ⊤) :
    runMax s n ≠ ⊤ := by
  refine ((Finset.fold_max_lt _).2 ⟨bot_lt_top, fun k hk => ?_⟩).ne
  exact (Finset.fold_max_lt _).2
    ⟨bot_lt_top, fun c _ => lt_top_iff_ne_top.2 (hs k (Finset.mem_range.1 hk) c)⟩

/-- Tile `0` has a score above `⊥`, so every maximum that includes tile `0` is above `⊥`. -/
theorem runMax_ne_bot (s : ℕ → C → EReal) (n : ℕ) (h0 : ∃ c, s 0 c ≠ ⊥) :
    runMax s (n + 1) ≠ ⊥ := by
  obtain ⟨c, hc⟩ := h0
  refine ((Finset.lt_fold_max _).2 (Or.inr ⟨0, Finset.mem_range.2 n.succ_pos, ?_⟩)).ne'
  exact (Finset.lt_fold_max _).2 (Or.inr ⟨c, Finset.mem_univ c, bot_lt_iff_ne_bot.2 hc⟩)

/-! ### One step, on a state of real numbers -/

/-- A tile's normaliser terms against a real maximum sum to a real number. -/
theorem sum_exp_coe (s : C → EReal) (hs : ∀ c, s c ≠ ⊤) (M : ℝ) :
    ∑ c, Ideal.exp (s c - (M : EReal)) = ((∑ c, E (s c) M : ℝ) : EReal) := by
  rw [coe_sum]
  exact Finset.sum_congr rfl (fun c _ => exp_sub_coe (hs c) M)

/-- A tile's weighted terms against a real maximum, with real values, sum to a real number. -/
theorem sum_exp_mul_coe (s : C → EReal) (hs : ∀ c, s c ≠ ⊤) (w : C → EReal)
    (hw : ∀ c, w c ≠ ⊤ ∧ w c ≠ ⊥) (M : ℝ) :
    ∑ c, Ideal.exp (s c - (M : EReal)) * w c
      = ((∑ c, E (s c) M * (w c).toReal : ℝ) : EReal) := by
  rw [coe_sum]
  refine Finset.sum_congr rfl (fun c _ => ?_)
  rw [EReal.coe_mul, EReal.coe_toReal (hw c).1 (hw c).2, exp_sub_coe (hs c) M]

/-- One step on a state whose normaliser and weighted sum are real, when the new maximum `M'` is
    real and the rescaling factor `exp (m - M')` is the real `a`: the new normaliser and weighted sum
    are the real numbers `a * L + ∑ exp (s - M')` and `a * A h + ∑ exp (s - M') * v`. -/
theorem step_coe (s : C → EReal) (v : C → H → EReal) (hs : ∀ c, s c ≠ ⊤)
    (hv : ∀ c h, v c h ≠ ⊤ ∧ v c h ≠ ⊥) (st : St H) (M' : ℝ)
    (hM' : max st.m (Finset.univ.fold max ⊥ s) = (M' : EReal)) (a : ℝ)
    (ha : Ideal.exp (st.m - (M' : EReal)) = (a : EReal)) (L : ℝ) (hl : st.l = (L : EReal))
    (A : H → ℝ) (hacc : ∀ h, st.acc h = (A h : EReal)) :
    (St.step s v st).l = ((a * L + ∑ c, E (s c) M' : ℝ) : EReal)
      ∧ ∀ h, (St.step s v st).acc h
          = ((a * A h + ∑ c, E (s c) M' * (v c h).toReal : ℝ) : EReal) := by
  constructor
  · show Ideal.exp (st.m - max st.m (Finset.univ.fold max ⊥ s)) * st.l
        + ∑ c, Ideal.exp (s c - max st.m (Finset.univ.fold max ⊥ s)) = _
    rw [hM', ha, hl, sum_exp_coe s hs M', EReal.coe_add, EReal.coe_mul]
  · intro h
    show Ideal.exp (st.m - max st.m (Finset.univ.fold max ⊥ s)) * st.acc h
        + ∑ c, Ideal.exp (s c - max st.m (Finset.univ.fold max ⊥ s)) * v c h = _
    rw [hM', ha, hacc h, sum_exp_mul_coe s hs (fun c => v c h) (fun c => hv c h) M',
      EReal.coe_add, EReal.coe_mul]

/-! ### The invariant -/

/-- After the tiles `k ≤ n` the running maximum is the maximum `M` of all their scores, a real
    number; the running normaliser is `∑ exp (s - M)` and the running weighted sum is
    `∑ exp (s - M) · v`, over all their columns, both real. -/
theorem run_inv (n : ℕ) (s : ℕ → C → EReal) (v : ℕ → C → H → EReal)
    (hs : ∀ k ≤ n, ∀ c, s k c ≠ ⊤) (hv : ∀ k ≤ n, ∀ c h, v k c h ≠ ⊤ ∧ v k c h ≠ ⊥)
    (h0 : ∃ c, s 0 c ≠ ⊥) :
    (St.run s v (n + 1)).l
        = ((∑ k ∈ Finset.range (n + 1), ∑ c, E (s k c) (runMax s (n + 1)).toReal : ℝ) : EReal)
      ∧ ∀ h, (St.run s v (n + 1)).acc h
        = ((∑ k ∈ Finset.range (n + 1), ∑ c,
              E (s k c) (runMax s (n + 1)).toReal * (v k c h).toReal : ℝ) : EReal) := by
  induction n with
  | zero =>
    have hM : runMax s 1 = ((runMax s 1).toReal : EReal) :=
      (EReal.coe_toReal (runMax_ne_top s 1 (fun k hk => hs k (Nat.lt_succ_iff.1 hk)))
        (runMax_ne_bot s 0 h0)).symm
    have hstep := step_coe (s 0) (v 0) (hs 0 le_rfl) (hv 0 le_rfl) (St.init : St H)
      (runMax s 1).toReal
      (by rw [← hM, runMax_succ, runMax_zero]; rfl) 0
      (by show Ideal.exp (⊥ - _) = _; rw [EReal.bot_sub, Ideal.exp_bot, EReal.coe_zero]) 0
      (by show (0 : EReal) = _; rw [EReal.coe_zero]) (fun _ => 0)
      (fun _ => by show (0 : EReal) = _; rw [EReal.coe_zero])
    refine ⟨?_, fun h => ?_⟩
    · rw [Finset.sum_range_one]
      have := hstep.1
      rw [mul_zero, zero_add] at this
      exact this
    · rw [Finset.sum_range_one]
      have := hstep.2 h
      rw [mul_zero, zero_add] at this
      exact this
  | succ n ih =>
    obtain ⟨ihl, ihacc⟩ := ih (fun k hk => hs k (Nat.le_succ_of_le hk))
      (fun k hk => hv k (Nat.le_succ_of_le hk))
    have hM : runMax s (n + 1) = ((runMax s (n + 1)).toReal : EReal) :=
      (EReal.coe_toReal (runMax_ne_top s (n + 1) (fun k hk => hs k (Nat.le_of_lt hk)))
        (runMax_ne_bot s n h0)).symm
    have hM' : runMax s (n + 2) = ((runMax s (n + 2)).toReal : EReal) :=
      (EReal.coe_toReal (runMax_ne_top s (n + 2) (fun k hk => hs k (Nat.lt_succ_iff.1 hk)))
        (runMax_ne_bot s (n + 1) h0)).symm
    set M := (runMax s (n + 1)).toReal with hMdef
    set M' := (runMax s (n + 2)).toReal with hM'def
    have hstep := step_coe (s (n + 1)) (v (n + 1)) (hs (n + 1) le_rfl) (hv (n + 1) le_rfl)
      (St.run s v (n + 1)) M'
      (by rw [run_m, ← hM', runMax_succ s (n + 1)]) (Real.exp (M - M'))
      (by rw [run_m, hM, ← EReal.coe_sub, Ideal.exp_coe]) _ ihl _ ihacc
    have hsk : ∀ k ∈ Finset.range (n + 1), ∀ c, s k c ≠ ⊤ :=
      fun k hk c => hs k (Nat.le_of_lt (Finset.mem_range.1 hk)) c
    refine ⟨?_, fun h => ?_⟩
    · show (St.step (s (n + 1)) (v (n + 1)) (St.run s v (n + 1))).l = _
      rw [hstep.1, Finset.sum_range_succ _ (n + 1), Finset.mul_sum]
      congr 2
      refine Finset.sum_congr rfl (fun k hk => ?_)
      rw [Finset.mul_sum]
      exact Finset.sum_congr rfl (fun c _ => E_shift (hsk k hk c) M M')
    · show (St.step (s (n + 1)) (v (n + 1)) (St.run s v (n + 1))).acc h = _
      rw [hstep.2 h, Finset.sum_range_succ _ (n + 1), Finset.mul_sum]
      congr 2
      refine Finset.sum_congr rfl (fun k hk => ?_)
      rw [Finset.mul_sum]
      refine Finset.sum_congr rfl (fun c _ => ?_)
      rw [← mul_assoc, E_shift (hsk k hk c) M M']

/-- The normaliser is positive: tile `0` has a real score and every term is non-negative. -/
theorem runSum_pos (n : ℕ) (s : ℕ → C → EReal) (hs : ∀ k ≤ n, ∀ c, s k c ≠ ⊤)
    (h0 : ∃ c, s 0 c ≠ ⊥) (M : ℝ) :
    0 < ∑ k ∈ Finset.range (n + 1), ∑ c, E (s k c) M := by
  obtain ⟨c0, hc0⟩ := h0
  refine Finset.sum_pos' (fun k _ => Finset.sum_nonneg (fun c _ => E_nonneg _ _))
    ⟨0, Finset.mem_range.2 n.succ_pos, ?_⟩
  exact Finset.sum_pos' (fun c _ => E_nonneg _ _)
    ⟨c0, Finset.mem_univ c0, E_pos (hs 0 (Nat.zero_le n) c0) hc0 M⟩

/-- The maximum of all scores of the tiles `k ≤ n` is a real number. -/
theorem runMax_coe (n : ℕ) (s : ℕ → C → EReal) (hs : ∀ k ≤ n, ∀ c, s k c ≠ ⊤)
    (h0 : ∃ c, s 0 c ≠ ⊥) :
    runMax s (n + 1) = ((runMax s (n + 1)).toReal : EReal) :=
  (EReal.coe_toReal (runMax_ne_top s (n + 1) (fun k hk => hs k (Nat.lt_succ_iff.1 hk)))
    (runMax_ne_bot s n h0)).symm

/-- The softmax normaliser `∑ exp (s - M)` over the tiles `k ≤ n` is a real number. -/
theorem runSum_coe (n : ℕ) (s : ℕ → C → EReal) (hs : ∀ k ≤ n, ∀ c, s k c ≠ ⊤) (M : ℝ) :
    ∑ k ∈ Finset.range (n + 1), ∑ c, Ideal.exp (s k c - (M : EReal))
      = ((∑ k ∈ Finset.range (n + 1), ∑ c, E (s k c) M : ℝ) : EReal) := by
  rw [coe_sum]
  exact Finset.sum_congr rfl
    (fun k hk => sum_exp_coe (s k) (hs k (Nat.lt_succ_iff.1 (Finset.mem_range.1 hk))) M)

/-- **Streaming softmax equals plain softmax.** Fold the tiles `0, …, n` of one query row into the
    state `(m, l, acc)` from `(⊥, 0, 0)`; then `acc / l` is the softmax-weighted sum of the values
    over all the columns of those tiles, with the softmax taken against the maximum `M` of all the
    scores and normalised by `L = ∑ exp (s - M)`. Scores are real or `⊥` (a masked column), values
    are real, and tile `0` has at least one real score. -/
theorem run_div_eq_softmax (n : ℕ) (s : ℕ → C → EReal) (v : ℕ → C → H → EReal)
    (hs : ∀ k ≤ n, ∀ c, s k c ≠ ⊤) (hv : ∀ k ≤ n, ∀ c h, v k c h ≠ ⊤ ∧ v k c h ≠ ⊥)
    (h0 : ∃ c, s 0 c ≠ ⊥) (h : H) :
    Ideal.div ((St.run s v (n + 1)).acc h) (St.run s v (n + 1)).l
      = ∑ k ∈ Finset.range (n + 1), ∑ c,
          Ideal.div
            (Ideal.exp (s k c
              - (Finset.range (n + 1)).fold max ⊥ (fun k => Finset.univ.fold max ⊥ (s k))))
            (∑ k' ∈ Finset.range (n + 1), ∑ c',
              Ideal.exp (s k' c'
                - (Finset.range (n + 1)).fold max ⊥ (fun k => Finset.univ.fold max ⊥ (s k))))
          * v k c h := by
  obtain ⟨hl, hacc⟩ := run_inv n s v hs hv h0
  have hM := runMax_coe n s hs h0
  show Ideal.div ((St.run s v (n + 1)).acc h) (St.run s v (n + 1)).l
      = ∑ k ∈ Finset.range (n + 1), ∑ c,
          Ideal.div (Ideal.exp (s k c - runMax s (n + 1)))
            (∑ k' ∈ Finset.range (n + 1), ∑ c', Ideal.exp (s k' c' - runMax s (n + 1)))
          * v k c h
  set M := (runMax s (n + 1)).toReal with hMdef
  have hLpos := runSum_pos n s hs h0 M
  have hmem : ∀ k ∈ Finset.range (n + 1), k ≤ n :=
    fun k hk => Nat.lt_succ_iff.1 (Finset.mem_range.1 hk)
  rw [hM, runSum_coe n s hs M, hl, hacc h]
  set L : ℝ := ∑ k ∈ Finset.range (n + 1), ∑ c, E (s k c) M with hLdef
  have hLne : L ≠ 0 := hLpos.ne'
  have hR : ∀ k ∈ Finset.range (n + 1),
      ∑ c, Ideal.div (Ideal.exp (s k c - (M : EReal))) (L : EReal) * v k c h
        = ((∑ c, E (s k c) M * (1 / L) * (v k c h).toReal : ℝ) : EReal) := by
    intro k hk
    refine ((coe_sum _ _).trans ?_).symm
    refine Finset.sum_congr rfl (fun c _ => ?_)
    rw [Ideal.div_coe hLne, exp_sub_coe (hs k (hmem k hk) c) M, EReal.coe_mul, EReal.coe_mul,
      EReal.coe_toReal (hv k (hmem k hk) c h).1 (hv k (hmem k hk) c h).2]
  have hsum : (∑ k ∈ Finset.range (n + 1), ∑ c,
        Ideal.div (Ideal.exp (s k c - (M : EReal))) (L : EReal) * v k c h)
      = ∑ k ∈ Finset.range (n + 1),
          ((∑ c, E (s k c) M * (1 / L) * (v k c h).toReal : ℝ) : EReal) :=
    Finset.sum_congr rfl hR
  rw [hsum, Ideal.div_coe hLne, ← coe_sum, ← EReal.coe_mul, Finset.sum_mul]
  congr 1
  refine Finset.sum_congr rfl (fun k _ => ?_)
  rw [Finset.sum_mul]
  exact Finset.sum_congr rfl (fun c _ => by ring)

/-- The running maximum after the tiles `k ≤ n` is the maximum of all their scores. -/
theorem run_m_eq (n : ℕ) (s : ℕ → C → EReal) (v : ℕ → C → H → EReal) :
    (St.run s v (n + 1)).m
      = (Finset.range (n + 1)).fold max ⊥ (fun k => Finset.univ.fold max ⊥ (s k)) :=
  run_m s v (n + 1)

/-- The maximum of all scores of the tiles `k ≤ n` is a real number. -/
theorem runMax_real (n : ℕ) (s : ℕ → C → EReal) (hs : ∀ k ≤ n, ∀ c, s k c ≠ ⊤)
    (h0 : ∃ c, s 0 c ≠ ⊥) :
    ∃ M : ℝ, (Finset.range (n + 1)).fold max ⊥ (fun k => Finset.univ.fold max ⊥ (s k))
      = (M : EReal) :=
  ⟨_, runMax_coe n s hs h0⟩

/-- The softmax normaliser over the tiles `k ≤ n` is a positive real number. -/
theorem runSum_real_pos (n : ℕ) (s : ℕ → C → EReal) (hs : ∀ k ≤ n, ∀ c, s k c ≠ ⊤)
    (h0 : ∃ c, s 0 c ≠ ⊥) :
    ∃ L : ℝ, 0 < L ∧
      ∑ k ∈ Finset.range (n + 1), ∑ c,
        Ideal.exp (s k c
          - (Finset.range (n + 1)).fold max ⊥ (fun k => Finset.univ.fold max ⊥ (s k)))
        = (L : EReal) := by
  refine ⟨_, runSum_pos n s hs h0 (runMax s (n + 1)).toReal, ?_⟩
  show ∑ k ∈ Finset.range (n + 1), ∑ c, Ideal.exp (s k c - runMax s (n + 1)) = _
  have hM := runMax_coe n s hs h0
  generalize (runMax s (n + 1)).toReal = M at hM ⊢
  rw [hM]
  exact runSum_coe n s hs M

/-- The running normaliser after the tiles `k ≤ n` is the softmax normaliser `∑ exp (s - M)` over
    all their columns, `M` the maximum of all their scores. -/
theorem run_l_eq (n : ℕ) (s : ℕ → C → EReal) (v : ℕ → C → H → EReal)
    (hs : ∀ k ≤ n, ∀ c, s k c ≠ ⊤) (hv : ∀ k ≤ n, ∀ c h, v k c h ≠ ⊤ ∧ v k c h ≠ ⊥)
    (h0 : ∃ c, s 0 c ≠ ⊥) :
    (St.run s v (n + 1)).l
      = ∑ k ∈ Finset.range (n + 1), ∑ c,
          Ideal.exp (s k c
            - (Finset.range (n + 1)).fold max ⊥ (fun k => Finset.univ.fold max ⊥ (s k))) := by
  show _ = ∑ k ∈ Finset.range (n + 1), ∑ c, Ideal.exp (s k c - runMax s (n + 1))
  rw [(run_inv n s v hs hv h0).1]
  have hM := runMax_coe n s hs h0
  generalize (runMax s (n + 1)).toReal = M at hM ⊢
  rw [hM]
  exact (runSum_coe n s hs M).symm

/-- The running weighted sum after the tiles `k ≤ n` is `∑ exp (s - M) * v` over all their columns,
    `M` the maximum of all their scores. -/
theorem run_acc_eq (n : ℕ) (s : ℕ → C → EReal) (v : ℕ → C → H → EReal)
    (hs : ∀ k ≤ n, ∀ c, s k c ≠ ⊤) (hv : ∀ k ≤ n, ∀ c h, v k c h ≠ ⊤ ∧ v k c h ≠ ⊥)
    (h0 : ∃ c, s 0 c ≠ ⊥) (h : H) :
    (St.run s v (n + 1)).acc h
      = ∑ k ∈ Finset.range (n + 1), ∑ c,
          Ideal.exp (s k c
            - (Finset.range (n + 1)).fold max ⊥ (fun k => Finset.univ.fold max ⊥ (s k)))
          * v k c h := by
  show _ = ∑ k ∈ Finset.range (n + 1), ∑ c, Ideal.exp (s k c - runMax s (n + 1)) * v k c h
  rw [(run_inv n s v hs hv h0).2 h]
  have hM := runMax_coe n s hs h0
  generalize (runMax s (n + 1)).toReal = M at hM ⊢
  rw [hM]
  refine (coe_sum _ _).trans (Finset.sum_congr rfl (fun k hk => ?_))
  have hk' : k ≤ n := Nat.lt_succ_iff.1 (Finset.mem_range.1 hk)
  exact (sum_exp_mul_coe (s k) (hs k hk') (fun c => v k c h) (fun c => hv k hk' c h) M).symm

/-! ### Dropping masked columns -/

/-- A maximum over all indices is the maximum over any set outside which the scores are `⊥`. -/
theorem fold_max_univ_eq {J : Type*} [Fintype J] (S : Finset J) (s : J → EReal)
    (hS : ∀ j, j ∉ S → s j = ⊥) : Finset.univ.fold max ⊥ s = S.fold max ⊥ s := by
  apply le_antisymm
  · refine (Finset.fold_max_le _).2 ⟨bot_le, fun j _ => ?_⟩
    by_cases hj : j ∈ S
    · exact (Finset.le_fold_max _).2 (Or.inr ⟨j, hj, le_rfl⟩)
    · rw [hS j hj]; exact bot_le
  · exact (Finset.fold_max_le _).2 ⟨bot_le, fun j _ =>
      (Finset.le_fold_max _).2 (Or.inr ⟨j, Finset.mem_univ j, le_rfl⟩)⟩

/-- A masked column (score `⊥`) contributes `exp ⊥ = 0` to the normaliser. -/
theorem sum_exp_univ_eq {J : Type*} [Fintype J] (S : Finset J) (s : J → EReal)
    (hS : ∀ j, j ∉ S → s j = ⊥) (M : EReal) :
    ∑ j, Ideal.exp (s j - M) = ∑ j ∈ S, Ideal.exp (s j - M) := by
  refine (Finset.sum_subset (Finset.subset_univ S) (fun j _ hj => ?_)).symm
  rw [hS j hj, EReal.bot_sub, Ideal.exp_bot]

/-- A masked column (score `⊥`) has weight `0 / L = 0` and contributes nothing to the weighted
    sum, whatever its value. -/
theorem sum_div_exp_univ_eq {J : Type*} [Fintype J] (S : Finset J) (s : J → EReal)
    (hS : ∀ j, j ∉ S → s j = ⊥) (M L : EReal) (hL : L ≠ 0) (w : J → EReal) :
    ∑ j, Ideal.div (Ideal.exp (s j - M)) L * w j
      = ∑ j ∈ S, Ideal.div (Ideal.exp (s j - M)) L * w j := by
  refine (Finset.sum_subset (Finset.subset_univ S) (fun j _ hj => ?_)).symm
  rw [hS j hj, EReal.bot_sub, Ideal.exp_bot, Ideal.div, if_neg hL, zero_mul, zero_mul]

end Cert.LibOnlineSoftmax

end
-- ==== Proof.LibLayout3.lean ====
/-
  Layout operations and one-axis reductions read at an index written by coordinates (a general lemma file: it imports
  only the library and is generic in the extents).

  A tile of the kernel works with three index sets: (row, column) pairs, (row, column, coordinate) triples for the
  distances, and (row, positive, negative) triples for the mining step. The programs move between them by inserting a
  unit axis and broadcasting along it, and come back by reducing over the last axis. Each lemma here says which entry of
  the operand one entry of the result reads, with every index spelt by its coordinates.
-/
import Idealize.ShloMosaic.Lib.ValueLayout
import Idealize.ShloMosaic.PureOps.Ideal.Laws

open scoped BigOperators

namespace Cert.LibLayout3

open Idealize.ShloMosaic Idealize.ShloMosaic.ValueIdx

section Casts
variable {α : Type}

/-- An [a, c] array viewed as [a, 1, c] reads, at (r, u, d), the operand at (r, d). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (d : Fin c) :
    shapeCast ⟨3, ![a, 1, c]⟩ x h (ix3 r u d) = x (ix2 r d) :=
  shapeCast_apply x h _ _ (by
    have hu : u.val = 0 := by omega
    rw [Shape.rowMajor_val_three, Shape.rowMajor_val_two]
    show r.val * c + d.val = (r.val * 1 + u.val) * c + d.val
    rw [hu, Nat.mul_one, Nat.add_zero])

/-- An [a, b] array viewed as [a, b, 1] reads, at (r, j, u), the operand at (r, j). -/
theorem shapeCast_ab_ab1_apply {a b : ℕ} (x : (⟨2, ![a, b]⟩ : Shape).Idx → α)
    (h : (⟨2, ![a, b]⟩ : Shape).ShapeCasts ⟨3, ![a, b, 1]⟩) (r : Fin a) (j : Fin b) (u : Fin 1) :
    shapeCast ⟨3, ![a, b, 1]⟩ x h (ix3 r j u) = x (ix2 r j) :=
  shapeCast_apply x h _ _ (by
    have hu : u.val = 0 := by omega
    rw [Shape.rowMajor_val_three, Shape.rowMajor_val_two]
    show r.val * b + j.val = (r.val * b + j.val) * 1 + u.val
    rw [hu, Nat.mul_one, Nat.add_zero])

/-- A vector [a] viewed as the column [a, 1] reads, at (r, u), the operand at r. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

end Casts

section Broadcasts
variable {α : Type}

/-- A column [a, 1] broadcast to [a, b] reads, at (r, j), the column at r. -/
theorem broadcastTo_a1_ab_apply {a b : ℕ} (v : (⟨2, ![a, 1]⟩ : Shape).Idx → α)
    (h : (⟨2, ![a, 1]⟩ : Shape).Broadcasts ⟨2, ![a, b]⟩) (r : Fin a) (j : Fin b) :
    broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- An [a, 1, c] array broadcast along its middle axis to [a, b, c] reads, at (r, j, d), the operand at (r, 0, d). -/
theorem broadcastTo_a1c_abc_apply {a b c : ℕ} (v : (⟨3, ![a, 1, c]⟩ : Shape).Idx → α)
    (h : (⟨3, ![a, 1, c]⟩ : Shape).Broadcasts ⟨3, ![a, b, c]⟩) (r : Fin a) (j : Fin b) (d : Fin c) :
    broadcastTo ⟨3, ![a, b, c]⟩ v h (ix3 r j d) = v (ix3 r (0 : Fin 1) d) := by
  refine broadcastTo_apply v h (ix3 r j d) (ix3 r (0 : Fin 1) d) fun ax => ?_
  match ax with
  | ⟨0, _⟩ =>
    show r.val = if a = 1 then 0 else r.val
    split
    · have := r.isLt; omega
    · rfl
  | ⟨1, _⟩ => rfl
  | ⟨2, _⟩ =>
    show d.val = if c = 1 then 0 else d.val
    split
    · have := d.isLt; omega
    · rfl

/-- A [1, b, c] array broadcast along its first axis to [a, b, c] reads, at (r, j, d), the operand at (0, j, d). -/
theorem broadcastTo_1bc_abc_apply {a b c : ℕ} (v : (⟨3, ![1, b, c]⟩ : Shape).Idx → α)
    (h : (⟨3, ![1, b, c]⟩ : Shape).Broadcasts ⟨3, ![a, b, c]⟩) (r : Fin a) (j : Fin b) (d : Fin c) :
    broadcastTo ⟨3, ![a, b, c]⟩ v h (ix3 r j d) = v (ix3 (0 : Fin 1) j d) := by
  refine broadcastTo_apply v h (ix3 r j d) (ix3 (0 : Fin 1) j d) fun ax => ?_
  match ax with
  | ⟨0, _⟩ => rfl
  | ⟨1, _⟩ =>
    show j.val = if b = 1 then 0 else j.val
    split
    · have := j.isLt; omega
    · rfl
  | ⟨2, _⟩ =>
    show d.val = if c = 1 then 0 else d.val
    split
    · have := d.isLt; omega
    · rfl

/-- An [a, b, 1] array broadcast along its last axis to [a, b, c] reads, at (r, j, k), the operand at (r, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (r : Fin a) (j : Fin b) (k : Fin c) :
    broadcastTo ⟨3, ![a, b, c]⟩ v h (ix3 r j k) = v (ix3 r j (0 : Fin 1)) := by
  refine broadcastTo_apply v h (ix3 r j k) (ix3 r j (0 : Fin 1)) fun ax => ?_
  match ax with
  | ⟨0, _⟩ =>
    show r.val = if a = 1 then 0 else r.val
    split
    · have := r.isLt; omega
    · rfl
  | ⟨1, _⟩ =>
    show j.val = if b = 1 then 0 else j.val
    split
    · have := j.isLt; omega
    · rfl
  | ⟨2, _⟩ => rfl

end Broadcasts

/-! ## The index a one-axis reduction inserts, by coordinates -/

section Lift

/-- Over [a, b, c] reduced along its last axis, the index above (r, j) with coordinate d is (r, j, d). -/
theorem lift_abc_last {a b c : ℕ} (h : Shape.Reduces ⟨3, ![a, b, c]⟩ [2] ⟨2, ![a, b]⟩) (r : Fin a) (j : Fin b) (d : Fin c) :
    h.lift (ix2 r j) d = ix3 r j d := by
  funext x
  match x with
  | ⟨0, _⟩ => exact Fin.ext rfl
  | ⟨1, _⟩ => exact Fin.ext rfl
  | ⟨2, _⟩ => exact Fin.ext rfl

/-- Over [a, b] reduced along its columns, the index above r with coordinate j is (r, j). -/
theorem lift_ab_last {a b : ℕ} (h : Shape.Reduces ⟨2, ![a, b]⟩ [1] ⟨1, ![a]⟩) (r : Fin a) (j : Fin b) :
    h.lift (ix1 r) j = ix2 r j := by
  funext x
  match x with
  | ⟨0, _⟩ => exact Fin.ext rfl
  | ⟨1, _⟩ => exact Fin.ext rfl

/-- Over the column [a, 1] reduced along its rows, the index above u with coordinate r is (r, u). -/
theorem lift_a1_first {a : ℕ} (h : Shape.Reduces ⟨2, ![a, 1]⟩ [0] ⟨1, ![1]⟩) (u : Fin 1) (r : Fin a) :
    h.lift (ix1 u) r = ix2 r u := by
  funext x
  match x with
  | ⟨0, _⟩ => exact Fin.ext rfl
  | ⟨1, _⟩ => exact Fin.ext rfl

end Lift

/-! ## One-axis reductions over the extended reals

The sum of a lane is a plain finite sum; a maximum or a minimum is the fold of max or min over the lane's
coordinates, started from the value of the accumulator's word. The reduced axis is written as an element of a literal
Fin type (Fin 2 or Fin 3), the rank of the array being reduced. -/

section Reductions

/-- A minimum over one axis is the fold of min over that axis's coordinates, from the accumulator's value. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The sum over the last axis of an [a, b, c] array, at (r, j). -/
theorem sum_abc_last {a b c : ℕ} (src : FVec Ideal ⟨3, ![a, b, c]⟩ .f32)
    (h : Shape.Reduces ⟨3, ![a, b, c]⟩ [2] ⟨2, ![a, b]⟩) (hacc : (0x00000000#32 : BitVec 32) = 0x00000000#32)
    (r : Fin a) (j : Fin b) :
    multiReduction (s := ⟨3, ![a, b, c]⟩) .add ([2] : List (Fin 3)) ⟨2, ![a, b]⟩ src 0x00000000#32 h (.inl rfl) hacc (ix2 r j)
      = ∑ d : Fin c, src (ix3 r j d) :=
  (Ideal.multiReduction_add_single src 0x00000000#32 h (.inl rfl) hacc (ix2 r j)).trans
    (Finset.sum_congr rfl fun d _ => congrArg src (lift_abc_last h r j d))

/-- The sum over the columns of an [a, b] array, at r. -/
theorem sum_ab_last {a b : ℕ} (src : FVec Ideal ⟨2, ![a, b]⟩ .f32)
    (h : Shape.Reduces ⟨2, ![a, b]⟩ [1] ⟨1, ![a]⟩) (hacc : (0x00000000#32 : BitVec 32) = 0x00000000#32) (r : Fin a) :
    multiReduction (s := ⟨2, ![a, b]⟩) .add ([1] : List (Fin 2)) ⟨1, ![a]⟩ src 0x00000000#32 h (.inl rfl) hacc (ix1 r)
      = ∑ j : Fin b, src (ix2 r j) :=
  (Ideal.multiReduction_add_single src 0x00000000#32 h (.inl rfl) hacc (ix1 r)).trans
    (Finset.sum_congr rfl fun j _ => congrArg src (lift_ab_last h r j))

/-- The sum over the rows of a column [a, 1], at its one index. -/
theorem sum_a1_first {a : ℕ} (src : FVec Ideal ⟨2, ![a, 1]⟩ .f32)
    (h : Shape.Reduces ⟨2, ![a, 1]⟩ [0] ⟨1, ![1]⟩) (hacc : (0x00000000#32 : BitVec 32) = 0x00000000#32) (u : Fin 1) :
    multiReduction (s := ⟨2, ![a, 1]⟩) .add ([0] : List (Fin 2)) ⟨1, ![1]⟩ src 0x00000000#32 h (.inl rfl) hacc (ix1 u)
      = ∑ r : Fin a, src (ix2 r u) :=
  (Ideal.multiReduction_add_single src 0x00000000#32 h (.inl rfl) hacc (ix1 u)).trans
    (Finset.sum_congr rfl fun r _ => congrArg src (lift_a1_first h u r))

/-- The maximum over the columns of an [a, b] array, at r. -/
theorem max_ab_last {a b : ℕ} (src : FVec Ideal ⟨2, ![a, b]⟩ .f32)
    (h : Shape.Reduces ⟨2, ![a, b]⟩ [1] ⟨1, ![a]⟩) (hacc : (0xFF800000#32 : BitVec 32) = 0xFF800000#32) (r : Fin a) :
    multiReduction (s := ⟨2, ![a, b]⟩) .maximumf ([1] : List (Fin 2)) ⟨1, ![a]⟩ src 0xFF800000#32 h (.inl rfl) hacc (ix1 r)
      = (Finset.univ : Finset (Fin b)).fold max (Ideal.ofBits .f32 0xFF800000#32) (fun j => src (ix2 r j)) :=
  (Ideal.multiReduction_maximumf_single src 0xFF800000#32 h (.inl rfl) hacc (ix1 r)).trans
    (Finset.fold_congr fun j _ => congrArg src (lift_ab_last h r j))

/-- The minimum over the columns of an [a, b] array, at r. -/
theorem min_ab_last {a b : ℕ} (src : FVec Ideal ⟨2, ![a, b]⟩ .f32)
    (h : Shape.Reduces ⟨2, ![a, b]⟩ [1] ⟨1, ![a]⟩) (hacc : (0x7F800000#32 : BitVec 32) = 0x7F800000#32) (r : Fin a) :
    multiReduction (s := ⟨2, ![a, b]⟩) .minimumf ([1] : List (Fin 2)) ⟨1, ![a]⟩ src 0x7F800000#32 h (.inl rfl) hacc (ix1 r)
      = (Finset.univ : Finset (Fin b)).fold min (Ideal.ofBits .f32 0x7F800000#32) (fun j => src (ix2 r j)) :=
  (multiReduction_minimumf_single src 0x7F800000#32 h (.inl rfl) hacc (ix1 r)).trans
    (Finset.fold_congr fun j _ => congrArg src (lift_ab_last h r j))

/-- The minimum over the last axis of an [a, b, c] array, at (r, j). -/
theorem min_abc_last {a b c : ℕ} (src : FVec Ideal ⟨3, ![a, b, c]⟩ .f32)
    (h : Shape.Reduces ⟨3, ![a, b, c]⟩ [2] ⟨2, ![a, b]⟩) (hacc : (0x7F800000#32 : BitVec 32) = 0x7F800000#32)
    (r : Fin a) (j : Fin b) :
    multiReduction (s := ⟨3, ![a, b, c]⟩) .minimumf ([2] : List (Fin 3)) ⟨2, ![a, b]⟩ src 0x7F800000#32 h (.inl rfl) hacc (ix2 r j)
      = (Finset.univ : Finset (Fin c)).fold min (Ideal.ofBits .f32 0x7F800000#32) (fun k => src (ix3 r j k)) :=
  (multiReduction_minimumf_single src 0x7F800000#32 h (.inl rfl) hacc (ix2 r j)).trans
    (Finset.fold_congr fun k _ => congrArg src (lift_abc_last h r j k))

end Reductions

end Cert.LibLayout3
-- ==== Proof.PayRead.lean ====
import proofs.«175909_j62251255988572_2_alg».proof.Proof.Gen.KernelIdeal.Skeleton
import proofs.«175909_j62251255988572_2_alg».proof.Proof.LibOnlineSoftmax
import proofs.«175909_j62251255988572_2_alg».proof.Proof.LibLayout3
import Idealize.ShloMosaic.Lib.ValueIdx
import Idealize.ShloMosaic.Lib.ValueLayout
import Idealize.ShloMosaic.PureOps.Ideal.Laws

/-!
# One tile update of the attention body, read row by row

The body of the attention kernel folds one tile of 512 key columns into three running arrays: the
row maximum `m` (a column [1024, 1]), the normaliser `l` (a column [1024, 1]) and the weighted sum
`acc` ([1024, 64]). Its arithmetic is a handful of whole-array operations. Read at one query row
`r`, and at the exact (extended real) values, that arithmetic is one step of the streaming softmax:
the scores of the row are `(∑ h, q[r, h] * k[c, h]) * 2⁻⁵`, the new maximum is the old one against the
row's maximum, the old normaliser and weighted sum are rescaled by `exp (m - m')`, and the tile's
terms `exp (s c - m')` and `exp (s c - m') * v[c, h]` are added. On a tile that crosses the diagonal
the scores of the key positions after the query position are replaced by `⊥` first.

This file proves exactly that, for variables in place of the loaded blocks.
-/

noncomputable section

namespace Cert.KernelIdeal.Att

open Idealize.ShloMosaic Idealize.SL.Sem
open Cert.KernelIdeal Cert.KernelIdeal.Gen Idealize.ShloMosaic.ValueIdx Cert.LibOnlineSoftmax
open scoped BigOperators

/-! ## The two products, read at an index -/

theorem matmul_qk_apply_lhs0 (j : S1024x512.Idx) (q : dot_S1024x64_S64x512_S1024x512_1_0_0_1_n_n.contr.Idx) :
    (dot_S1024x64_S64x512_S1024x512_1_0_0_1_n_n.lhsIdx j q 0).val = (j 0).val := by
  unfold DotDims.lhsIdx
  rw [dif_neg (show ¬(0 : Fin S1024x64.rank) ∈ dot_S1024x64_S64x512_S1024x512_1_0_0_1_n_n.lhsBatch by decide),
    dif_pos (show (0 : Fin S1024x64.rank) ∈ dot_S1024x64_S64x512_S1024x512_1_0_0_1_n_n.lhsNonContracting by decide)]
  rfl

theorem matmul_qk_apply_lhs1 (j : S1024x512.Idx) (q : dot_S1024x64_S64x512_S1024x512_1_0_0_1_n_n.contr.Idx) :
    (dot_S1024x64_S64x512_S1024x512_1_0_0_1_n_n.lhsIdx j q 1).val = (q ⟨0, by decide⟩).val :=
  dot_S1024x64_S64x512_S1024x512_1_0_0_1_n_n.lhsIdx_val_of_single rfl j q

theorem matmul_qk_apply_rhs0 (j : S1024x512.Idx) (q : dot_S1024x64_S64x512_S1024x512_1_0_0_1_n_n.contr.Idx) :
    (dot_S1024x64_S64x512_S1024x512_1_0_0_1_n_n.rhsIdx j q 0).val = (q ⟨0, by decide⟩).val :=
  dot_S1024x64_S64x512_S1024x512_1_0_0_1_n_n.rhsIdx_val_of_single rfl j q

theorem matmul_qk_apply_rhs1 (j : S1024x512.Idx) (q : dot_S1024x64_S64x512_S1024x512_1_0_0_1_n_n.contr.Idx) :
    (dot_S1024x64_S64x512_S1024x512_1_0_0_1_n_n.rhsIdx j q 1).val = (j 1).val := by
  unfold DotDims.rhsIdx
  rw [dif_neg (show ¬(1 : Fin S64x512.rank) ∈ dot_S1024x64_S64x512_S1024x512_1_0_0_1_n_n.rhsBatch by decide),
    dif_pos (show (1 : Fin S64x512.rank) ∈ dot_S1024x64_S64x512_S1024x512_1_0_0_1_n_n.rhsNonContracting by decide)]
  rfl

/-- A [1024, 64] by [64, 512] product accumulated into zero is, at (r, c), the sum over the 64 shared
    coordinates. -/
theorem matmul_qk_apply (a : FVec Ideal S1024x64 .bf16) (b : FVec Ideal S64x512 .bf16)
    (r : Fin 1024) (c : Fin 512) :
    matmul dot_S1024x64_S64x512_S1024x512_1_0_0_1_n_n none a b (constant S1024x512 .f32 0x00000000#32) (ix2 r c)
      = ∑ k : Fin 64, a (ix2 r k) * b (ix2 k c) := by
  refine (Ideal.matmul_constant_zero_apply dot_S1024x64_S64x512_S1024x512_1_0_0_1_n_n none a b (ix2 r c)).trans ?_
  rw [← Equiv.sum_comp (contrEquiv1 dot_S1024x64_S64x512_S1024x512_1_0_0_1_n_n 64 rfl rfl).symm]
  refine Finset.sum_congr rfl fun k _ => ?_
  have hk := contrEquiv1_symm_val dot_S1024x64_S64x512_S1024x512_1_0_0_1_n_n 64 rfl rfl k
  have el : dot_S1024x64_S64x512_S1024x512_1_0_0_1_n_n.lhsIdx (ix2 r c)
      ((contrEquiv1 dot_S1024x64_S64x512_S1024x512_1_0_0_1_n_n 64 rfl rfl).symm k) = ix2 r k :=
    funext fun x => Fin.ext (by
      match x with
      | ⟨0, _⟩ => exact matmul_qk_apply_lhs0 _ _
      | ⟨1, _⟩ => exact (matmul_qk_apply_lhs1 _ _).trans hk)
  have er : dot_S1024x64_S64x512_S1024x512_1_0_0_1_n_n.rhsIdx (ix2 r c)
      ((contrEquiv1 dot_S1024x64_S64x512_S1024x512_1_0_0_1_n_n 64 rfl rfl).symm k) = ix2 k c :=
    funext fun x => Fin.ext (by
      match x with
      | ⟨0, _⟩ => exact (matmul_qk_apply_rhs0 _ _).trans hk
      | ⟨1, _⟩ => exact matmul_qk_apply_rhs1 _ _)
  rw [el, er]

theorem matmul_pv_apply_lhs0 (j : S1024x64.Idx) (q : dot_S1024x512_S512x64_S1024x64_1_0_0_1_n_n.contr.Idx) :
    (dot_S1024x512_S512x64_S1024x64_1_0_0_1_n_n.lhsIdx j q 0).val = (j 0).val := by
  unfold DotDims.lhsIdx
  rw [dif_neg (show ¬(0 : Fin S1024x512.rank) ∈ dot_S1024x512_S512x64_S1024x64_1_0_0_1_n_n.lhsBatch by decide),
    dif_pos (show (0 : Fin S1024x512.rank) ∈ dot_S1024x512_S512x64_S1024x64_1_0_0_1_n_n.lhsNonContracting by decide)]
  rfl

theorem matmul_pv_apply_lhs1 (j : S1024x64.Idx) (q : dot_S1024x512_S512x64_S1024x64_1_0_0_1_n_n.contr.Idx) :
    (dot_S1024x512_S512x64_S1024x64_1_0_0_1_n_n.lhsIdx j q 1).val = (q ⟨0, by decide⟩).val :=
  dot_S1024x512_S512x64_S1024x64_1_0_0_1_n_n.lhsIdx_val_of_single rfl j q

theorem matmul_pv_apply_rhs0 (j : S1024x64.Idx) (q : dot_S1024x512_S512x64_S1024x64_1_0_0_1_n_n.contr.Idx) :
    (dot_S1024x512_S512x64_S1024x64_1_0_0_1_n_n.rhsIdx j q 0).val = (q ⟨0, by decide⟩).val :=
  dot_S1024x512_S512x64_S1024x64_1_0_0_1_n_n.rhsIdx_val_of_single rfl j q

theorem matmul_pv_apply_rhs1 (j : S1024x64.Idx) (q : dot_S1024x512_S512x64_S1024x64_1_0_0_1_n_n.contr.Idx) :
    (dot_S1024x512_S512x64_S1024x64_1_0_0_1_n_n.rhsIdx j q 1).val = (j 1).val := by
  unfold DotDims.rhsIdx
  rw [dif_neg (show ¬(1 : Fin S512x64.rank) ∈ dot_S1024x512_S512x64_S1024x64_1_0_0_1_n_n.rhsBatch by decide),
    dif_pos (show (1 : Fin S512x64.rank) ∈ dot_S1024x512_S512x64_S1024x64_1_0_0_1_n_n.rhsNonContracting by decide)]
  rfl

/-- A [1024, 512] by [512, 64] product accumulated into zero is, at (r, h), the sum over the 512 tile
    columns. -/
theorem matmul_pv_apply (a : FVec Ideal S1024x512 .bf16) (b : FVec Ideal S512x64 .bf16)
    (r : Fin 1024) (h : Fin 64) :
    matmul dot_S1024x512_S512x64_S1024x64_1_0_0_1_n_n none a b (constant S1024x64 .f32 0x00000000#32) (ix2 r h)
      = ∑ k : Fin 512, a (ix2 r k) * b (ix2 k h) := by
  refine (Ideal.matmul_constant_zero_apply dot_S1024x512_S512x64_S1024x64_1_0_0_1_n_n none a b (ix2 r h)).trans ?_
  rw [← Equiv.sum_comp (contrEquiv1 dot_S1024x512_S512x64_S1024x64_1_0_0_1_n_n 512 rfl rfl).symm]
  refine Finset.sum_congr rfl fun k _ => ?_
  have hk := contrEquiv1_symm_val dot_S1024x512_S512x64_S1024x64_1_0_0_1_n_n 512 rfl rfl k
  have el : dot_S1024x512_S512x64_S1024x64_1_0_0_1_n_n.lhsIdx (ix2 r h)
      ((contrEquiv1 dot_S1024x512_S512x64_S1024x64_1_0_0_1_n_n 512 rfl rfl).symm k) = ix2 r k :=
    funext fun x => Fin.ext (by
      match x with
      | ⟨0, _⟩ => exact matmul_pv_apply_lhs0 _ _
      | ⟨1, _⟩ => exact (matmul_pv_apply_lhs1 _ _).trans hk)
  have er : dot_S1024x512_S512x64_S1024x64_1_0_0_1_n_n.rhsIdx (ix2 r h)
      ((contrEquiv1 dot_S1024x512_S512x64_S1024x64_1_0_0_1_n_n 512 rfl rfl).symm k) = ix2 k h :=
    funext fun x => Fin.ext (by
      match x with
      | ⟨0, _⟩ => exact (matmul_pv_apply_rhs0 _ _).trans hk
      | ⟨1, _⟩ => exact matmul_pv_apply_rhs1 _ _)
  rw [el, er]

/-! ## The scores of a tile -/

/-- The float word of minus infinity is `⊥`. -/
theorem ofBits_negInf : Ideal.ofBits .f32 0xFF800000#32 = ⊥ := by simp [Ideal.ofBits, Ideal.ieee]

/-- Two states with the same three components are equal. -/
theorem St_ext {H : Type*} (a b : St H) (hm : a.m = b.m) (hl : a.l = b.l) (hacc : ∀ h, a.acc h = b.acc h) :
    a = b := by
  cases a; cases b
  simp only [St.mk.injEq]
  exact ⟨hm, hl, funext hacc⟩

/-- The scaled score of tile column `c` for query row `r`. -/
def tileScore (x0 : Vec Ideal S1x1024x64 .bf16) (x1 : Vec Ideal S1x512x64 .bf16) (r : Fin 1024) (c : Fin 512) : EReal :=
  (∑ h : Fin 64, x0 (ix3 0 r h) * x1 (ix3 0 c h)) * Ideal.ofBits .f32 0x3D000000#32

/-- The state of row `r` held by the three running arrays. -/
def rowSt (s0 s1 : Vec Ideal S1024x1 .f32) (s2 : Vec Ideal S1024x64 .f32) (r : Fin 1024) : St (Fin 64) :=
  ⟨s0 (ix2 r 0), s1 (ix2 r 0), fun h => s2 (ix2 r h)⟩

/-- The score array at (r, c): the unit axes of the two blocks dropped, the key block transposed, the
    product into zero as the sum over the 64 head coordinates, and the scale. -/
theorem score_apply (x0 : Vec Ideal S1x1024x64 .bf16) (x1 : Vec Ideal S1x512x64 .bf16) (r : Fin 1024) (c : Fin 512) :
    k1_pay5 (F := Ideal) x0 x1 (ix2 r c) = tileScore x0 x1 r c := by
  unfold k1_pay5 tileScore
  refine (mulf_apply _ _ _).trans ?_
  refine congrArg₂ (· * ·) ?_ rfl
  refine (matmul_qk_apply _ _ r c).trans ?_
  refine Finset.sum_congr rfl fun h _ => ?_
  refine congrArg₂ (· * ·) (shapeCast_1ab_ab_apply x0 _ r h) ?_
  refine (transpose_ix2_apply _ _ h c).trans ?_
  exact shapeCast_1ab_ab_apply x1 _ c h

/-! ## One tile update over an arbitrary score array

The update is the same arithmetic whether the scores are used as they are or masked first, so it is
read once, over an arbitrary score array `S` [1024, 512] and value array `V` [512, 64]. -/

/-- The new running maximum: the old one against each row's maximum over the tile. -/
def newMax (S : FVec Ideal S1024x512 .f32) (m : Vec Ideal S1024x1 .f32) : FVec Ideal S1024x1 .f32 :=
  maximumf m (shapeCast S1024x1
    (multiReduction .maximumf [1] S1024 S 0xFF800000#32 reduces_S1024x512_S1024 (.inl rfl) rfl)
    shapeCasts_S1024_S1024x1)

/-- The rescaling factor `exp (m - m')`. -/
def rescale (S : FVec Ideal S1024x512 .f32) (m : Vec Ideal S1024x1 .f32) : FVec Ideal S1024x1 .f32 :=
  exp (subf m (newMax S m))

/-- The tile's terms `exp (s - m')`. -/
def terms (S : FVec Ideal S1024x512 .f32) (m : Vec Ideal S1024x1 .f32) : FVec Ideal S1024x512 .f32 :=
  exp (subf S (broadcastTo S1024x512 (newMax S m) broadcasts_S1024x1_S1024x512))

/-- The new normaliser. -/
def newSum (S : FVec Ideal S1024x512 .f32) (m l : Vec Ideal S1024x1 .f32) : FVec Ideal S1024x1 .f32 :=
  shapeCast S1024x1
    (addf (mulf (rescale S m) l)
      (shapeCast S1024x1
        (multiReduction .add [1] S1024 (terms S m) 0x00000000#32 reduces_S1024x512_S1024 (.inl rfl) rfl)
        shapeCasts_S1024_S1024x1))
    shapeCasts_S1024x1_S1024x1

/-- The new weighted sum. -/
def newAcc (S : FVec Ideal S1024x512 .f32) (V : FVec Ideal S512x64 .bf16) (m : Vec Ideal S1024x1 .f32)
    (acc : Vec Ideal S1024x64 .f32) : FVec Ideal S1024x64 .f32 :=
  shapeCast S1024x64
    (addf (mulf (broadcastTo S1024x64 (rescale S m) broadcasts_S1024x1_S1024x64) acc)
      (matmul dot_S1024x512_S512x64_S1024x64_1_0_0_1_n_n none (truncf .bf16 (terms S m) bitsLt_bf16_f32) V
        (constant S1024x64 .f32 0x00000000#32)))
    shapeCasts_S1024x64_S1024x64

/-- The new running maximum as it is stored. -/
def newMaxOut (S : FVec Ideal S1024x512 .f32) (m : Vec Ideal S1024x1 .f32) : FVec Ideal S1024x1 .f32 :=
  shapeCast S1024x1 (newMax S m) shapeCasts_S1024x1_S1024x1

/-- The new maximum of row `r`. -/
theorem newMax_apply (S : FVec Ideal S1024x512 .f32) (m : Vec Ideal S1024x1 .f32) (r : Fin 1024) :
    newMax S m (ix2 r 0) = max (m (ix2 r 0)) (Finset.univ.fold max ⊥ (fun c : Fin 512 => S (ix2 r c))) := by
  unfold newMax
  refine (maximumf_apply _ _ _).trans ?_
  refine congrArg (max (m (ix2 r 0))) ?_
  refine (Cert.LibLayout3.shapeCast_a_a1_apply _ _ r 0).trans ?_
  refine (Cert.LibLayout3.max_ab_last S _ rfl r).trans ?_
  rw [ofBits_negInf]

/-- A term of row `r`. -/
theorem terms_apply (S : FVec Ideal S1024x512 .f32) (m : Vec Ideal S1024x1 .f32) (r : Fin 1024) (c : Fin 512) :
    terms S m (ix2 r c) = Ideal.exp (S (ix2 r c) - newMax S m (ix2 r 0)) :=
  congrArg (fun t => Ideal.exp (S (ix2 r c) - t)) (Cert.LibLayout3.broadcastTo_a1_ab_apply (newMax S m) _ r c)

/-- The new normaliser of row `r`. -/
theorem newSum_apply (S : FVec Ideal S1024x512 .f32) (m l : Vec Ideal S1024x1 .f32) (r : Fin 1024) :
    newSum S m l (ix2 r 0)
      = Ideal.exp (m (ix2 r 0) - newMax S m (ix2 r 0)) * l (ix2 r 0)
        + ∑ c : Fin 512, Ideal.exp (S (ix2 r c) - newMax S m (ix2 r 0)) := by
  unfold newSum
  refine (congrFun (shapeCast_self _ _) _).trans ?_
  refine (addf_apply _ _ _).trans ?_
  refine congrArg₂ (· + ·) rfl ?_
  refine (Cert.LibLayout3.shapeCast_a_a1_apply _ _ r 0).trans ?_
  refine (Cert.LibLayout3.sum_ab_last (terms S m) _ rfl r).trans ?_
  exact Finset.sum_congr rfl fun c _ => terms_apply S m r c

/-- The new weighted sum of row `r` at head coordinate `h`. -/
theorem newAcc_apply (S : FVec Ideal S1024x512 .f32) (V : FVec Ideal S512x64 .bf16) (m : Vec Ideal S1024x1 .f32)
    (acc : Vec Ideal S1024x64 .f32) (r : Fin 1024) (h : Fin 64) :
    newAcc S V m acc (ix2 r h)
      = Ideal.exp (m (ix2 r 0) - newMax S m (ix2 r 0)) * acc (ix2 r h)
        + ∑ c : Fin 512, Ideal.exp (S (ix2 r c) - newMax S m (ix2 r 0)) * V (ix2 c h) := by
  unfold newAcc
  refine (congrFun (shapeCast_self _ _) _).trans ?_
  refine (addf_apply _ _ _).trans ?_
  refine congrArg₂ (· + ·) ?_ ?_
  · refine (mulf_apply _ _ _).trans ?_
    exact congrArg (· * acc (ix2 r h)) (Cert.LibLayout3.broadcastTo_a1_ab_apply (rescale S m) _ r h)
  · refine (matmul_pv_apply _ V r h).trans ?_
    refine Finset.sum_congr rfl fun c _ => ?_
    exact congrArg (· * V (ix2 c h)) (terms_apply S m r c)

/-- One tile update, read at row `r`, is one step of the streaming softmax on that row's state. -/
theorem gen_step (S : FVec Ideal S1024x512 .f32) (V : FVec Ideal S512x64 .bf16) (m l : Vec Ideal S1024x1 .f32)
    (acc : Vec Ideal S1024x64 .f32) (r : Fin 1024) :
    rowSt (newMaxOut S m) (newSum S m l) (newAcc S V m acc) r
      = St.step (fun c : Fin 512 => S (ix2 r c)) (fun c h => V (ix2 c h)) (rowSt m l acc r) := by
  have hM : newMax S m (ix2 r 0)
      = max (rowSt m l acc r).m (Finset.univ.fold max ⊥ (fun c : Fin 512 => S (ix2 r c))) := newMax_apply S m r
  refine St_ext _ _ ?_ ?_ fun h => ?_
  · show newMaxOut S m (ix2 r 0) = _
    rw [St.step_m, ← hM]
    exact congrFun (shapeCast_self _ _) _
  · show newSum S m l (ix2 r 0) = _
    rw [St.step_l, ← hM]
    exact newSum_apply S m l r
  · show newAcc S V m acc (ix2 r h) = _
    rw [St.step_acc, ← hM]
    exact newAcc_apply S V m acc r h

/-! ## The update on a tile below the diagonal -/

/-- The value block with its unit axis dropped, at (c, h). -/
theorem value_apply (x2 : Vec Ideal S1x512x64 .bf16) (c : Fin 512) (h : Fin 64) :
    k1_pay4 (F := Ideal) x2 (ix2 c h) = x2 (ix3 0 c h) := by
  unfold k1_pay4
  exact shapeCast_1ab_ab_apply x2 _ c h

/-- On a tile wholly below the diagonal the three stored arrays hold, row by row, one step of the
    streaming softmax with the tile's scores and values. -/
theorem upd_plain (x0 : Vec Ideal S1x1024x64 .bf16) (x1 x2 : Vec Ideal S1x512x64 .bf16)
    (xs0 xs1 : Vec Ideal S1024x1 .f32) (xs2 : Vec Ideal S1024x64 .f32) (r : Fin 1024) :
    rowSt (k1_pay11 x0 x1 xs0) (k1_pay9 x0 x1 xs0 xs1) (k1_pay10 x0 x1 x2 xs0 xs2) r
      = St.step (fun c : Fin 512 => tileScore x0 x1 r c) (fun c h => x2 (ix3 0 c h)) (rowSt xs0 xs1 xs2 r) := by
  have e11 : k1_pay11 (F := Ideal) x0 x1 xs0 = newMaxOut (k1_pay5 x0 x1) xs0 := rfl
  have e9 : k1_pay9 (F := Ideal) x0 x1 xs0 xs1 = newSum (k1_pay5 x0 x1) xs0 xs1 := rfl
  have e10 : k1_pay10 (F := Ideal) x0 x1 x2 xs0 xs2 = newAcc (k1_pay5 x0 x1) (k1_pay4 x2) xs0 xs2 := rfl
  have hs : (fun c : Fin 512 => k1_pay5 (F := Ideal) x0 x1 (ix2 r c)) = fun c => tileScore x0 x1 r c :=
    funext fun c => score_apply x0 x1 r c
  have hv : (fun (c : Fin 512) (h : Fin 64) => k1_pay4 (F := Ideal) x2 (ix2 c h)) = fun c h => x2 (ix3 0 c h) :=
    funext fun c => funext fun h => value_apply x2 c h
  rw [e11, e9, e10]
  refine (gen_step (k1_pay5 x0 x1) (k1_pay4 x2) xs0 xs1 xs2 r).trans ?_
  rw [hs, hv]

/-! ## The update on a tile that crosses the diagonal -/

/-- A selection word that is `1` exactly when `P` holds selects as `if P` does. -/
theorem select_iff {α : Type} (w : BitVec 1) (P : Prop) [Decidable P] (hw : w = 1#1 ↔ P) (a b : α) :
    Scalar.select w a b = if P then a else b := by
  by_cases hP : P
  · rw [hw.2 hP, select_one, if_pos hP]
  · rw [eq_zero_of_ne_one (fun h => hP (hw.1 h)), select_zero, if_neg hP]

/-- The mask compares `512 * v1 + c` with `1024 * v3 + r` as signed 32-bit words; for a tile number
    `v1 < 8` and a row-block number `v3 < 4` neither side wraps, so the comparison is the one on the
    natural numbers. -/
theorem mask_iff (v1 v3 : BitVec 32) (h1 : v1.toNat < 8) (h3 : v3.toNat < 4) (r : Fin 1024) (c : Fin 512) :
    IntOp.cmpi .sle (IntOp.addi (IntOp.muli v1 512#32) (BitVec.ofNat 32 c.val))
        (IntOp.addi (IntOp.muli v3 1024#32) (BitVec.ofNat 32 r.val)) = 1#1
      ↔ 512 * v1.toNat + c.val ≤ 1024 * v3.toNat + r.val := by
  have hc := c.isLt
  have hr := r.isLt
  have ea : (v1 * 512#32 + BitVec.ofNat 32 c.val).toNat = 512 * v1.toNat + c.val := by
    simp only [BitVec.toNat_add, BitVec.toNat_mul, BitVec.toNat_ofNat]
    omega
  have eb : (v3 * 1024#32 + BitVec.ofNat 32 r.val).toNat = 1024 * v3.toNat + r.val := by
    simp only [BitVec.toNat_add, BitVec.toNat_mul, BitVec.toNat_ofNat]
    omega
  rw [IntOp.cmpi_sle]
  show (v1 * 512#32 + BitVec.ofNat 32 c.val).toInt ≤ (v3 * 1024#32 + BitVec.ofNat 32 r.val).toInt ↔ _
  rw [BitVec.toInt_eq_toNat_of_lt (by rw [ea]; omega), BitVec.toInt_eq_toNat_of_lt (by rw [eb]; omega), ea, eb]
  omega

/-- The constant the masked scores are replaced by is `⊥` at the exact values. -/
theorem neg_big_eq : Named.named (F := Ideal) κ "neg_big" (φ := .f32) 0xFF333332#32 = ⊥ :=
  IdealRules.named_const.ideal_named_scalar _ _ _ _ rfl

/-- The masked score array at (r, c): the score where the key position is not after the query
    position, `⊥` elsewhere. -/
theorem masked_apply (v1 v3 : BitVec 32) (h1 : v1.toNat < 8) (h3 : v3.toNat < 4) (S : FVec Ideal S1024x512 .f32)
    (r : Fin 1024) (c : Fin 512) :
    k1_pay13 (F := Ideal) v1 v3 S (ix2 r c)
      = if 512 * v1.toNat + c.val ≤ 1024 * v3.toNat + r.val then S (ix2 r c) else ⊥ := by
  unfold k1_pay13
  show Scalar.select
      (IntOp.cmpi .sle
        (IntOp.addi (IntOp.muli v1 512#32) (iota .tc S1024x512 32 [1] iota_S1024x512_d1_w32 (ix2 r c)))
        (IntOp.addi (IntOp.muli v3 1024#32) (iota .tc S1024x512 32 [0] iota_S1024x512_d0_w32 (ix2 r c))))
      (S (ix2 r c)) (Named.named (F := Ideal) κ "neg_big" (φ := .f32) 0xFF333332#32) = _
  rw [iota_single_apply, iota_single_apply, neg_big_eq]
  exact select_iff _ _ (mask_iff v1 v3 h1 h3 r c) _ _

/-- On a tile that crosses the diagonal the three stored arrays hold, row by row, one step of the
    streaming softmax with the masked scores. -/
theorem upd_masked (v1 v3 : BitVec 32) (h1 : v1.toNat < 8) (h3 : v3.toNat < 4)
    (x0 : Vec Ideal S1x1024x64 .bf16) (x1 x2 : Vec Ideal S1x512x64 .bf16)
    (xs0 xs1 : Vec Ideal S1024x1 .f32) (xs2 : Vec Ideal S1024x64 .f32) (r : Fin 1024) :
    rowSt (k1_pay19 (F := Ideal) v1 v3 (k1_pay5 x0 x1) xs0) (k1_pay17 v1 v3 (k1_pay5 x0 x1) xs0 xs1)
        (k1_pay18 v1 v3 (k1_pay4 x2) (k1_pay5 x0 x1) xs0 xs2) r
      = St.step
          (fun c : Fin 512 =>
            if 512 * v1.toNat + c.val ≤ 1024 * v3.toNat + r.val then tileScore x0 x1 r c else ⊥)
          (fun c h => x2 (ix3 0 c h)) (rowSt xs0 xs1 xs2 r) := by
  have e19 : k1_pay19 (F := Ideal) v1 v3 (k1_pay5 x0 x1) xs0
      = newMaxOut (k1_pay13 v1 v3 (k1_pay5 x0 x1)) xs0 := rfl
  have e17 : k1_pay17 (F := Ideal) v1 v3 (k1_pay5 x0 x1) xs0 xs1
      = newSum (k1_pay13 v1 v3 (k1_pay5 x0 x1)) xs0 xs1 := rfl
  have e18 : k1_pay18 (F := Ideal) v1 v3 (k1_pay4 x2) (k1_pay5 x0 x1) xs0 xs2
      = newAcc (k1_pay13 v1 v3 (k1_pay5 x0 x1)) (k1_pay4 x2) xs0 xs2 := rfl
  have hs : (fun c : Fin 512 => k1_pay13 (F := Ideal) v1 v3 (k1_pay5 x0 x1) (ix2 r c))
      = fun c => if 512 * v1.toNat + c.val ≤ 1024 * v3.toNat + r.val then tileScore x0 x1 r c else ⊥ :=
    funext fun c => (masked_apply v1 v3 h1 h3 (k1_pay5 x0 x1) r c).trans (by rw [score_apply])
  have hv : (fun (c : Fin 512) (h : Fin 64) => k1_pay4 (F := Ideal) x2 (ix2 c h)) = fun c h => x2 (ix3 0 c h) :=
    funext fun c => funext fun h => value_apply x2 c h
  rw [e19, e17, e18]
  refine (gen_step (k1_pay13 v1 v3 (k1_pay5 x0 x1)) (k1_pay4 x2) xs0 xs1 xs2 r).trans ?_
  rw [hs, hv]

/-! ## The start of a row and the final quotient -/

/-- The three arrays a row's first tile starts from hold `(⊥, 0, 0)`. -/
theorem reset_init (r : Fin 1024) :
    rowSt (k1_pay1 (F := Ideal)) (k1_pay2 (F := Ideal)) (k1_pay3 (F := Ideal)) r = St.init := by
  refine St_ext _ _ ?_ ?_ fun h => ?_
  · show k1_pay1 (F := Ideal) (ix2 r 0) = ⊥
    unfold k1_pay1
    refine (congrFun (shapeCast_self _ _) _).trans ?_
    exact ofBits_negInf
  · show k1_pay2 (F := Ideal) (ix2 r 0) = 0
    unfold k1_pay2
    refine (congrFun (shapeCast_self _ _) _).trans ?_
    exact Ideal.ofBits_zero_f32
  · show k1_pay3 (F := Ideal) (ix2 r h) = 0
    unfold k1_pay3
    refine (congrFun (shapeCast_self _ _) _).trans ?_
    exact Ideal.ofBits_zero_f32

/-- The result block at (0, r, h): the weighted sum divided by the normaliser of its row. -/
theorem quot_apply (acc : Vec Ideal S1024x64 .f32) (l : Vec Ideal S1024x1 .f32) (r : Fin 1024) (h : Fin 64) :
    k1_pay12 (F := Ideal) acc l (ix3 0 r h) = Ideal.div (acc (ix2 r h)) (l (ix2 r 0)) := by
  unfold k1_pay12
  refine (shapeCast_ab_1ab_apply _ _ 0 r h).trans ?_
  refine (divf_apply _ _ _).trans ?_
  exact congrArg (Ideal.div (acc (ix2 r h))) (Cert.LibLayout3.broadcastTo_a1_ab_apply l _ r h)

end Cert.KernelIdeal.Att

end
-- ==== Proof.Reg1Geom.lean ====
import proofs.«175909_j62251255988572_2_alg».proof.Proof.Reg1
import Idealize.ShloMosaic.Lib.Pipeline.Value
import Idealize.ShloMosaic.Lib.ValueIdx

/-! The geometry of the attention region's grid. The grid has 4 × 20 points; point `t` is batch `t / 20` and
    position `s = t % 20` in the list of the 20 causally valid (query block, key tile) pairs, which the four tables
    hold: for query block `qi` the key tiles `0, …, 2 qi + 1` in order. What the body's tests say of those numbers,
    where each window's block sits in its array, and the output array once every query block's last tile has been
    written back. The facts about the table words are decided over the 80 points. -/

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix3 eq_ix3)
open Cert.KernelIdeal Cert.KernelIdeal.Gen

variable {F : FTy → Type} [FloatOps F] [Named F]

/-! ## The numbers at a grid point -/

/-- The query-block number and the key-tile number at position `n % 20` of the pair list. -/
def qiN (n : ℕ) : ℕ := (lit0 ⟨n % 20, Nat.mod_lt _ (by norm_num)⟩).toNat
def kiN (n : ℕ) : ℕ := (lit1 ⟨n % 20, Nat.mod_lt _ (by norm_num)⟩).toNat

theorem qiN_lt : ∀ s : Fin 20, qiN s.val < 4 := by decide
theorem kiN_lt : ∀ s : Fin 20, kiN s.val < 8 := by decide

theorem qiN_mod (n : ℕ) : qiN (n % 20) = qiN n := by unfold qiN; simp only [Nat.mod_mod]
theorem kiN_mod (n : ℕ) : kiN (n % 20) = kiN n := by unfold kiN; simp only [Nat.mod_mod]

theorem t_lt (t : Fin (cfgM (F := F)).N) : t.val < 80 := (N_M (F := F)) ▸ t.isLt

/-- The batch at grid point `t`. -/
def bOf (t : Fin (cfgM (F := F)).N) : Fin 4 := ⟨t.val / 20, by have := t_lt t; omega⟩
/-- The query-block number at grid point `t`. -/
def qiOf (t : Fin (cfgM (F := F)).N) : Fin 4 :=
  ⟨qiN t.val, by rw [← qiN_mod]; exact qiN_lt ⟨t.val % 20, Nat.mod_lt _ (by norm_num)⟩⟩
/-- The key-tile number at grid point `t`. -/
def kiOf (t : Fin (cfgM (F := F)).N) : Fin 8 :=
  ⟨kiN t.val, by rw [← kiN_mod]; exact kiN_lt ⟨t.val % 20, Nat.mod_lt _ (by norm_num)⟩⟩

theorem bOf_val (t : Fin (cfgM (F := F)).N) : (bOf t).val = t.val / 20 := rfl
theorem qiOf_val (t : Fin (cfgM (F := F)).N) : (qiOf t).val = qiN t.val := rfl
theorem kiOf_val (t : Fin (cfgM (F := F)).N) : (kiOf t).val = kiN t.val := rfl

/-- Within a query block the key tiles come in order: a tile that is not the first has the point before it in
    the same batch and query block, one tile earlier. -/
theorem prev_num : ∀ n : Fin 80, kiN n.val ≠ 0 →
    n.val ≠ 0 ∧ (n.val - 1) / 20 = n.val / 20 ∧ qiN (n.val - 1) = qiN n.val ∧ kiN (n.val - 1) + 1 = kiN n.val := by
  decide +kernel

/-- Tile `ki` of query block `qi` exists only for `ki ≤ 2 qi + 1`. -/
theorem ki_le_num : ∀ n : Fin 80, kiN n.val ≤ 2 * qiN n.val + 1 := by decide +kernel

/-- The query-block word at grid point `t`. -/
abbrev wQ (c : Dev nD) (t : Fin (cfgM (F := F)).N) : BitVec 32 := wd (F := F) c tbM1_0 (litTbl 0) (grid1.coords t)

/-! ## What the table words and the index maps say, decided over the grid -/

/-- At grid point `t`: the query-block and key-tile words are the numbers of the pair list; the first-tile test says
    the key-tile number is 0; a tile that does not cross the diagonal lies wholly at or before the query block's first
    row; the last-tile test says the key-tile number is `2 qi + 1`; the output window is written back exactly at the
    last tiles; and the four windows' blocks are at (batch, query block, 0), (batch, key tile, 0) twice, and
    (batch, query block, 0). -/
def GeomFacts (c : Dev nD) (t : Fin (cfgM (F := F)).N) : Prop :=
  (wQ (F := F) c t).toNat = qiN t.val
  ∧ (wF (F := F) c t).toNat = kiN t.val
  ∧ (condF (wF (F := F) c t) ↔ kiN t.val = 0)
  ∧ (¬condM (wM (F := F) c t) → 512 * kiN t.val + 511 ≤ 1024 * qiN t.val)
  ∧ (condL (wL (F := F) c t) → kiN t.val = 2 * qiN t.val + 1)
  ∧ (((cfgM (F := F)).win 3).flush t = true ↔ condL (wL (F := F) c t))
  ∧ (((cfgM (F := F)).win 0).index t (0 : Fin 3) = t.val / 20 ∧ ((cfgM (F := F)).win 0).index t (1 : Fin 3) = qiN t.val ∧ ((cfgM (F := F)).win 0).index t (2 : Fin 3) = 0)
  ∧ (((cfgM (F := F)).win 1).index t (0 : Fin 3) = t.val / 20 ∧ ((cfgM (F := F)).win 1).index t (1 : Fin 3) = kiN t.val ∧ ((cfgM (F := F)).win 1).index t (2 : Fin 3) = 0)
  ∧ (((cfgM (F := F)).win 2).index t (0 : Fin 3) = t.val / 20 ∧ ((cfgM (F := F)).win 2).index t (1 : Fin 3) = kiN t.val ∧ ((cfgM (F := F)).win 2).index t (2 : Fin 3) = 0)
  ∧ (((cfgM (F := F)).win 3).index t (0 : Fin 3) = t.val / 20 ∧ ((cfgM (F := F)).win 3).index t (1 : Fin 3) = qiN t.val ∧ ((cfgM (F := F)).win 3).index t (2 : Fin 3) = 0)

instance (c : Dev nD) (t : Fin (cfgM (F := F)).N) : Decidable (GeomFacts (F := F) c t) := by
  unfold GeomFacts; infer_instance

theorem geomFacts_ideal : ∀ (c : Dev nD) (t : Fin (cfgM (F := Ideal)).N), GeomFacts (F := Ideal) c t := by decide +kernel

/-- The facts speak of integer words and of the schedule only, so they hold at any float instance. -/
theorem geomFacts (c : Dev nD) (t : Fin (cfgM (F := F)).N) : GeomFacts (F := F) c t := geomFacts_ideal c t

/-- Every (batch, query block) has a last tile, where its output block is written back. -/
theorem last_onto_ideal : ∀ (b q : Fin 4), ∃ t : Fin (cfgM (F := Ideal)).N,
    ((cfgM (F := Ideal)).win 3).flush t = true ∧ t.val / 20 = b.val ∧ qiN t.val = q.val := by decide +kernel

theorem last_onto (b q : Fin 4) : ∃ t : Fin (cfgM (F := F)).N,
    ((cfgM (F := F)).win 3).flush t = true ∧ t.val / 20 = b.val ∧ qiN t.val = q.val := last_onto_ideal b q

/-! ## The facts by name -/

theorem wQ_toNat (c : Dev nD) (t : Fin (cfgM (F := F)).N) : (wQ (F := F) c t).toNat = (qiOf t).val := (geomFacts c t).1
theorem wF_toNat (c : Dev nD) (t : Fin (cfgM (F := F)).N) : (wF (F := F) c t).toNat = (kiOf t).val := (geomFacts c t).2.1

/-- The first-tile test holds exactly at key tile 0. -/
theorem first_ki (c : Dev nD) (t : Fin (cfgM (F := F)).N) : condF (wF (F := F) c t) ↔ (kiOf t).val = 0 :=
  (geomFacts c t).2.2.1

/-- Off a first tile, the point before is in the same batch and query block, one key tile earlier. -/
theorem prev_facts (c : Dev nD) (t : Fin (cfgM (F := F)).N) (hF : ¬condF (wF (F := F) c t)) :
    t.val ≠ 0 ∧ ∀ (t' : Fin (cfgM (F := F)).N), t'.val = t.val - 1 →
      bOf t' = bOf t ∧ qiOf t' = qiOf t ∧ (kiOf t').val + 1 = (kiOf t).val := by
  have hk : kiN t.val ≠ 0 := fun h => hF ((first_ki c t).2 h)
  obtain ⟨h0, hb, hq, hk'⟩ := prev_num ⟨t.val, t_lt t⟩ hk
  refine ⟨h0, fun t' ht' => ⟨Fin.ext ?_, Fin.ext ?_, ?_⟩⟩
  · show t'.val / 20 = t.val / 20
    rw [ht']; exact hb
  · show qiN t'.val = qiN t.val
    rw [ht']; exact hq
  · show kiN t'.val + 1 = kiN t.val
    rw [ht']; exact hk'

/-- A tile the mask test passes over lies wholly at or before the first row of its query block. -/
theorem nomask_le (c : Dev nD) (t : Fin (cfgM (F := F)).N) (hM : ¬condM (wM (F := F) c t)) :
    512 * (kiOf t).val + 511 ≤ 1024 * (qiOf t).val := (geomFacts c t).2.2.2.1 hM

/-- The last tile of query block `qi` is tile `2 qi + 1`. -/
theorem last_ki (c : Dev nD) (t : Fin (cfgM (F := F)).N) (hL : condL (wL (F := F) c t)) :
    (kiOf t).val = 2 * (qiOf t).val + 1 := (geomFacts c t).2.2.2.2.1 hL

/-- No tile lies beyond its query block's last. -/
theorem ki_le (t : Fin (cfgM (F := F)).N) : (kiOf t).val ≤ 2 * (qiOf t).val + 1 := ki_le_num ⟨t.val, t_lt t⟩

/-- The output window is written back exactly at the last tiles. -/
theorem flush3_iff (c : Dev nD) (t : Fin (cfgM (F := F)).N) :
    ((cfgM (F := F)).win 3).flush t = true ↔ condL (wL (F := F) c t) := (geomFacts c t).2.2.2.2.2.1

theorem index0 (c : Dev nD) (t : Fin (cfgM (F := F)).N) :
    ((cfgM (F := F)).win 0).index t (0 : Fin 3) = t.val / 20 ∧ ((cfgM (F := F)).win 0).index t (1 : Fin 3) = qiN t.val
      ∧ ((cfgM (F := F)).win 0).index t (2 : Fin 3) = 0 := (geomFacts c t).2.2.2.2.2.2.1
theorem index1 (c : Dev nD) (t : Fin (cfgM (F := F)).N) :
    ((cfgM (F := F)).win 1).index t (0 : Fin 3) = t.val / 20 ∧ ((cfgM (F := F)).win 1).index t (1 : Fin 3) = kiN t.val
      ∧ ((cfgM (F := F)).win 1).index t (2 : Fin 3) = 0 := (geomFacts c t).2.2.2.2.2.2.2.1
theorem index2 (c : Dev nD) (t : Fin (cfgM (F := F)).N) :
    ((cfgM (F := F)).win 2).index t (0 : Fin 3) = t.val / 20 ∧ ((cfgM (F := F)).win 2).index t (1 : Fin 3) = kiN t.val
      ∧ ((cfgM (F := F)).win 2).index t (2 : Fin 3) = 0 := (geomFacts c t).2.2.2.2.2.2.2.2.1
theorem index3 (c : Dev nD) (t : Fin (cfgM (F := F)).N) :
    ((cfgM (F := F)).win 3).index t (0 : Fin 3) = t.val / 20 ∧ ((cfgM (F := F)).win 3).index t (1 : Fin 3) = qiN t.val
      ∧ ((cfgM (F := F)).win 3).index t (2 : Fin 3) = 0 := (geomFacts c t).2.2.2.2.2.2.2.2.2

/-! ## The blocks read at coordinates -/

variable (V : (c : Dev nD) → (b : Ref sig .tc) → Buf (Elt F) ((c : Thread nD τ).loc b))

/-- Row `r` of the query block at `t` is row `1024 qi + r` of batch `b` of the query array. -/
theorem blk0 (c : Dev nD) (t : Fin (cfgM (F := F)).N) (r : Fin 1024) (h : Fin 64) :
    iblk1 V c 0 t (ix3 0 r h)
      = V c main_v2 (ix3 (bOf t) ⟨1024 * (qiOf t).val + r.val, by have := (qiOf t).isLt; have := r.isLt; omega⟩ h) := by
  obtain ⟨e0, e1, e2⟩ := index0 (F := F) c t
  unfold iblk1
  show V c main_v2 ((((cfgM (F := F)).win 0).blk t).view.emb (ix3 0 r h)) = _
  refine congrArg (V c main_v2) (funext fun a => Fin.ext ?_)
  match a with
  | ⟨0, _⟩ =>
    show ((cfgM (F := F)).win 0).index t (0 : Fin 3) * 1 + 1 * 0 = t.val / 20
    omega
  | ⟨1, _⟩ =>
    show ((cfgM (F := F)).win 0).index t (1 : Fin 3) * 1024 + 1 * r.val = 1024 * qiN t.val + r.val
    omega
  | ⟨2, _⟩ =>
    show ((cfgM (F := F)).win 0).index t (2 : Fin 3) * 64 + 1 * h.val = h.val
    omega

/-- Column `cc` of the key tile at `t` is row `512 ki + cc` of batch `b` of the key array. -/
theorem blk1 (c : Dev nD) (t : Fin (cfgM (F := F)).N) (cc : Fin 512) (h : Fin 64) :
    iblk1 V c 1 t (ix3 0 cc h)
      = V c main_v3 (ix3 (bOf t) ⟨512 * (kiOf t).val + cc.val, by have := (kiOf t).isLt; have := cc.isLt; omega⟩ h) := by
  obtain ⟨e0, e1, e2⟩ := index1 (F := F) c t
  unfold iblk1
  show V c main_v3 ((((cfgM (F := F)).win 1).blk t).view.emb (ix3 0 cc h)) = _
  refine congrArg (V c main_v3) (funext fun a => Fin.ext ?_)
  match a with
  | ⟨0, _⟩ =>
    show ((cfgM (F := F)).win 1).index t (0 : Fin 3) * 1 + 1 * 0 = t.val / 20
    omega
  | ⟨1, _⟩ =>
    show ((cfgM (F := F)).win 1).index t (1 : Fin 3) * 512 + 1 * cc.val = 512 * kiN t.val + cc.val
    omega
  | ⟨2, _⟩ =>
    show ((cfgM (F := F)).win 1).index t (2 : Fin 3) * 64 + 1 * h.val = h.val
    omega

/-- The same of the value tile. -/
theorem blk2 (c : Dev nD) (t : Fin (cfgM (F := F)).N) (cc : Fin 512) (h : Fin 64) :
    iblk1 V c 2 t (ix3 0 cc h)
      = V c main_v4 (ix3 (bOf t) ⟨512 * (kiOf t).val + cc.val, by have := (kiOf t).isLt; have := cc.isLt; omega⟩ h) := by
  obtain ⟨e0, e1, e2⟩ := index2 (F := F) c t
  unfold iblk1
  show V c main_v4 ((((cfgM (F := F)).win 2).blk t).view.emb (ix3 0 cc h)) = _
  refine congrArg (V c main_v4) (funext fun a => Fin.ext ?_)
  match a with
  | ⟨0, _⟩ =>
    show ((cfgM (F := F)).win 2).index t (0 : Fin 3) * 1 + 1 * 0 = t.val / 20
    omega
  | ⟨1, _⟩ =>
    show ((cfgM (F := F)).win 2).index t (1 : Fin 3) * 512 + 1 * cc.val = 512 * kiN t.val + cc.val
    omega
  | ⟨2, _⟩ =>
    show ((cfgM (F := F)).win 2).index t (2 : Fin 3) * 64 + 1 * h.val = h.val
    omega

/-! ## The output array after the run -/

set_option backward.isDefEq.respectTransparency.types false in
/-- An index of the output array is in point `t`'s block iff each coordinate is in the block's range on its axis. -/
theorem mem_blk3 (t : Fin (cfgM (F := F)).N) (i : S4x4096x64.Idx) :
    i ∈ (((cfgM (F := F)).win 3).blk t).view.set
      ↔ ∀ a : Fin 3, ((cfgM (F := F)).win 3).index t a * S1x1024x64.size a ≤ (i a).val
          ∧ (i a).val < ((cfgM (F := F)).win 3).index t a * S1x1024x64.size a + S1x1024x64.size a := by
  show i ∈ ((View.whole main_v5).slice (((cfgM (F := F)).win 3).rect t)).set ↔ _
  rw [View.set_slice_whole]
  exact Rect.mem_set_unit

/-- Every query block's output rows are written back once, at its last tile, and the 16 blocks tile the array: if
    what each last tile leaves in the output block is the block of one function `G` of the array's index, the array
    ends holding `G`. -/
theorem arr3_final (c : Dev nD) (G : S4x4096x64.Idx → Elt F .f32)
    (hG : ∀ t : Fin (cfgM (F := F)).N, condL (wL (F := F) c t) → ∀ (r : Fin 1024) (h : Fin 64),
      (outsAt1 V c t.val t.isLt).1 (ix3 0 r h)
        = G (ix3 (bOf t) ⟨1024 * (qiOf t).val + r.val, by have := (qiOf t).isLt; have := r.isLt; omega⟩ h)) :
    (dat1 V c).arrAt 3 (cfgM (F := F)).N = G := by
  refine (dat1 V c).arrAt_eq_of_cover 3 G (fun t hf => ?_) (fun (i : S4x4096x64.Idx) => ?_)
  · have hL := (flush3_iff c t).1 hf
    obtain ⟨e0, e1, e2⟩ := index3 (F := F) c t
    refine funext fun (y : (⟨3, ![1, 1024, 64]⟩ : Shape).Idx) => ?_
    obtain ⟨z, r, h, rfl⟩ : ∃ (z : Fin 1) (r : Fin 1024) (h : Fin 64), y = ix3 z r h := ⟨y 0, y 1, y 2, eq_ix3 y⟩
    obtain rfl : z = 0 := Subsingleton.elim _ _
    show (outsAt1 V c t.val t.isLt).1 (ix3 0 r h) = G ((((cfgM (F := F)).win 3).blk t).view.emb (ix3 0 r h))
    rw [hG t hL r h]
    refine congrArg G (funext fun a => Fin.ext ?_)
    match a with
    | ⟨0, _⟩ =>
      show t.val / 20 = ((cfgM (F := F)).win 3).index t (0 : Fin 3) * 1 + 1 * 0
      omega
    | ⟨1, _⟩ =>
      show 1024 * qiN t.val + r.val = ((cfgM (F := F)).win 3).index t (1 : Fin 3) * 1024 + 1 * r.val
      omega
    | ⟨2, _⟩ =>
      show h.val = ((cfgM (F := F)).win 3).index t (2 : Fin 3) * 64 + 1 * h.val
      omega
  · have h0 : (i 0).val < 4 := (i 0).isLt
    have h1 : (i 1).val < 4096 := (i 1).isLt
    have h2 : (i 2).val < 64 := (i 2).isLt
    obtain ⟨t, hf, hb, hq⟩ := last_onto (F := F) ⟨(i 0).val, h0⟩ ⟨(i 1).val / 1024, by omega⟩
    obtain ⟨e0, e1, e2⟩ := index3 (F := F) c t
    refine ⟨t, hf, (mem_blk3 t i).2 fun a => ?_⟩
    match a with
    | ⟨0, _⟩ =>
      show ((cfgM (F := F)).win 3).index t (0 : Fin 3) * 1 ≤ (i 0).val
        ∧ (i 0).val < ((cfgM (F := F)).win 3).index t (0 : Fin 3) * 1 + 1
      simp only at hb; omega
    | ⟨1, _⟩ =>
      show ((cfgM (F := F)).win 3).index t (1 : Fin 3) * 1024 ≤ (i 1).val
        ∧ (i 1).val < ((cfgM (F := F)).win 3).index t (1 : Fin 3) * 1024 + 1024
      simp only at hq; omega
    | ⟨2, _⟩ =>
      show ((cfgM (F := F)).win 3).index t (2 : Fin 3) * 64 ≤ (i 2).val
        ∧ (i 2).val < ((cfgM (F := F)).win 3).index t (2 : Fin 3) * 64 + 64
      omega

end Cert.KernelIdeal.Att

end
-- ==== Proof.Spec.lean ====
import Idealize.ShloMosaic.PureOps.Ideal
import Idealize.ShloMosaic.Lib.ValueIdx

/-!
# Causal single-head attention, as one function of the four argument arrays

For a batch `b`, a query position `t` and a head coordinate `h`:
the three projections are `q = x · Wq`, `k = x · Wk`, `v = x · Wv` (contracting the embedding
axis), the score of key position `u` is `(∑ h, q[b,t,h] * k[b,u,h]) * 2⁻⁵`, masked to `⊥` for
`u > t`; the row's softmax is taken against the row maximum `M` and normalised by
`L = ∑ u, exp (score u - M)`, and the result is `∑ u, (exp (score u - M) / L) * v[b,u,h]`.
Everything is an extended real with the exact operations. The scale `2⁻⁵` is kept as the float
word `0x3D000000`, the same word on both sides.
-/

noncomputable section

namespace Cert.Att.Spec

open Idealize.ShloMosaic Idealize.ShloMosaic.ValueIdx
open scoped BigOperators

/-- The shapes of the input `x`, of a weight matrix, and of the result. -/
abbrev SX : Shape := ⟨3, ![4, 4096, 1024]⟩
abbrev SW : Shape := ⟨2, ![1024, 64]⟩
abbrev SO : Shape := ⟨3, ![4, 4096, 64]⟩

/-- One projection: `(x · w)[b, t, h] = ∑ c, x[b, t, c] * w[c, h]`. -/
def proj (x : SX.Idx → EReal) (w : SW.Idx → EReal) (b : Fin 4) (t : Fin 4096) (h : Fin 64) : EReal :=
  ∑ c : Fin 1024, x (ix3 b t c) * w (ix2 c h)

/-- The scaled score of key position `u` for query position `t`. -/
def score (x : SX.Idx → EReal) (wq wk : SW.Idx → EReal) (b : Fin 4) (t u : Fin 4096) : EReal :=
  (∑ h : Fin 64, proj x wq b t h * proj x wk b u h) * Ideal.ofBits .f32 0x3D000000#32

/-- The causal mask: a key position after the query position scores `⊥`. -/
def masked (x : SX.Idx → EReal) (wq wk : SW.Idx → EReal) (b : Fin 4) (t u : Fin 4096) : EReal :=
  if u.val ≤ t.val then score x wq wk b t u else ⊥

/-- The row maximum. -/
def rowMax (x : SX.Idx → EReal) (wq wk : SW.Idx → EReal) (b : Fin 4) (t : Fin 4096) : EReal :=
  Finset.univ.fold max ⊥ (fun u : Fin 4096 => masked x wq wk b t u)

/-- The row normaliser. -/
def rowSum (x : SX.Idx → EReal) (wq wk : SW.Idx → EReal) (b : Fin 4) (t : Fin 4096) : EReal :=
  ∑ u : Fin 4096, Ideal.exp (masked x wq wk b t u - rowMax x wq wk b t)

/-- The attention output at `(b, t, h)`. -/
def attnAt (x : SX.Idx → EReal) (wq wk wv : SW.Idx → EReal) (b : Fin 4) (t : Fin 4096) (h : Fin 64) : EReal :=
  ∑ u : Fin 4096,
    Ideal.div (Ideal.exp (masked x wq wk b t u - rowMax x wq wk b t)) (rowSum x wq wk b t) * proj x wv b u h

/-- The attention output as an array. -/
def attn (x : SX.Idx → EReal) (wq wk wv : SW.Idx → EReal) : SO.Idx → EReal :=
  fun i => attnAt x wq wk wv (i 0) (i 1) (i 2)

theorem attn_ix3 (x : SX.Idx → EReal) (wq wk wv : SW.Idx → EReal) (b : Fin 4) (t : Fin 4096) (h : Fin 64) :
    attn x wq wk wv (ix3 b t h) = attnAt x wq wk wv b t h := rfl

end Cert.Att.Spec

end
-- ==== Proof.Tiles.lean ====
import proofs.«175909_j62251255988572_2_alg».proof.Proof.LibOnlineSoftmax
import proofs.«175909_j62251255988572_2_alg».proof.Proof.Spec

/-!
# One query row, cut in tiles of 512 key columns

A row of 4096 key columns is visited tile by tile, tile `k` holding the columns `512 k, …, 512 k + 511`.
A query row whose block ends at tile `n` (`n < 8`) visits the tiles `0, …, n`; every column of a later tile
is masked (score `⊥`). Then the maximum, the normaliser and the weighted sum over the visited tiles are the
maximum, the normaliser and the weighted sum over all 4096 columns: a masked column does not raise a maximum,
has `exp ⊥ = 0` in the normaliser, and weight `0 / L = 0` (for `L ≠ 0`) in the weighted sum. The columns
below `512 (n + 1)` correspond one to one to the pairs (tile `k ≤ n`, column `c < 512`) by
`u = 512 k + c`, `k = u / 512`, `c = u % 512`. With the streaming softmax's closed form this gives the
streamed result of the row as the plain softmax-weighted sum over the 4096 columns.
-/

noncomputable section

namespace Cert.Att.Tiles

open Idealize.ShloMosaic Cert.LibOnlineSoftmax
open scoped BigOperators

/-- Column `c` of tile `k` as a key position (reduced modulo 4096, so that it is total in `k`). -/
def tcol (k : ℕ) (c : Fin 512) : Fin 4096 := ⟨(512 * k + c.val) % 4096, Nat.mod_lt _ (by norm_num)⟩

/-- For one of the eight tiles the reduction does nothing. -/
theorem tcol_val (k : ℕ) (hk : k < 8) (c : Fin 512) : (tcol k c).val = 512 * k + c.val := by
  show (512 * k + c.val) % 4096 = _
  have := c.isLt
  exact Nat.mod_eq_of_lt (by omega)

/-- A key position is column `u % 512` of tile `u / 512`. -/
theorem tcol_div_mod (u : Fin 4096) : tcol (u.val / 512) ⟨u.val % 512, Nat.mod_lt _ (by norm_num)⟩ = u := by
  apply Fin.ext
  show (512 * (u.val / 512) + u.val % 512) % 4096 = u.val
  have := u.isLt
  omega

/-- A sum over the 4096 columns of terms that vanish from column `512 (n + 1)` on is the double sum over the
    tiles `k ≤ n` and their columns. -/
theorem sum_tiles {M : Type*} [AddCommMonoid M] (n : ℕ) (hn : n < 8) (f : Fin 4096 → M)
    (hf : ∀ u : Fin 4096, 512 * (n + 1) ≤ u.val → f u = 0) :
    ∑ u, f u = ∑ k ∈ Finset.range (n + 1), ∑ c : Fin 512, f (tcol k c) := by
  rw [← Finset.sum_product' (Finset.range (n + 1)) Finset.univ (fun k c => f (tcol k c))]
  have hsub : ∑ u, f u = ∑ u ∈ Finset.univ.filter (fun u : Fin 4096 => u.val < 512 * (n + 1)), f u := by
    refine (Finset.sum_subset (Finset.subset_univ _) (fun u _ hu => hf u ?_)).symm
    have : ¬ u.val < 512 * (n + 1) := fun h => hu (Finset.mem_filter.2 ⟨Finset.mem_univ u, h⟩)
    omega
  rw [hsub]
  refine (Finset.sum_nbij' (fun p : ℕ × Fin 512 => tcol p.1 p.2)
    (fun u : Fin 4096 => (u.val / 512, (⟨u.val % 512, Nat.mod_lt _ (by norm_num)⟩ : Fin 512))) ?_ ?_ ?_ ?_ ?_).symm
  · intro p hp
    have hk : p.1 < n + 1 := Finset.mem_range.1 (Finset.mem_product.1 hp).1
    have hc := p.2.isLt
    refine Finset.mem_filter.2 ⟨Finset.mem_univ _, ?_⟩
    rw [tcol_val p.1 (by omega) p.2]
    omega
  · intro u hu
    have hlt : u.val < 512 * (n + 1) := (Finset.mem_filter.1 hu).2
    exact Finset.mem_product.2 ⟨Finset.mem_range.2 (by omega), Finset.mem_univ _⟩
  · intro p hp
    have hk : p.1 < n + 1 := Finset.mem_range.1 (Finset.mem_product.1 hp).1
    have hc := p.2.isLt
    have hv := tcol_val p.1 (by omega) p.2
    refine Prod.ext ?_ (Fin.ext ?_)
    · show (tcol p.1 p.2).val / 512 = p.1
      omega
    · show (tcol p.1 p.2).val % 512 = p.2.val
      omega
  · intro u _
    exact tcol_div_mod u
  · intro p _
    rfl

/-- The maximum over the 4096 columns, the columns from `512 (n + 1)` on being masked, is the maximum over the
    tiles `k ≤ n` of the tiles' maxima. -/
theorem max_tiles (n : ℕ) (hn : n < 8) (s : Fin 4096 → EReal)
    (hmask : ∀ u : Fin 4096, 512 * (n + 1) ≤ u.val → s u = ⊥) :
    Finset.univ.fold max ⊥ s
      = (Finset.range (n + 1)).fold max ⊥ (fun k => Finset.univ.fold max ⊥ (fun c : Fin 512 => s (tcol k c))) := by
  apply le_antisymm
  · refine (Finset.fold_max_le _).2 ⟨bot_le, fun u _ => ?_⟩
    by_cases hu : u.val < 512 * (n + 1)
    · refine (Finset.le_fold_max _).2 (Or.inr ⟨u.val / 512, Finset.mem_range.2 (by omega), ?_⟩)
      refine (Finset.le_fold_max _).2
        (Or.inr ⟨⟨u.val % 512, Nat.mod_lt _ (by norm_num)⟩, Finset.mem_univ _, ?_⟩)
      exact le_of_eq (congrArg s (tcol_div_mod u).symm)
    · rw [hmask u (by omega)]; exact bot_le
  · refine (Finset.fold_max_le _).2 ⟨bot_le, fun k _ => (Finset.fold_max_le _).2 ⟨bot_le, fun c _ => ?_⟩⟩
    exact (Finset.le_fold_max _).2 (Or.inr ⟨tcol k c, Finset.mem_univ _, le_rfl⟩)

/-- **The streamed row is the plain softmax row.** Fold the tiles `0, …, n` of a row whose columns from
    `512 (n + 1)` on are masked into the streaming state; the quotient of the weighted sum by the normaliser is
    the softmax-weighted sum of the values over all 4096 columns, the softmax taken against the maximum of all
    4096 scores. Scores are real or `⊥`, values are real, and column `0` is not masked. -/
theorem row_online_eq {H : Type*} (n : ℕ) (hn : n < 8) (s : Fin 4096 → EReal) (w : Fin 4096 → H → EReal)
    (hmask : ∀ u : Fin 4096, 512 * (n + 1) ≤ u.val → s u = ⊥) (hs : ∀ u, s u ≠ ⊤)
    (h0 : s ⟨0, by norm_num⟩ ≠ ⊥) (hw : ∀ u h, w u h ≠ ⊤ ∧ w u h ≠ ⊥) (h : H) :
    Ideal.div ((St.run (fun k c => s (tcol k c)) (fun k c h => w (tcol k c) h) (n + 1)).acc h)
        (St.run (fun k c => s (tcol k c)) (fun k c h => w (tcol k c) h) (n + 1)).l
      = ∑ u : Fin 4096, Ideal.div (Ideal.exp (s u - Finset.univ.fold max ⊥ s))
          (∑ u', Ideal.exp (s u' - Finset.univ.fold max ⊥ s)) * w u h := by
  have hs' : ∀ k ≤ n, ∀ c : Fin 512, (fun k c => s (tcol k c)) k c ≠ ⊤ := fun k _ c => hs (tcol k c)
  have hw' : ∀ k ≤ n, ∀ (c : Fin 512) (h : H),
      (fun k c h => w (tcol k c) h) k c h ≠ ⊤ ∧ (fun k c h => w (tcol k c) h) k c h ≠ ⊥ :=
    fun k _ c h => hw (tcol k c) h
  have h0' : ∃ c : Fin 512, (fun k c => s (tcol k c)) 0 c ≠ ⊥ := by
    refine ⟨⟨0, by norm_num⟩, ?_⟩
    have e : tcol 0 ⟨0, by norm_num⟩ = (⟨0, by norm_num⟩ : Fin 4096) := Fin.ext (by show (512 * 0 + 0) % 4096 = 0; norm_num)
    show s (tcol 0 ⟨0, _⟩) ≠ ⊥
    rw [e]; exact h0
  rw [run_div_eq_softmax n _ _ hs' hw' h0' h, max_tiles n hn s hmask]
  obtain ⟨L, hLpos, hL⟩ := runSum_real_pos n _ hs' h0'
  generalize (Finset.range (n + 1)).fold max ⊥
    (fun k => Finset.univ.fold max ⊥ (fun c : Fin 512 => s (tcol k c))) = M at hL ⊢
  have hsum : ∑ u', Ideal.exp (s u' - M)
      = ∑ k ∈ Finset.range (n + 1), ∑ c : Fin 512, Ideal.exp (s (tcol k c) - M) :=
    sum_tiles n hn _ (fun u hu => by rw [hmask u hu, EReal.bot_sub, Ideal.exp_bot])
  rw [hsum]
  have hLne : (∑ k ∈ Finset.range (n + 1), ∑ c : Fin 512, Ideal.exp (s (tcol k c) - M)) ≠ 0 := by
    rw [hL]; exact EReal.coe_ne_zero.2 hLpos.ne'
  exact (sum_tiles n hn
    (fun u => Ideal.div (Ideal.exp (s u - M))
      (∑ k ∈ Finset.range (n + 1), ∑ c : Fin 512, Ideal.exp (s (tcol k c) - M)) * w u h)
    (fun u hu => by
      show Ideal.div (Ideal.exp (s u - M)) _ * w u h = 0
      rw [hmask u hu, EReal.bot_sub, Ideal.exp_bot, Ideal.div, if_neg hLne, zero_mul, zero_mul])).symm

end Cert.Att.Tiles

end
-- ==== Proof.Finite.lean ====
import proofs.«175909_j62251255988572_2_alg».proof.Proof.Spec
import proofs.«175909_j62251255988572_2_alg».proof.Proof.Tiles
import proofs.«175909_j62251255988572_2_alg».proof.Proof.LibOnlineSoftmax

/-!
# Real inputs give real projections and scores; the streamed row is the specification's row

A value is *real* when it is neither `⊤` nor `⊥`. A finite sum of products of reals is real, so with real
inputs every projection is real, and every score (a sum of 64 products, times the real `2⁻⁵`) is real. A masked
score is then a real or `⊥`: it is `⊥` exactly for key positions after the query position, and key position
`0` is never masked.

A query row `t` that lies below column `512 (n + 1)` has all the columns of the tiles after `n` masked, so the
streaming softmax over the tiles `0, …, n` gives the specification's attention output at that row. For query
block `qi` of 1024 rows the last visited tile is `n = 2 qi + 1`, and `512 (n + 1) = 1024 (qi + 1)` exceeds
every row of the block.
-/

noncomputable section

namespace Cert.Att.Fin

open Idealize.ShloMosaic Idealize.ShloMosaic.ValueIdx Cert.LibOnlineSoftmax Cert.Att.Tiles
open scoped BigOperators

/-! ## Sums of products of reals -/

/-- The coercion of a real number is real. -/
theorem coe_real (r : ℝ) : (r : EReal) ≠ ⊤ ∧ (r : EReal) ≠ ⊥ := ⟨EReal.coe_ne_top r, EReal.coe_ne_bot r⟩

/-- A finite sum of products of reals is the coercion of the real sum of products. -/
theorem sum_mul_coe {ι : Type*} (S : Finset ι) (f g : ι → EReal) (hf : ∀ i, f i ≠ ⊤ ∧ f i ≠ ⊥)
    (hg : ∀ i, g i ≠ ⊤ ∧ g i ≠ ⊥) :
    ∑ i ∈ S, f i * g i = ((∑ i ∈ S, (f i).toReal * (g i).toReal : ℝ) : EReal) := by
  rw [coe_sum]
  refine Finset.sum_congr rfl fun i _ => ?_
  rw [EReal.coe_mul, EReal.coe_toReal (hf i).1 (hf i).2, EReal.coe_toReal (hg i).1 (hg i).2]

/-- The float word `0x3D000000` is the real `1/32`. -/
theorem scale_bits : Ideal.ofBits .f32 0x3D000000#32 = ((1 / 32 : ℝ) : EReal) := by
  simp [Ideal.ofBits, Ideal.ieee, -EReal.coe_mul]; norm_num

/-! ## Projections and scores -/

theorem proj_real (x : Spec.SX.Idx → EReal) (w : Spec.SW.Idx → EReal) (hx : ∀ i, x i ≠ ⊤ ∧ x i ≠ ⊥)
    (hw : ∀ i, w i ≠ ⊤ ∧ w i ≠ ⊥) (b : Fin 4) (t : Fin 4096) (h : Fin 64) :
    Spec.proj x w b t h ≠ ⊤ ∧ Spec.proj x w b t h ≠ ⊥ := by
  unfold Spec.proj
  rw [sum_mul_coe Finset.univ (fun c : Fin 1024 => x (ix3 b t c)) (fun c : Fin 1024 => w (ix2 c h))
    (fun c => hx _) (fun c => hw _)]
  exact coe_real _

theorem score_real (x : Spec.SX.Idx → EReal) (wq wk : Spec.SW.Idx → EReal) (hx : ∀ i, x i ≠ ⊤ ∧ x i ≠ ⊥)
    (hq : ∀ i, wq i ≠ ⊤ ∧ wq i ≠ ⊥) (hk : ∀ i, wk i ≠ ⊤ ∧ wk i ≠ ⊥) (b : Fin 4) (t u : Fin 4096) :
    Spec.score x wq wk b t u ≠ ⊤ ∧ Spec.score x wq wk b t u ≠ ⊥ := by
  unfold Spec.score
  rw [sum_mul_coe Finset.univ (fun h : Fin 64 => Spec.proj x wq b t h) (fun h : Fin 64 => Spec.proj x wk b u h)
    (fun h => proj_real x wq hx hq b t h) (fun h => proj_real x wk hx hk b u h), scale_bits, ← EReal.coe_mul]
  exact coe_real _

theorem masked_le (x : Spec.SX.Idx → EReal) (wq wk : Spec.SW.Idx → EReal) (b : Fin 4) (t u : Fin 4096)
    (hu : u.val ≤ t.val) : Spec.masked x wq wk b t u = Spec.score x wq wk b t u := by
  unfold Spec.masked; rw [if_pos hu]

theorem masked_beyond (x : Spec.SX.Idx → EReal) (wq wk : Spec.SW.Idx → EReal) (b : Fin 4) (t u : Fin 4096)
    (hu : t.val < u.val) : Spec.masked x wq wk b t u = ⊥ := by
  unfold Spec.masked; rw [if_neg (by omega)]

theorem masked_ne_top (x : Spec.SX.Idx → EReal) (wq wk : Spec.SW.Idx → EReal) (hx : ∀ i, x i ≠ ⊤ ∧ x i ≠ ⊥)
    (hq : ∀ i, wq i ≠ ⊤ ∧ wq i ≠ ⊥) (hk : ∀ i, wk i ≠ ⊤ ∧ wk i ≠ ⊥) (b : Fin 4) (t u : Fin 4096) :
    Spec.masked x wq wk b t u ≠ ⊤ := by
  unfold Spec.masked
  by_cases hu : u.val ≤ t.val
  · rw [if_pos hu]; exact (score_real x wq wk hx hq hk b t u).1
  · rw [if_neg hu]; exact bot_ne_top

theorem masked_zero (x : Spec.SX.Idx → EReal) (wq wk : Spec.SW.Idx → EReal) (hx : ∀ i, x i ≠ ⊤ ∧ x i ≠ ⊥)
    (hq : ∀ i, wq i ≠ ⊤ ∧ wq i ≠ ⊥) (hk : ∀ i, wk i ≠ ⊤ ∧ wk i ≠ ⊥) (b : Fin 4) (t : Fin 4096) :
    Spec.masked x wq wk b t ⟨0, by norm_num⟩ ≠ ⊥ := by
  rw [masked_le x wq wk b t ⟨0, by norm_num⟩ (Nat.zero_le _)]
  exact (score_real x wq wk hx hq hk b t _).2

/-! ## The streamed row is the specification's row -/

/-- A query row `t` below column `512 (n + 1)`: the streaming softmax over the tiles `0, …, n` of the row's
    masked scores and the value projections is the attention output at `(b, t, h)`. -/
theorem attn_online_of_lt (x : Spec.SX.Idx → EReal) (wq wk wv : Spec.SW.Idx → EReal)
    (hx : ∀ i, x i ≠ ⊤ ∧ x i ≠ ⊥) (hq : ∀ i, wq i ≠ ⊤ ∧ wq i ≠ ⊥) (hk : ∀ i, wk i ≠ ⊤ ∧ wk i ≠ ⊥)
    (hv : ∀ i, wv i ≠ ⊤ ∧ wv i ≠ ⊥) (b : Fin 4) (t : Fin 4096) (n : ℕ) (hn : n < 8)
    (ht : t.val < 512 * (n + 1)) (h : Fin 64) :
    Ideal.div
        ((St.run (fun k c => Spec.masked x wq wk b t (tcol k c))
          (fun k c h => Spec.proj x wv b (tcol k c) h) (n + 1)).acc h)
        (St.run (fun k c => Spec.masked x wq wk b t (tcol k c))
          (fun k c h => Spec.proj x wv b (tcol k c) h) (n + 1)).l
      = Spec.attnAt x wq wk wv b t h := by
  have e := row_online_eq (H := Fin 64) n hn (fun u => Spec.masked x wq wk b t u)
    (fun u h => Spec.proj x wv b u h)
    (fun u hu => masked_beyond x wq wk b t u (by omega))
    (fun u => masked_ne_top x wq wk hx hq hk b t u)
    (masked_zero x wq wk hx hq hk b t)
    (fun u h => proj_real x wv hx hv b u h) h
  unfold Spec.attnAt Spec.rowSum Spec.rowMax
  exact e

/-- Row `r` of query block `qi` as a query position. -/
def qrow (qi : Fin 4) (r : Fin 1024) : Fin 4096 :=
  ⟨1024 * qi.val + r.val, by have := qi.isLt; have := r.isLt; omega⟩

theorem qrow_val (qi : Fin 4) (r : Fin 1024) : (qrow qi r).val = 1024 * qi.val + r.val := rfl

/-- Query block `qi` visits the tiles `0, …, 2 qi + 1`: their streaming softmax is the attention output at every
    row of the block. -/
theorem attn_online (x : Spec.SX.Idx → EReal) (wq wk wv : Spec.SW.Idx → EReal)
    (hx : ∀ i, x i ≠ ⊤ ∧ x i ≠ ⊥) (hq : ∀ i, wq i ≠ ⊤ ∧ wq i ≠ ⊥) (hk : ∀ i, wk i ≠ ⊤ ∧ wk i ≠ ⊥)
    (hv : ∀ i, wv i ≠ ⊤ ∧ wv i ≠ ⊥) (b : Fin 4) (qi : Fin 4) (r : Fin 1024) (h : Fin 64) :
    Ideal.div
        ((St.run (fun k c => Spec.masked x wq wk b (qrow qi r) (tcol k c))
          (fun k c h => Spec.proj x wv b (tcol k c) h) (2 * qi.val + 1 + 1)).acc h)
        (St.run (fun k c => Spec.masked x wq wk b (qrow qi r) (tcol k c))
          (fun k c h => Spec.proj x wv b (tcol k c) h) (2 * qi.val + 1 + 1)).l
      = Spec.attnAt x wq wk wv b (qrow qi r) h := by
  have hqi := qi.isLt
  have hr := r.isLt
  exact attn_online_of_lt x wq wk wv hx hq hk hv b (qrow qi r) (2 * qi.val + 1) (by omega)
    (by rw [qrow_val]; omega) h

/-! ## The streaming state after at least one tile is real -/

section State

variable {C : Type*} {H : Type*} [Fintype C]

/-- After the tiles `0, …, k` the running maximum is a real number. -/
theorem run_m_real (s : ℕ → C → EReal) (v : ℕ → C → H → EReal) (k : ℕ) (hs : ∀ j ≤ k, ∀ c, s j c ≠ ⊤)
    (h0 : ∃ c, s 0 c ≠ ⊥) : ∃ M : ℝ, (St.run s v (k + 1)).m = (M : EReal) := by
  obtain ⟨M, hM⟩ := runMax_real k s hs h0
  exact ⟨M, (run_m_eq k s v).trans hM⟩

/-- After the tiles `0, …, k` the running normaliser is a positive real number. -/
theorem run_l_real (s : ℕ → C → EReal) (v : ℕ → C → H → EReal) (k : ℕ) (hs : ∀ j ≤ k, ∀ c, s j c ≠ ⊤)
    (hv : ∀ j ≤ k, ∀ c h, v j c h ≠ ⊤ ∧ v j c h ≠ ⊥) (h0 : ∃ c, s 0 c ≠ ⊥) :
    ∃ L : ℝ, 0 < L ∧ (St.run s v (k + 1)).l = (L : EReal) := by
  obtain ⟨L, hpos, hL⟩ := runSum_real_pos k s hs h0
  exact ⟨L, hpos, (run_l_eq k s v hs hv h0).trans hL⟩

/-- After the tiles `0, …, k` every entry of the running weighted sum is a real number. -/
theorem run_acc_real (s : ℕ → C → EReal) (v : ℕ → C → H → EReal) (k : ℕ) (hs : ∀ j ≤ k, ∀ c, s j c ≠ ⊤)
    (hv : ∀ j ≤ k, ∀ c h, v j c h ≠ ⊤ ∧ v j c h ≠ ⊥) (h0 : ∃ c, s 0 c ≠ ⊥) (h : H) :
    ∃ A : ℝ, (St.run s v (k + 1)).acc h = (A : EReal) :=
  ⟨_, (run_inv k s v hs hv h0).2 h⟩

end State

/-- The masked scores of a row, tile by tile, are never `⊤`; the value projections are real; and column `0` of
    tile `0` is not masked: the hypotheses of the streaming lemmas for the attention row `(b, t)`. -/
theorem row_hyps (x : Spec.SX.Idx → EReal) (wq wk wv : Spec.SW.Idx → EReal)
    (hx : ∀ i, x i ≠ ⊤ ∧ x i ≠ ⊥) (hq : ∀ i, wq i ≠ ⊤ ∧ wq i ≠ ⊥) (hk : ∀ i, wk i ≠ ⊤ ∧ wk i ≠ ⊥)
    (hv : ∀ i, wv i ≠ ⊤ ∧ wv i ≠ ⊥) (b : Fin 4) (t : Fin 4096) :
    (∀ (k : ℕ) (c : Fin 512), Spec.masked x wq wk b t (tcol k c) ≠ ⊤)
      ∧ (∀ (k : ℕ) (c : Fin 512) (h : Fin 64),
          Spec.proj x wv b (tcol k c) h ≠ ⊤ ∧ Spec.proj x wv b (tcol k c) h ≠ ⊥)
      ∧ ∃ c : Fin 512, Spec.masked x wq wk b t (tcol 0 c) ≠ ⊥ := by
  refine ⟨fun k c => masked_ne_top x wq wk hx hq hk b t _, fun k c h => proj_real x wv hx hv b _ h,
    ⟨⟨0, by norm_num⟩, ?_⟩⟩
  have e : tcol 0 ⟨0, by norm_num⟩ = (⟨0, by norm_num⟩ : Fin 4096) :=
    Fin.ext (by show (512 * 0 + 0) % 4096 = 0; norm_num)
  rw [e]
  exact masked_zero x wq wk hx hq hk b t

end Cert.Att.Fin

end
-- ==== Proof.Reg1Value.lean ====
import proofs.«175909_j62251255988572_2_alg».proof.Proof.Reg1
import proofs.«175909_j62251255988572_2_alg».proof.Proof.Reg1Pieces
import proofs.«175909_j62251255988572_2_alg».proof.Proof.PayRead
import proofs.«175909_j62251255988572_2_alg».proof.Proof.Reg1Geom
import proofs.«175909_j62251255988572_2_alg».proof.Proof.Finite

/-! The attention region's value, at the ideal instance. Row `r` of the scratch after grid point `t` — running
    maximum, normaliser and weighted sum — is the streaming softmax of query row `1024·qi + r` of batch `b` after the
    key tiles `0 … ki`, where `(b, qi, ki)` are the batch, query block and key tile the tables name at `t`: a first
    tile starts from the empty state, any other continues the point before, which the tables place in the same
    query block one tile earlier. At a last tile `ki = 2·qi + 1`, every later column is masked, and the stored
    quotient is the attention output. -/

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.LibOnlineSoftmax Cert.Att Cert.Att.Tiles Cert.Att.Fin

variable (V : (c : Dev nD) → (b : Ref sig .tc) → Buf (Elt Ideal) ((c : Thread nD τ).loc b))
variable (x : Spec.SX.Idx → EReal) (wq wk wv : Spec.SW.Idx → EReal)

/-- The region's three input arrays. -/
def arrQ (c : Dev nD) : S4x4096x64.Idx → EReal := V c main_v2
def arrK (c : Dev nD) : S4x4096x64.Idx → EReal := V c main_v3
def arrV (c : Dev nD) : S4x4096x64.Idx → EReal := V c main_v4

/-- What the region is entered with: its three input arrays are the projections of real inputs. -/
structure Inputs (c : Dev nD) : Prop where
  q : ∀ (b : Fin 4) (t : Fin 4096) (h : Fin 64), arrQ V c (ix3 b t h) = Spec.proj x wq b t h
  k : ∀ (b : Fin 4) (t : Fin 4096) (h : Fin 64), arrK V c (ix3 b t h) = Spec.proj x wk b t h
  v : ∀ (b : Fin 4) (t : Fin 4096) (h : Fin 64), arrV V c (ix3 b t h) = Spec.proj x wv b t h
  hx : ∀ i, x i ≠ ⊤ ∧ x i ≠ ⊥
  hq : ∀ i, wq i ≠ ⊤ ∧ wq i ≠ ⊥
  hk : ∀ i, wk i ≠ ⊤ ∧ wk i ≠ ⊥
  hv : ∀ i, wv i ≠ ⊤ ∧ wv i ≠ ⊥

/-- Row `r` of the scratch after grid point `t`, as a streaming-softmax state. -/
def trajSt (c : Dev nD) (t : Fin (cfgM (F := Ideal)).N) (r : Fin 1024) : St (Fin 64) :=
  rowSt (outsAt1 V c t.val t.isLt).2.1 (outsAt1 V c t.val t.isLt).2.2.1 (outsAt1 V c t.val t.isLt).2.2.2 r

/-- The tile's scores for row `r`, unmasked and masked as the body computes them, and its values. -/
def tilePlain (c : Dev nD) (t : Fin (cfgM (F := Ideal)).N) (r : Fin 1024) : Fin 512 → EReal :=
  fun cc => tileScore (iblk1 V c 0 t) (iblk1 V c 1 t) r cc
def tileMasked (c : Dev nD) (t : Fin (cfgM (F := Ideal)).N) (r : Fin 1024) : Fin 512 → EReal :=
  fun cc => if 512 * (wF (F := Ideal) c t).toNat + cc.val ≤ 1024 * (wQ (F := Ideal) c t).toNat + r.val then tileScore (iblk1 V c 0 t) (iblk1 V c 1 t) r cc else ⊥
def tileVals (c : Dev nD) (t : Fin (cfgM (F := Ideal)).N) : Fin 512 → Fin 64 → EReal :=
  fun cc h => iblk1 V c 2 t (ix3 0 cc h)

set_option backward.isDefEq.respectTransparency.types false in
/-- Case A: the state after the point is one streaming step from the empty state, over the tile's masked scores. -/
theorem new_A (c : Dev nD) (t : Fin (cfgM (F := Ideal)).N) (hF : condF (wF (F := Ideal) c t)) (hM : condM (wM (F := Ideal) c t)) (hL : ¬condL (wL (F := Ideal) c t)) (r : Fin 1024) :
    trajSt V c t r = St.step (tileMasked V c t r) (tileVals V c t) (St.init) := by
  unfold trajSt
  have hstep : ∀ p, stepAt V c t p = _ := fun p => stepAt_A V c t p hF hM hL
  have houts : outsAt1 V c t.val t.isLt = stepAt V c t (if t.val = 0 then dflt3 else (outsAt1 V c (t.val - 1) (Nat.lt_of_le_of_lt (Nat.sub_le _ _) t.isLt)).2) := by
    by_cases hz : t.val = 0
    · rw [if_pos hz]; exact outsAt1_zero V c t hz
    · rw [if_neg hz]; exact outsAt1_pos V c t hz
  rw [houts, hstep]
  dsimp only
  rw [sout1_A_0_eq, sout1_A_1_eq, sout1_A_2_eq]
  rw [← reset_init r]
  exact upd_masked (wF (F := Ideal) c t) (wQ (F := Ideal) c t) (by rw [wF_toNat]; exact (kiOf t).isLt) (by rw [wQ_toNat]; exact (qiOf t).isLt) (iblk1 V c 0 t) (iblk1 V c 1 t) (iblk1 V c 2 t) _ _ _ r

set_option backward.isDefEq.respectTransparency.types false in
/-- Case B: the state after the point is one streaming step on the state the point before left, over the tile's masked scores. -/
theorem new_B (c : Dev nD) (t : Fin (cfgM (F := Ideal)).N) (hF : ¬condF (wF (F := Ideal) c t)) (hM : condM (wM (F := Ideal) c t)) (hL : condL (wL (F := Ideal) c t)) (r : Fin 1024) :
    trajSt V c t r = St.step (tileMasked V c t r) (tileVals V c t) (trajSt V c ⟨t.val - 1, Nat.lt_of_le_of_lt (Nat.sub_le _ _) t.isLt⟩ r) := by
  unfold trajSt
  have hz : t.val ≠ 0 := fun h => hF ((wordFacts c t).2.2.1 h)
  rw [outsAt1_pos V c t hz, stepAt_B V c t _ hF hM hL]
  dsimp only
  rw [sout1_B_0_eq, sout1_B_1_eq, sout1_B_2_eq]
  exact upd_masked (wF (F := Ideal) c t) (wQ (F := Ideal) c t) (by rw [wF_toNat]; exact (kiOf t).isLt) (by rw [wQ_toNat]; exact (qiOf t).isLt) (iblk1 V c 0 t) (iblk1 V c 1 t) (iblk1 V c 2 t) _ _ _ r

set_option backward.isDefEq.respectTransparency.types false in
/-- Case C: the state after the point is one streaming step from the empty state, over the tile's scores. -/
theorem new_C (c : Dev nD) (t : Fin (cfgM (F := Ideal)).N) (hF : condF (wF (F := Ideal) c t)) (hM : ¬condM (wM (F := Ideal) c t)) (hL : ¬condL (wL (F := Ideal) c t)) (r : Fin 1024) :
    trajSt V c t r = St.step (tilePlain V c t r) (tileVals V c t) (St.init) := by
  unfold trajSt
  have hstep : ∀ p, stepAt V c t p = _ := fun p => stepAt_C V c t p hF hM hL
  have houts : outsAt1 V c t.val t.isLt = stepAt V c t (if t.val = 0 then dflt3 else (outsAt1 V c (t.val - 1) (Nat.lt_of_le_of_lt (Nat.sub_le _ _) t.isLt)).2) := by
    by_cases hz : t.val = 0
    · rw [if_pos hz]; exact outsAt1_zero V c t hz
    · rw [if_neg hz]; exact outsAt1_pos V c t hz
  rw [houts, hstep]
  dsimp only
  rw [sout1_C_0_eq, sout1_C_1_eq, sout1_C_2_eq]
  rw [← reset_init r]
  exact upd_plain (iblk1 V c 0 t) (iblk1 V c 1 t) (iblk1 V c 2 t) _ _ _ r

set_option backward.isDefEq.respectTransparency.types false in
/-- Case D: the state after the point is one streaming step on the state the point before left, over the tile's scores. -/
theorem new_D (c : Dev nD) (t : Fin (cfgM (F := Ideal)).N) (hF : ¬condF (wF (F := Ideal) c t)) (hM : ¬condM (wM (F := Ideal) c t)) (hL : ¬condL (wL (F := Ideal) c t)) (r : Fin 1024) :
    trajSt V c t r = St.step (tilePlain V c t r) (tileVals V c t) (trajSt V c ⟨t.val - 1, Nat.lt_of_le_of_lt (Nat.sub_le _ _) t.isLt⟩ r) := by
  unfold trajSt
  have hz : t.val ≠ 0 := fun h => hF ((wordFacts c t).2.2.1 h)
  rw [outsAt1_pos V c t hz, stepAt_D V c t _ hF hM hL]
  dsimp only
  rw [sout1_D_0_eq, sout1_D_1_eq, sout1_D_2_eq]
  exact upd_plain (iblk1 V c 0 t) (iblk1 V c 1 t) (iblk1 V c 2 t) _ _ _ r

set_option backward.isDefEq.respectTransparency.types false in
/-- Case E: the state after the point is one streaming step on the state the point before left, over the tile's masked scores. -/
theorem new_E (c : Dev nD) (t : Fin (cfgM (F := Ideal)).N) (hF : ¬condF (wF (F := Ideal) c t)) (hM : condM (wM (F := Ideal) c t)) (hL : ¬condL (wL (F := Ideal) c t)) (r : Fin 1024) :
    trajSt V c t r = St.step (tileMasked V c t r) (tileVals V c t) (trajSt V c ⟨t.val - 1, Nat.lt_of_le_of_lt (Nat.sub_le _ _) t.isLt⟩ r) := by
  unfold trajSt
  have hz : t.val ≠ 0 := fun h => hF ((wordFacts c t).2.2.1 h)
  rw [outsAt1_pos V c t hz, stepAt_E V c t _ hF hM hL]
  dsimp only
  rw [sout1_E_0_eq, sout1_E_1_eq, sout1_E_2_eq]
  exact upd_masked (wF (F := Ideal) c t) (wQ (F := Ideal) c t) (by rw [wF_toNat]; exact (kiOf t).isLt) (by rw [wQ_toNat]; exact (qiOf t).isLt) (iblk1 V c 0 t) (iblk1 V c 1 t) (iblk1 V c 2 t) _ _ _ r

/-! ## The tile's scores and values are the specification's -/

variable {V x wq wk wv}

/-- Tile `k` of query row `tq` of batch `b`: its masked scores and its values. -/
def rowS (x : Spec.SX.Idx → EReal) (wq wk : Spec.SW.Idx → EReal) (b : Fin 4) (tq : Fin 4096) : ℕ → Fin 512 → EReal :=
  fun k cc => Spec.masked x wq wk b tq (tcol k cc)
def rowV (x : Spec.SX.Idx → EReal) (wv : Spec.SW.Idx → EReal) (b : Fin 4) : ℕ → Fin 512 → Fin 64 → EReal :=
  fun k cc h => Spec.proj x wv b (tcol k cc) h

theorem tcol_mk (t : Fin (cfgM (F := Ideal)).N) (cc : Fin 512) (hlt : 512 * (kiOf t).val + cc.val < 4096) :
    (⟨512 * (kiOf t).val + cc.val, hlt⟩ : Fin 4096) = tcol (kiOf t).val cc :=
  Fin.ext (tcol_val _ (kiOf t).isLt cc).symm

/-- The tile's unmasked score is the specification's score of that query row and key column. -/
theorem tile_score {c : Dev nD} (hin : Inputs V x wq wk wv c) (t : Fin (cfgM (F := Ideal)).N) (r : Fin 1024) (cc : Fin 512) :
    tileScore (iblk1 V c 0 t) (iblk1 V c 1 t) r cc = Spec.score x wq wk (bOf t) (qrow (qiOf t) r) (tcol (kiOf t).val cc) := by
  unfold tileScore Spec.score
  refine congrArg (· * _) (Finset.sum_congr rfl fun h _ => ?_)
  have e1 := (blk0 V c t r h).trans (hin.q (bOf t) (qrow (qiOf t) r) h)
  have e2 := (blk1 V c t cc h).trans ((congrArg (fun u => arrK V c (ix3 (bOf t) u h)) (tcol_mk t cc _)).trans (hin.k (bOf t) (tcol (kiOf t).val cc) h))
  rw [e1, e2]

/-- The tile's values are the specification's value projection. -/
theorem tile_vals {c : Dev nD} (hin : Inputs V x wq wk wv c) (t : Fin (cfgM (F := Ideal)).N) :
    tileVals V c t = rowV x wv (bOf t) (kiOf t).val := by
  funext cc h
  exact (blk2 V c t cc h).trans ((congrArg (fun u => arrV V c (ix3 (bOf t) u h)) (tcol_mk t cc _)).trans (hin.v (bOf t) (tcol (kiOf t).val cc) h))

/-- A tile the body does not mask lies wholly below the diagonal: its scores are the masked scores. -/
theorem tile_plain {c : Dev nD} (hin : Inputs V x wq wk wv c) (t : Fin (cfgM (F := Ideal)).N) (hM : ¬condM (wM (F := Ideal) c t)) (r : Fin 1024) :
    tilePlain V c t r = rowS x wq wk (bOf t) (qrow (qiOf t) r) (kiOf t).val := by
  funext cc
  unfold tilePlain rowS
  rw [tile_score hin t r cc]
  refine (masked_le x wq wk _ _ _ ?_).symm
  have h1 := nomask_le c t hM
  have h2 := tcol_val _ (kiOf t).isLt cc
  have h3 := cc.isLt
  rw [h2, qrow_val]; omega

/-- The body's mask is the causal mask. -/
theorem tile_masked {c : Dev nD} (hin : Inputs V x wq wk wv c) (t : Fin (cfgM (F := Ideal)).N) (r : Fin 1024) :
    tileMasked V c t r = rowS x wq wk (bOf t) (qrow (qiOf t) r) (kiOf t).val := by
  funext cc
  unfold tileMasked rowS Spec.masked
  rw [wF_toNat, wQ_toNat, tile_score hin t r cc, tcol_val _ (kiOf t).isLt cc, qrow_val]

/-! ## The invariant -/

/-- After grid point `t`, row `r` of the scratch is the streaming softmax of query row `1024·qi + r` of batch `b`
    after the key tiles `0 … ki`. By induction on the point. -/
theorem traj_inv {c : Dev nD} (hin : Inputs V x wq wk wv c) :
    ∀ (n : ℕ) (t : Fin (cfgM (F := Ideal)).N), t.val = n → ∀ r : Fin 1024,
      trajSt V c t r = St.run (rowS x wq wk (bOf t) (qrow (qiOf t) r)) (rowV x wv (bOf t)) ((kiOf t).val + 1) := by
  intro n
  induction n using Nat.strong_induction_on with
  | _ n IH =>
    intro t ht r
    obtain ⟨hcompl, hlast, hzero, hidle, hlive⟩ := wordFacts (F := Ideal) c t
    have first : ∀ (sc : Fin 512 → EReal), sc = rowS x wq wk (bOf t) (qrow (qiOf t) r) (kiOf t).val → condF (wF (F := Ideal) c t) →
        St.step sc (tileVals V c t) St.init = St.run (rowS x wq wk (bOf t) (qrow (qiOf t) r)) (rowV x wv (bOf t)) ((kiOf t).val + 1) := by
      intro sc hsc hF
      have hki := (first_ki c t).mp hF
      rw [hsc, tile_vals hin t, hki, St.run_succ, St.run_zero]
    have later : ∀ (sc : Fin 512 → EReal), sc = rowS x wq wk (bOf t) (qrow (qiOf t) r) (kiOf t).val → ¬condF (wF (F := Ideal) c t) →
        St.step sc (tileVals V c t) (trajSt V c ⟨t.val - 1, Nat.lt_of_le_of_lt (Nat.sub_le _ _) t.isLt⟩ r)
          = St.run (rowS x wq wk (bOf t) (qrow (qiOf t) r)) (rowV x wv (bOf t)) ((kiOf t).val + 1) := by
      intro sc hsc hF
      obtain ⟨hz, hp⟩ := prev_facts c t hF
      obtain ⟨hb, hqi, hki⟩ := hp ⟨t.val - 1, Nat.lt_of_le_of_lt (Nat.sub_le _ _) t.isLt⟩ rfl
      have ih := IH (t.val - 1) (by omega) ⟨t.val - 1, Nat.lt_of_le_of_lt (Nat.sub_le _ _) t.isLt⟩ rfl r
      rw [ih, hb, hqi, hki, hsc, tile_vals hin t, St.run_succ]
    by_cases hF : condF (wF (F := Ideal) c t)
    · by_cases hM : condM (wM (F := Ideal) c t)
      · by_cases hL : condL (wL (F := Ideal) c t)
        · exact absurd hF (hlast hL).1
        · rw [new_A V c t hF hM hL r]; exact first _ (tile_masked hin t r) hF
      · by_cases hL : condL (wL (F := Ideal) c t)
        · exact absurd hF (hlast hL).1
        · rw [new_C V c t hF hM hL r]; exact first _ (tile_plain hin t hM r) hF
    · by_cases hM : condM (wM (F := Ideal) c t)
      · by_cases hL : condL (wL (F := Ideal) c t)
        · rw [new_B V c t hF hM hL r]; exact later _ (tile_masked hin t r) hF
        · rw [new_E V c t hF hM hL r]; exact later _ (tile_masked hin t r) hF
      · by_cases hL : condL (wL (F := Ideal) c t)
        · exact absurd (hlast hL).2 hM
        · rw [new_D V c t hF hM hL r]; exact later _ (tile_plain hin t hM r) hF

/-! ## The output -/

set_option backward.isDefEq.respectTransparency.types false in
/-- At a last tile the stored block is the quotient of the scratch's weighted sum by its normaliser, row by row. -/
theorem out_quot (c : Dev nD) (t : Fin (cfgM (F := Ideal)).N) (hL : condL (wL (F := Ideal) c t)) (r : Fin 1024) (h : Fin 64) :
    (outsAt1 V c t.val t.isLt).1 (ix3 0 r h) = Ideal.div ((trajSt V c t r).acc h) (trajSt V c t r).l := by
  obtain ⟨hcompl, hlast, hzero, hidle, hlive⟩ := wordFacts (F := Ideal) c t
  obtain ⟨hF, hM⟩ := hlast hL
  have hz : t.val ≠ 0 := fun h0 => hF (hzero h0)
  unfold trajSt rowSt
  rw [outsAt1_pos V c t hz, stepAt_B V c t _ hF hM hL]
  dsimp only
  rw [out1_B_3_eq, sout1_B_1_eq, sout1_B_2_eq]
  exact quot_apply _ _ r h

/-- So at a last tile the stored block holds the attention output of its query rows. -/
theorem out_value {c : Dev nD} (hin : Inputs V x wq wk wv c) (t : Fin (cfgM (F := Ideal)).N) (hL : condL (wL (F := Ideal) c t)) (r : Fin 1024) (h : Fin 64) :
    (outsAt1 V c t.val t.isLt).1 (ix3 0 r h) = Spec.attnAt x wq wk wv (bOf t) (qrow (qiOf t) r) h := by
  rw [out_quot c t hL r h, traj_inv hin t.val t rfl r, last_ki c t hL]
  exact attn_online x wq wk wv hin.hx hin.hq hin.hk hin.hv (bOf t) (qiOf t) r h

/-- The region's result: the output array after the region is the attention output. -/
theorem arr3_value {c : Dev nD} (hin : Inputs V x wq wk wv c) :
    (dat1 (F := Ideal) V c).arrAt 3 (cfgM (F := Ideal)).N = Spec.attn x wq wk wv :=
  arr3_final V c (Spec.attn x wq wk wv) fun t hL r h => (out_value hin t hL r h).trans (Spec.attn_ix3 x wq wk wv (bOf t) (qrow (qiOf t) r) h).symm

end Cert.KernelIdeal.Att

end
-- ==== Proof.Reg0Value.lean ====
import proofs.«175909_j62251255988572_2_alg».proof.Proof.Reg0
import Idealize.ShloMosaic.Lib.Pipeline.Value
import Idealize.ShloMosaic.Lib.ValueIdx
import Idealize.ShloMosaic.PureOps.Ideal
import Idealize.ShloMosaic.PureOps.Ideal.Laws
import Idealize.ShloMosaic.Lib.Tactic

/-!
# What the projection kernel leaves in its three output arrays, at the exact values

At the extended reals a narrowing of the float format is the identity and a block product into a zero
accumulator is the plain sum over the contracted axis. So the tile a grid point stores is, entry by entry,
the sum over the embedding axis of the x tile's row times the weight matrix's column; point t's tile is
rows 2048·t … 2048·t + 2047 of the array, the eight tiles cover it, and each output array ends holding
(x · W)[r, h] = ∑ k, x[r, k] * W[k, h]. The four input arrays are left as found.
-/

set_option maxRecDepth 16384

noncomputable section

namespace Cert.KernelIdeal.Att

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

theorem hz2 : (![0, 0] : Fin 2 → Nat) = fun _ => 0 := funext fun a => by fin_cases a <;> rfl

/-! ## Each output tile is its store's payload of the x tile and one weight matrix -/

section Generic
variable {F : FTy → Type} [FloatOps F] [Named F]

theorem out0_4_eq (x0 : Vec F S2048x1024 .f32) (x1 x2 x3 : Vec F S1024x64 .f32) : out0_4 x0 x1 x2 x3 = k0_pay2 x0 x1 := by
  unfold out0_4
  rw [View.canon_unit_zero hz2]
  simp only [View.ld_unit_zero (S := S2048x1024) hz2, View.ld_unit_zero (S := S1024x64) hz2]

theorem out0_5_eq (x0 : Vec F S2048x1024 .f32) (x1 x2 x3 : Vec F S1024x64 .f32) : out0_5 x0 x1 x2 x3 = k0_pay3 x0 x2 := by
  unfold out0_5
  rw [View.canon_unit_zero hz2]
  simp only [View.ld_unit_zero (S := S2048x1024) hz2, View.ld_unit_zero (S := S1024x64) hz2]

theorem out0_6_eq (x0 : Vec F S2048x1024 .f32) (x1 x2 x3 : Vec F S1024x64 .f32) : out0_6 x0 x1 x2 x3 = k0_pay4 x0 x3 := by
  unfold out0_6
  rw [View.canon_unit_zero hz2]
  simp only [View.ld_unit_zero (S := S2048x1024) hz2, View.ld_unit_zero (S := S1024x64) hz2]

end Generic

/-! ## The block product at an entry -/

/-- The tile product's operand indices at output entry i and contraction index q: (i 0, q) and (q, i 1). -/
theorem lhsP_0 (i : S2048x64.Idx) (q : dot_S2048x1024_S1024x64_S2048x64_1_0_0_1_n_n.contr.Idx) :
    (dot_S2048x1024_S1024x64_S2048x64_1_0_0_1_n_n.lhsIdx i q 0).val = (i 0).val := by
  unfold DotDims.lhsIdx
  rw [dif_neg (show ¬(0 : Fin S2048x1024.rank) ∈ dot_S2048x1024_S1024x64_S2048x64_1_0_0_1_n_n.lhsBatch by decide), dif_pos (show (0 : Fin S2048x1024.rank) ∈ dot_S2048x1024_S1024x64_S2048x64_1_0_0_1_n_n.lhsNonContracting by decide)]
  rfl
theorem lhsP_1 (i : S2048x64.Idx) (q : dot_S2048x1024_S1024x64_S2048x64_1_0_0_1_n_n.contr.Idx) :
    (dot_S2048x1024_S1024x64_S2048x64_1_0_0_1_n_n.lhsIdx i q 1).val = (q ⟨0, by decide⟩).val :=
  dot_S2048x1024_S1024x64_S2048x64_1_0_0_1_n_n.lhsIdx_val_of_single rfl i q
theorem rhsP_0 (i : S2048x64.Idx) (q : dot_S2048x1024_S1024x64_S2048x64_1_0_0_1_n_n.contr.Idx) :
    (dot_S2048x1024_S1024x64_S2048x64_1_0_0_1_n_n.rhsIdx i q 0).val = (q ⟨0, by decide⟩).val :=
  dot_S2048x1024_S1024x64_S2048x64_1_0_0_1_n_n.rhsIdx_val_of_single rfl i q
theorem rhsP_1 (i : S2048x64.Idx) (q : dot_S2048x1024_S1024x64_S2048x64_1_0_0_1_n_n.contr.Idx) :
    (dot_S2048x1024_S1024x64_S2048x64_1_0_0_1_n_n.rhsIdx i q 1).val = (i 1).val := by
  unfold DotDims.rhsIdx
  rw [dif_neg (show ¬(1 : Fin S1024x64.rank) ∈ dot_S2048x1024_S1024x64_S2048x64_1_0_0_1_n_n.rhsBatch by decide), dif_pos (show (1 : Fin S1024x64.rank) ∈ dot_S2048x1024_S1024x64_S2048x64_1_0_0_1_n_n.rhsNonContracting by decide)]
  rfl

/-- A tile product into the zero accumulator, at entry (a, h): the row of the left operand times the column of the right. -/
theorem matmulP_apply (lhs : FVec Ideal S2048x1024 .bf16) (rhs : FVec Ideal S1024x64 .bf16) (a : Fin 2048) (h : Fin 64) :
    FloatOps.matmul dot_S2048x1024_S1024x64_S2048x64_1_0_0_1_n_n none lhs rhs (constant (F := Ideal) S2048x64 .f32 0x00000000#32) (ix2 a h)
      = ∑ k : Fin 1024, lhs (ix2 a k) * rhs (ix2 k h) := by
  rw [Ideal.matmul_constant_zero_apply, ← Equiv.sum_comp (contrEquiv1 dot_S2048x1024_S1024x64_S2048x64_1_0_0_1_n_n 1024 rfl rfl).symm]
  refine Finset.sum_congr rfl fun k _ => ?_
  have hk := contrEquiv1_symm_val dot_S2048x1024_S1024x64_S2048x64_1_0_0_1_n_n 1024 rfl rfl k
  have el : dot_S2048x1024_S1024x64_S2048x64_1_0_0_1_n_n.lhsIdx (ix2 a h) ((contrEquiv1 dot_S2048x1024_S1024x64_S2048x64_1_0_0_1_n_n 1024 rfl rfl).symm k) = ix2 a k := funext fun d => Fin.ext (by
    match d with
    | ⟨0, _⟩ => exact lhsP_0 _ _
    | ⟨1, _⟩ => exact (lhsP_1 _ _).trans hk)
  have er : dot_S2048x1024_S1024x64_S2048x64_1_0_0_1_n_n.rhsIdx (ix2 a h) ((contrEquiv1 dot_S2048x1024_S1024x64_S2048x64_1_0_0_1_n_n 1024 rfl rfl).symm k) = ix2 k h := funext fun d => Fin.ext (by
    match d with
    | ⟨0, _⟩ => exact (rhsP_0 _ _).trans hk
    | ⟨1, _⟩ => exact rhsP_1 _ _)
  rw [el, er]

/-- The q tile's payload at entry (a, h). -/
theorem pay2_apply (x0 : Vec Ideal S2048x1024 .f32) (w : Vec Ideal S1024x64 .f32) (a : Fin 2048) (h : Fin 64) :
    k0_pay2 (F := Ideal) x0 w (ix2 a h) = ∑ k : Fin 1024, x0 (ix2 a k) * w (ix2 k h) := by
  unfold k0_pay2 k0_pay1
  refine (matmulP_apply _ _ a h).trans ?_
  refine Finset.sum_congr rfl fun k _ => ?_
  show shapeCast S2048x1024 x0 shapeCasts_S2048x1024_S2048x1024 (ix2 a k) * w (ix2 k h) = _
  rw [shapeCast_self]

/-- The k tile's payload at entry (a, h). -/
theorem pay3_apply (x0 : Vec Ideal S2048x1024 .f32) (w : Vec Ideal S1024x64 .f32) (a : Fin 2048) (h : Fin 64) :
    k0_pay3 (F := Ideal) x0 w (ix2 a h) = ∑ k : Fin 1024, x0 (ix2 a k) * w (ix2 k h) := by
  unfold k0_pay3 k0_pay1
  refine (matmulP_apply _ _ a h).trans ?_
  refine Finset.sum_congr rfl fun k _ => ?_
  show shapeCast S2048x1024 x0 shapeCasts_S2048x1024_S2048x1024 (ix2 a k) * w (ix2 k h) = _
  rw [shapeCast_self]

/-- The v tile's payload at entry (a, h). -/
theorem pay4_apply (x0 : Vec Ideal S2048x1024 .f32) (w : Vec Ideal S1024x64 .f32) (a : Fin 2048) (h : Fin 64) :
    k0_pay4 (F := Ideal) x0 w (ix2 a h) = ∑ k : Fin 1024, x0 (ix2 a k) * w (ix2 k h) := by
  unfold k0_pay4 k0_pay1
  refine (matmulP_apply _ _ a h).trans ?_
  refine Finset.sum_congr rfl fun k _ => ?_
  show shapeCast S2048x1024 x0 shapeCasts_S2048x1024_S2048x1024 (ix2 a k) * w (ix2 k h) = _
  rw [shapeCast_self]

/-! ## The windows' blocks as entries of their arrays -/

section Arrays

variable (V : (c : Dev nD) → (b : Ref sig .tc) → Buf (Elt Ideal) ((c : Thread nD τ).loc b))

/-- The block index maps over the grid: the row-tiled windows are at row block t, the weights at block 0. -/
theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx0_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx0_4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem idx0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx0_5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem idx0_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx0_6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

/-- The x tile at point t is rows 2048·t … of x. -/
theorem iblk0_0_apply (c : Dev nD) (t : Fin cfg0.N) (x : S2048x1024.Idx) (k : S16384x1024.Idx)
    (hk0 : (k 0).val = 2048 * t.val + (x 0).val) (hk1 : (k 1).val = (x 1).val) :
    (iblk0 V c 0 t : Vec Ideal S2048x1024 .f32) x = (V c main_v0 : S16384x1024.Idx → EReal) k := by
  have hi := idx0_0 t
  unfold iblk0
  rw [View.read_apply]
  show V c main_v0 _ = V c main_v0 _
  congr 1
  funext a
  apply Fin.ext
  match a with
  | ⟨0, _⟩ => show win0_0.index t 0 * 2048 + 1 * (x 0).val = (k 0).val; rw [hi.1, hk0]; omega
  | ⟨1, _⟩ => show win0_0.index t 1 * 1024 + 1 * (x 1).val = (k 1).val; rw [hi.2, hk1]; omega

/-- The first weight matrix's block at any point is the matrix. -/
theorem iblk0_1_apply (c : Dev nD) (t : Fin cfg0.N) (x : S1024x64.Idx) :
    (iblk0 V c 1 t : Vec Ideal S1024x64 .f32) x = (V c main_arg1 : S1024x64.Idx → EReal) x := by
  have hi := idx0_1 t
  unfold iblk0
  rw [View.read_apply]
  show V c main_arg1 _ = V c main_arg1 _
  congr 1
  funext a
  apply Fin.ext
  match a with
  | ⟨0, _⟩ => show win0_1.index t 0 * 1024 + 1 * (x 0).val = (x 0).val; rw [hi.1]; omega
  | ⟨1, _⟩ => show win0_1.index t 1 * 64 + 1 * (x 1).val = (x 1).val; rw [hi.2]; omega

/-- The second weight matrix's block at any point is the matrix. -/
theorem iblk0_2_apply (c : Dev nD) (t : Fin cfg0.N) (x : S1024x64.Idx) :
    (iblk0 V c 2 t : Vec Ideal S1024x64 .f32) x = (V c main_arg2 : S1024x64.Idx → EReal) x := by
  have hi := idx0_2 t
  unfold iblk0
  rw [View.read_apply]
  show V c main_arg2 _ = V c main_arg2 _
  congr 1
  funext a
  apply Fin.ext
  match a with
  | ⟨0, _⟩ => show win0_2.index t 0 * 1024 + 1 * (x 0).val = (x 0).val; rw [hi.1]; omega
  | ⟨1, _⟩ => show win0_2.index t 1 * 64 + 1 * (x 1).val = (x 1).val; rw [hi.2]; omega

/-- The third weight matrix's block at any point is the matrix. -/
theorem iblk0_3_apply (c : Dev nD) (t : Fin cfg0.N) (x : S1024x64.Idx) :
    (iblk0 V c 3 t : Vec Ideal S1024x64 .f32) x = (V c main_arg3 : S1024x64.Idx → EReal) x := by
  have hi := idx0_3 t
  unfold iblk0
  rw [View.read_apply]
  show V c main_arg3 _ = V c main_arg3 _
  congr 1
  funext a
  apply Fin.ext
  match a with
  | ⟨0, _⟩ => show win0_3.index t 0 * 1024 + 1 * (x 0).val = (x 0).val; rw [hi.1]; omega
  | ⟨1, _⟩ => show win0_3.index t 1 * 64 + 1 * (x 1).val = (x 1).val; rw [hi.2]; omega

/-- A projection as an array: (X · W)[r, h] = ∑ k, X[r, k] * W[k, h]. -/
def projArr (X : S16384x1024.Idx → EReal) (W : S1024x64.Idx → EReal) : S16384x64.Idx → EReal :=
  fun i => ∑ k : Fin 1024, X (ix2 (i 0) k) * W (ix2 k (i 1))

/-- The projection array at an entry. -/
theorem projArr_ix2 (X : S16384x1024.Idx → EReal) (W : S1024x64.Idx → EReal) (r : Fin 16384) (h : Fin 64) :
    projArr X W (ix2 r h) = ∑ k : Fin 1024, X (ix2 r k) * W (ix2 k h) := rfl

/-- What point t writes back to the q array is its block of x · Wq. -/
theorem flushed0_4_eq (c : Dev nD) (t : Fin cfg0.N) :
    (dat0 (F := Ideal) V c).flushed 4 t
      = ((cfg0.win 4).blk t).view.read (Elt Ideal) (projArr (V c main_v0) (V c main_arg1)) := by
  show (cfg0.win 4).cut (grid0.coords t) ((dat0 (F := Ideal) V c).after 4 t) = _
  rw [after0_4, out0_4_eq]
  funext y
  obtain ⟨a, h, rfl⟩ : ∃ (a : Fin 2048) (h : Fin 64), y = ix2 a h := ⟨y 0, y 1, eq_ix2 y⟩
  show k0_pay2 (F := Ideal) (iblk0 V c 0 t) (iblk0 V c 1 t) (ix2 a h) = _
  refine (pay2_apply (iblk0 V c 0 t) (iblk0 V c 1 t) a h).trans ?_
  rw [View.read_apply]
  show _ = projArr (V c main_v0) (V c main_arg1) (((cfg0.win 4).blk t).view.emb (ix2 a h))
  have hi := idx0_4 t
  have e0 : ((((cfg0.win 4).blk t).view.emb (ix2 a h)) 0 : ℕ) = 2048 * t.val + a.val := by
    show win0_4.index t 0 * 2048 + 1 * a.val = _
    rw [hi.1]; omega
  have e1 : ((((cfg0.win 4).blk t).view.emb (ix2 a h)) 1 : ℕ) = h.val := by
    show win0_4.index t 1 * 64 + 1 * h.val = _
    rw [hi.2]; omega
  unfold projArr
  refine Finset.sum_congr rfl fun k _ => ?_
  refine congrArg₂ (· * ·) ?_ ?_
  · exact iblk0_0_apply V c t (ix2 a k) (ix2 ((((cfg0.win 4).blk t).view.emb (ix2 a h)) 0) k) e0 rfl
  · exact (iblk0_1_apply V c t (ix2 k h)).trans
      (congrArg (fun z => (V c main_arg1 : S1024x64.Idx → EReal) (ix2 k z)) (Fin.ext e1.symm))

/-- Every entry of the q array lies in the block of the point its row falls in, so the array ends holding x · Wq. -/
theorem final0_4 (c : Dev nD) :
    (dat0 (F := Ideal) V c).arrAt 4 cfg0.N = projArr (V c main_v0) (V c main_arg1) :=
  (dat0 (F := Ideal) V c).arrAt_eq_of_cover 4 (projArr (V c main_v0) (V c main_arg1)) (fun t _ => flushed0_4_eq V c t) fun i => by
    have h0 : (i 0 : Nat) < 16384 := (i 0).isLt
    have h1 : (i 1 : Nat) < 64 := (i 1).isLt
    have hN : cfg0.N = 8 := N_0
    have ht : (i 0 : Nat) / 2048 < cfg0.N := by rw [hN]; omega
    refine ⟨⟨(i 0 : Nat) / 2048, ht⟩, flush0_4 _, ?_⟩
    have hi := idx0_4 ⟨(i 0 : Nat) / 2048, ht⟩
    show i ∈ ((View.whole main_v1_0).slice (win0_4.rect ⟨(i 0 : Nat) / 2048, ht⟩)).set
    rw [View.set_slice_whole, Rect.mem_set_unit]
    intro a
    match a with
    | ⟨0, _⟩ =>
      show win0_4.index ⟨(i 0 : Nat) / 2048, ht⟩ 0 * 2048 ≤ (i 0 : Nat)
        ∧ (i 0 : Nat) < win0_4.index ⟨(i 0 : Nat) / 2048, ht⟩ 0 * 2048 + 2048
      rw [hi.1]
      show (i 0 : Nat) / 2048 * 2048 ≤ (i 0 : Nat) ∧ (i 0 : Nat) < (i 0 : Nat) / 2048 * 2048 + 2048
      omega
    | ⟨1, _⟩ =>
      show win0_4.index ⟨(i 0 : Nat) / 2048, ht⟩ 1 * 64 ≤ (i 1 : Nat)
        ∧ (i 1 : Nat) < win0_4.index ⟨(i 0 : Nat) / 2048, ht⟩ 1 * 64 + 64
      rw [hi.2]
      omega

/-- The q array after the region, entry by entry. -/
theorem q_final (c : Dev nD) (r : Fin 16384) (h : Fin 64) :
    @Eq EReal ((dat0 (F := Ideal) V c).arrAt 4 cfg0.N (ix2 r h))
      (∑ k : Fin 1024, @HMul.hMul EReal EReal EReal _ (V c main_v0 (ix2 r k)) (V c main_arg1 (ix2 k h))) :=
  (congrFun (final0_4 V c) (ix2 r h)).trans rfl

/-- What point t writes back to the k array is its block of x · Wk. -/
theorem flushed0_5_eq (c : Dev nD) (t : Fin cfg0.N) :
    (dat0 (F := Ideal) V c).flushed 5 t
      = ((cfg0.win 5).blk t).view.read (Elt Ideal) (projArr (V c main_v0) (V c main_arg2)) := by
  show (cfg0.win 5).cut (grid0.coords t) ((dat0 (F := Ideal) V c).after 5 t) = _
  rw [after0_5, out0_5_eq]
  funext y
  obtain ⟨a, h, rfl⟩ : ∃ (a : Fin 2048) (h : Fin 64), y = ix2 a h := ⟨y 0, y 1, eq_ix2 y⟩
  show k0_pay3 (F := Ideal) (iblk0 V c 0 t) (iblk0 V c 2 t) (ix2 a h) = _
  refine (pay3_apply (iblk0 V c 0 t) (iblk0 V c 2 t) a h).trans ?_
  rw [View.read_apply]
  show _ = projArr (V c main_v0) (V c main_arg2) (((cfg0.win 5).blk t).view.emb (ix2 a h))
  have hi := idx0_5 t
  have e0 : ((((cfg0.win 5).blk t).view.emb (ix2 a h)) 0 : ℕ) = 2048 * t.val + a.val := by
    show win0_5.index t 0 * 2048 + 1 * a.val = _
    rw [hi.1]; omega
  have e1 : ((((cfg0.win 5).blk t).view.emb (ix2 a h)) 1 : ℕ) = h.val := by
    show win0_5.index t 1 * 64 + 1 * h.val = _
    rw [hi.2]; omega
  unfold projArr
  refine Finset.sum_congr rfl fun k _ => ?_
  refine congrArg₂ (· * ·) ?_ ?_
  · exact iblk0_0_apply V c t (ix2 a k) (ix2 ((((cfg0.win 5).blk t).view.emb (ix2 a h)) 0) k) e0 rfl
  · exact (iblk0_2_apply V c t (ix2 k h)).trans
      (congrArg (fun z => (V c main_arg2 : S1024x64.Idx → EReal) (ix2 k z)) (Fin.ext e1.symm))

/-- Every entry of the k array lies in the block of the point its row falls in, so the array ends holding x · Wk. -/
theorem final0_5 (c : Dev nD) :
    (dat0 (F := Ideal) V c).arrAt 5 cfg0.N = projArr (V c main_v0) (V c main_arg2) :=
  (dat0 (F := Ideal) V c).arrAt_eq_of_cover 5 (projArr (V c main_v0) (V c main_arg2)) (fun t _ => flushed0_5_eq V c t) fun i => by
    have h0 : (i 0 : Nat) < 16384 := (i 0).isLt
    have h1 : (i 1 : Nat) < 64 := (i 1).isLt
    have hN : cfg0.N = 8 := N_0
    have ht : (i 0 : Nat) / 2048 < cfg0.N := by rw [hN]; omega
    refine ⟨⟨(i 0 : Nat) / 2048, ht⟩, flush0_5 _, ?_⟩
    have hi := idx0_5 ⟨(i 0 : Nat) / 2048, ht⟩
    show i ∈ ((View.whole main_v1_1).slice (win0_5.rect ⟨(i 0 : Nat) / 2048, ht⟩)).set
    rw [View.set_slice_whole, Rect.mem_set_unit]
    intro a
    match a with
    | ⟨0, _⟩ =>
      show win0_5.index ⟨(i 0 : Nat) / 2048, ht⟩ 0 * 2048 ≤ (i 0 : Nat)
        ∧ (i 0 : Nat) < win0_5.index ⟨(i 0 : Nat) / 2048, ht⟩ 0 * 2048 + 2048
      rw [hi.1]
      show (i 0 : Nat) / 2048 * 2048 ≤ (i 0 : Nat) ∧ (i 0 : Nat) < (i 0 : Nat) / 2048 * 2048 + 2048
      omega
    | ⟨1, _⟩ =>
      show win0_5.index ⟨(i 0 : Nat) / 2048, ht⟩ 1 * 64 ≤ (i 1 : Nat)
        ∧ (i 1 : Nat) < win0_5.index ⟨(i 0 : Nat) / 2048, ht⟩ 1 * 64 + 64
      rw [hi.2]
      omega

/-- The k array after the region, entry by entry. -/
theorem k_final (c : Dev nD) (r : Fin 16384) (h : Fin 64) :
    @Eq EReal ((dat0 (F := Ideal) V c).arrAt 5 cfg0.N (ix2 r h))
      (∑ k : Fin 1024, @HMul.hMul EReal EReal EReal _ (V c main_v0 (ix2 r k)) (V c main_arg2 (ix2 k h))) :=
  (congrFun (final0_5 V c) (ix2 r h)).trans rfl

/-- What point t writes back to the v array is its block of x · Wv. -/
theorem flushed0_6_eq (c : Dev nD) (t : Fin cfg0.N) :
    (dat0 (F := Ideal) V c).flushed 6 t
      = ((cfg0.win 6).blk t).view.read (Elt Ideal) (projArr (V c main_v0) (V c main_arg3)) := by
  show (cfg0.win 6).cut (grid0.coords t) ((dat0 (F := Ideal) V c).after 6 t) = _
  rw [after0_6, out0_6_eq]
  funext y
  obtain ⟨a, h, rfl⟩ : ∃ (a : Fin 2048) (h : Fin 64), y = ix2 a h := ⟨y 0, y 1, eq_ix2 y⟩
  show k0_pay4 (F := Ideal) (iblk0 V c 0 t) (iblk0 V c 3 t) (ix2 a h) = _
  refine (pay4_apply (iblk0 V c 0 t) (iblk0 V c 3 t) a h).trans ?_
  rw [View.read_apply]
  show _ = projArr (V c main_v0) (V c main_arg3) (((cfg0.win 6).blk t).view.emb (ix2 a h))
  have hi := idx0_6 t
  have e0 : ((((cfg0.win 6).blk t).view.emb (ix2 a h)) 0 : ℕ) = 2048 * t.val + a.val := by
    show win0_6.index t 0 * 2048 + 1 * a.val = _
    rw [hi.1]; omega
  have e1 : ((((cfg0.win 6).blk t).view.emb (ix2 a h)) 1 : ℕ) = h.val := by
    show win0_6.index t 1 * 64 + 1 * h.val = _
    rw [hi.2]; omega
  unfold projArr
  refine Finset.sum_congr rfl fun k _ => ?_
  refine congrArg₂ (· * ·) ?_ ?_
  · exact iblk0_0_apply V c t (ix2 a k) (ix2 ((((cfg0.win 6).blk t).view.emb (ix2 a h)) 0) k) e0 rfl
  · exact (iblk0_3_apply V c t (ix2 k h)).trans
      (congrArg (fun z => (V c main_arg3 : S1024x64.Idx → EReal) (ix2 k z)) (Fin.ext e1.symm))

/-- Every entry of the v array lies in the block of the point its row falls in, so the array ends holding x · Wv. -/
theorem final0_6 (c : Dev nD) :
    (dat0 (F := Ideal) V c).arrAt 6 cfg0.N = projArr (V c main_v0) (V c main_arg3) :=
  (dat0 (F := Ideal) V c).arrAt_eq_of_cover 6 (projArr (V c main_v0) (V c main_arg3)) (fun t _ => flushed0_6_eq V c t) fun i => by
    have h0 : (i 0 : Nat) < 16384 := (i 0).isLt
    have h1 : (i 1 : Nat) < 64 := (i 1).isLt
    have hN : cfg0.N = 8 := N_0
    have ht : (i 0 : Nat) / 2048 < cfg0.N := by rw [hN]; omega
    refine ⟨⟨(i 0 : Nat) / 2048, ht⟩, flush0_6 _, ?_⟩
    have hi := idx0_6 ⟨(i 0 : Nat) / 2048, ht⟩
    show i ∈ ((View.whole main_v1_2).slice (win0_6.rect ⟨(i 0 : Nat) / 2048, ht⟩)).set
    rw [View.set_slice_whole, Rect.mem_set_unit]
    intro a
    match a with
    | ⟨0, _⟩ =>
      show win0_6.index ⟨(i 0 : Nat) / 2048, ht⟩ 0 * 2048 ≤ (i 0 : Nat)
        ∧ (i 0 : Nat) < win0_6.index ⟨(i 0 : Nat) / 2048, ht⟩ 0 * 2048 + 2048
      rw [hi.1]
      show (i 0 : Nat) / 2048 * 2048 ≤ (i 0 : Nat) ∧ (i 0 : Nat) < (i 0 : Nat) / 2048 * 2048 + 2048
      omega
    | ⟨1, _⟩ =>
      show win0_6.index ⟨(i 0 : Nat) / 2048, ht⟩ 1 * 64 ≤ (i 1 : Nat)
        ∧ (i 1 : Nat) < win0_6.index ⟨(i 0 : Nat) / 2048, ht⟩ 1 * 64 + 64
      rw [hi.2]
      omega

/-- The v array after the region, entry by entry. -/
theorem v_final (c : Dev nD) (r : Fin 16384) (h : Fin 64) :
    @Eq EReal ((dat0 (F := Ideal) V c).arrAt 6 cfg0.N (ix2 r h))
      (∑ k : Fin 1024, @HMul.hMul EReal EReal EReal _ (V c main_v0 (ix2 r k)) (V c main_arg3 (ix2 k h))) :=
  (congrFun (final0_6 V c) (ix2 r h)).trans rfl

/-- An input window's array is left as the region found it. -/
theorem in_final (c : Dev nD) (w : Fin cfg0.W) (hw : (cfg0.win w).isOut = false) :
    (dat0 (F := Ideal) V c).arrAt w cfg0.N = V c (Pipeline.arrRef spec0 w) :=
  ((dat0 (F := Ideal) V c).arrAt_in w hw cfg0.N).trans (A_eq0 V c w)

theorem x_final (c : Dev nD) : (dat0 (F := Ideal) V c).arrAt 0 cfg0.N = V c (Pipeline.arrRef spec0 0) := in_final V c 0 rfl
theorem wq_final (c : Dev nD) : (dat0 (F := Ideal) V c).arrAt 1 cfg0.N = V c (Pipeline.arrRef spec0 1) := in_final V c 1 rfl
theorem wk_final (c : Dev nD) : (dat0 (F := Ideal) V c).arrAt 2 cfg0.N = V c (Pipeline.arrRef spec0 2) := in_final V c 2 rfl
theorem wv_final (c : Dev nD) : (dat0 (F := Ideal) V c).arrAt 3 cfg0.N = V c (Pipeline.arrRef spec0 3) := in_final V c 3 rfl

end Arrays

end Cert.KernelIdeal.Att

end
-- ==== Proof.Glue.lean ====
import proofs.«175909_j62251255988572_2_alg».proof.Proof.Run
import proofs.«175909_j62251255988572_2_alg».proof.Proof.Reg0Value
import proofs.«175909_j62251255988572_2_alg».proof.Proof.Spec
import Idealize.ShloMosaic.Lib.Pipeline.Value
import Idealize.ShloMosaic.Lib.ValueIdx

/-!
# From the projection kernel's arrays to the attention kernel's inputs

Between the two kernels the host only re-shapes: the input [4, 4096, 1024] is flattened to 16384 rows before the
projection kernel, and each projection [16384, 64] is split back to [4, 4096, 64] after it. Row 4096·b + t of a
flattened array is entry (b, t) of the split one, so the three arrays the attention kernel is entered with hold
q[b, t, h] = ∑ c, x[b, t, c] * Wq[c, h], and likewise k and v, of the launch contents of the four arguments.
-/

set_option maxRecDepth 16384

noncomputable section

namespace Cert.KernelIdeal.Att

open Cert.KernelIdeal Cert.KernelIdeal.Gen
open Idealize.ShloMosaic Idealize.ShloMosaic.TcCoe Idealize.SL.Sem Idealize.ShloMosaic.ValueIdx
open Idealize.ShloMosaic.Pipeline (Dat)
open Cert.Att
open scoped BigOperators

/-! ## The two re-shapes at an entry -/

section Reshapes
variable {α : Type}

/-- The input flattened to rows: row 4096·b + t, column k is entry (b, t, k). -/
theorem flatten_apply (x : S4x4096x1024.Idx → α) (b : Fin 4) (t : Fin 4096) (k : Fin 1024) (r : Fin 16384)
    (hr : r.val = 4096 * b.val + t.val) :
    shapeCast S16384x1024 x shapeCasts_S4x4096x1024_S16384x1024 (ix2 r k) = x (ix3 b t k) :=
  shapeCast_apply x shapeCasts_S4x4096x1024_S16384x1024 _ _ (by
    rw [Shape.rowMajor_val_three, Shape.rowMajor_val_two]
    show (b.val * 4096 + t.val) * 1024 + k.val = r.val * 1024 + k.val
    rw [hr]; omega)

/-- A projection split back to batches: entry (b, t, h) is row 4096·b + t, column h. -/
theorem split_apply (y : S16384x64.Idx → α) (b : Fin 4) (t : Fin 4096) (h : Fin 64) (r : Fin 16384)
    (hr : r.val = 4096 * b.val + t.val) :
    shapeCast S4x4096x64 y shapeCasts_S16384x64_S4x4096x64 (ix3 b t h) = y (ix2 r h) :=
  shapeCast_apply y shapeCasts_S16384x64_S4x4096x64 _ _ (by
    rw [Shape.rowMajor_val_three, Shape.rowMajor_val_two]
    show r.val * 64 + h.val = (b.val * 4096 + t.val) * 64 + h.val
    rw [hr]; omega)

end Reshapes

/-! ## The arguments' launch contents, and the attention kernel's three input arrays -/

section Glue

variable (m : (ℓ : Loc nD τ sig) → Buf (Elt Ideal) ℓ) (ρ : Dev nD → PrngReg)

/-- The launch contents of the input and of the three weight matrices on core c, as arrays of extended reals. -/
def argX (c : Dev nD) : Spec.SX.Idx → EReal := m ((c : Thread nD τ).loc main_arg0)
def argWq (c : Dev nD) : Spec.SW.Idx → EReal := m ((c : Thread nD τ).loc main_arg1)
def argWk (c : Dev nD) : Spec.SW.Idx → EReal := m ((c : Thread nD τ).loc main_arg2)
def argWv (c : Dev nD) : Spec.SW.Idx → EReal := m ((c : Thread nD τ).loc main_arg3)

/-- Row 4096·b + t of a projection of the flattened input is the projection of entry (b, t) of the input. -/
theorem projArr_flatten (x : S4x4096x1024.Idx → EReal) (w : S1024x64.Idx → EReal) (b : Fin 4) (t : Fin 4096) (h : Fin 64)
    (r : Fin 16384) (hr : r.val = 4096 * b.val + t.val) :
    projArr (fun i => shapeCast S16384x1024 x shapeCasts_S4x4096x1024_S16384x1024 i) w (ix2 r h) = Spec.proj x w b t h := by
  rw [projArr_ix2]
  unfold Spec.proj
  refine Finset.sum_congr rfl fun k _ => ?_
  exact congrArg (· * w (ix2 k h)) (flatten_apply x b t k r hr)

/-- The attention kernel's query array holds the query projection of the launch contents. -/
theorem q_glue (c : Dev nD) (b : Fin 4) (t : Fin 4096) (h : Fin 64) :
    @Eq EReal (V3 (F := Ideal) m ρ c main_v2 (ix3 b t h)) (Spec.proj (argX m c) (argWq m c) b t h) := by
  have hlt : 4096 * b.val + t.val < 16384 := by omega
  refine (congrFun (V3_main_v2 (F := Ideal) m ρ c) (ix3 b t h)).trans ?_
  refine (split_apply _ b t h ⟨4096 * b.val + t.val, hlt⟩ rfl).trans ?_
  refine (congrFun (final0_4 (V1 (F := Ideal) m ρ) c) (ix2 ⟨4096 * b.val + t.val, hlt⟩ h)).trans ?_
  rw [V1_main_v0, V1_main_arg1]
  exact projArr_flatten (argX m c) (argWq m c) b t h ⟨4096 * b.val + t.val, hlt⟩ rfl

/-- The attention kernel's key array holds the key projection of the launch contents. -/
theorem k_glue (c : Dev nD) (b : Fin 4) (t : Fin 4096) (h : Fin 64) :
    @Eq EReal (V3 (F := Ideal) m ρ c main_v3 (ix3 b t h)) (Spec.proj (argX m c) (argWk m c) b t h) := by
  have hlt : 4096 * b.val + t.val < 16384 := by omega
  refine (congrFun (V3_main_v3 (F := Ideal) m ρ c) (ix3 b t h)).trans ?_
  refine (split_apply _ b t h ⟨4096 * b.val + t.val, hlt⟩ rfl).trans ?_
  refine (congrFun (final0_5 (V1 (F := Ideal) m ρ) c) (ix2 ⟨4096 * b.val + t.val, hlt⟩ h)).trans ?_
  rw [V1_main_v0, V1_main_arg2]
  exact projArr_flatten (argX m c) (argWk m c) b t h ⟨4096 * b.val + t.val, hlt⟩ rfl

/-- The attention kernel's value array holds the value projection of the launch contents. -/
theorem v_glue (c : Dev nD) (b : Fin 4) (t : Fin 4096) (h : Fin 64) :
    @Eq EReal (V3 (F := Ideal) m ρ c main_v4 (ix3 b t h)) (Spec.proj (argX m c) (argWv m c) b t h) := by
  have hlt : 4096 * b.val + t.val < 16384 := by omega
  refine (congrFun (V3_main_v4 (F := Ideal) m ρ c) (ix3 b t h)).trans ?_
  refine (split_apply _ b t h ⟨4096 * b.val + t.val, hlt⟩ rfl).trans ?_
  refine (congrFun (final0_6 (V1 (F := Ideal) m ρ) c) (ix2 ⟨4096 * b.val + t.val, hlt⟩ h)).trans ?_
  rw [V1_main_v0, V1_main_arg3]
  exact projArr_flatten (argX m c) (argWv m c) b t h ⟨4096 * b.val + t.val, hlt⟩ rfl

end Glue

end Cert.KernelIdeal.Att

end
-- ==== Proof.PreFinite.lean ====
import proofs.«175909_j62251255988572_2_alg».proof.Defs
import proofs.«175909_j62251255988572_2_alg».proof.Proof.Gen.Pre_finite_inputs
import proofs.«175909_j62251255988572_2_alg».proof.Proof.Spec
import Idealize.ShloMosaic.Lib.ReduceAll
import Idealize.ShloMosaic.Lib.ValueIdx
import Idealize.ShloMosaic.Lib.Pipeline.Value
import Idealize.ShloMosaic.PureOps.Ideal.Laws

/-!
# The precondition says every input entry is a real number

The precondition is the conjunction, over the four argument arrays, of "every entry `a` has `|a| < +∞`",
each conjunct an `and`-reduction over the whole array. An `and`-reduction that is `1` had `1` at every entry;
`|a| = max a (-a)` is `⊤` at both infinities, so `|a| < ⊤` leaves exactly the real numbers.
-/

noncomputable section

namespace Cert.Att.Fin

open Idealize.ShloMosaic Idealize.ShloMosaic.ValueIdx Idealize.ShloMosaic.TcCoe Idealize.SL.Sem Cert.Pre_finite_inputs

instance subsingleton_scalar_idx : Subsingleton Cert.Pre_finite_inputs.S_.Idx := ⟨fun a b => funext fun d => d.elim0⟩

/-- `|x| < +∞` holds exactly of the real numbers. -/
theorem real_of_abs_lt (x : EReal) (h : Ideal.cmp .olt (max x (-x)) ⊤ = 1#1) : x ≠ ⊤ ∧ x ≠ ⊥ := by
  induction x using EReal.rec with
  | bot => simp [Ideal.cmp] at h
  | coe r => exact ⟨EReal.coe_ne_top r, EReal.coe_ne_bot r⟩
  | top => simp [Ideal.cmp] at h

/-- One entry of the array "`|a| < +∞`" being `1` says that entry of `a` is real. -/
theorem elem_real {S : Shape} (a : FVec Ideal S .f32)
    (hb : S_.BroadcastsInDim S (![] : Fin 0 → Fin S.rank)) (i : S.Idx)
    (h : cmpf .olt (Host.absf a) (broadcastInDim S ![] hb (constant (F := Ideal) S_ .f32 0x7F800000#32)) i = 1#1) :
    a i ≠ ⊤ ∧ a i ≠ ⊥ := by
  have hb' : broadcastInDim S ![] hb (constant (F := Ideal) S_ .f32 0x7F800000#32) i = (⊤ : EReal) := by
    rw [broadcastInDim_apply _ hb _ i (fun a => a.elim0) (fun a => a.elim0)]
    show Ideal.ofBits .f32 0x7F800000#32 = ⊤
    simp [Ideal.ofBits, Ideal.ieee]
  refine real_of_abs_lt (a i) ?_
  rw [← hb']
  exact h

/-- The printed precondition, all ones, says that every entry of the four argument arrays is real. -/
theorem fn_real [Cert.Pre_finite_inputs.Facts] (a0 : FVec Ideal S4x4096x1024 .f32) (a1 a2 a3 : FVec Ideal S1024x64 .f32)
    (h : Cert.Pre_finite_inputs.fn (F := Ideal) a0 a1 a2 a3 = fun _ => 1#1) :
    (∀ i, a0 i ≠ ⊤ ∧ a0 i ≠ ⊥) ∧ (∀ i, a1 i ≠ ⊤ ∧ a1 i ≠ ⊥) ∧ (∀ i, a2 i ≠ ⊤ ∧ a2 i ≠ ⊥)
      ∧ (∀ i, a3 i ≠ ⊤ ∧ a3 i ≠ ⊥) := by
  have h0 := congrFun h ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨fun i => elem_real a0 _ i (Host.reduce_andi_all _ _ _ _ _ h0' i),
    fun i => elem_real a1 _ i (Host.reduce_andi_all _ _ _ _ _ h1 i),
    fun i => elem_real a2 _ i (Host.reduce_andi_all _ _ _ _ _ h2 i),
    fun i => elem_real a3 _ i (Host.reduce_andi_all _ _ _ _ _ h3 i)⟩

/-- Under the precondition every entry of the kernel program's four argument arrays, on every device, is real. -/
theorem pre_real [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Spec.SX.Idx,
        @Ne EReal (m ((c.tc : Thread Cert.KernelIdeal.nD Cert.KernelIdeal.τ).loc Cert.KernelIdeal.main_arg0) i) ⊤
        ∧ @Ne EReal (m ((c.tc : Thread Cert.KernelIdeal.nD Cert.KernelIdeal.τ).loc Cert.KernelIdeal.main_arg0) i) ⊥)
      ∧ (∀ i : Spec.SW.Idx,
        @Ne EReal (m ((c.tc : Thread Cert.KernelIdeal.nD Cert.KernelIdeal.τ).loc Cert.KernelIdeal.main_arg1) i) ⊤
        ∧ @Ne EReal (m ((c.tc : Thread Cert.KernelIdeal.nD Cert.KernelIdeal.τ).loc Cert.KernelIdeal.main_arg1) i) ⊥)
      ∧ (∀ i : Spec.SW.Idx,
        @Ne EReal (m ((c.tc : Thread Cert.KernelIdeal.nD Cert.KernelIdeal.τ).loc Cert.KernelIdeal.main_arg2) i) ⊤
        ∧ @Ne EReal (m ((c.tc : Thread Cert.KernelIdeal.nD Cert.KernelIdeal.τ).loc Cert.KernelIdeal.main_arg2) i) ⊥)
      ∧ (∀ i : Spec.SW.Idx,
        @Ne EReal (m ((c.tc : Thread Cert.KernelIdeal.nD Cert.KernelIdeal.τ).loc Cert.KernelIdeal.main_arg3) i) ⊤
        ∧ @Ne EReal (m ((c.tc : Thread Cert.KernelIdeal.nD Cert.KernelIdeal.τ).loc Cert.KernelIdeal.main_arg3) i) ⊥) :=
  fn_real _ _ _ _ (h c)

/-- The same, of the reference program's argument arrays. -/
theorem pre_real_ref [hPre_finite_inputs : Cert.Pre_finite_inputs.Facts]
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    (∀ i : Spec.SX.Idx,
        @Ne EReal (m ((c.tc : Thread Cert.ReferenceIdeal.nD Cert.ReferenceIdeal.τ).loc Cert.ReferenceIdeal.main_arg0) i) ⊤
        ∧ @Ne EReal (m ((c.tc : Thread Cert.ReferenceIdeal.nD Cert.ReferenceIdeal.τ).loc Cert.ReferenceIdeal.main_arg0) i) ⊥)
      ∧ (∀ i : Spec.SW.Idx,
        @Ne EReal (m ((c.tc : Thread Cert.ReferenceIdeal.nD Cert.ReferenceIdeal.τ).loc Cert.ReferenceIdeal.main_arg1) i) ⊤
        ∧ @Ne EReal (m ((c.tc : Thread Cert.ReferenceIdeal.nD Cert.ReferenceIdeal.τ).loc Cert.ReferenceIdeal.main_arg1) i) ⊥)
      ∧ (∀ i : Spec.SW.Idx,
        @Ne EReal (m ((c.tc : Thread Cert.ReferenceIdeal.nD Cert.ReferenceIdeal.τ).loc Cert.ReferenceIdeal.main_arg2) i) ⊤
        ∧ @Ne EReal (m ((c.tc : Thread Cert.ReferenceIdeal.nD Cert.ReferenceIdeal.τ).loc Cert.ReferenceIdeal.main_arg2) i) ⊥)
      ∧ (∀ i : Spec.SW.Idx,
        @Ne EReal (m ((c.tc : Thread Cert.ReferenceIdeal.nD Cert.ReferenceIdeal.τ).loc Cert.ReferenceIdeal.main_arg3) i) ⊤
        ∧ @Ne EReal (m ((c.tc : Thread Cert.ReferenceIdeal.nD Cert.ReferenceIdeal.τ).loc Cert.ReferenceIdeal.main_arg3) i) ⊥) :=
  fn_real _ _ _ _ (h c)

end Cert.Att.Fin

end
-- ==== Proof.RefSide.lean ====
import proofs.«175909_j62251255988572_2_alg».proof.Proof.Gen.ReferenceIdeal.Read
import proofs.«175909_j62251255988572_2_alg».proof.Proof.Spec
import Idealize.ShloMosaic.Lib.Affine

/-! The reference side: what its run leaves in the result array, read index by index.

Each stage of the reference is read at coordinates `(b, t, u)` or `(b, t, h)` and identified with the
corresponding function of the specification: the three projections, the scaled score, the causal mask
(`u ≤ t`, compared as signed 32-bit words, which for positions below 4096 is the comparison of the
numbers), the masked score, the row maximum (a fold of `max` from `-∞`; taking the maximum with `-∞`
once more changes nothing), the exponentials, their sum and the quotient. The scale `1 / sqrt 1024` is
the real `1/32`, the value of the float word `0x3D000000`. No finiteness is used anywhere. -/

noncomputable section

namespace Cert.Att.Ref

open Cert.ReferenceIdeal Cert.ReferenceIdeal.Gen Cert.ReferenceIdeal.Read
open Idealize.ShloMosaic Idealize.ShloMosaic.ValueIdx
open scoped BigOperators

abbrev X := (⟨S4x4096x1024, .f32⟩ : BufTy).Contents (Elt Ideal)
abbrev W := (⟨S1024x64, .f32⟩ : BufTy).Contents (Elt Ideal)

/-! ## The float words -/

theorem bits_one : Ideal.ofBits .f32 0x3F800000#32 = ((1 : ℝ) : EReal) := by
  simp [Ideal.ofBits, Ideal.ieee, -EReal.coe_mul]; norm_num

theorem bits_1024 : Ideal.ofBits .f32 0x44800000#32 = ((1024 : ℝ) : EReal) := by
  simp [Ideal.ofBits, Ideal.ieee, -EReal.coe_mul]; norm_num

theorem bits_inv32 : Ideal.ofBits .f32 0x3D000000#32 = ((1 / 32 : ℝ) : EReal) := by
  simp [Ideal.ofBits, Ideal.ieee, -EReal.coe_mul]; norm_num

theorem bits_neg_inf : Ideal.ofBits .f32 0xFF800000#32 = (⊥ : EReal) := by
  simp [Ideal.ofBits, Ideal.ieee]

theorem sqrt_1024 : Real.sqrt 1024 = 32 := by
  rw [show (1024 : ℝ) = 32 ^ 2 by norm_num]
  exact Real.sqrt_sq (by norm_num)

/-- The scale the reference computes, `1 / sqrt 1024`, is the float word of `2⁻⁵`. -/
theorem scale_eq (j : S_.Idx) : val_main_v4 (F := Ideal) j = Ideal.ofBits .f32 0x3D000000#32 := by
  rw [val_main_v4_apply, val_main_v3_apply, val_main_cst_apply, val_main_cst_0_apply]
  simp only [Ideal.ofBits_def, Ideal.hostUnary_sqrt_def, Ideal.hostDivf_def]
  rw [bits_one, bits_1024, bits_inv32, Ideal.sqrt_coe, if_neg (by norm_num), sqrt_1024,
    Ideal.div_coe (by norm_num), ← EReal.coe_mul, one_mul]

/-! ## The causal mask -/

theorem toInt_small (n : Nat) (h : n < 4096) : (BitVec.ofNat 32 n).toInt = (n : Int) := by
  rw [BitVec.toInt_eq_toNat_cond, BitVec.toNat_ofNat]
  have : n % 2 ^ 32 = n := Nat.mod_eq_of_lt (by omega)
  rw [this, if_pos (by omega)]

theorem mask_eq (t u : Fin 4096) :
    val_main_v9 (F := Ideal) (ix2 t u) = if u.val ≤ t.val then 1#1 else 0#1 := by
  rw [val_main_v9_apply, val_main_call0_v4_apply, val_main_call0_v2_apply, val_main_call0_v0_apply,
    val_main_call0_v1_apply, val_main_call0_c_apply, val_main_call0_v3_apply, val_main_v8_apply,
    val_main_c_apply, val_main_call0_v5_apply, val_main_call0_c_0_apply]
  show Scalar.select (IntOp.cmpi .sge (IntOp.addi (BitVec.ofNat 32 t.val) 0#32) (BitVec.ofNat 32 u.val)) 1#1 0#1 = _
  have h0 : IntOp.addi (BitVec.ofNat 32 t.val) 0#32 = BitVec.ofNat 32 t.val := by
    show BitVec.ofNat 32 t.val + 0#32 = _
    exact BitVec.add_zero _
  rw [h0]
  by_cases hle : u.val ≤ t.val
  · have hc : IntOp.cmpi .sge (BitVec.ofNat 32 t.val) (BitVec.ofNat 32 u.val) = 1#1 :=
      IntOp.cmpi_sge.2 (by rw [toInt_small _ t.isLt, toInt_small _ u.isLt]; exact_mod_cast hle)
    rw [hc, if_pos hle, select_one]
  · have hc : ¬ IntOp.cmpi .sge (BitVec.ofNat 32 t.val) (BitVec.ofNat 32 u.val) = 1#1 := fun h => by
      have := IntOp.cmpi_sge.1 h
      rw [toInt_small _ t.isLt, toInt_small _ u.isLt] at this
      exact hle (by exact_mod_cast this)
    rw [eq_zero_of_ne_one hc, if_neg hle, select_zero]

/-! ## Index bookkeeping: the reference's composed index functions at coordinates -/

theorem lidx_v0 (b : Fin 4) (t : Fin 4096) (h : Fin 64) (c : Fin 1024) :
    lidx_main_v0 (ix3 b t h) c = ix3 b t c := by
  funext a; match a with | ⟨0, _⟩ => rfl | ⟨1, _⟩ => rfl | ⟨2, _⟩ => rfl
theorem ridx_v0 (b : Fin 4) (t : Fin 4096) (h : Fin 64) (c : Fin 1024) :
    ridx_main_v0 (ix3 b t h) c = ix2 c h := by
  funext a; match a with | ⟨0, _⟩ => rfl | ⟨1, _⟩ => rfl
theorem lidx_v1 (b : Fin 4) (t : Fin 4096) (h : Fin 64) (c : Fin 1024) :
    lidx_main_v1 (ix3 b t h) c = ix3 b t c := by
  funext a; match a with | ⟨0, _⟩ => rfl | ⟨1, _⟩ => rfl | ⟨2, _⟩ => rfl
theorem ridx_v1 (b : Fin 4) (t : Fin 4096) (h : Fin 64) (c : Fin 1024) :
    ridx_main_v1 (ix3 b t h) c = ix2 c h := by
  funext a; match a with | ⟨0, _⟩ => rfl | ⟨1, _⟩ => rfl
theorem lidx_v2 (b : Fin 4) (t : Fin 4096) (h : Fin 64) (c : Fin 1024) :
    lidx_main_v2 (ix3 b t h) c = ix3 b t c := by
  funext a; match a with | ⟨0, _⟩ => rfl | ⟨1, _⟩ => rfl | ⟨2, _⟩ => rfl
theorem ridx_v2 (b : Fin 4) (t : Fin 4096) (h : Fin 64) (c : Fin 1024) :
    ridx_main_v2 (ix3 b t h) c = ix2 c h := by
  funext a; match a with | ⟨0, _⟩ => rfl | ⟨1, _⟩ => rfl
theorem lidx_v5 (b : Fin 4) (t u : Fin 4096) (h : Fin 64) :
    lidx_main_v5 (ix3 b t u) h = ix3 b t h := by
  funext a; match a with | ⟨0, _⟩ => rfl | ⟨1, _⟩ => rfl | ⟨2, _⟩ => rfl
theorem ridx_v5 (b : Fin 4) (t u : Fin 4096) (h : Fin 64) :
    ridx_main_v5 (ix3 b t u) h = ix3 b u h := by
  funext a; match a with | ⟨0, _⟩ => rfl | ⟨1, _⟩ => rfl | ⟨2, _⟩ => rfl
theorem idx_c1v1 (b : Fin 4) (t u : Fin 4096) : idx_main_call1_v1 (ix3 b t u) = ix2 t u := by
  funext a; match a with | ⟨0, _⟩ => rfl | ⟨1, _⟩ => rfl
theorem idx_v14v15 (b : Fin 4) (t u : Fin 4096) : idx_main_v14 (idx_main_v15 (ix3 b t u)) = ix2 b t := by
  funext a; match a with | ⟨0, _⟩ => rfl | ⟨1, _⟩ => rfl
theorem idx_v19v20 (b : Fin 4) (t u : Fin 4096) : idx_main_v19 (idx_main_v20 (ix3 b t u)) = ix2 b t := by
  funext a; match a with | ⟨0, _⟩ => rfl | ⟨1, _⟩ => rfl
theorem idx_v18 (b : Fin 4) (t u : Fin 4096) : idx_main_v18 (ix2 b t) u = ix3 b t u := by
  funext a; match a with | ⟨0, _⟩ => rfl | ⟨1, _⟩ => rfl | ⟨2, _⟩ => rfl
theorem lidx_v22 (b : Fin 4) (t : Fin 4096) (h : Fin 64) (u : Fin 4096) :
    lidx_main_v22 (ix3 b t h) u = ix3 b t u := by
  funext a; match a with | ⟨0, _⟩ => rfl | ⟨1, _⟩ => rfl | ⟨2, _⟩ => rfl
theorem ridx_v22 (b : Fin 4) (t : Fin 4096) (h : Fin 64) (u : Fin 4096) :
    ridx_main_v22 (ix3 b t h) u = ix3 b u h := by
  funext a; match a with | ⟨0, _⟩ => rfl | ⟨1, _⟩ => rfl | ⟨2, _⟩ => rfl

/-! ## The projections, the score and the masked score -/

theorem v0_eq (x0 : X) (x1 : W) (b : Fin 4) (t : Fin 4096) (h : Fin 64) :
    val_main_v0 (F := Ideal) x0 x1 (ix3 b t h) = Spec.proj x0 x1 b t h := by
  rw [val_main_v0_apply]; unfold Spec.proj
  refine Finset.sum_congr rfl fun c _ => ?_
  rw [lidx_v0, ridx_v0]
theorem v1_eq (x0 : X) (x2 : W) (b : Fin 4) (t : Fin 4096) (h : Fin 64) :
    val_main_v1 (F := Ideal) x0 x2 (ix3 b t h) = Spec.proj x0 x2 b t h := by
  rw [val_main_v1_apply]; unfold Spec.proj
  refine Finset.sum_congr rfl fun c _ => ?_
  rw [lidx_v1, ridx_v1]
theorem v2_eq (x0 : X) (x3 : W) (b : Fin 4) (t : Fin 4096) (h : Fin 64) :
    val_main_v2 (F := Ideal) x0 x3 (ix3 b t h) = Spec.proj x0 x3 b t h := by
  rw [val_main_v2_apply]; unfold Spec.proj
  refine Finset.sum_congr rfl fun c _ => ?_
  rw [lidx_v2, ridx_v2]

theorem v7_eq (x0 : X) (x1 x2 : W) (b : Fin 4) (t u : Fin 4096) :
    val_main_v7 (F := Ideal) x0 x1 x2 (ix3 b t u) = Spec.score x0 x1 x2 b t u := by
  rw [val_main_v7_apply, val_main_v5_apply, val_main_v6_apply, scale_eq]
  unfold Spec.score
  rw [Ideal.mulf_def]
  refine congrArg (· * _) (Finset.sum_congr rfl fun h _ => ?_)
  rw [lidx_v5, ridx_v5, v0_eq, v1_eq]

theorem v10_eq (x0 : X) (x1 x2 : W) (b : Fin 4) (t u : Fin 4096) :
    val_main_v10 (F := Ideal) x0 x1 x2 (ix3 b t u) = Spec.masked x0 x1 x2 b t u := by
  rw [val_main_v10_apply, val_main_call1_v1_apply, idx_c1v1, mask_eq, v7_eq, val_main_call1_v2_apply,
    val_main_call1_v0_apply, val_main_cst_1_apply, Ideal.ofBits_def, bits_neg_inf]
  unfold Spec.masked
  by_cases hle : u.val ≤ t.val
  · rw [if_pos hle, if_pos hle, select_one]
  · rw [if_neg hle, if_neg hle, select_zero]

/-! ## The row maximum -/

/-- The reduced index `(b, t)` with key position `k` put back on the last axis is `(b, t, k)`. -/
theorem lift_ix3 (h : S4x4096x4096.Reduces [2] S4x4096) (b : Fin 4) (t : Fin 4096)
    (k : Fin (S4x4096x4096.size 2)) : h.lift (ix2 b t) k = ix3 b t (⟨k.val, k.isLt⟩ : Fin 4096) := by
  funext c; apply Fin.ext
  fin_cases c <;> rfl

/-- The reduce with a maximum body from `-∞` over the key axis is the fold of `max` from `⊥`. -/
theorem v11_eq (x0 : X) (x1 x2 : W) (b : Fin 4) (t : Fin 4096) :
    val_main_v11 (F := Ideal) x0 x1 x2 (ix2 b t)
      = Finset.univ.fold max ⊥ (fun u : Fin 4096 => Spec.masked x0 x1 x2 b t u) := by
  have hm : (fun u : Fin 4096 => val_main_v10 (F := Ideal) x0 x1 x2 (ix3 b t u))
      = fun u : Fin 4096 => Spec.masked x0 x1 x2 b t u := funext fun u => v10_eq x0 x1 x2 b t u
  rw [← hm]
  unfold val_main_v11
  generalize val_main_v10 (F := Ideal) x0 x1 x2 = y
  have hr : S4x4096x4096.Reduces [2] S4x4096 := by decide
  refine (Host.reduce_eq_fold_single (FloatOps.maximumf (F := Ideal) (φ := .f32)) y _ _ hr _ (ix2 b t)).trans ?_
  have hi : val_main_cst_2 (F := Ideal) (Shape.Idx.first h_S_) = (⊥ : EReal) := by
    rw [val_main_cst_2_apply, Ideal.ofBits_def, bits_neg_inf]
  rw [hi]
  have hf : (y ∘ hr.lift (ix2 b t)) = fun u : Fin 4096 => y (ix3 b t u) :=
    funext fun k => congrArg y (lift_ix3 hr b t k)
  rw [hf]
  rfl

theorem v13_eq (x0 : X) (x1 x2 : W) (b : Fin 4) (t : Fin 4096) :
    val_main_v13 (F := Ideal) x0 x1 x2 (ix2 b t) = Spec.rowMax x0 x1 x2 b t := by
  rw [val_main_v13_apply, v11_eq, val_main_v12_apply, val_main_cst_3_apply, Ideal.ofBits_def, bits_neg_inf,
    Ideal.maximumf_def]
  unfold Spec.rowMax
  exact max_eq_right bot_le

/-! ## The exponentials, the normaliser and the weights -/

theorem v17_eq (x0 : X) (x1 x2 : W) (b : Fin 4) (t u : Fin 4096) :
    val_main_v17 (F := Ideal) x0 x1 x2 (ix3 b t u)
      = Ideal.exp (Spec.masked x0 x1 x2 b t u - Spec.rowMax x0 x1 x2 b t) := by
  rw [val_main_v17_apply, val_main_v16_apply, v10_eq, val_main_v15_apply, val_main_v14_apply, idx_v14v15, v13_eq,
    Ideal.hostUnary_exp_def, Ideal.subf_def]

theorem v18_eq (x0 : X) (x1 x2 : W) (b : Fin 4) (t : Fin 4096) :
    val_main_v18 (F := Ideal) x0 x1 x2 (ix2 b t) = Spec.rowSum x0 x1 x2 b t := by
  rw [val_main_v18_apply, val_main_cst_4_apply, Ideal.ofBits_def, Ideal.ofBits_zero_f32, zero_add]
  unfold Spec.rowSum
  refine Finset.sum_congr rfl fun u _ => ?_
  rw [idx_v18, v17_eq]

theorem v21_eq (x0 : X) (x1 x2 : W) (b : Fin 4) (t u : Fin 4096) :
    val_main_v21 (F := Ideal) x0 x1 x2 (ix3 b t u)
      = Ideal.div (Ideal.exp (Spec.masked x0 x1 x2 b t u - Spec.rowMax x0 x1 x2 b t)) (Spec.rowSum x0 x1 x2 b t) := by
  rw [val_main_v21_apply, v17_eq, val_main_v20_apply, val_main_v19_apply, idx_v19v20, v18_eq, Ideal.hostDivf_def]

/-! ## The reference is the specification -/

theorem ref_eq (x0 : (⟨Cert.ReferenceIdeal.S4x4096x1024, .f32⟩ : BufTy).Contents (Elt Ideal))
    (x1 x2 x3 : (⟨Cert.ReferenceIdeal.S1024x64, .f32⟩ : BufTy).Contents (Elt Ideal)) :
    Cert.ReferenceIdeal.Read.val_main_v22 (F := Ideal) x0 x1 x2 x3 = Cert.Att.Spec.attn x0 x1 x2 x3 := by
  funext i
  obtain ⟨b, t, h, rfl⟩ : ∃ (b : Fin 4) (t : Fin 4096) (h : Fin 64), i = ix3 b t h := ⟨i 0, i 1, i 2, eq_ix3 i⟩
  rw [Spec.attn_ix3, val_main_v22_apply]
  unfold Spec.attnAt
  refine Finset.sum_congr rfl fun u _ => ?_
  rw [lidx_v22, ridx_v22, v21_eq, v2_eq]

end Cert.Att.Ref

end
-- ==== Proof.lean ====
/-
  Causal single-head attention: a fused projection kernel followed by a flash-attention kernel over the causally
  valid (query block, key tile) pairs, against the plain reference (three projections, scaled scores, a lower-
  triangular mask with -∞, softmax, weighted sum of the values).

  At the ideal values both programs compute, for batch `b`, query position `t`, head coordinate `h`,
      ∑ u, (exp (s u − M) / L) · v[b,u,h],   s u = (∑ h, q[b,t,h]·k[b,u,h]) · 2⁻⁵ for u ≤ t and −∞ beyond,
  with `M` the row maximum and `L = ∑ u, exp (s u − M)` (`Cert.Att.Spec.attn`).

  The reference: its run read back operation by operation is that function; its scale `1 / √1024` is `2⁻⁵`.

  The kernel: the first region leaves `q, k, v = x·Wq, x·Wk, x·Wv`. The second keeps, per query row, the streaming
  softmax state (running maximum, normaliser, weighted sum) in three scratch buffers; the four prefetched tables name,
  at each grid point, the query block, the key tile, whether the tile is the block's last and whether it crosses the
  diagonal. By induction over the grid points the state after a point is the streaming softmax of the row after the
  tiles visited so far; at a block's last tile every later column is masked, so the stored quotient is the softmax-
  weighted sum over all 4096 columns. Streaming equals plain softmax because the inputs are finite: every score is
  real, the first tile always holds the unmasked column 0, and the rescaling `exp (M − M') · exp (x − M) = exp (x − M')`
  is then an identity of reals. The kernel's finite stand-in for −∞ is read as −∞ (the named constant), under which
  a masked column contributes `exp (−∞) = 0` exactly as in the reference.

  The frames: each program is its host stretches and its two regions in sequence; each region's body is run once per
  control case on symbolic blocks, the invariant carrying the scratch from point to point beside the tables.
-/
import proofs.«175909_j62251255988572_2_alg».proof.Proof.Run
import proofs.«175909_j62251255988572_2_alg».proof.Proof.RunK
import proofs.«175909_j62251255988572_2_alg».proof.Proof.Reg1Value
import proofs.«175909_j62251255988572_2_alg».proof.Proof.Glue
import proofs.«175909_j62251255988572_2_alg».proof.Proof.PreFinite
import proofs.«175909_j62251255988572_2_alg».proof.Proof.RefSide
import proofs.«175909_j62251255988572_2_alg».proof.Defs
import proofs.«175909_j62251255988572_2_alg».proof.Proof.Gen.Kernel
import proofs.«175909_j62251255988572_2_alg».proof.Proof.Gen.KernelIdeal
import proofs.«175909_j62251255988572_2_alg».proof.Proof.Gen.ReferenceIdeal
import proofs.«175909_j62251255988572_2_alg».proof.Proof.Gen.Pre_finite_inputs
import Idealize.ShloMosaic.PureOps.IdealRules

noncomputable section

namespace Cert.Proof

open Idealize.ShloMosaic Idealize.ShloMosaic.TcCoe Idealize.SL.Sem

/-- The word-level kernel runs to the end and leaves its arguments as launched. -/
theorem frame_k : Cert.frame_Kernel := fun m ρ _ => Cert.Kernel.Att.frame m ρ

/-- So does the idealized kernel. -/
theorem frame_ki : Cert.frame_KernelIdeal := fun m ρ _ => Cert.KernelIdeal.Att.frame m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the mask's finite stand-in is read as −∞. -/
theorem preserves : Cert.preserves_Kernel_KernelIdeal :=
  IdealRules.named_const.statement Cert.KernelIdeal.κ "neg_big" .f32 0xFF333332#32 ⊥ rfl

/-- Both idealized programs end with the attention output of the argument arrays. -/
theorem algebraic : Cert.algebraic_KernelIdeal_ReferenceIdeal := by
  intro m ρ m' ρ' hpre hagree
  refine ⟨fun c => Cert.Att.Spec.attn (Cert.KernelIdeal.Att.argX m c) (Cert.KernelIdeal.Att.argWq m c) (Cert.KernelIdeal.Att.argWk m c) (Cert.KernelIdeal.Att.argWv m c), ?_, ?_⟩
  · refine (θ_run Cert.KernelIdeal.defs _ _).mono (fun r h c => ⟨(h c).1.trans ?_, (h c).2⟩) (Cert.KernelIdeal.Att.run_result (F := Ideal) m ρ)
    have hr := Cert.Att.Fin.pre_real m hpre c
    exact Cert.KernelIdeal.Att.arr3_value (V := Cert.KernelIdeal.Att.V3 m ρ)
      ⟨Cert.KernelIdeal.Att.q_glue m ρ c, Cert.KernelIdeal.Att.k_glue m ρ c, Cert.KernelIdeal.Att.v_glue m ρ c, hr.1, hr.2.1, hr.2.2.1, hr.2.2.2⟩
  · refine (θ_run Cert.ReferenceIdeal.defs _ _).mono (fun r h c => ⟨(h c).1.trans ?_, (h c).2⟩) (Cert.ReferenceIdeal.Value.run (F := Ideal) m' ρ')
    rw [Cert.ReferenceIdeal.Read.val_main_v22_eq, Cert.Att.Ref.ref_eq, (hagree c).1, (hagree c).2.1, (hagree c).2.2.1, (hagree c).2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
